-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_v153) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x32 : Shape := ⟨3, ![8, 2048, 32]⟩
abbrev S8x2048x2048 : Shape := ⟨3, ![8, 2048, 2048]⟩
abbrev S3x32x64 : Shape := ⟨3, ![3, 32, 64]⟩
abbrev S64 : Shape := ⟨1, ![64]⟩
abbrev S3x64x64 : Shape := ⟨3, ![3, 64, 64]⟩
abbrev S192x64 : Shape := ⟨2, ![192, 64]⟩
abbrev S_ : Shape := ⟨0, ![]⟩

class Facts : Prop where
  bcast_S_S8x2048x32 : S_.BroadcastsInDim S8x2048x32 (![] : Fin 0 → Fin S8x2048x32.rank)
  reducesTo_S8x2048x32_S_d0_1_2 : S8x2048x32.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S3x32x64 : S_.BroadcastsInDim S3x32x64 (![] : Fin 0 → Fin S3x32x64.rank)
  reducesTo_S3x32x64_S_d0_1_2 : S3x32x64.ReducesTo [0, 1, 2] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S192x64 : S_.BroadcastsInDim S192x64 (![] : Fin 0 → Fin S192x64.rank)
  reducesTo_S192x64_S_d0_1 : S192x64.ReducesTo [0, 1] S_

variable [Facts]

def fn_part3 {F : FTy → Type} [FloatOps F] (main_arg2 : FVec F S8x2048x2048 .f32) (main_v48 : IVec S_ 1) (main_v50 : IVec S8x2048x2048 1) : IVec S_ 1 :=
  let main_cst_19 : FVec F S_ .f32 := constant S_ .f32 0x3F800000#32
  let main_v51 : FVec F S8x2048x2048 .f32 := broadcastInDim S8x2048x2048 ![] bcast_S_S8x2048x2048 main_cst_19
  let main_v52 : IVec S8x2048x2048 1 := cmpf .oeq main_arg2 main_v51
  let main_v53 : IVec S8x2048x2048 1 := ori main_v50 main_v52
  let main_c_20 : IVec S_ 1 := constantI S_ 1 1#1
  let main_v54 : IVec S_ 1 := (fun x v => Host.reduce IntOp.andi x v reducesTo_S8x2048x2048_S_d0_1_2 h_S_) main_v53 main_c_20
  let main_v55 : IVec S_ 1 := andi main_v48 main_v54
  main_v55

def fn_part2 {F : FTy → Type} [FloatOps F] (main_arg2 : FVec F S8x2048x2048 .f32) (main_arg8 : FVec F S64 .f32) (main_arg9 : FVec F S192x64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S192x64 .f32 := Host.absf main_arg9
  let main_cst_14 : FVec F S_ .f32 := constant S_ .f32 0x7F800000#32
  let main_v40 : FVec F S192x64 .f32 := broadcastInDim S192x64 ![] bcast_S_S192x64 main_cst_14
  let main_v41 : IVec S192x64 1 := cmpf .olt main_v39 main_v40
  let main_c_15 : IVec S_ 1 := constantI S_ 1 1#1
  let main_v42 : IVec S_ 1 := (fun x v => Host.reduce IntOp.andi x v reducesTo_S192x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_cst_18 : FVec F S_ .f32 := constant S_ .f32 0x00000000#32
  let main_v49 : FVec F S8x2048x2048 .f32 := broadcastInDim S8x2048x2048 ![] bcast_S_S8x2048x2048 main_cst_18
  let main_v50 : IVec S8x2048x2048 1 := cmpf .oeq main_arg2 main_v49
  fn_part3 (F := F) main_arg2 main_v48 main_v50

def fn_part1 {F : FTy → Type} [FloatOps F] (main_arg2 : FVec F S8x2048x2048 .f32) (main_arg5 : FVec F S3x64x64 .f32) (main_arg6 : FVec F S64 .f32) (main_arg7 : FVec F S3x64x64 .f32) (main_arg8 : FVec F S64 .f32) (main_arg9 : FVec F S192x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S3x64x64 .f32 := Host.absf main_arg5
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S3x64x64 .f32 := Host.absf main_arg7
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg2 main_arg8 main_arg9 main_arg10 main_v33

def fn {F : FTy → Type} [FloatOps F] (main_arg0 : FVec F S8x2048x32 .f32) (main_arg1 : IVec S8x2048x2048 32) (main_arg2 : FVec F S8x2048x2048 .f32) (main_arg3 : FVec F S3x32x64 .f32) (main_arg4 : FVec F S64 .f32) (main_arg5 : FVec F S3x64x64 .f32) (main_arg6 : FVec F S64 .f32) (main_arg7 : FVec F S3x64x64 .f32) (main_arg8 : FVec F S64 .f32) (main_arg9 : FVec F S192x64 .f32) (main_arg10 : FVec F S64 .f32) : IVec S_ 1 :=
  let main_v0 : FVec F S8x2048x32 .f32 := Host.absf main_arg0
  let main_cst : FVec F S_ .f32 := constant S_ .f32 0x7F800000#32
  let main_v1 : FVec F S8x2048x32 .f32 := broadcastInDim S8x2048x32 ![] bcast_S_S8x2048x32 main_cst
  let main_v2 : IVec S8x2048x32 1 := cmpf .olt main_v0 main_v1
  let main_c : IVec S_ 1 := constantI S_ 1 1#1
  let main_v3 : IVec S_ 1 := (fun x v => Host.reduce IntOp.andi x v reducesTo_S8x2048x32_S_d0_1_2 h_S_) main_v2 main_c
  let main_v4 : FVec F S8x2048x2048 .f32 := Host.absf main_arg2
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S3x32x64 .f32 := Host.absf main_arg3
  let main_cst_2 : FVec F S_ .f32 := constant S_ .f32 0x7F800000#32
  let main_v10 : FVec F S3x32x64 .f32 := broadcastInDim S3x32x64 ![] bcast_S_S3x32x64 main_cst_2
  let main_v11 : IVec S3x32x64 1 := cmpf .olt main_v9 main_v10
  let main_c_3 : IVec S_ 1 := constantI S_ 1 1#1
  let main_v12 : IVec S_ 1 := (fun x v => Host.reduce IntOp.andi x v reducesTo_S3x32x64_S_d0_1_2 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg5 main_arg6 main_arg7 main_arg8 main_arg9 main_arg10 main_v13 main_v16
-- ==== Kernel.lean ====
abbrev S8x2048x32 : Shape := ⟨3, ![8, 2048, 32]⟩
abbrev S8x2048x2048 : Shape := ⟨3, ![8, 2048, 2048]⟩
abbrev S3x32x64 : Shape := ⟨3, ![3, 32, 64]⟩
abbrev S64 : Shape := ⟨1, ![64]⟩
abbrev S3x64x64 : Shape := ⟨3, ![3, 64, 64]⟩
abbrev S192x64 : Shape := ⟨2, ![192, 64]⟩
abbrev S8x2048x64 : Shape := ⟨3, ![8, 2048, 64]⟩
abbrev S1x2048x32 : Shape := ⟨3, ![1, 2048, 32]⟩
abbrev S1x512x2048 : Shape := ⟨3, ![1, 512, 2048]⟩
abbrev S1x512x64 : Shape := ⟨3, ![1, 512, 64]⟩
abbrev S3x2048x64 : Shape := ⟨3, ![3, 2048, 64]⟩
abbrev S2048x32 : Shape := ⟨2, ![2048, 32]⟩
abbrev S1x32x64 : Shape := ⟨3, ![1, 32, 64]⟩
abbrev S32x64 : Shape := ⟨2, ![32, 64]⟩
abbrev S2048x64 : Shape := ⟨2, ![2048, 64]⟩
abbrev S1x2048x64 : Shape := ⟨3, ![1, 2048, 64]⟩
abbrev S512x2048 : Shape := ⟨2, ![512, 2048]⟩
abbrev S512x64 : Shape := ⟨2, ![512, 64]⟩
abbrev S1x64 : Shape := ⟨2, ![1, 64]⟩
abbrev S512 : Shape := ⟨1, ![512]⟩
abbrev S512x1 : Shape := ⟨2, ![512, 1]⟩
abbrev S_ : Shape := ⟨0, ![]⟩
abbrev S2048 : Shape := ⟨1, ![2048]⟩
abbrev S1x2048x1 : Shape := ⟨3, ![1, 2048, 1]⟩
abbrev S8x64 : Shape := ⟨2, ![8, 64]⟩
abbrev S1x64x64 : Shape := ⟨3, ![1, 64, 64]⟩
abbrev S64x64 : Shape := ⟨2, ![64, 64]⟩
abbrev S8x192 : Shape := ⟨2, ![8, 192]⟩

abbrev nBuf : Space → Nat
  | .hbm => 73
  | .vmem => 27
  | .smem => 0
  | _ => 0

abbrev bufTy : (tb : Table) → Fin (tcTables nBuf tb) → BufTy
  | .hbm, ⟨0, _⟩ => ⟨S8x2048x32, .f32⟩
  | .hbm, ⟨1, _⟩ => ⟨S8x2048x2048, .i32⟩
  | .hbm, ⟨2, _⟩ => ⟨S8x2048x2048, .f32⟩
  | .hbm, ⟨3, _⟩ => ⟨S3x32x64, .f32⟩
  | .hbm, ⟨4, _⟩ => ⟨S64, .f32⟩
  | .hbm, ⟨5, _⟩ => ⟨S3x64x64, .f32⟩
  | .hbm, ⟨6, _⟩ => ⟨S64, .f32⟩
  | .hbm, ⟨7, _⟩ => ⟨S3x64x64, .f32⟩
  | .hbm, ⟨8, _⟩ => ⟨S64, .f32⟩
  | .hbm, ⟨9, _⟩ => ⟨S192x64, .f32⟩
  | .hbm, ⟨10, _⟩ => ⟨S64, .f32⟩
  | .hbm, ⟨11, _⟩ => ⟨S8x2048x64, .f32⟩
  | .hbm, ⟨12, _⟩ => ⟨S_, .f32⟩
  | .hbm, ⟨13, _⟩ => ⟨S2048, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S8x2048x64, .f32⟩
  | .hbm, ⟨19, _⟩ => ⟨S8x2048x64, .f32⟩
  | .hbm, ⟨20, _⟩ => ⟨S8x2048x64, .f32⟩
  | .hbm, ⟨21, _⟩ => ⟨S_, .f32⟩
  | .hbm, ⟨22, _⟩ => ⟨S2048, .f32⟩
  | .hbm, ⟨23, _⟩ => ⟨S1x2048x1, .f32⟩
  | .hbm, ⟨24, _⟩ => ⟨S_, .f32⟩
  | .hbm, ⟨25, _⟩ => ⟨S1x2048x1, .f32⟩
  | .hbm, ⟨26, _⟩ => ⟨S1x2048x1, .f32⟩
  | .hbm, ⟨27, _⟩ => ⟨S8x2048x64, .f32⟩
  | .hbm, ⟨28, _⟩ => ⟨S8x2048x64, .f32⟩
  | .hbm, ⟨29, _⟩ => ⟨S_, .f32⟩
  | .hbm, ⟨30, _⟩ => ⟨S1x2048x1, .f32⟩
  | .hbm, ⟨31, _⟩ => ⟨S1x2048x1, .f32⟩
  | .hbm, ⟨32, _⟩ => ⟨S1x2048x1, .f32⟩
  | .hbm, ⟨33, _⟩ => ⟨S8x2048x64, .f32⟩
  | .hbm, ⟨34, _⟩ => ⟨S8x2048x64, .f32⟩
  | .hbm, ⟨35, _⟩ => ⟨S_, .f32⟩
  | .hbm, ⟨36, _⟩ => ⟨S8x64, .f32⟩
  | .hbm, ⟨37, _⟩ => ⟨S1x64x64, .f32⟩
  | .hbm, ⟨38, _⟩ => ⟨S8x2048x64, .f32⟩
  | .hbm, ⟨39, _⟩ => ⟨S_, .f32⟩
  | .hbm, ⟨40, _⟩ => ⟨S2048, .f32⟩
  | .hbm, ⟨41, _⟩ => ⟨S1x2048x1, .f32⟩
  | .hbm, ⟨42, _⟩ => ⟨S_, .f32⟩
  | .hbm, ⟨43, _⟩ => ⟨S1x2048x1, .f32⟩
  | .hbm, ⟨44, _⟩ => ⟨S1x2048x1, .f32⟩
  | .hbm, ⟨45, _⟩ => ⟨S8x2048x64, .f32⟩
  | .hbm, ⟨46, _⟩ => ⟨S8x2048x64, .f32⟩
  | .hbm, ⟨47, _⟩ => ⟨S8x2048x64, .f32⟩
  | .hbm, ⟨48, _⟩ => ⟨S_, .f32⟩
  | .hbm, ⟨49, _⟩ => ⟨S2048, .f32⟩
  | .hbm, ⟨50, _⟩ => ⟨S1x2048x1, .f32⟩
  | .hbm, ⟨51, _⟩ => ⟨S_, .f32⟩
  | .hbm, ⟨52, _⟩ => ⟨S1x2048x1, .f32⟩
  | .hbm, ⟨53, _⟩ => ⟨S1x2048x1, .f32⟩
  | .hbm, ⟨54, _⟩ => ⟨S8x2048x64, .f32⟩
  | .hbm, ⟨55, _⟩ => ⟨S8x2048x64, .f32⟩
  | .hbm, ⟨56, _⟩ => ⟨S_, .f32⟩
  | .hbm, ⟨57, _⟩ => ⟨S1x2048x1, .f32⟩
  | .hbm, ⟨58, _⟩ => ⟨S1x2048x1, .f32⟩
  | .hbm, ⟨59, _⟩ => ⟨S1x2048x1, .f32⟩
  | .hbm, ⟨60, _⟩ => ⟨S8x2048x64, .f32⟩
  | .hbm, ⟨61, _⟩ => ⟨S8x2048x64, .f32⟩
  | .hbm, ⟨62, _⟩ => ⟨S_, .f32⟩
  | .hbm, ⟨63, _⟩ => ⟨S8x64, .f32⟩
  | .hbm, ⟨64, _⟩ => ⟨S1x64x64, .f32⟩
  | .hbm, ⟨65, _⟩ => ⟨S8x2048x64, .f32⟩
  | .hbm, ⟨66, _⟩ => ⟨S_, .f32⟩
  | .hbm, ⟨67, _⟩ => ⟨S8x64, .f32⟩
  | .hbm, ⟨68, _⟩ => ⟨S8x192, .f32⟩
  | .hbm, ⟨69, _⟩ => ⟨S8x64, .f32⟩
  | .hbm, ⟨70, _⟩ => ⟨S1x64, .f32⟩
  | .hbm, ⟨71, _⟩ => ⟨S8x64, .f32⟩
  | .hbm, ⟨72, _⟩ => ⟨S8x64, .f32⟩
  | .local _ .vmem, ⟨0, _⟩ => ⟨S1x2048x32, .f32⟩
  | .local _ .vmem, ⟨1, _⟩ => ⟨S1x2048x32, .f32⟩
  | .local _ .vmem, ⟨2, _⟩ => ⟨S1x512x2048, .i32⟩
  | .local _ .vmem, ⟨3, _⟩ => ⟨S1x512x2048, .i32⟩
  | .local _ .vmem, ⟨4, _⟩ => ⟨S3x32x64, .f32⟩
  | .local _ .vmem, ⟨5, _⟩ => ⟨S64, .f32⟩
  | .local _ .vmem, ⟨6, _⟩ => ⟨S1x512x64, .f32⟩
  | .local _ .vmem, ⟨7, _⟩ => ⟨S1x512x64, .f32⟩
  | .local _ .vmem, ⟨8, _⟩ => ⟨S3x2048x64, .f32⟩
  | .local _ .vmem, ⟨9, _⟩ => ⟨S1x2048x64, .f32⟩
  | .local _ .vmem, ⟨10, _⟩ => ⟨S1x2048x64, .f32⟩
  | .local _ .vmem, ⟨11, _⟩ => ⟨S1x512x2048, .f32⟩
  | .local _ .vmem, ⟨12, _⟩ => ⟨S1x512x2048, .f32⟩
  | .local _ .vmem, ⟨13, _⟩ => ⟨S1x64x64, .f32⟩
  | .local _ .vmem, ⟨14, _⟩ => ⟨S64, .f32⟩
  | .local _ .vmem, ⟨15, _⟩ => ⟨S1x512x64, .f32⟩
  | .local _ .vmem, ⟨16, _⟩ => ⟨S1x512x64, .f32⟩
  | .local _ .vmem, ⟨17, _⟩ => ⟨S1x2048x64, .f32⟩
  | .local _ .vmem, ⟨18, _⟩ => ⟨S1x2048x64, .f32⟩
  | .local _ .vmem, ⟨19, _⟩ => ⟨S1x2048x64, .f32⟩
  | .local _ .vmem, ⟨20, _⟩ => ⟨S1x512x2048, .f32⟩
  | .local _ .vmem, ⟨21, _⟩ => ⟨S1x512x2048, .f32⟩
  | .local _ .vmem, ⟨22, _⟩ => ⟨S1x64x64, .f32⟩
  | .local _ .vmem, ⟨23, _⟩ => ⟨S64, .f32⟩
  | .local _ .vmem, ⟨24, _⟩ => ⟨S1x512x64, .f32⟩
  | .local _ .vmem, ⟨25, _⟩ => ⟨S1x512x64, .f32⟩
  | .local _ .vmem, ⟨26, _⟩ => ⟨S1x2048x64, .f32⟩
  | _, _ => ⟨S8x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_cst_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_cst_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_11 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x512x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![8, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x512x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S1x64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x512x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  inb_S1x2048x32_S1x2048x32_0_0_0 : ∀ a, (![0, 0, 0] : Fin 3 → Nat) a + S1x2048x32.size a ≤ S1x2048x32.size a
  h_S1x2048x32 : 0 < S1x2048x32.numel
  shapeCasts_S1x2048x32_S2048x32 : S1x2048x32.ShapeCasts S2048x32
  bitsLt_bf16_f32 : FTy.bits .bf16 < FTy.bits .f32
  inb_S3x32x64_S1x32x64_0_0_0 : ∀ a, (![0, 0, 0] : Fin 3 → Nat) a + S1x32x64.size a ≤ S3x32x64.size a
  h_S1x32x64 : 0 < S1x32x64.numel
  shapeCasts_S1x32x64_S32x64 : S1x32x64.ShapeCasts S32x64
  inb_S3x2048x64_S1x2048x64_0_0_0 : ∀ a, (![0, 0, 0] : Fin 3 → Nat) a + S1x2048x64.size a ≤ S3x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  inb_S3x32x64_S1x32x64_1_0_0 : ∀ a, (![1, 0, 0] : Fin 3 → Nat) a + S1x32x64.size a ≤ S3x32x64.size a
  inb_S3x2048x64_S1x2048x64_1_0_0 : ∀ a, (![1, 0, 0] : Fin 3 → Nat) a + S1x2048x64.size a ≤ S3x2048x64.size a
  inb_S3x32x64_S1x32x64_2_0_0 : ∀ a, (![2, 0, 0] : Fin 3 → Nat) a + S1x32x64.size a ≤ S3x32x64.size a
  inb_S3x2048x64_S1x2048x64_2_0_0 : ∀ a, (![2, 0, 0] : Fin 3 → Nat) a + S1x2048x64.size a ≤ S3x2048x64.size a
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  natLt_1_32 : 1 < 32
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  reduces_S512x64_S512 : S512x64.Reduces [1] S512
  shapeCasts_S512_S512x1 : S512.ShapeCasts S512x1
  broadcasts_S512x1_S512x64 : S512x1.Broadcasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  reducesTo_S8x2048x64_S2048_d0_2 : S8x2048x64.ReducesTo [0, 2] S2048
  h_S_ : 0 < S_.numel
  bcast_S2048_S1x2048x1_1 : S2048.BroadcastsInDim S1x2048x1 (![1] : Fin 1 → Fin S1x2048x1.rank)
  bcast_S_S1x2048x1 : S_.BroadcastsInDim S1x2048x1 (![] : Fin 0 → Fin S1x2048x1.rank)
  bcast_S1x2048x1_S8x2048x64_0_1_2 : S1x2048x1.BroadcastsInDim S8x2048x64 (![0, 1, 2] : Fin 3 → Fin S8x2048x64.rank)
  reducesTo_S8x2048x64_S8x64_d1 : S8x2048x64.ReducesTo [1] S8x64
  slices_S3x64x64_S1x64x64_0_0_0 : S3x64x64.Slices ![0, 0, 0] S1x64x64
  inb_S1x2048x64_S1x2048x64_0_0_0 : ∀ a, (![0, 0, 0] : Fin 3 → Nat) a + S1x2048x64.size a ≤ S1x2048x64.size a
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  concatenates_S8x64_S8x64_S8x64_S8x192_d1 : Shape.Concatenates [S8x64, S8x64, S8x64] S8x192 1
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  dot_S2048x32_S32x64_S2048x64_1_0_0_1_n_n_wf : DotDims.WF S2048x32 S32x64 S2048x64 [1] [0] [0] [1] [] []
  dot_S512x2048_S2048x64_S512x64_1_0_0_1_n_n_wf : DotDims.WF S512x2048 S2048x64 S512x64 [1] [0] [0] [1] [] []
  dot_S2048x64_S64x64_S2048x64_1_0_0_1_n_n_wf : DotDims.WF S2048x64 S64x64 S2048x64 [1] [0] [0] [1] [] []
  dot_S8x192_S192x64_S8x64_1_0_0_1_n_n_wf : DotDims.WF S8x192 S192x64 S8x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x32.size a ≤ S8x2048x32.size a
  hwx0_0 : ∀ i : grid0.Coords, EltTy.bits .f32 = 32 ∨ (Rect.block (s := S8x2048x32) S1x2048x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S8x2048x2048.size a
  hwx0_1 : ∀ i : grid0.Coords, EltTy.bits .i32 = 32 ∨ (Rect.block (s := S8x2048x2048) S1x512x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x32x64.size a ≤ S3x32x64.size a
  hwx0_2 : ∀ i : grid0.Coords, EltTy.bits .f32 = 32 ∨ (Rect.block (s := S3x32x64) S3x32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S8x2048x64.size a
  hwx0_4 : ∀ i : grid0.Coords, EltTy.bits .f32 = 32 ∨ (Rect.block (s := S8x2048x64) S1x512x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x64.size a ≤ S8x2048x64.size a
  hwx1_0 : ∀ i : grid1.Coords, EltTy.bits .f32 = 32 ∨ (Rect.block (s := S8x2048x64) S1x2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x2048.size a ≤ S8x2048x2048.size a
  hwx1_1 : ∀ i : grid1.Coords, EltTy.bits .f32 = 32 ∨ (Rect.block (s := S8x2048x2048) S1x512x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64x64.size a ≤ S1x64x64.size a
  hwx1_2 : ∀ i : grid1.Coords, EltTy.bits .f32 = 32 ∨ (Rect.block (s := S1x64x64) S1x64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x64.size a ≤ S8x2048x64.size a
  hwx1_4 : ∀ i : grid1.Coords, EltTy.bits .f32 = 32 ∨ (Rect.block (s := S8x2048x64) S1x512x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048x64.size a ≤ S8x2048x64.size a
  hwx2_0 : ∀ i : grid2.Coords, EltTy.bits .f32 = 32 ∨ (Rect.block (s := S8x2048x64) S1x2048x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512x2048.size a ≤ S8x2048x2048.size a
  hwx2_1 : ∀ i : grid2.Coords, EltTy.bits .f32 = 32 ∨ (Rect.block (s := S8x2048x2048) S1x512x2048.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64x64.size a ≤ S1x64x64.size a
  hwx2_2 : ∀ i : grid2.Coords, EltTy.bits .f32 = 32 ∨ (Rect.block (s := S1x64x64) S1x64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x512x64.size a ≤ S8x2048x64.size a
  hwx2_4 : ∀ i : grid2.Coords, EltTy.bits .f32 = 32 ∨ (Rect.block (s := S8x2048x64) S1x512x64.size (cc2_transform_4 i) (hinb2_4 i)).WholeWords (EltTy.packing .f32)

variable [Facts₀]

def dot_S2048x32_S32x64_S2048x64_1_0_0_1_n_n : DotDims S2048x32 S32x64 S2048x64 where
  lhsContracting := [1]
  rhsContracting := [0]
  lhsNonContracting := [0]
  rhsNonContracting := [1]
  lhsBatch := []
  rhsBatch := []
  wf := dot_S2048x32_S32x64_S2048x64_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S8x192_S192x64_S8x64_1_0_0_1_n_n : DotDims S8x192 S192x64 S8x64 where
  lhsContracting := [1]
  rhsContracting := [0]
  lhsNonContracting := [0]
  rhsNonContracting := [1]
  lhsBatch := []
  rhsBatch := []
  wf := dot_S8x192_S192x64_S8x64_1_0_0_1_n_n_wf

abbrev win0_0 : Pipeline.Window sig grid0 :=
  Pipeline.Window.ofSpec (Memref.whole main_arg0) S1x2048x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3x32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v18) S1x2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x512x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v39) S1x2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S1x512x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S1x512x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8x2048x32 : Shape := ⟨3, ![8, 2048, 32]⟩
abbrev S8x2048x2048 : Shape := ⟨3, ![8, 2048, 2048]⟩
abbrev S3x32x64 : Shape := ⟨3, ![3, 32, 64]⟩
abbrev S64 : Shape := ⟨1, ![64]⟩
abbrev S3x64x64 : Shape := ⟨3, ![3, 64, 64]⟩
abbrev S192x64 : Shape := ⟨2, ![192, 64]⟩
abbrev S_ : Shape := ⟨0, ![]⟩
abbrev S8x2048x64 : Shape := ⟨3, ![8, 2048, 64]⟩
abbrev S1x32x64 : Shape := ⟨3, ![1, 32, 64]⟩
abbrev S32x64 : Shape := ⟨2, ![32, 64]⟩
abbrev S1x1x64 : Shape := ⟨3, ![1, 1, 64]⟩
abbrev S8x2048 : Shape := ⟨2, ![8, 2048]⟩
abbrev S8x2048x1 : Shape := ⟨3, ![8, 2048, 1]⟩
abbrev S2048 : Shape := ⟨1, ![2048]⟩
abbrev S1x2048x1 : Shape := ⟨3, ![1, 2048, 1]⟩
abbrev S8x64 : Shape := ⟨2, ![8, 64]⟩
abbrev S1x64x64 : Shape := ⟨3, ![1, 64, 64]⟩
abbrev S64x64 : Shape := ⟨2, ![64, 64]⟩
abbrev S8x192 : Shape := ⟨2, ![8, 192]⟩
abbrev S1x64 : Shape := ⟨2, ![1, 64]⟩

abbrev nBuf : Space → Nat
  | .hbm => 200
  | .vmem => 0
  | .smem => 0
  | _ => 0

abbrev hbmTy0_0 (i : Nat) : BufTy := match i % 128 with
  | 0 => ⟨S8x2048x32, .f32⟩
  | 1 => ⟨S8x2048x2048, .i32⟩
  | 2 => ⟨S8x2048x2048, .f32⟩
  | 3 => ⟨S3x32x64, .f32⟩
  | 4 => ⟨S64, .f32⟩
  | 5 => ⟨S3x64x64, .f32⟩
  | 6 => ⟨S64, .f32⟩
  | 7 => ⟨S3x64x64, .f32⟩
  | 8 => ⟨S64, .f32⟩
  | 9 => ⟨S192x64, .f32⟩
  | 10 => ⟨S64, .f32⟩
  | 11 => ⟨S_, .f32⟩
  | 12 => ⟨S8x2048x64, .f32⟩
  | 13 => ⟨S_, .i32⟩
  | 14 => ⟨S8x2048x2048, .i32⟩
  | 15 => ⟨S8x2048x2048, .i1⟩
  | 16 => ⟨S8x2048x2048, .f32⟩
  | 17 => ⟨S8x2048x32, .f32⟩
  | 18 => ⟨S1x32x64, .f32⟩
  | 19 => ⟨S32x64, .f32⟩
  | 20 => ⟨S8x2048x64, .f32⟩
  | 21 => ⟨S8x2048x64, .f32⟩
  | 22 => ⟨S_, .i32⟩
  | 23 => ⟨S8x2048x2048, .i32⟩
  | 24 => ⟨S8x2048x2048, .i1⟩
  | 25 => ⟨S8x2048x2048, .f32⟩
  | 26 => ⟨S8x2048x32, .f32⟩
  | 27 => ⟨S1x32x64, .f32⟩
  | 28 => ⟨S32x64, .f32⟩
  | 29 => ⟨S8x2048x64, .f32⟩
  | 30 => ⟨S8x2048x64, .f32⟩
  | 31 => ⟨S_, .i32⟩
  | 32 => ⟨S8x2048x2048, .i32⟩
  | 33 => ⟨S8x2048x2048, .i1⟩
  | 34 => ⟨S8x2048x2048, .f32⟩
  | 35 => ⟨S8x2048x32, .f32⟩
  | 36 => ⟨S1x32x64, .f32⟩
  | 37 => ⟨S32x64, .f32⟩
  | 38 => ⟨S8x2048x64, .f32⟩
  | 39 => ⟨S8x2048x64, .f32⟩
  | 40 => ⟨S1x1x64, .f32⟩
  | 41 => ⟨S8x2048x64, .f32⟩
  | 42 => ⟨S8x2048x64, .f32⟩
  | 43 => ⟨S8x2048x64, .f32⟩
  | 44 => ⟨S_, .f32⟩
  | 45 => ⟨S8x2048, .f32⟩
  | 46 => ⟨S8x2048x1, .f32⟩
  | 47 => ⟨S8x2048x1, .f32⟩
  | 48 => ⟨S_, .f32⟩
  | 49 => ⟨S8x2048x1, .f32⟩
  | 50 => ⟨S8x2048x1, .f32⟩
  | 51 => ⟨S8x2048x64, .f32⟩
  | 52 => ⟨S8x2048x64, .f32⟩
  | 53 => ⟨S_, .f32⟩
  | 54 => ⟨S8x2048x64, .f32⟩
  | 55 => ⟨S8x2048x64, .f32⟩
  | 56 => ⟨S_, .f32⟩
  | 57 => ⟨S2048, .f32⟩
  | 58 => ⟨S1x2048x1, .f32⟩
  | 59 => ⟨S_, .f32⟩
  | 60 => ⟨S1x2048x1, .f32⟩
  | 61 => ⟨S1x2048x1, .f32⟩
  | 62 => ⟨S8x2048x64, .f32⟩
  | 63 => ⟨S8x2048x64, .f32⟩
  | 64 => ⟨S8x2048x64, .f32⟩
  | 65 => ⟨S_, .f32⟩
  | 66 => ⟨S2048, .f32⟩
  | 67 => ⟨S1x2048x1, .f32⟩
  | 68 => ⟨S_, .f32⟩
  | 69 => ⟨S1x2048x1, .f32⟩
  | 70 => ⟨S1x2048x1, .f32⟩
  | 71 => ⟨S8x2048x64, .f32⟩
  | 72 => ⟨S8x2048x64, .f32⟩
  | 73 => ⟨S_, .f32⟩
  | 74 => ⟨S1x2048x1, .f32⟩
  | 75 => ⟨S1x2048x1, .f32⟩
  | 76 => ⟨S1x2048x1, .f32⟩
  | 77 => ⟨S8x2048x64, .f32⟩
  | 78 => ⟨S8x2048x64, .f32⟩
  | 79 => ⟨S_, .f32⟩
  | 80 => ⟨S8x64, .f32⟩
  | 81 => ⟨S_, .f32⟩
  | 82 => ⟨S8x2048x64, .f32⟩
  | 83 => ⟨S_, .f32⟩
  | 84 => ⟨S8x2048x2048, .f32⟩
  | 85 => ⟨S8x2048x2048, .i1⟩
  | 86 => ⟨S8x2048x2048, .f32⟩
  | 87 => ⟨S8x2048x64, .f32⟩
  | 88 => ⟨S1x64x64, .f32⟩
  | 89 => ⟨S64x64, .f32⟩
  | 90 => ⟨S8x2048x64, .f32⟩
  | 91 => ⟨S8x2048x64, .f32⟩
  | 92 => ⟨S_, .f32⟩
  | 93 => ⟨S8x2048x2048, .f32⟩
  | 94 => ⟨S8x2048x2048, .i1⟩
  | 95 => ⟨S8x2048x2048, .f32⟩
  | 96 => ⟨S8x2048x64, .f32⟩
  | 97 => ⟨S1x64x64, .f32⟩
  | 98 => ⟨S64x64, .f32⟩
  | 99 => ⟨S8x2048x64, .f32⟩
  | 100 => ⟨S8x2048x64, .f32⟩
  | 101 => ⟨S_, .f32⟩
  | 102 => ⟨S8x2048x2048, .f32⟩
  | 103 => ⟨S8x2048x2048, .i1⟩
  | 104 => ⟨S8x2048x2048, .f32⟩
  | 105 => ⟨S8x2048x64, .f32⟩
  | 106 => ⟨S1x64x64, .f32⟩
  | 107 => ⟨S64x64, .f32⟩
  | 108 => ⟨S8x2048x64, .f32⟩
  | 109 => ⟨S8x2048x64, .f32⟩
  | 110 => ⟨S1x1x64, .f32⟩
  | 111 => ⟨S8x2048x64, .f32⟩
  | 112 => ⟨S8x2048x64, .f32⟩
  | 113 => ⟨S8x2048x64, .f32⟩
  | 114 => ⟨S_, .f32⟩
  | 115 => ⟨S8x2048, .f32⟩
  | 116 => ⟨S8x2048x1, .f32⟩
  | 117 => ⟨S8x2048x1, .f32⟩
  | 118 => ⟨S_, .f32⟩
  | 119 => ⟨S8x2048x1, .f32⟩
  | 120 => ⟨S8x2048x1, .f32⟩
  | 121 => ⟨S8x2048x64, .f32⟩
  | 122 => ⟨S8x2048x64, .f32⟩
  | 123 => ⟨S_, .f32⟩
  | 124 => ⟨S8x2048x64, .f32⟩
  | 125 => ⟨S8x2048x64, .f32⟩
  | 126 => ⟨S_, .f32⟩
  | 127 => ⟨S2048, .f32⟩
  | _ => ⟨S8x2048x32, .f32⟩

abbrev hbmTy0_1 (i : Nat) : BufTy := match i % 128 with
  | 0 => ⟨S1x2048x1, .f32⟩
  | 1 => ⟨S_, .f32⟩
  | 2 => ⟨S1x2048x1, .f32⟩
  | 3 => ⟨S1x2048x1, .f32⟩
  | 4 => ⟨S8x2048x64, .f32⟩
  | 5 => ⟨S8x2048x64, .f32⟩
  | 6 => ⟨S8x2048x64, .f32⟩
  | 7 => ⟨S_, .f32⟩
  | 8 => ⟨S2048, .f32⟩
  | 9 => ⟨S1x2048x1, .f32⟩
  | 10 => ⟨S_, .f32⟩
  | 11 => ⟨S1x2048x1, .f32⟩
  | 12 => ⟨S1x2048x1, .f32⟩
  | 13 => ⟨S8x2048x64, .f32⟩
  | 14 => ⟨S8x2048x64, .f32⟩
  | 15 => ⟨S_, .f32⟩
  | 16 => ⟨S1x2048x1, .f32⟩
  | 17 => ⟨S1x2048x1, .f32⟩
  | 18 => ⟨S1x2048x1, .f32⟩
  | 19 => ⟨S8x2048x64, .f32⟩
  | 20 => ⟨S8x2048x64, .f32⟩
  | 21 => ⟨S_, .f32⟩
  | 22 => ⟨S8x64, .f32⟩
  | 23 => ⟨S_, .f32⟩
  | 24 => ⟨S8x2048x64, .f32⟩
  | 25 => ⟨S_, .f32⟩
  | 26 => ⟨S8x2048x2048, .f32⟩
  | 27 => ⟨S8x2048x2048, .i1⟩
  | 28 => ⟨S8x2048x2048, .f32⟩
  | 29 => ⟨S8x2048x64, .f32⟩
  | 30 => ⟨S1x64x64, .f32⟩
  | 31 => ⟨S64x64, .f32⟩
  | 32 => ⟨S8x2048x64, .f32⟩
  | 33 => ⟨S8x2048x64, .f32⟩
  | 34 => ⟨S_, .f32⟩
  | 35 => ⟨S8x2048x2048, .f32⟩
  | 36 => ⟨S8x2048x2048, .i1⟩
  | 37 => ⟨S8x2048x2048, .f32⟩
  | 38 => ⟨S8x2048x64, .f32⟩
  | 39 => ⟨S1x64x64, .f32⟩
  | 40 => ⟨S64x64, .f32⟩
  | 41 => ⟨S8x2048x64, .f32⟩
  | 42 => ⟨S8x2048x64, .f32⟩
  | 43 => ⟨S_, .f32⟩
  | 44 => ⟨S8x2048x2048, .f32⟩
  | 45 => ⟨S8x2048x2048, .i1⟩
  | 46 => ⟨S8x2048x2048, .f32⟩
  | 47 => ⟨S8x2048x64, .f32⟩
  | 48 => ⟨S1x64x64, .f32⟩
  | 49 => ⟨S64x64, .f32⟩
  | 50 => ⟨S8x2048x64, .f32⟩
  | 51 => ⟨S8x2048x64, .f32⟩
  | 52 => ⟨S1x1x64, .f32⟩
  | 53 => ⟨S8x2048x64, .f32⟩
  | 54 => ⟨S8x2048x64, .f32⟩
  | 55 => ⟨S8x2048x64, .f32⟩
  | 56 => ⟨S_, .f32⟩
  | 57 => ⟨S8x2048, .f32⟩
  | 58 => ⟨S8x2048x1, .f32⟩
  | 59 => ⟨S8x2048x1, .f32⟩
  | 60 => ⟨S_, .f32⟩
  | 61 => ⟨S8x2048x1, .f32⟩
  | 62 => ⟨S8x2048x1, .f32⟩
  | 63 => ⟨S8x2048x64, .f32⟩
  | 64 => ⟨S8x2048x64, .f32⟩
  | 65 => ⟨S_, .f32⟩
  | 66 => ⟨S8x64, .f32⟩
  | 67 => ⟨S8x192, .f32⟩
  | 68 => ⟨S8x64, .f32⟩
  | 69 => ⟨S1x64, .f32⟩
  | 70 => ⟨S8x64, .f32⟩
  | 71 => ⟨S8x64, .f32⟩
  | _ => ⟨S8x2048x32, .f32⟩

abbrev hbmTy (i : Nat) : BufTy := match i / 128 with
  | 0 => hbmTy0_0 i
  | 1 => hbmTy0_1 i
  | _ => ⟨S8x2048x32, .f32⟩

abbrev bufTy : (tb : Table) → Fin (tcTables nBuf tb) → BufTy
  | .hbm, ⟨i, _⟩ => hbmTy i
  | _, _ => ⟨S8x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call0_cst : Ref sig .tc := ⟨.hbm, 53, rfl⟩
abbrev main_call0_v0 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_9 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_12 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_13 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_14 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_15 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_call1_cst : Ref sig .tc := ⟨.hbm, 123, rfl⟩
abbrev main_call1_v0 : Ref sig .tc := ⟨.hbm, 124, rfl⟩
abbrev main_v92 : Ref sig .tc := ⟨.hbm, 125, rfl⟩
abbrev main_cst_16 : Ref sig .tc := ⟨.hbm, 126, rfl⟩
abbrev main_v93 : Ref sig .tc := ⟨.hbm, 127, rfl⟩
abbrev main_v94 : Ref sig .tc := ⟨.hbm, 128, rfl⟩
abbrev main_cst_17 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_18 : Ref sig .tc := ⟨.hbm, 135, rfl⟩
abbrev main_v100 : Ref sig .tc := ⟨.hbm, 136, rfl⟩
abbrev main_v101 : Ref sig .tc := ⟨.hbm, 137, rfl⟩
abbrev main_cst_19 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_20 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_21 : Ref sig .tc := ⟨.hbm, 149, rfl⟩
abbrev main_v111 : Ref sig .tc := ⟨.hbm, 150, rfl⟩
abbrev main_cst_22 : Ref sig .tc := ⟨.hbm, 151, rfl⟩
abbrev main_v112 : Ref sig .tc := ⟨.hbm, 152, rfl⟩
abbrev main_cst_23 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_cst_24 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_cst_25 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_cst_26 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_cst_27 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_cst_28 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩

abbrev nD : Nat := 1
abbrev τ : Topo := Topo.v7x

variable {F : FTy → Type} [FloatOps F]

class Facts₀ : Prop where
  bcast_S_S8x2048x64 : S_.BroadcastsInDim S8x2048x64 (![] : Fin 0 → Fin S8x2048x64.rank)
  bcast_S_S8x2048x2048 : S_.BroadcastsInDim S8x2048x2048 (![] : Fin 0 → Fin S8x2048x2048.rank)
  slices_S3x32x64_S1x32x64_0_0_0 : S3x32x64.Slices ![0, 0, 0] S1x32x64
  shapeCasts_S1x32x64_S32x64 : S1x32x64.ShapeCasts S32x64
  slices_S3x32x64_S1x32x64_1_0_0 : S3x32x64.Slices ![1, 0, 0] S1x32x64
  slices_S3x32x64_S1x32x64_2_0_0 : S3x32x64.Slices ![2, 0, 0] S1x32x64
  bcast_S64_S1x1x64_2 : S64.BroadcastsInDim S1x1x64 (![2] : Fin 1 → Fin S1x1x64.rank)
  bcast_S1x1x64_S8x2048x64_0_1_2 : S1x1x64.BroadcastsInDim S8x2048x64 (![0, 1, 2] : Fin 3 → Fin S8x2048x64.rank)
  reducesTo_S8x2048x64_S8x2048_d2 : S8x2048x64.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x64_0_1_2 : S8x2048x1.BroadcastsInDim S8x2048x64 (![0, 1, 2] : Fin 3 → Fin S8x2048x64.rank)
  reducesTo_S8x2048x64_S2048_d0_2 : S8x2048x64.ReducesTo [0, 2] S2048
  bcast_S2048_S1x2048x1_1 : S2048.BroadcastsInDim S1x2048x1 (![1] : Fin 1 → Fin S1x2048x1.rank)
  bcast_S_S1x2048x1 : S_.BroadcastsInDim S1x2048x1 (![] : Fin 0 → Fin S1x2048x1.rank)
  bcast_S1x2048x1_S8x2048x64_0_1_2 : S1x2048x1.BroadcastsInDim S8x2048x64 (![0, 1, 2] : Fin 3 → Fin S8x2048x64.rank)
  reducesTo_S8x2048x64_S8x64_d1 : S8x2048x64.ReducesTo [1] S8x64
  slices_S3x64x64_S1x64x64_0_0_0 : S3x64x64.Slices ![0, 0, 0] S1x64x64
  shapeCasts_S1x64x64_S64x64 : S1x64x64.ShapeCasts S64x64
  slices_S3x64x64_S1x64x64_1_0_0 : S3x64x64.Slices ![1, 0, 0] S1x64x64
  slices_S3x64x64_S1x64x64_2_0_0 : S3x64x64.Slices ![2, 0, 0] S1x64x64
  concatenates_S8x64_S8x64_S8x64_S8x192_d1 : Shape.Concatenates [S8x64, S8x64, S8x64] S8x192 1
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  dot_S8x2048x2048_S8x2048x32_S8x2048x32_2_1_1_2_0_0_wf : DotDims.WF S8x2048x2048 S8x2048x32 S8x2048x32 [2] [1] [1] [2] [0] [0]
  dot_S8x2048x32_S32x64_S8x2048x64_2_0_01_1_n_n_wf : DotDims.WF S8x2048x32 S32x64 S8x2048x64 [2] [0] [0, 1] [1] [] []
  dot_S8x2048x2048_S8x2048x64_S8x2048x64_2_1_1_2_0_0_wf : DotDims.WF S8x2048x2048 S8x2048x64 S8x2048x64 [2] [1] [1] [2] [0] [0]
  dot_S8x2048x64_S64x64_S8x2048x64_2_0_01_1_n_n_wf : DotDims.WF S8x2048x64 S64x64 S8x2048x64 [2] [0] [0, 1] [1] [] []
  dot_S8x192_S192x64_S8x64_1_0_0_1_n_n_wf : DotDims.WF S8x192 S192x64 S8x64 [1] [0] [0] [1] [] []

variable [Facts₀]

def dot_S8x2048x2048_S8x2048x32_S8x2048x32_2_1_1_2_0_0 : DotDims S8x2048x2048 S8x2048x32 S8x2048x32 where
  lhsContracting := [2]
  rhsContracting := [1]
  lhsNonContracting := [1]
  rhsNonContracting := [2]
  lhsBatch := [0]
  rhsBatch := [0]
  wf := dot_S8x2048x2048_S8x2048x32_S8x2048x32_2_1_1_2_0_0_wf
def dot_S8x2048x32_S32x64_S8x2048x64_2_0_01_1_n_n : DotDims S8x2048x32 S32x64 S8x2048x64 where
  lhsContracting := [2]
  rhsContracting := [0]
  lhsNonContracting := [0, 1]
  rhsNonContracting := [1]
  lhsBatch := []
  rhsBatch := []
  wf := dot_S8x2048x32_S32x64_S8x2048x64_2_0_01_1_n_n_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf
def dot_S8x2048x64_S64x64_S8x2048x64_2_0_01_1_n_n : DotDims S8x2048x64 S64x64 S8x2048x64 where
  lhsContracting := [2]
  rhsContracting := [0]
  lhsNonContracting := [0, 1]
  rhsNonContracting := [1]
  lhsBatch := []
  rhsBatch := []
  wf := dot_S8x2048x64_S64x64_S8x2048x64_2_0_01_1_n_n_wf
def dot_S8x192_S192x64_S8x64_1_0_0_1_n_n : DotDims S8x192 S192x64 S8x64 where
  lhsContracting := [1]
  rhsContracting := [0]
  lhsNonContracting := [0]
  rhsNonContracting := [1]
  lhsBatch := []
  rhsBatch := []
  wf := dot_S8x192_S192x64_S8x64_1_0_0_1_n_n_wf

class Facts : Prop extends Facts₀ where

variable [Facts]
-- ==== Proof.KbRuns0.lean ====
/-
  The body of the first graph-convolution call, run once per branch of its one conditional.
  At the first row tile of a batch entry the body refills its scratch, slab by slab, with the entry's feature block times
  each of the three weight blocks (three matrix products, three stores that tile the scratch) and then computes the tile's
  output from the adjacency-class tile, the three refilled slabs and the bias; at the other row tiles it leaves the scratch
  alone and computes the output from the three slabs the scratch holds.  The inputs and the output go through whole staging
  buffers; the weights and the scratch are read and written one leading-axis slab at a time.
-/
import proofs.«165070_j9002251452429_2_alg».proof.Proof.Gen.Kernel.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev cond0 (i : grid0.Coords) : Prop :=
  (Scalar.cmpi .ne (Scalar.extui (Scalar.cmpi .eq (BitVec.ofNat 32 (i 1).val) 0#32)) 0#32) = 1#1

private theorem z3 : (![0, 0, 0] : Fin 3 → Nat) = fun _ => 0 := by
  funext a; fin_cases a <;> rfl
private theorem z1 : (![0] : Fin 1 → Nat) = fun _ => 0 := by
  funext a; fin_cases a; rfl

/-- The three slabs of a projected-features scratch, one per adjacency class, as the body's loads read them. -/
def slab0 (xs : Vec F S3x2048x64 .f32) : Vec F S1x2048x64 .f32 :=
  View.ld xs (Rect.unit (s := S3x2048x64) ![0, 0, 0] S1x2048x64.size inb_S3x2048x64_S1x2048x64_0_0_0)
def slab1 (xs : Vec F S3x2048x64 .f32) : Vec F S1x2048x64 .f32 :=
  View.ld xs (Rect.unit (s := S3x2048x64) ![1, 0, 0] S1x2048x64.size inb_S3x2048x64_S1x2048x64_1_0_0)
def slab2 (xs : Vec F S3x2048x64 .f32) : Vec F S1x2048x64 .f32 :=
  View.ld xs (Rect.unit (s := S3x2048x64) ![2, 0, 0] S1x2048x64.size inb_S3x2048x64_S1x2048x64_2_0_0)

/-- The three weight blocks, one per adjacency class, as the body's loads read them. -/
def wslab0 (x2 : Vec F S3x32x64 .f32) : Vec F S1x32x64 .f32 :=
  View.ld x2 (Rect.unit (s := S3x32x64) ![0, 0, 0] S1x32x64.size inb_S3x32x64_S1x32x64_0_0_0)
def wslab1 (x2 : Vec F S3x32x64 .f32) : Vec F S1x32x64 .f32 :=
  View.ld x2 (Rect.unit (s := S3x32x64) ![1, 0, 0] S1x32x64.size inb_S3x32x64_S1x32x64_1_0_0)
def wslab2 (x2 : Vec F S3x32x64 .f32) : Vec F S1x32x64 .f32 :=
  View.ld x2 (Rect.unit (s := S3x32x64) ![2, 0, 0] S1x32x64.size inb_S3x32x64_S1x32x64_2_0_0)

/-- The refilled scratch: slab r holds the features times the r-th weight block; the three stores tile it. -/
def xwOf (x0 : Vec F S1x2048x32 .f32) (x2 : Vec F S3x32x64 .f32) : Vec F S3x2048x64 .f32 :=
  View.canon
    [(⟨Rect.unit (s := S3x2048x64) ![2, 0, 0] S1x2048x64.size inb_S3x2048x64_S1x2048x64_2_0_0, k0_pay5 x0 (wslab2 x2)⟩ : View.Piece (Elt F) S3x2048x64 .f32),
     ⟨Rect.unit (s := S3x2048x64) ![1, 0, 0] S1x2048x64.size inb_S3x2048x64_S1x2048x64_1_0_0, k0_pay4 x0 (wslab1 x2)⟩,
     ⟨Rect.unit (s := S3x2048x64) ![0, 0, 0] S1x2048x64.size inb_S3x2048x64_S1x2048x64_0_0_0, k0_pay3 x0 (wslab0 x2)⟩]

/-- The output block of a row tile: the class-wise adjacency masks times the scratch slabs, summed, plus the bias,
    normalised by row and clamped at zero. -/
def out0 (x1 : Vec F S1x512x2048 .i32) (xs : Vec F S3x2048x64 .f32) (x3 : Vec F S64 .f32) : Vec F S1x512x64 .f32 :=
  k0_pay1 (k0_pay6 x1 (slab0 xs) (slab1 xs) (slab2 xs)) x3

/-- The last-stored slab of the refilled scratch is its payload. -/
theorem slab2_xwOf (x0 : Vec F S1x2048x32 .f32) (x2 : Vec F S3x32x64 .f32) :
    slab2 (xwOf x0 x2) = k0_pay5 x0 (wslab2 x2) := by
  funext x
  simp only [slab2, xwOf, View.ld]
  exact View.canon_cons_emb (Rect.unit (s := S3x2048x64) ![2, 0, 0] S1x2048x64.size inb_S3x2048x64_S1x2048x64_2_0_0) _ _ x

/-- The middle slab lies off the last store's rectangle (they differ on the leading axis), so it reads its own payload. -/
theorem slab1_xwOf (x0 : Vec F S1x2048x32 .f32) (x2 : Vec F S3x32x64 .f32) :
    slab1 (xwOf x0 x2) = k0_pay4 x0 (wslab1 x2) := by
  funext x
  have hd : Disjoint (Rect.unit (s := S3x2048x64) ![2, 0, 0] S1x2048x64.size inb_S3x2048x64_S1x2048x64_2_0_0).set (Rect.unit (s := S3x2048x64) ![1, 0, 0] S1x2048x64.size inb_S3x2048x64_S1x2048x64_1_0_0).set :=
    Rect.unit_disjoint (0 : Fin 3) (Or.inr (by decide))
  have hn : (Rect.unit (s := S3x2048x64) ![1, 0, 0] S1x2048x64.size inb_S3x2048x64_S1x2048x64_1_0_0).toLoadRect.idx x ∉ (Rect.unit (s := S3x2048x64) ![2, 0, 0] S1x2048x64.size inb_S3x2048x64_S1x2048x64_2_0_0).set :=
    Finset.disjoint_right.mp hd ((Rect.unit (s := S3x2048x64) ![1, 0, 0] S1x2048x64.size inb_S3x2048x64_S1x2048x64_1_0_0).toLoadRect.idx_mem x)
  simp only [slab1, xwOf, View.ld]
  rw [View.canon_cons_of_not_mem (⟨(Rect.unit (s := S3x2048x64) ![2, 0, 0] S1x2048x64.size inb_S3x2048x64_S1x2048x64_2_0_0), _⟩ : View.Piece (Elt F) S3x2048x64 .f32) _ hn]
  exact View.canon_cons_emb (Rect.unit (s := S3x2048x64) ![1, 0, 0] S1x2048x64.size inb_S3x2048x64_S1x2048x64_1_0_0) _ _ x

/-- The first slab lies off both later stores' rectangles, so it reads its own payload. -/
theorem slab0_xwOf (x0 : Vec F S1x2048x32 .f32) (x2 : Vec F S3x32x64 .f32) :
    slab0 (xwOf x0 x2) = k0_pay3 x0 (wslab0 x2) := by
  funext x
  have hd2 : Disjoint (Rect.unit (s := S3x2048x64) ![2, 0, 0] S1x2048x64.size inb_S3x2048x64_S1x2048x64_2_0_0).set (Rect.unit (s := S3x2048x64) ![0, 0, 0] S1x2048x64.size inb_S3x2048x64_S1x2048x64_0_0_0).set :=
    Rect.unit_disjoint (0 : Fin 3) (Or.inr (by decide))
  have hd1 : Disjoint (Rect.unit (s := S3x2048x64) ![1, 0, 0] S1x2048x64.size inb_S3x2048x64_S1x2048x64_1_0_0).set (Rect.unit (s := S3x2048x64) ![0, 0, 0] S1x2048x64.size inb_S3x2048x64_S1x2048x64_0_0_0).set :=
    Rect.unit_disjoint (0 : Fin 3) (Or.inr (by decide))
  have hn2 : (Rect.unit (s := S3x2048x64) ![0, 0, 0] S1x2048x64.size inb_S3x2048x64_S1x2048x64_0_0_0).toLoadRect.idx x ∉ (Rect.unit (s := S3x2048x64) ![2, 0, 0] S1x2048x64.size inb_S3x2048x64_S1x2048x64_2_0_0).set :=
    Finset.disjoint_right.mp hd2 ((Rect.unit (s := S3x2048x64) ![0, 0, 0] S1x2048x64.size inb_S3x2048x64_S1x2048x64_0_0_0).toLoadRect.idx_mem x)
  have hn1 : (Rect.unit (s := S3x2048x64) ![0, 0, 0] S1x2048x64.size inb_S3x2048x64_S1x2048x64_0_0_0).toLoadRect.idx x ∉ (Rect.unit (s := S3x2048x64) ![1, 0, 0] S1x2048x64.size inb_S3x2048x64_S1x2048x64_1_0_0).set :=
    Finset.disjoint_right.mp hd1 ((Rect.unit (s := S3x2048x64) ![0, 0, 0] S1x2048x64.size inb_S3x2048x64_S1x2048x64_0_0_0).toLoadRect.idx_mem x)
  simp only [slab0, xwOf, View.ld]
  rw [View.canon_cons_of_not_mem (⟨(Rect.unit (s := S3x2048x64) ![2, 0, 0] S1x2048x64.size inb_S3x2048x64_S1x2048x64_2_0_0), _⟩ : View.Piece (Elt F) S3x2048x64 .f32) _ hn2,
    View.canon_cons_of_not_mem (⟨(Rect.unit (s := S3x2048x64) ![1, 0, 0] S1x2048x64.size inb_S3x2048x64_S1x2048x64_1_0_0), _⟩ : View.Piece (Elt F) S3x2048x64 .f32) _ hn1]
  exact View.canon_cons_emb (Rect.unit (s := S3x2048x64) ![0, 0, 0] S1x2048x64.size inb_S3x2048x64_S1x2048x64_0_0_0) _ _ x

/-- A later row tile of a batch entry: the scratch keeps the projected features `xs` it was handed, and the output
    block is the tile's payload of the adjacency-class tile, the three slabs of that scratch and the bias. -/
theorem run0_keep (c : Dev nD) (i : grid0.Coords)
    (arg2 : Memref sig .tc .vmem S1x2048x32 .f32) (harg2 : arg2.IsWhole)
    (arg3 : Memref sig .tc .vmem S1x512x2048 .i32) (harg3 : arg3.IsWhole)
    (arg4 : Memref sig .tc .vmem S3x32x64 .f32) (harg4 : arg4.IsWhole)
    (arg5 : Memref sig .tc .vmem S64 .f32) (harg5 : arg5.IsWhole)
    (arg6 : Memref sig .tc .vmem S1x512x64 .f32) (harg6 : arg6.IsWhole)
    (arg7 : Memref sig .tc .vmem S3x2048x64 .f32) (harg7 : arg7.IsWhole)
    (hc : ¬ cond0 i)
    (x0 : Vec F S1x2048x32 .f32) (x1 : Vec F S1x512x2048 .i32) (x2 : Vec F S3x32x64 .f32) (x3 : Vec F S64 .f32)
    (xs : Vec F S3x2048x64 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out0 x1 xs x3) ∗ owns (c : Thread nD τ) arg7 fullShare xs) -∗ K ⟨⟩))
      ⊢ wp frame (wpE (defs₀ (F := F)) Variants.none c none) E
          (cc0_kernel i arg2 harg2 arg3 harg3 arg4 harg4 arg5 harg5 arg6 harg6 arg7 harg7) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg2.eq_unread hf0; obtain rfl := harg3.eq_unread hf1
  obtain rfl := harg4.eq_unread hf2; obtain rfl := harg5.eq_unread hf3
  obtain rfl := harg7.eq_unread hf5
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    rw [View.read_writes_eq_canon _ _ _ (fun y => View.cover_of_tiledL _ S1x512x64.size (by sl_kernel_rfl) y),
      View.canon_unit_zero z3]
    unfold out0 slab0 slab1 slab2
    simp only [View.readAt_eq_ld, harg3.read_unread, harg7.read_unread, harg5.read_unread,
      View.ld_unit_zero (S := S1x512x2048) z3, View.ld_unit_zero (S := S64) z1]
  iexists _; isplitr; · ipureintro; exact hf5
  iexact H5

/-- The first row tile of a batch entry: the scratch is refilled with the entry's features times the three weight blocks,
    whatever it held, and the output block is the tile's payload over the refilled scratch. -/
theorem run0_fill (c : Dev nD) (i : grid0.Coords)
    (arg2 : Memref sig .tc .vmem S1x2048x32 .f32) (harg2 : arg2.IsWhole)
    (arg3 : Memref sig .tc .vmem S1x512x2048 .i32) (harg3 : arg3.IsWhole)
    (arg4 : Memref sig .tc .vmem S3x32x64 .f32) (harg4 : arg4.IsWhole)
    (arg5 : Memref sig .tc .vmem S64 .f32) (harg5 : arg5.IsWhole)
    (arg6 : Memref sig .tc .vmem S1x512x64 .f32) (harg6 : arg6.IsWhole)
    (arg7 : Memref sig .tc .vmem S3x2048x64 .f32) (harg7 : arg7.IsWhole)
    (hc : cond0 i)
    (x0 : Vec F S1x2048x32 .f32) (x1 : Vec F S1x512x2048 .i32) (x2 : Vec F S3x32x64 .f32) (x3 : Vec F S64 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out0 x1 (xwOf x0 x2) x3)
            ∗ owns (c : Thread nD τ) arg7 fullShare (xwOf x0 x2)) -∗ K ⟨⟩))
      ⊢ wp frame (wpE (defs₀ (F := F)) Variants.none c none) E
          (cc0_kernel i arg2 harg2 arg3 harg3 arg4 harg4 arg5 harg5 arg6 harg6 arg7 harg7) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg2.eq_unread hf0; obtain rfl := harg3.eq_unread hf1
  obtain rfl := harg4.eq_unread hf2; obtain rfl := harg5.eq_unread hf3
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    sl_unfold_words
    rw [View.read_writes_eq_canon _ _ _ (fun y => View.cover_of_tiledL _ S1x512x64.size (by sl_kernel_rfl) y),
      View.canon_unit_zero z3]
    simp only [View.readAt_eq_ld, harg2.read_unread, harg3.read_unread, harg4.read_unread, harg5.read_unread,
      View.ld_unit_zero (S := S1x512x2048) z3, View.ld_unit_zero (S := S1x2048x32) z3, View.ld_unit_zero (S := S64) z1]
    unfold out0 slab0 slab1 slab2 xwOf wslab0 wslab1 wslab2
    rw [View.readCov_eq_canon_ld (s := S3x2048x64) _ _ _ (fun y => View.cover_of_tiledL (s := S3x2048x64) _ S1x2048x64.size (by sl_kernel_rfl) y)]
    rw [View.readCov_eq_canon_ld (s := S3x2048x64) _ _ _ (fun y => View.cover_of_tiledL (s := S3x2048x64) _ S1x2048x64.size (by sl_kernel_rfl) y)]
    rw [View.readCov_eq_canon_ld (s := S3x2048x64) _ _ _ (fun y => View.cover_of_tiledL (s := S3x2048x64) _ S1x2048x64.size (by sl_kernel_rfl) y)]
  iexists _; isplitr; swap; · iexact H5
  ipureintro
  sl_unfold_words
  rw [View.read_writes_eq_canon (s := S3x2048x64) _ _ _ (fun y => View.cover_of_tiledL (s := S3x2048x64) _ S1x2048x64.size (by sl_kernel_rfl) y)]
  unfold xwOf wslab0 wslab1 wslab2
  simp only [View.readAt_eq_ld, harg2.read_unread, harg4.read_unread, View.ld_unit_zero (S := S1x2048x32) z3]

end Cert.Kernel.Hand

end
-- ==== Proof.KbDat0.lean ====
/-
  The proof data of the first graph-convolution call and its body obligation.  The grid is (batch entry, row tile) with
  the row tile fastest, 32 points; at point t the entry is t / 4.  The scratch holds, after the first row tile of an
  entry, that entry's features times the weights, and keeps it through the entry's other three tiles: its contents after
  n points are defined by recursion on n.  Each input buffer is left at its block, the output buffer at the tile's payload.
-/
import proofs.«165070_j9002251452429_2_alg».proof.Proof.KbRuns0
import proofs.«165070_j9002251452429_2_alg».proof.Proof.KbLaunchP
import proofs.«165070_j9002251452429_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0
variable (V : (c : Dev nD) → (b : Ref sig .tc) → Buf (Elt F) ((c : Thread nD τ).loc b))

/-- Window `w`'s block of its array, as the region finds the array, at grid point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The refill branch is taken exactly at the points whose index is a multiple of four: the first row tile of each batch entry. -/
theorem hcond0 : ∀ t : Fin cfg0.N, cond0 (grid0.coords t) ↔ t.val % 4 = 0 :=
  (by decide +kernel : ∀ t : Fin grid0.N, cond0 (grid0.coords t) ↔ t.val % 4 = 0)

/-- The scratch operand, a whole buffer of the kernel's own. -/
abbrev scM0 : Memref sig .tc .vmem S3x2048x64 .f32 := Memref.whole cc0_scratch0

/-- What the scratch holds after the first `n` points: refilled with the batch entry's features times the weights at
    every fourth point (its three slabs, one per relation), kept in between (before the first point: not named). -/
def scr0 (c : Dev nD) : ℕ → Vec F S3x2048x64 .f32
  | 0 => constant S3x2048x64 .f32 0x00000000#32
  | n + 1 => if h : n < cfg0.N then (if n % 4 = 0 then xwOf (iblk0 V c 0 ⟨n, h⟩) (iblk0 V c 2 ⟨n, h⟩) else scr0 c n) else scr0 c n

theorem scr0_fill (c : Dev nD) (t : Fin cfg0.N) (h : t.val % 4 = 0) :
    scr0 V c (t.val + 1) = xwOf (iblk0 V c 0 t) (iblk0 V c 2 t) := by
  rw [scr0, dif_pos t.isLt, if_pos h]
theorem scr0_keep (c : Dev nD) (t : Fin cfg0.N) (h : ¬ t.val % 4 = 0) :
    scr0 V c (t.val + 1) = scr0 V c t.val := by
  rw [scr0, dif_pos t.isLt, if_neg h]

/-- The output tile the body leaves at point `t`: the tile's payload of the adjacency tile, the scratch as the point
    leaves it, and the bias. -/
def out0At (c : Dev nD) (t : Fin cfg0.N) : Vec F S1x512x64 .f32 :=
  out0 (iblk0 V c 1 t) (scr0 V c (t.val + 1)) (iblk0 V c 3 t)

/-- The core's other scoped buffers (staging buffers and scratch of the other calls), each whole at some contents. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg4_1), ((c : Thread nD τ).loc cc2_stg4_1) ↦{fullShare} f)
    ∗ (∃ f : Buf (Elt F) ((c : Thread nD τ).loc cc2_scratch0), ((c : Thread nD τ).loc cc2_scratch0) ↦{fullShare} f))

/-- The body's invariant after `n` points: the scratch at the contents computed so far, beside the other scoped buffers and the generator register. -/
def Phi0 (c : Dev nD) (n : ℕ) : sProp 𝕄 :=
  iprop((∃ d, ⌜n ≠ 0 → d = scr0 V c n⌝ ∗ owns (c : Thread nD τ) scM0 fullShare d) ∗ rest0 c ∗ (∃ r, prngReg c r))

/-- The pipeline's proof data: the arrays as found; every input buffer left at its block, the output at `out0At`;
    nothing owed, full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0At V c t
  Φ t := Phi0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0At V c t := by dsimp only [dat0]

/-- Input window 0's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
/-- Input window 1's current staging buffer holds its block at every point, fetched there or not. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
/-- Input window 2's current staging buffer holds its block at every point, fetched there or not. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
/-- Input window 3's current staging buffer holds its block at every point, fetched there or not. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

end Region0

section Region0Body
variable (V : (c : Dev nD) → (b : Ref sig .tc) → Buf (Elt F) ((c : Thread nD τ).loc b))

/-- The body at any point: each input buffer holds its block; at a refill point the run refills the scratch whatever it
    held, elsewhere the scratch holds what the points before computed and is kept; the output buffer is left at the
    tile's payload; the other scoped buffers and the core's dues ride along untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [after0_0, after0_1, after0_2, after0_3, after0_4]
  rw [show (dat0 V c).Φ t.castSucc = Phi0 V c t.val from rfl, show (dat0 V c).Φ t.succ = Phi0 V c (t.val + 1) from rfl]
  unfold Phi0 Dat.owesAt Pipeline.owesWithin
  rw [show (dat0 V c).owed t.castSucc = 0 from rfl, show (dat0 V c).owed t.succ = 0 from rfl]
  iintro ⟨⟨⟨%ds, %hds, HS⟩, HR, Hg⟩, ⟨%W, -, HW⟩, ⟨%d0, H0⟩, ⟨%d1, H1⟩, ⟨%d2, H2⟩, ⟨%d3, H3⟩, ⟨%d4, H4⟩⟩
  by_cases hc : cond0 (grid0.coords t)
  · have h4 : t.val % 4 = 0 := (hcond0 t).mp hc
    iapply (run0_fill c (grid0.coords t) _ _ _ _ _ _ _ _ _ _ _ _ hc (iblk0 V c 0 t) (iblk0 V c 1 t) (iblk0 V c 2 t) (iblk0 V c 3 t) Set.univ _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, H4, HS⟩
    isplitl [HS HR Hg]
    · isplitl [HS]
      · iexists _; isplitr; swap; · iexact HS
        ipureintro; intro _; exact (scr0_fill V c t h4).symm
      isplitl [HR]; · iexact HR
      iexact Hg
    isplitl [HW]
    · iexists W; isplitr; · ipureintro; exact fun _ _ => Or.inl trivial
      iexact HW
    isplitl [H0]; · iexact H0
    isplitl [H1]; · iexact H1
    isplitl [H2]; · iexact H2
    isplitl [H3]; · iexact H3
    unfold out0At; rw [scr0_fill V c t h4]; iexact H4
  · have h4 : ¬ t.val % 4 = 0 := fun h => hc ((hcond0 t).mpr h)
    have ht : t.val ≠ 0 := fun h => h4 (by rw [h])
    obtain rfl := hds ht
    iapply (run0_keep c (grid0.coords t) _ _ _ _ _ _ _ _ _ _ _ _ hc (iblk0 V c 0 t) (iblk0 V c 1 t) (iblk0 V c 2 t) (iblk0 V c 3 t) (scr0 V c t.val) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS]
      · iexists _; isplitr; swap; · iexact HS
        ipureintro; intro _; exact (scr0_keep V c t h4).symm
      isplitl [HR]; · iexact HR
      iexact Hg
    isplitl [HW]
    · iexists W; isplitr; · ipureintro; exact fun _ _ => Or.inl trivial
      iexact HW
    isplitl [H0]; · iexact H0
    isplitl [H1]; · iexact H1
    isplitl [H2]; · iexact H2
    isplitl [H3]; · iexact H3
    unfold out0At; rw [scr0_keep V c t h4]; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0Body

end Cert.Kernel.Hand

end
-- ==== Proof.KbRuns1.lean ====
/-
  The body of the second graph-convolution call, run once per branch of its one conditional.
  At the first row tile of a batch entry the body refills its scratch with the entry's feature block times the weight
  block (one matrix product) and then computes the tile's output from the adjacency tile, the refilled scratch and the
  bias; at the other row tiles it leaves the scratch alone and computes the output from what the scratch holds.  Every
  load and store goes through a whole staging buffer, so each buffer's contents after the body are the stored payload.
-/
import proofs.«165070_j9002251452429_2_alg».proof.Proof.Gen.Kernel.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The branch of the second region's body: taken exactly at the points whose second grid coordinate is zero,
    that is at the first row tile of each batch entry. -/
abbrev cond1 (i : grid1.Coords) : Prop :=
  (Scalar.cmpi .ne (Scalar.extui (Scalar.cmpi .eq (BitVec.ofNat 32 (i 1).val) 0#32)) 0#32) = 1#1

theorem hz3 : (![0, 0, 0] : Fin 3 → Nat) = fun _ => 0 := by
  funext a; fin_cases a <;> rfl
theorem hz1 : (![0] : Fin 1 → Nat) = fun _ => 0 := by
  funext a; fin_cases a; rfl

/-- A later row tile of a batch entry: the scratch keeps the projected features `xs` it was handed, and the output
    block is the tile's payload of the adjacency tile, that scratch and the bias. -/
theorem run1_keep (c : Dev nD) (i : grid1.Coords)
    (arg2 : Memref sig .tc .vmem S1x2048x64 .f32) (harg2 : arg2.IsWhole)
    (arg3 : Memref sig .tc .vmem S1x512x2048 .f32) (harg3 : arg3.IsWhole)
    (arg4 : Memref sig .tc .vmem S1x64x64 .f32) (harg4 : arg4.IsWhole)
    (arg5 : Memref sig .tc .vmem S64 .f32) (harg5 : arg5.IsWhole)
    (arg6 : Memref sig .tc .vmem S1x512x64 .f32) (harg6 : arg6.IsWhole)
    (arg7 : Memref sig .tc .vmem S1x2048x64 .f32) (harg7 : arg7.IsWhole)
    (hc : ¬ cond1 i)
    (x0 : Vec F S1x2048x64 .f32) (x1 : Vec F S1x512x2048 .f32) (x2 : Vec F S1x64x64 .f32) (x3 : Vec F S64 .f32)
    (xs : Vec F S1x2048x64 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k1_pay2 x1 xs x3) ∗ owns (c : Thread nD τ) arg7 fullShare xs) -∗ K ⟨⟩))
      ⊢ wp frame (wpE (defs₀ (F := F)) Variants.none c none) E
          (cc1_kernel i arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg2.eq_unread hf0; obtain rfl := harg3.eq_unread hf1
  obtain rfl := harg4.eq_unread hf2; obtain rfl := harg5.eq_unread hf3
  obtain rfl := harg7.eq_unread hf5
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    rw [View.read_writes_eq_canon _ _ _ (fun y => View.cover_of_tiledL _ S1x512x64.size (by sl_kernel_rfl) y),
      View.canon_unit_zero hz3]
    simp only [View.readAt_eq_ld, harg3.read_unread, harg7.read_unread, harg5.read_unread,
      View.ld_unit_zero (S := S1x512x2048) hz3, View.ld_unit_zero (S := S1x2048x64) hz3, View.ld_unit_zero (S := S64) hz1]
  iexists _; isplitr; · ipureintro; exact hf5
  iexact H5

/-- The first row tile of a batch entry: the scratch is refilled with the entry's features times the weights, whatever it
    held, and the output block is the tile's payload over the refilled scratch. -/
theorem run1_fill (c : Dev nD) (i : grid1.Coords)
    (arg2 : Memref sig .tc .vmem S1x2048x64 .f32) (harg2 : arg2.IsWhole)
    (arg3 : Memref sig .tc .vmem S1x512x2048 .f32) (harg3 : arg3.IsWhole)
    (arg4 : Memref sig .tc .vmem S1x64x64 .f32) (harg4 : arg4.IsWhole)
    (arg5 : Memref sig .tc .vmem S64 .f32) (harg5 : arg5.IsWhole)
    (arg6 : Memref sig .tc .vmem S1x512x64 .f32) (harg6 : arg6.IsWhole)
    (arg7 : Memref sig .tc .vmem S1x2048x64 .f32) (harg7 : arg7.IsWhole)
    (hc : cond1 i)
    (x0 : Vec F S1x2048x64 .f32) (x1 : Vec F S1x512x2048 .f32) (x2 : Vec F S1x64x64 .f32) (x3 : Vec F S64 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k1_pay2 x1 (k1_pay1 x0 x2) x3)
            ∗ owns (c : Thread nD τ) arg7 fullShare (k1_pay1 x0 x2)) -∗ K ⟨⟩))
      ⊢ wp frame (wpE (defs₀ (F := F)) Variants.none c none) E
          (cc1_kernel i arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg2.eq_unread hf0; obtain rfl := harg3.eq_unread hf1
  obtain rfl := harg4.eq_unread hf2; obtain rfl := harg5.eq_unread hf3
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    sl_unfold_words
    rw [View.read_writes_eq_canon _ _ _ (fun y => View.cover_of_tiledL _ S1x512x64.size (by sl_kernel_rfl) y), View.canon_unit_zero hz3, View.readCov_unit_zero _ hz3]
    simp only [View.readAt_eq_ld, harg2.read_unread, harg3.read_unread, harg4.read_unread, harg5.read_unread,
      View.ld_unit_zero (S := S1x512x2048) hz3, View.ld_unit_zero (S := S1x2048x64) hz3,
      View.ld_unit_zero (S := S1x64x64) hz3, View.ld_unit_zero (S := S64) hz1]
  iexists _; isplitr; swap; · iexact H5
  ipureintro
  sl_unfold_words
  rw [View.read_writes_eq_canon _ _ _ (fun y => View.cover_of_tiledL _ S1x2048x64.size (by sl_kernel_rfl) y), View.canon_unit_zero hz3]
  simp only [View.readAt_eq_ld, harg2.read_unread, harg4.read_unread,
    View.ld_unit_zero (S := S1x2048x64) hz3, View.ld_unit_zero (S := S1x64x64) hz3]

end Cert.Kernel.Hand

end
-- ==== Proof.KbDat1.lean ====
/-
  The proof data of the second graph-convolution call and its body obligation.  The grid is (batch entry, row tile) with
  the row tile fastest, 32 points; at point t the entry is t / 4.  The scratch holds, after the first row tile of an
  entry, that entry's features times the weights, and keeps it through the entry's other three tiles: its contents after
  n points are defined by recursion on n.  Each input buffer is left at its block, the output buffer at the tile's payload.
-/
import proofs.«165070_j9002251452429_2_alg».proof.Proof.KbRuns1
import proofs.«165070_j9002251452429_2_alg».proof.Proof.KbLaunchP
import proofs.«165070_j9002251452429_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1
variable (V : (c : Dev nD) → (b : Ref sig .tc) → Buf (Elt F) ((c : Thread nD τ).loc b))

/-- Window `w`'s block of its array, as the region finds the array, at grid point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The refill branch is taken exactly at the points whose index is a multiple of four: the first row tile of each batch entry. -/
theorem hcond1 : ∀ t : Fin cfg1.N, cond1 (grid1.coords t) ↔ t.val % 4 = 0 :=
  (by decide +kernel : ∀ t : Fin grid1.N, cond1 (grid1.coords t) ↔ t.val % 4 = 0)

/-- The scratch operand, a whole buffer of the kernel's own. -/
abbrev scM1 : Memref sig .tc .vmem S1x2048x64 .f32 := Memref.whole cc1_scratch0

/-- What the scratch holds after the first `n` points: refilled with the batch entry's features times the weights at
    every fourth point, kept in between (before the first point: not named). -/
def scr1 (c : Dev nD) : ℕ → Vec F S1x2048x64 .f32
  | 0 => constant S1x2048x64 .f32 0x00000000#32
  | n + 1 => if h : n < cfg1.N then (if n % 4 = 0 then k1_pay1 (iblk1 V c 0 ⟨n, h⟩) (iblk1 V c 2 ⟨n, h⟩) else scr1 c n) else scr1 c n

theorem scr1_fill (c : Dev nD) (t : Fin cfg1.N) (h : t.val % 4 = 0) :
    scr1 V c (t.val + 1) = k1_pay1 (iblk1 V c 0 t) (iblk1 V c 2 t) := by
  rw [scr1, dif_pos t.isLt, if_pos h]
theorem scr1_keep (c : Dev nD) (t : Fin cfg1.N) (h : ¬ t.val % 4 = 0) :
    scr1 V c (t.val + 1) = scr1 V c t.val := by
  rw [scr1, dif_pos t.isLt, if_neg h]

/-- The output tile the body leaves at point `t`: the tile's payload of the adjacency tile, the scratch as the point
    leaves it, and the bias. -/
def out1At (c : Dev nD) (t : Fin cfg1.N) : Vec F S1x512x64 .f32 :=
  k1_pay2 (iblk1 V c 1 t) (scr1 V c (t.val + 1)) (iblk1 V c 3 t)

/-- The core's other scoped buffers (staging buffers and scratch of the other calls), each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg4_1), ((c : Thread nD τ).loc cc2_stg4_1) ↦{fullShare} f)
    ∗ (∃ f : Buf (Elt F) ((c : Thread nD τ).loc cc2_scratch0), ((c : Thread nD τ).loc cc2_scratch0) ↦{fullShare} f))

/-- The body's invariant after `n` points: the scratch at the contents computed so far, beside the other scoped buffers and the generator register. -/
def Phi1 (c : Dev nD) (n : ℕ) : sProp 𝕄 :=
  iprop((∃ d, ⌜n ≠ 0 → d = scr1 V c n⌝ ∗ owns (c : Thread nD τ) scM1 fullShare d) ∗ rest1 c ∗ (∃ r, prngReg c r))

/-- The pipeline's proof data: the arrays as found; every input buffer left at its block, the output at `out1At`;
    nothing owed, full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1At V c t
  Φ t := Phi1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1At V c t := by dsimp only [dat1]

/-- Input window 0's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
/-- Input window 1's current staging buffer holds its block at every point, fetched there or not. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
/-- Input window 2's current staging buffer holds its block at every point, fetched there or not. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
/-- Input window 3's current staging buffer holds its block at every point, fetched there or not. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

end Region1

section Region1Body
variable (V : (c : Dev nD) → (b : Ref sig .tc) → Buf (Elt F) ((c : Thread nD τ).loc b))

/-- The body at any point: each input buffer holds its block; at a refill point the run refills the scratch whatever it
    held, elsewhere the scratch holds what the points before computed and is kept; the output buffer is left at the
    tile's payload; the other scoped buffers and the core's dues ride along untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [after1_0, after1_1, after1_2, after1_3, after1_4]
  rw [show (dat1 V c).Φ t.castSucc = Phi1 V c t.val from rfl, show (dat1 V c).Φ t.succ = Phi1 V c (t.val + 1) from rfl]
  unfold Phi1 Dat.owesAt Pipeline.owesWithin
  rw [show (dat1 V c).owed t.castSucc = 0 from rfl, show (dat1 V c).owed t.succ = 0 from rfl]
  iintro ⟨⟨⟨%ds, %hds, HS⟩, HR, Hg⟩, ⟨%W, -, HW⟩, ⟨%d0, H0⟩, ⟨%d1, H1⟩, ⟨%d2, H2⟩, ⟨%d3, H3⟩, ⟨%d4, H4⟩⟩
  by_cases hc : cond1 (grid1.coords t)
  · have h4 : t.val % 4 = 0 := (hcond1 t).mp hc
    iapply (run1_fill c (grid1.coords t) _ _ _ _ _ _ _ _ _ _ _ _ hc (iblk1 V c 0 t) (iblk1 V c 1 t) (iblk1 V c 2 t) (iblk1 V c 3 t) Set.univ _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, H4, HS⟩
    isplitl [HS HR Hg]
    · isplitl [HS]
      · iexists _; isplitr; swap; · iexact HS
        ipureintro; intro _; exact (scr1_fill V c t h4).symm
      isplitl [HR]; · iexact HR
      iexact Hg
    isplitl [HW]
    · iexists W; isplitr; · ipureintro; exact fun _ _ => Or.inl trivial
      iexact HW
    isplitl [H0]; · iexact H0
    isplitl [H1]; · iexact H1
    isplitl [H2]; · iexact H2
    isplitl [H3]; · iexact H3
    unfold out1At; rw [scr1_fill V c t h4]; iexact H4
  · have h4 : ¬ t.val % 4 = 0 := fun h => hc ((hcond1 t).mpr h)
    have ht : t.val ≠ 0 := fun h => h4 (by rw [h])
    obtain rfl := hds ht
    iapply (run1_keep c (grid1.coords t) _ _ _ _ _ _ _ _ _ _ _ _ hc (iblk1 V c 0 t) (iblk1 V c 1 t) (iblk1 V c 2 t) (iblk1 V c 3 t) (scr1 V c t.val) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS]
      · iexists _; isplitr; swap; · iexact HS
        ipureintro; intro _; exact (scr1_keep V c t h4).symm
      isplitl [HR]; · iexact HR
      iexact Hg
    isplitl [HW]
    · iexists W; isplitr; · ipureintro; exact fun _ _ => Or.inl trivial
      iexact HW
    isplitl [H0]; · iexact H0
    isplitl [H1]; · iexact H1
    isplitl [H2]; · iexact H2
    isplitl [H3]; · iexact H3
    unfold out1At; rw [scr1_keep V c t h4]; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1Body

end Cert.Kernel.Hand

end
-- ==== Proof.KbRuns2.lean ====
/-
  The body of the third graph-convolution call, run once per branch of its one conditional.
  At the first row tile of a batch entry the body refills its scratch with the entry's feature block times the weight
  block (one matrix product) and then computes the tile's output from the adjacency tile, the refilled scratch and the
  bias; at the other row tiles it leaves the scratch alone and computes the output from what the scratch holds.  Every
  load and store goes through a whole staging buffer, so each buffer's contents after the body are the stored payload.
-/
import proofs.«165070_j9002251452429_2_alg».proof.Proof.Gen.Kernel.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«165070_j9002251452429_2_alg».proof.Proof.KbRuns1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The branch of the third region's body: taken exactly at the points whose second grid coordinate is zero,
    that is at the first row tile of each batch entry. -/
abbrev cond2 (i : grid2.Coords) : Prop :=
  (Scalar.cmpi .ne (Scalar.extui (Scalar.cmpi .eq (BitVec.ofNat 32 (i 1).val) 0#32)) 0#32) = 1#1

/-- A later row tile of a batch entry: the scratch keeps the projected features `xs` it was handed, and the output
    block is the tile's payload of the adjacency tile, that scratch and the bias. -/
theorem run2_keep (c : Dev nD) (i : grid2.Coords)
    (arg2 : Memref sig .tc .vmem S1x2048x64 .f32) (harg2 : arg2.IsWhole)
    (arg3 : Memref sig .tc .vmem S1x512x2048 .f32) (harg3 : arg3.IsWhole)
    (arg4 : Memref sig .tc .vmem S1x64x64 .f32) (harg4 : arg4.IsWhole)
    (arg5 : Memref sig .tc .vmem S64 .f32) (harg5 : arg5.IsWhole)
    (arg6 : Memref sig .tc .vmem S1x512x64 .f32) (harg6 : arg6.IsWhole)
    (arg7 : Memref sig .tc .vmem S1x2048x64 .f32) (harg7 : arg7.IsWhole)
    (hc : ¬ cond2 i)
    (x0 : Vec F S1x2048x64 .f32) (x1 : Vec F S1x512x2048 .f32) (x2 : Vec F S1x64x64 .f32) (x3 : Vec F S64 .f32)
    (xs : Vec F S1x2048x64 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k2_pay2 x1 xs x3) ∗ owns (c : Thread nD τ) arg7 fullShare xs) -∗ K ⟨⟩))
      ⊢ wp frame (wpE (defs₀ (F := F)) Variants.none c none) E
          (cc2_kernel i arg2 harg2 arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg2.eq_unread hf0; obtain rfl := harg3.eq_unread hf1
  obtain rfl := harg4.eq_unread hf2; obtain rfl := harg5.eq_unread hf3
  obtain rfl := harg7.eq_unread hf5
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    rw [View.read_writes_eq_canon _ _ _ (fun y => View.cover_of_tiledL _ S1x512x64.size (by sl_kernel_rfl) y),
      View.canon_unit_zero hz3]
    simp only [View.readAt_eq_ld, harg3.read_unread, harg7.read_unread, harg5.read_unread,
      View.ld_unit_zero (S := S1x512x2048) hz3, View.ld_unit_zero (S := S1x2048x64) hz3, View.ld_unit_zero (S := S64) hz1]
  iexists _; isplitr; · ipureintro; exact hf5
  iexact H5

/-- The first row tile of a batch entry: the scratch is refilled with the entry's features times the weights, whatever it
    held, and the output block is the tile's payload over the refilled scratch. -/
theorem run2_fill (c : Dev nD) (i : grid2.Coords)
    (arg2 : Memref sig .tc .vmem S1x2048x64 .f32) (harg2 : arg2.IsWhole)
    (arg3 : Memref sig .tc .vmem S1x512x2048 .f32) (harg3 : arg3.IsWhole)
    (arg4 : Memref sig .tc .vmem S1x64x64 .f32) (harg4 : arg4.IsWhole)
    (arg5 : Memref sig .tc .vmem S64 .f32) (harg5 : arg5.IsWhole)
    (arg6 : Memref sig .tc .vmem S1x512x64 .f32) (harg6 : arg6.IsWhole)
    (arg7 : Memref sig .tc .vmem S1x2048x64 .f32) (harg7 : arg7.IsWhole)
    (hc : cond2 i)
    (x0 : Vec F S1x2048x64 .f32) (x1 : Vec F S1x512x2048 .f32) (x2 : Vec F S1x64x64 .f32) (x3 : Vec F S64 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k2_pay2 x1 (k2_pay1 x0 x2) x3)
            ∗ owns (c : Thread nD τ) arg7 fullShare (k2_pay1 x0 x2)) -∗ K ⟨⟩))
      ⊢ wp frame (wpE (defs₀ (F := F)) Variants.none c none) E
          (cc2_kernel i arg2 harg2 arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg2.eq_unread hf0; obtain rfl := harg3.eq_unread hf1
  obtain rfl := harg4.eq_unread hf2; obtain rfl := harg5.eq_unread hf3
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    sl_unfold_words
    rw [View.read_writes_eq_canon _ _ _ (fun y => View.cover_of_tiledL _ S1x512x64.size (by sl_kernel_rfl) y), View.canon_unit_zero hz3, View.readCov_unit_zero _ hz3]
    simp only [View.readAt_eq_ld, harg2.read_unread, harg3.read_unread, harg4.read_unread, harg5.read_unread,
      View.ld_unit_zero (S := S1x512x2048) hz3, View.ld_unit_zero (S := S1x2048x64) hz3,
      View.ld_unit_zero (S := S1x64x64) hz3, View.ld_unit_zero (S := S64) hz1]
  iexists _; isplitr; swap; · iexact H5
  ipureintro
  sl_unfold_words
  rw [View.read_writes_eq_canon _ _ _ (fun y => View.cover_of_tiledL _ S1x2048x64.size (by sl_kernel_rfl) y), View.canon_unit_zero hz3]
  simp only [View.readAt_eq_ld, harg2.read_unread, harg4.read_unread,
    View.ld_unit_zero (S := S1x2048x64) hz3, View.ld_unit_zero (S := S1x64x64) hz3]

end Cert.Kernel.Hand

end
-- ==== Proof.KbDat2.lean ====
/-
  The proof data of the third graph-convolution call and its body obligation.  The grid is (batch entry, row tile) with
  the row tile fastest, 32 points; at point t the entry is t / 4.  The scratch holds, after the first row tile of an
  entry, that entry's features times the weights, and keeps it through the entry's other three tiles: its contents after
  n points are defined by recursion on n.  Each input buffer is left at its block, the output buffer at the tile's payload.
-/
import proofs.«165070_j9002251452429_2_alg».proof.Proof.KbRuns2
import proofs.«165070_j9002251452429_2_alg».proof.Proof.KbLaunchP
import proofs.«165070_j9002251452429_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region2
variable (V : (c : Dev nD) → (b : Ref sig .tc) → Buf (Elt F) ((c : Thread nD τ).loc b))

/-- Window `w`'s block of its array, as the region finds the array, at grid point `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The refill branch is taken exactly at the points whose index is a multiple of four: the first row tile of each batch entry. -/
theorem hcond2 : ∀ t : Fin cfg2.N, cond2 (grid2.coords t) ↔ t.val % 4 = 0 :=
  (by decide +kernel : ∀ t : Fin grid2.N, cond2 (grid2.coords t) ↔ t.val % 4 = 0)

/-- The scratch operand, a whole buffer of the kernel's own. -/
abbrev scM2 : Memref sig .tc .vmem S1x2048x64 .f32 := Memref.whole cc2_scratch0

/-- What the scratch holds after the first `n` points: refilled with the batch entry's features times the weights at
    every fourth point, kept in between (before the first point: not named). -/
def scr2 (c : Dev nD) : ℕ → Vec F S1x2048x64 .f32
  | 0 => constant S1x2048x64 .f32 0x00000000#32
  | n + 1 => if h : n < cfg2.N then (if n % 4 = 0 then k2_pay1 (iblk2 V c 0 ⟨n, h⟩) (iblk2 V c 2 ⟨n, h⟩) else scr2 c n) else scr2 c n

theorem scr2_fill (c : Dev nD) (t : Fin cfg2.N) (h : t.val % 4 = 0) :
    scr2 V c (t.val + 1) = k2_pay1 (iblk2 V c 0 t) (iblk2 V c 2 t) := by
  rw [scr2, dif_pos t.isLt, if_pos h]
theorem scr2_keep (c : Dev nD) (t : Fin cfg2.N) (h : ¬ t.val % 4 = 0) :
    scr2 V c (t.val + 1) = scr2 V c t.val := by
  rw [scr2, dif_pos t.isLt, if_neg h]

/-- The output tile the body leaves at point `t`: the tile's payload of the adjacency tile, the scratch as the point
    leaves it, and the bias. -/
def out2At (c : Dev nD) (t : Fin cfg2.N) : Vec F S1x512x64 .f32 :=
  k2_pay2 (iblk2 V c 1 t) (scr2 V c (t.val + 1)) (iblk2 V c 3 t)

/-- The core's other scoped buffers (staging buffers and scratch of the other calls), each whole at some contents. -/
def rest2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_scratch0), ((c : Thread nD τ).loc cc1_scratch0) ↦{fullShare} f))

/-- The body's invariant after `n` points: the scratch at the contents computed so far, beside the other scoped buffers and the generator register. -/
def Phi2 (c : Dev nD) (n : ℕ) : sProp 𝕄 :=
  iprop((∃ d, ⌜n ≠ 0 → d = scr2 V c n⌝ ∗ owns (c : Thread nD τ) scM2 fullShare d) ∗ rest2 c ∗ (∃ r, prngReg c r))

/-- The pipeline's proof data: the arrays as found; every input buffer left at its block, the output at `out2At`;
    nothing owed, full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2At V c t
  Φ t := Phi2 V c t.val
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2At V c t := by dsimp only [dat2]

/-- Input window 0's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
/-- Input window 1's current staging buffer holds its block at every point, fetched there or not. -/
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
/-- Input window 2's current staging buffer holds its block at every point, fetched there or not. -/
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
/-- Input window 3's current staging buffer holds its block at every point, fetched there or not. -/
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

end Region2

section Region2Body
variable (V : (c : Dev nD) → (b : Ref sig .tc) → Buf (Elt F) ((c : Thread nD τ).loc b))

/-- The body at any point: each input buffer holds its block; at a refill point the run refills the scratch whatever it
    held, elsewhere the scratch holds what the points before computed and is kept; the output buffer is left at the
    tile's payload; the other scoped buffers and the core's dues ride along untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [after2_0, after2_1, after2_2, after2_3, after2_4]
  rw [show (dat2 V c).Φ t.castSucc = Phi2 V c t.val from rfl, show (dat2 V c).Φ t.succ = Phi2 V c (t.val + 1) from rfl]
  unfold Phi2 Dat.owesAt Pipeline.owesWithin
  rw [show (dat2 V c).owed t.castSucc = 0 from rfl, show (dat2 V c).owed t.succ = 0 from rfl]
  iintro ⟨⟨⟨%ds, %hds, HS⟩, HR, Hg⟩, ⟨%W, -, HW⟩, ⟨%d0, H0⟩, ⟨%d1, H1⟩, ⟨%d2, H2⟩, ⟨%d3, H3⟩, ⟨%d4, H4⟩⟩
  by_cases hc : cond2 (grid2.coords t)
  · have h4 : t.val % 4 = 0 := (hcond2 t).mp hc
    iapply (run2_fill c (grid2.coords t) _ _ _ _ _ _ _ _ _ _ _ _ hc (iblk2 V c 0 t) (iblk2 V c 1 t) (iblk2 V c 2 t) (iblk2 V c 3 t) Set.univ _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, H4, HS⟩
    isplitl [HS HR Hg]
    · isplitl [HS]
      · iexists _; isplitr; swap; · iexact HS
        ipureintro; intro _; exact (scr2_fill V c t h4).symm
      isplitl [HR]; · iexact HR
      iexact Hg
    isplitl [HW]
    · iexists W; isplitr; · ipureintro; exact fun _ _ => Or.inl trivial
      iexact HW
    isplitl [H0]; · iexact H0
    isplitl [H1]; · iexact H1
    isplitl [H2]; · iexact H2
    isplitl [H3]; · iexact H3
    unfold out2At; rw [scr2_fill V c t h4]; iexact H4
  · have h4 : ¬ t.val % 4 = 0 := fun h => hc ((hcond2 t).mpr h)
    have ht : t.val ≠ 0 := fun h => h4 (by rw [h])
    obtain rfl := hds ht
    iapply (run2_keep c (grid2.coords t) _ _ _ _ _ _ _ _ _ _ _ _ hc (iblk2 V c 0 t) (iblk2 V c 1 t) (iblk2 V c 2 t) (iblk2 V c 3 t) (scr2 V c t.val) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS]
      · iexists _; isplitr; swap; · iexact HS
        ipureintro; intro _; exact (scr2_keep V c t h4).symm
      isplitl [HR]; · iexact HR
      iexact Hg
    isplitl [HW]
    · iexists W; isplitr; · ipureintro; exact fun _ _ => Or.inl trivial
      iexact HW
    isplitl [H0]; · iexact H0
    isplitl [H1]; · iexact H1
    isplitl [H2]; · iexact H2
    isplitl [H3]; · iexact H3
    unfold out2At; rw [scr2_keep V c t h4]; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2Body

end Cert.Kernel.Hand

end
-- ==== Proof.KbMain.lean ====
/-
  The whole run of @main: three graph-convolution calls, each followed by a stretch of host operations (batch
  normalisation, maximum over the nodes, the slice of the next weights; at the end the concatenation and the linear map).
  Between two items every unscoped buffer is held at a named valuation: a call replaces its windows' arrays by what its
  write-backs leave, a stretch folds its operations.  The run is the library's theorem for @main as a list of segments.
-/
import proofs.«165070_j9002251452429_2_alg».proof.Proof.KbDat0
import proofs.«165070_j9002251452429_2_alg».proof.Proof.KbDat1
import proofs.«165070_j9002251452429_2_alg».proof.Proof.KbDat2
import Idealize.ShloMosaic.Lib.Pipeline.Regions
import Idealize.ShloMosaic.Lib.Pipeline.RegionsLoop

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The host stretches allocate nothing -/
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

variable (m : (ℓ : Loc nD τ sig) → Buf (Elt F) ℓ) (ρ : Dev nD → PrngReg)

/-! ## The buffers' contents between the items of @main -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the first call: its windows' arrays at what the write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operations that follow it. -/
def W2 (c : Dev nD) : Valuation τ sig (Elt F) := StableHlo.after hostOps1 (W1 m ρ c)
abbrev V2 : (c : Dev nD) → (b : Ref sig .tc) → Buf (Elt F) ((c : Thread nD τ).loc b) := fun c b => W2 m ρ c b

/-- After the second call: its windows' arrays at what the write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the host operations that follow it. -/
def W4 (c : Dev nD) : Valuation τ sig (Elt F) := StableHlo.after hostOps2 (W3 m ρ c)
abbrev V4 : (c : Dev nD) → (b : Ref sig .tc) → Buf (Elt F) ((c : Thread nD τ).loc b) := fun c b => W4 m ρ c b

/-- After the third call: its windows' arrays at what the write-backs leave, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the host operations that follow it. -/
def W6 (c : Dev nD) : Valuation τ sig (Elt F) := StableHlo.after hostOps3 (W5 m ρ c)
abbrev V6 : (c : Dev nD) → (b : Ref sig .tc) → Buf (Elt F) ((c : Thread nD τ).loc b) := fun c b => W6 m ρ c b

/-! ## The proof data family and what rides along -/

abbrev adm : (p : Fin 3) → (pcfgs (F := F) p).Adm := fun p => (cfgs p).toPCfg_adm
/-- Every call's proof data, each at the contents its call is entered with. -/
def pdats : (p : Fin 3) → (c : Dev nD) → Dat τ (Elt F) Unit ℕ (Pipeline.UD sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
/-- A stretch of host operations as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The three calls as segments -/

-- a library lemma stated over the pinned configuration unifies with the printed one only when unification may unfold
-- plain definitions in a metavariable's type
set_option backward.isDefEq.respectTransparency.types false in
/-- The first call as a segment: entered with every unscoped buffer at `W0`, left with them at `W1`.  Its windows'
    arrays are taken out of the unscoped buffers and put back at what the write-backs leave; its scratch comes out of the
    scoped buffers at some contents and goes back at some contents; the generator register passes through; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Phi0 (V0 m ρ) c 0 from rfl]; unfold Phi0 rest0
    rw [show (Pipeline.scopedRest (Ix := Unit) (Name := ℕ) (U := Pipeline.UD sig nD τ) (Lvl := ℕ) (Val := Elt F) (Pipeline.pin (pcfgs (F := F)) adm 0).spec c : sProp 𝕄) = _
      from scopedRest0_eq (Ix := Unit) (Val := Elt F) (Name := ℕ) (U := Pipeline.UD sig nD τ) (Lvl := ℕ) c]
    iintro ⟨Hp, -, ⟨H0, H1, H2, H3, H4, H5, H6, H7, H8, H9, H10, H11, H12, H13, H14, H15, H16, H17, H18⟩⟩
    isplitl [H0]
    · icases H0 with ⟨%f, H0⟩; iexists f; isplitr; · ipureintro; exact fun h => absurd rfl h
      simp only [scM0, owns_whole]; iexact H0
    isplitl [H1 H2 H3 H4 H5 H6 H7 H8 H9 H10 H11 H12 H13 H14 H15 H16 H17 H18]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    iexact Hp
  hout c := by
    rw [Pipeline.ownSems0_none, show (pdats m ρ 0 c).Φ (Fin.last _) = Phi0 (V0 m ρ) c cfg0.N from rfl]; unfold Phi0 rest0
    rw [show (Pipeline.scopedRest (Ix := Unit) (Name := ℕ) (U := Pipeline.UD sig nD τ) (Lvl := ℕ) (Val := Elt F) (Pipeline.pin (pcfgs (F := F)) adm 0).spec c : sProp 𝕄) = _
      from scopedRest0_eq (Ix := Unit) (Val := Elt F) (Name := ℕ) (U := Pipeline.UD sig nD τ) (Lvl := ℕ) c]
    iintro ⟨⟨%d, -, H0⟩, ⟨H1, H2, H3, H4, H5, H6, H7, H8, H9, H10, H11, H12, H13, H14, H15, H16, H17, H18⟩, Hp⟩
    isplitl [Hp]; · iexact Hp
    isplitr; · iempintro
    isplitl [H0]; (· iexists d; simp only [scM0, owns_whole]; iexact H0)
    isplitl [H1]; (· iexact H1)
    isplitl [H2]; (· iexact H2)
    isplitl [H3]; (· iexact H3)
    isplitl [H4]; (· iexact H4)
    isplitl [H5]; (· iexact H5)
    isplitl [H6]; (· iexact H6)
    isplitl [H7]; (· iexact H7)
    isplitl [H8]; (· iexact H8)
    isplitl [H9]; (· iexact H9)
    isplitl [H10]; (· iexact H10)
    isplitl [H11]; (· iexact H11)
    isplitl [H12]; (· iexact H12)
    isplitl [H13]; (· iexact H13)
    isplitl [H14]; (· iexact H14)
    isplitl [H15]; (· iexact H15)
    isplitl [H16]; (· iexact H16)
    isplitl [H17]; (· iexact H17)
    iexact H18
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The second call as a segment: entered with every unscoped buffer at `W2`, left with them at `W3`.  Its windows'
    arrays are taken out of the unscoped buffers and put back at what the write-backs leave; its scratch comes out of the
    scoped buffers at some contents and goes back at some contents; the generator register passes through; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Phi1 (V2 m ρ) c 0 from rfl]; unfold Phi1 rest1
    rw [show (Pipeline.scopedRest (Ix := Unit) (Name := ℕ) (U := Pipeline.UD sig nD τ) (Lvl := ℕ) (Val := Elt F) (Pipeline.pin (pcfgs (F := F)) adm 1).spec c : sProp 𝕄) = _
      from scopedRest1_eq (Ix := Unit) (Val := Elt F) (Name := ℕ) (U := Pipeline.UD sig nD τ) (Lvl := ℕ) c]
    iintro ⟨Hp, -, ⟨H0, H1, H2, H3, H4, H5, H6, H7, H8, H9, H10, H11, H12, H13, H14, H15, H16, H17, H18⟩⟩
    isplitl [H9]
    · icases H9 with ⟨%f, H9⟩; iexists f; isplitr; · ipureintro; exact fun h => absurd rfl h
      simp only [scM1, owns_whole]; iexact H9
    isplitl [H0 H1 H2 H3 H4 H5 H6 H7 H8 H10 H11 H12 H13 H14 H15 H16 H17 H18]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    iexact Hp
  hout c := by
    rw [Pipeline.ownSems0_none, show (pdats m ρ 1 c).Φ (Fin.last _) = Phi1 (V2 m ρ) c cfg1.N from rfl]; unfold Phi1 rest1
    rw [show (Pipeline.scopedRest (Ix := Unit) (Name := ℕ) (U := Pipeline.UD sig nD τ) (Lvl := ℕ) (Val := Elt F) (Pipeline.pin (pcfgs (F := F)) adm 1).spec c : sProp 𝕄) = _
      from scopedRest1_eq (Ix := Unit) (Val := Elt F) (Name := ℕ) (U := Pipeline.UD sig nD τ) (Lvl := ℕ) c]
    iintro ⟨⟨%d, -, H9⟩, ⟨H0, H1, H2, H3, H4, H5, H6, H7, H8, H10, H11, H12, H13, H14, H15, H16, H17, H18⟩, Hp⟩
    isplitl [Hp]; · iexact Hp
    isplitr; · iempintro
    isplitl [H0]; (· iexact H0)
    isplitl [H1]; (· iexact H1)
    isplitl [H2]; (· iexact H2)
    isplitl [H3]; (· iexact H3)
    isplitl [H4]; (· iexact H4)
    isplitl [H5]; (· iexact H5)
    isplitl [H6]; (· iexact H6)
    isplitl [H7]; (· iexact H7)
    isplitl [H8]; (· iexact H8)
    isplitl [H9]; (· iexists d; simp only [scM1, owns_whole]; iexact H9)
    isplitl [H10]; (· iexact H10)
    isplitl [H11]; (· iexact H11)
    isplitl [H12]; (· iexact H12)
    isplitl [H13]; (· iexact H13)
    isplitl [H14]; (· iexact H14)
    isplitl [H15]; (· iexact H15)
    isplitl [H16]; (· iexact H16)
    isplitl [H17]; (· iexact H17)
    iexact H18
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The third call as a segment: entered with every unscoped buffer at `W4`, left with them at `W5`.  Its windows'
    arrays are taken out of the unscoped buffers and put back at what the write-backs leave; its scratch comes out of the
    scoped buffers at some contents and goes back at some contents; the generator register passes through; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Phi2 (V4 m ρ) c 0 from rfl]; unfold Phi2 rest2
    rw [show (Pipeline.scopedRest (Ix := Unit) (Name := ℕ) (U := Pipeline.UD sig nD τ) (Lvl := ℕ) (Val := Elt F) (Pipeline.pin (pcfgs (F := F)) adm 2).spec c : sProp 𝕄) = _
      from scopedRest2_eq (Ix := Unit) (Val := Elt F) (Name := ℕ) (U := Pipeline.UD sig nD τ) (Lvl := ℕ) c]
    iintro ⟨Hp, -, ⟨H0, H1, H2, H3, H4, H5, H6, H7, H8, H9, H10, H11, H12, H13, H14, H15, H16, H17, H18⟩⟩
    isplitl [H18]
    · icases H18 with ⟨%f, H18⟩; iexists f; isplitr; · ipureintro; exact fun h => absurd rfl h
      simp only [scM2, owns_whole]; iexact H18
    isplitl [H0 H1 H2 H3 H4 H5 H6 H7 H8 H9 H10 H11 H12 H13 H14 H15 H16 H17]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    iexact Hp
  hout c := by
    rw [Pipeline.ownSems0_none, show (pdats m ρ 2 c).Φ (Fin.last _) = Phi2 (V4 m ρ) c cfg2.N from rfl]; unfold Phi2 rest2
    rw [show (Pipeline.scopedRest (Ix := Unit) (Name := ℕ) (U := Pipeline.UD sig nD τ) (Lvl := ℕ) (Val := Elt F) (Pipeline.pin (pcfgs (F := F)) adm 2).spec c : sProp 𝕄) = _
      from scopedRest2_eq (Ix := Unit) (Val := Elt F) (Name := ℕ) (U := Pipeline.UD sig nD τ) (Lvl := ℕ) c]
    iintro ⟨⟨%d, -, H18⟩, ⟨H0, H1, H2, H3, H4, H5, H6, H7, H8, H9, H10, H11, H12, H13, H14, H15, H16, H17⟩, Hp⟩
    isplitl [Hp]; · iexact Hp
    isplitr; · iempintro
    isplitl [H0]; (· iexact H0)
    isplitl [H1]; (· iexact H1)
    isplitl [H2]; (· iexact H2)
    isplitl [H3]; (· iexact H3)
    isplitl [H4]; (· iexact H4)
    isplitl [H5]; (· iexact H5)
    isplitl [H6]; (· iexact H6)
    isplitl [H7]; (· iexact H7)
    isplitl [H8]; (· iexact H8)
    isplitl [H9]; (· iexact H9)
    isplitl [H10]; (· iexact H10)
    isplitl [H11]; (· iexact H11)
    isplitl [H12]; (· iexact H12)
    isplitl [H13]; (· iexact H13)
    isplitl [H14]; (· iexact H14)
    isplitl [H15]; (· iexact H15)
    isplitl [H16]; (· iexact H16)
    isplitl [H17]; (· iexact H17)
    iexists d; simp only [scM2, owns_whole]; iexact H18
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its six segments, and the run -/

abbrev segs : List (Pipeline.Seg (pcfgs (F := F)) adm (pdats m ρ) () defs₀ 𝒱₀ L lv) :=
  [ .region (reg0 m ρ), .host (hseg hostOps1 hostOps1_sub hostOps1_fresh (W1 m ρ)),
    .region (reg1 m ρ), .host (hseg hostOps2 hostOps2_sub hostOps2_fresh (W3 m ρ)),
    .region (reg2 m ρ), .host (hseg hostOps3 hostOps3_sub hostOps3_fresh (W5 m ρ)) ]
theorem main_run (c : Dev nD) : main (F := F) c = Pipeline.Seg.run (segs m ρ) := (main_chain c).trans (by chain_rfl)

set_option backward.isDefEq.respectTransparency.types false in
/-- THE RUN.  From any memory with zero counters every weakly fair execution of @main terminates, nothing faulting, and
    every unscoped buffer ends at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (StableHlo.after hostOps3 (W5 m ρ c)) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.Kernel.Hand

end
-- ==== Proof.KbEnds.lean ====
/-
  The ends of the run: no item of @main writes an argument array (a call reads it through an input window or leaves it
  aside, a host operation writes only its own result), so at every boundary each argument's buffer holds its launch
  contents; with the run, that is the frame.
-/
import proofs.«165070_j9002251452429_2_alg».proof.Proof.KbMain

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## No item writes an argument: at every boundary each argument's buffer holds its launch contents -/

theorem W1_main_arg0 (c : Dev nD) : W1 m ρ c (Proc.devRef .tc main_arg0) = m ((c : Thread nD τ).loc main_arg0) :=
  ((W1_arr m ρ c 0).trans (((dat0 (V0 m ρ) c).arrAt_in 0 rfl _).trans (A_eq0 (V0 m ρ) c 0))).trans rfl
theorem W2_main_arg0 (c : Dev nD) : W2 m ρ c (Proc.devRef .tc main_arg0) = m ((c : Thread nD τ).loc main_arg0) :=
  (show W2 m ρ c (Proc.devRef .tc main_arg0) = W1 m ρ c (Proc.devRef .tc main_arg0) from by dsimp only [W2, hostOps1]; after_results_simp <;> rfl).trans (W1_main_arg0 m ρ c)
theorem W3_main_arg0 (c : Dev nD) : W3 m ρ c (Proc.devRef .tc main_arg0) = m ((c : Thread nD τ).loc main_arg0) :=
  (W3_of_ne m ρ c main_arg0 (by decide)).trans (W2_main_arg0 m ρ c)
theorem W4_main_arg0 (c : Dev nD) : W4 m ρ c (Proc.devRef .tc main_arg0) = m ((c : Thread nD τ).loc main_arg0) :=
  (show W4 m ρ c (Proc.devRef .tc main_arg0) = W3 m ρ c (Proc.devRef .tc main_arg0) from by dsimp only [W4, hostOps2]; after_results_simp <;> rfl).trans (W3_main_arg0 m ρ c)
theorem W5_main_arg0 (c : Dev nD) : W5 m ρ c (Proc.devRef .tc main_arg0) = m ((c : Thread nD τ).loc main_arg0) :=
  (W5_of_ne m ρ c main_arg0 (by decide)).trans (W4_main_arg0 m ρ c)
theorem W6_main_arg0 (c : Dev nD) : W6 m ρ c (Proc.devRef .tc main_arg0) = m ((c : Thread nD τ).loc main_arg0) :=
  (show W6 m ρ c (Proc.devRef .tc main_arg0) = W5 m ρ c (Proc.devRef .tc main_arg0) from by dsimp only [W6, hostOps3]; after_results_simp <;> rfl).trans (W5_main_arg0 m ρ c)

theorem W1_main_arg1 (c : Dev nD) : W1 m ρ c (Proc.devRef .tc main_arg1) = m ((c : Thread nD τ).loc main_arg1) :=
  ((W1_arr m ρ c 1).trans (((dat0 (V0 m ρ) c).arrAt_in 1 rfl _).trans (A_eq0 (V0 m ρ) c 1))).trans rfl
theorem W2_main_arg1 (c : Dev nD) : W2 m ρ c (Proc.devRef .tc main_arg1) = m ((c : Thread nD τ).loc main_arg1) :=
  (show W2 m ρ c (Proc.devRef .tc main_arg1) = W1 m ρ c (Proc.devRef .tc main_arg1) from by dsimp only [W2, hostOps1]; after_results_simp <;> rfl).trans (W1_main_arg1 m ρ c)
theorem W3_main_arg1 (c : Dev nD) : W3 m ρ c (Proc.devRef .tc main_arg1) = m ((c : Thread nD τ).loc main_arg1) :=
  (W3_of_ne m ρ c main_arg1 (by decide)).trans (W2_main_arg1 m ρ c)
theorem W4_main_arg1 (c : Dev nD) : W4 m ρ c (Proc.devRef .tc main_arg1) = m ((c : Thread nD τ).loc main_arg1) :=
  (show W4 m ρ c (Proc.devRef .tc main_arg1) = W3 m ρ c (Proc.devRef .tc main_arg1) from by dsimp only [W4, hostOps2]; after_results_simp <;> rfl).trans (W3_main_arg1 m ρ c)
theorem W5_main_arg1 (c : Dev nD) : W5 m ρ c (Proc.devRef .tc main_arg1) = m ((c : Thread nD τ).loc main_arg1) :=
  (W5_of_ne m ρ c main_arg1 (by decide)).trans (W4_main_arg1 m ρ c)
theorem W6_main_arg1 (c : Dev nD) : W6 m ρ c (Proc.devRef .tc main_arg1) = m ((c : Thread nD τ).loc main_arg1) :=
  (show W6 m ρ c (Proc.devRef .tc main_arg1) = W5 m ρ c (Proc.devRef .tc main_arg1) from by dsimp only [W6, hostOps3]; after_results_simp <;> rfl).trans (W5_main_arg1 m ρ c)

theorem W1_main_arg2 (c : Dev nD) : W1 m ρ c (Proc.devRef .tc main_arg2) = m ((c : Thread nD τ).loc main_arg2) :=
  (W1_of_ne m ρ c main_arg2 (by decide)).trans rfl
theorem W2_main_arg2 (c : Dev nD) : W2 m ρ c (Proc.devRef .tc main_arg2) = m ((c : Thread nD τ).loc main_arg2) :=
  (show W2 m ρ c (Proc.devRef .tc main_arg2) = W1 m ρ c (Proc.devRef .tc main_arg2) from by dsimp only [W2, hostOps1]; after_results_simp <;> rfl).trans (W1_main_arg2 m ρ c)
theorem W3_main_arg2 (c : Dev nD) : W3 m ρ c (Proc.devRef .tc main_arg2) = m ((c : Thread nD τ).loc main_arg2) :=
  ((W3_arr m ρ c 1).trans (((dat1 (V2 m ρ) c).arrAt_in 1 rfl _).trans (A_eq1 (V2 m ρ) c 1))).trans (W2_main_arg2 m ρ c)
theorem W4_main_arg2 (c : Dev nD) : W4 m ρ c (Proc.devRef .tc main_arg2) = m ((c : Thread nD τ).loc main_arg2) :=
  (show W4 m ρ c (Proc.devRef .tc main_arg2) = W3 m ρ c (Proc.devRef .tc main_arg2) from by dsimp only [W4, hostOps2]; after_results_simp <;> rfl).trans (W3_main_arg2 m ρ c)
theorem W5_main_arg2 (c : Dev nD) : W5 m ρ c (Proc.devRef .tc main_arg2) = m ((c : Thread nD τ).loc main_arg2) :=
  ((W5_arr m ρ c 1).trans (((dat2 (V4 m ρ) c).arrAt_in 1 rfl _).trans (A_eq2 (V4 m ρ) c 1))).trans (W4_main_arg2 m ρ c)
theorem W6_main_arg2 (c : Dev nD) : W6 m ρ c (Proc.devRef .tc main_arg2) = m ((c : Thread nD τ).loc main_arg2) :=
  (show W6 m ρ c (Proc.devRef .tc main_arg2) = W5 m ρ c (Proc.devRef .tc main_arg2) from by dsimp only [W6, hostOps3]; after_results_simp <;> rfl).trans (W5_main_arg2 m ρ c)

theorem W1_main_arg3 (c : Dev nD) : W1 m ρ c (Proc.devRef .tc main_arg3) = m ((c : Thread nD τ).loc main_arg3) :=
  ((W1_arr m ρ c 2).trans (((dat0 (V0 m ρ) c).arrAt_in 2 rfl _).trans (A_eq0 (V0 m ρ) c 2))).trans rfl
theorem W2_main_arg3 (c : Dev nD) : W2 m ρ c (Proc.devRef .tc main_arg3) = m ((c : Thread nD τ).loc main_arg3) :=
  (show W2 m ρ c (Proc.devRef .tc main_arg3) = W1 m ρ c (Proc.devRef .tc main_arg3) from by dsimp only [W2, hostOps1]; after_results_simp <;> rfl).trans (W1_main_arg3 m ρ c)
theorem W3_main_arg3 (c : Dev nD) : W3 m ρ c (Proc.devRef .tc main_arg3) = m ((c : Thread nD τ).loc main_arg3) :=
  (W3_of_ne m ρ c main_arg3 (by decide)).trans (W2_main_arg3 m ρ c)
theorem W4_main_arg3 (c : Dev nD) : W4 m ρ c (Proc.devRef .tc main_arg3) = m ((c : Thread nD τ).loc main_arg3) :=
  (show W4 m ρ c (Proc.devRef .tc main_arg3) = W3 m ρ c (Proc.devRef .tc main_arg3) from by dsimp only [W4, hostOps2]; after_results_simp <;> rfl).trans (W3_main_arg3 m ρ c)
theorem W5_main_arg3 (c : Dev nD) : W5 m ρ c (Proc.devRef .tc main_arg3) = m ((c : Thread nD τ).loc main_arg3) :=
  (W5_of_ne m ρ c main_arg3 (by decide)).trans (W4_main_arg3 m ρ c)
theorem W6_main_arg3 (c : Dev nD) : W6 m ρ c (Proc.devRef .tc main_arg3) = m ((c : Thread nD τ).loc main_arg3) :=
  (show W6 m ρ c (Proc.devRef .tc main_arg3) = W5 m ρ c (Proc.devRef .tc main_arg3) from by dsimp only [W6, hostOps3]; after_results_simp <;> rfl).trans (W5_main_arg3 m ρ c)

theorem W1_main_arg4 (c : Dev nD) : W1 m ρ c (Proc.devRef .tc main_arg4) = m ((c : Thread nD τ).loc main_arg4) :=
  ((W1_arr m ρ c 3).trans (((dat0 (V0 m ρ) c).arrAt_in 3 rfl _).trans (A_eq0 (V0 m ρ) c 3))).trans rfl
theorem W2_main_arg4 (c : Dev nD) : W2 m ρ c (Proc.devRef .tc main_arg4) = m ((c : Thread nD τ).loc main_arg4) :=
  (show W2 m ρ c (Proc.devRef .tc main_arg4) = W1 m ρ c (Proc.devRef .tc main_arg4) from by dsimp only [W2, hostOps1]; after_results_simp <;> rfl).trans (W1_main_arg4 m ρ c)
theorem W3_main_arg4 (c : Dev nD) : W3 m ρ c (Proc.devRef .tc main_arg4) = m ((c : Thread nD τ).loc main_arg4) :=
  (W3_of_ne m ρ c main_arg4 (by decide)).trans (W2_main_arg4 m ρ c)
theorem W4_main_arg4 (c : Dev nD) : W4 m ρ c (Proc.devRef .tc main_arg4) = m ((c : Thread nD τ).loc main_arg4) :=
  (show W4 m ρ c (Proc.devRef .tc main_arg4) = W3 m ρ c (Proc.devRef .tc main_arg4) from by dsimp only [W4, hostOps2]; after_results_simp <;> rfl).trans (W3_main_arg4 m ρ c)
theorem W5_main_arg4 (c : Dev nD) : W5 m ρ c (Proc.devRef .tc main_arg4) = m ((c : Thread nD τ).loc main_arg4) :=
  (W5_of_ne m ρ c main_arg4 (by decide)).trans (W4_main_arg4 m ρ c)
theorem W6_main_arg4 (c : Dev nD) : W6 m ρ c (Proc.devRef .tc main_arg4) = m ((c : Thread nD τ).loc main_arg4) :=
  (show W6 m ρ c (Proc.devRef .tc main_arg4) = W5 m ρ c (Proc.devRef .tc main_arg4) from by dsimp only [W6, hostOps3]; after_results_simp <;> rfl).trans (W5_main_arg4 m ρ c)

theorem W1_main_arg5 (c : Dev nD) : W1 m ρ c (Proc.devRef .tc main_arg5) = m ((c : Thread nD τ).loc main_arg5) :=
  (W1_of_ne m ρ c main_arg5 (by decide)).trans rfl
theorem W2_main_arg5 (c : Dev nD) : W2 m ρ c (Proc.devRef .tc main_arg5) = m ((c : Thread nD τ).loc main_arg5) :=
  (show W2 m ρ c (Proc.devRef .tc main_arg5) = W1 m ρ c (Proc.devRef .tc main_arg5) from by dsimp only [W2, hostOps1]; after_results_simp <;> rfl).trans (W1_main_arg5 m ρ c)
theorem W3_main_arg5 (c : Dev nD) : W3 m ρ c (Proc.devRef .tc main_arg5) = m ((c : Thread nD τ).loc main_arg5) :=
  (W3_of_ne m ρ c main_arg5 (by decide)).trans (W2_main_arg5 m ρ c)
theorem W4_main_arg5 (c : Dev nD) : W4 m ρ c (Proc.devRef .tc main_arg5) = m ((c : Thread nD τ).loc main_arg5) :=
  (show W4 m ρ c (Proc.devRef .tc main_arg5) = W3 m ρ c (Proc.devRef .tc main_arg5) from by dsimp only [W4, hostOps2]; after_results_simp <;> rfl).trans (W3_main_arg5 m ρ c)
theorem W5_main_arg5 (c : Dev nD) : W5 m ρ c (Proc.devRef .tc main_arg5) = m ((c : Thread nD τ).loc main_arg5) :=
  (W5_of_ne m ρ c main_arg5 (by decide)).trans (W4_main_arg5 m ρ c)
theorem W6_main_arg5 (c : Dev nD) : W6 m ρ c (Proc.devRef .tc main_arg5) = m ((c : Thread nD τ).loc main_arg5) :=
  (show W6 m ρ c (Proc.devRef .tc main_arg5) = W5 m ρ c (Proc.devRef .tc main_arg5) from by dsimp only [W6, hostOps3]; after_results_simp <;> rfl).trans (W5_main_arg5 m ρ c)

theorem W1_main_arg6 (c : Dev nD) : W1 m ρ c (Proc.devRef .tc main_arg6) = m ((c : Thread nD τ).loc main_arg6) :=
  (W1_of_ne m ρ c main_arg6 (by decide)).trans rfl
theorem W2_main_arg6 (c : Dev nD) : W2 m ρ c (Proc.devRef .tc main_arg6) = m ((c : Thread nD τ).loc main_arg6) :=
  (show W2 m ρ c (Proc.devRef .tc main_arg6) = W1 m ρ c (Proc.devRef .tc main_arg6) from by dsimp only [W2, hostOps1]; after_results_simp <;> rfl).trans (W1_main_arg6 m ρ c)
theorem W3_main_arg6 (c : Dev nD) : W3 m ρ c (Proc.devRef .tc main_arg6) = m ((c : Thread nD τ).loc main_arg6) :=
  ((W3_arr m ρ c 3).trans (((dat1 (V2 m ρ) c).arrAt_in 3 rfl _).trans (A_eq1 (V2 m ρ) c 3))).trans (W2_main_arg6 m ρ c)
theorem W4_main_arg6 (c : Dev nD) : W4 m ρ c (Proc.devRef .tc main_arg6) = m ((c : Thread nD τ).loc main_arg6) :=
  (show W4 m ρ c (Proc.devRef .tc main_arg6) = W3 m ρ c (Proc.devRef .tc main_arg6) from by dsimp only [W4, hostOps2]; after_results_simp <;> rfl).trans (W3_main_arg6 m ρ c)
theorem W5_main_arg6 (c : Dev nD) : W5 m ρ c (Proc.devRef .tc main_arg6) = m ((c : Thread nD τ).loc main_arg6) :=
  (W5_of_ne m ρ c main_arg6 (by decide)).trans (W4_main_arg6 m ρ c)
theorem W6_main_arg6 (c : Dev nD) : W6 m ρ c (Proc.devRef .tc main_arg6) = m ((c : Thread nD τ).loc main_arg6) :=
  (show W6 m ρ c (Proc.devRef .tc main_arg6) = W5 m ρ c (Proc.devRef .tc main_arg6) from by dsimp only [W6, hostOps3]; after_results_simp <;> rfl).trans (W5_main_arg6 m ρ c)

theorem W1_main_arg7 (c : Dev nD) : W1 m ρ c (Proc.devRef .tc main_arg7) = m ((c : Thread nD τ).loc main_arg7) :=
  (W1_of_ne m ρ c main_arg7 (by decide)).trans rfl
theorem W2_main_arg7 (c : Dev nD) : W2 m ρ c (Proc.devRef .tc main_arg7) = m ((c : Thread nD τ).loc main_arg7) :=
  (show W2 m ρ c (Proc.devRef .tc main_arg7) = W1 m ρ c (Proc.devRef .tc main_arg7) from by dsimp only [W2, hostOps1]; after_results_simp <;> rfl).trans (W1_main_arg7 m ρ c)
theorem W3_main_arg7 (c : Dev nD) : W3 m ρ c (Proc.devRef .tc main_arg7) = m ((c : Thread nD τ).loc main_arg7) :=
  (W3_of_ne m ρ c main_arg7 (by decide)).trans (W2_main_arg7 m ρ c)
theorem W4_main_arg7 (c : Dev nD) : W4 m ρ c (Proc.devRef .tc main_arg7) = m ((c : Thread nD τ).loc main_arg7) :=
  (show W4 m ρ c (Proc.devRef .tc main_arg7) = W3 m ρ c (Proc.devRef .tc main_arg7) from by dsimp only [W4, hostOps2]; after_results_simp <;> rfl).trans (W3_main_arg7 m ρ c)
theorem W5_main_arg7 (c : Dev nD) : W5 m ρ c (Proc.devRef .tc main_arg7) = m ((c : Thread nD τ).loc main_arg7) :=
  (W5_of_ne m ρ c main_arg7 (by decide)).trans (W4_main_arg7 m ρ c)
theorem W6_main_arg7 (c : Dev nD) : W6 m ρ c (Proc.devRef .tc main_arg7) = m ((c : Thread nD τ).loc main_arg7) :=
  (show W6 m ρ c (Proc.devRef .tc main_arg7) = W5 m ρ c (Proc.devRef .tc main_arg7) from by dsimp only [W6, hostOps3]; after_results_simp <;> rfl).trans (W5_main_arg7 m ρ c)

theorem W1_main_arg8 (c : Dev nD) : W1 m ρ c (Proc.devRef .tc main_arg8) = m ((c : Thread nD τ).loc main_arg8) :=
  (W1_of_ne m ρ c main_arg8 (by decide)).trans rfl
theorem W2_main_arg8 (c : Dev nD) : W2 m ρ c (Proc.devRef .tc main_arg8) = m ((c : Thread nD τ).loc main_arg8) :=
  (show W2 m ρ c (Proc.devRef .tc main_arg8) = W1 m ρ c (Proc.devRef .tc main_arg8) from by dsimp only [W2, hostOps1]; after_results_simp <;> rfl).trans (W1_main_arg8 m ρ c)
theorem W3_main_arg8 (c : Dev nD) : W3 m ρ c (Proc.devRef .tc main_arg8) = m ((c : Thread nD τ).loc main_arg8) :=
  (W3_of_ne m ρ c main_arg8 (by decide)).trans (W2_main_arg8 m ρ c)
theorem W4_main_arg8 (c : Dev nD) : W4 m ρ c (Proc.devRef .tc main_arg8) = m ((c : Thread nD τ).loc main_arg8) :=
  (show W4 m ρ c (Proc.devRef .tc main_arg8) = W3 m ρ c (Proc.devRef .tc main_arg8) from by dsimp only [W4, hostOps2]; after_results_simp <;> rfl).trans (W3_main_arg8 m ρ c)
theorem W5_main_arg8 (c : Dev nD) : W5 m ρ c (Proc.devRef .tc main_arg8) = m ((c : Thread nD τ).loc main_arg8) :=
  ((W5_arr m ρ c 3).trans (((dat2 (V4 m ρ) c).arrAt_in 3 rfl _).trans (A_eq2 (V4 m ρ) c 3))).trans (W4_main_arg8 m ρ c)
theorem W6_main_arg8 (c : Dev nD) : W6 m ρ c (Proc.devRef .tc main_arg8) = m ((c : Thread nD τ).loc main_arg8) :=
  (show W6 m ρ c (Proc.devRef .tc main_arg8) = W5 m ρ c (Proc.devRef .tc main_arg8) from by dsimp only [W6, hostOps3]; after_results_simp <;> rfl).trans (W5_main_arg8 m ρ c)

theorem W1_main_arg9 (c : Dev nD) : W1 m ρ c (Proc.devRef .tc main_arg9) = m ((c : Thread nD τ).loc main_arg9) :=
  (W1_of_ne m ρ c main_arg9 (by decide)).trans rfl
theorem W2_main_arg9 (c : Dev nD) : W2 m ρ c (Proc.devRef .tc main_arg9) = m ((c : Thread nD τ).loc main_arg9) :=
  (show W2 m ρ c (Proc.devRef .tc main_arg9) = W1 m ρ c (Proc.devRef .tc main_arg9) from by dsimp only [W2, hostOps1]; after_results_simp <;> rfl).trans (W1_main_arg9 m ρ c)
theorem W3_main_arg9 (c : Dev nD) : W3 m ρ c (Proc.devRef .tc main_arg9) = m ((c : Thread nD τ).loc main_arg9) :=
  (W3_of_ne m ρ c main_arg9 (by decide)).trans (W2_main_arg9 m ρ c)
theorem W4_main_arg9 (c : Dev nD) : W4 m ρ c (Proc.devRef .tc main_arg9) = m ((c : Thread nD τ).loc main_arg9) :=
  (show W4 m ρ c (Proc.devRef .tc main_arg9) = W3 m ρ c (Proc.devRef .tc main_arg9) from by dsimp only [W4, hostOps2]; after_results_simp <;> rfl).trans (W3_main_arg9 m ρ c)
theorem W5_main_arg9 (c : Dev nD) : W5 m ρ c (Proc.devRef .tc main_arg9) = m ((c : Thread nD τ).loc main_arg9) :=
  (W5_of_ne m ρ c main_arg9 (by decide)).trans (W4_main_arg9 m ρ c)
theorem W6_main_arg9 (c : Dev nD) : W6 m ρ c (Proc.devRef .tc main_arg9) = m ((c : Thread nD τ).loc main_arg9) :=
  (show W6 m ρ c (Proc.devRef .tc main_arg9) = W5 m ρ c (Proc.devRef .tc main_arg9) from by dsimp only [W6, hostOps3]; after_results_simp <;> rfl).trans (W5_main_arg9 m ρ c)

theorem W1_main_arg10 (c : Dev nD) : W1 m ρ c (Proc.devRef .tc main_arg10) = m ((c : Thread nD τ).loc main_arg10) :=
  (W1_of_ne m ρ c main_arg10 (by decide)).trans rfl
theorem W2_main_arg10 (c : Dev nD) : W2 m ρ c (Proc.devRef .tc main_arg10) = m ((c : Thread nD τ).loc main_arg10) :=
  (show W2 m ρ c (Proc.devRef .tc main_arg10) = W1 m ρ c (Proc.devRef .tc main_arg10) from by dsimp only [W2, hostOps1]; after_results_simp <;> rfl).trans (W1_main_arg10 m ρ c)
theorem W3_main_arg10 (c : Dev nD) : W3 m ρ c (Proc.devRef .tc main_arg10) = m ((c : Thread nD τ).loc main_arg10) :=
  (W3_of_ne m ρ c main_arg10 (by decide)).trans (W2_main_arg10 m ρ c)
theorem W4_main_arg10 (c : Dev nD) : W4 m ρ c (Proc.devRef .tc main_arg10) = m ((c : Thread nD τ).loc main_arg10) :=
  (show W4 m ρ c (Proc.devRef .tc main_arg10) = W3 m ρ c (Proc.devRef .tc main_arg10) from by dsimp only [W4, hostOps2]; after_results_simp <;> rfl).trans (W3_main_arg10 m ρ c)
theorem W5_main_arg10 (c : Dev nD) : W5 m ρ c (Proc.devRef .tc main_arg10) = m ((c : Thread nD τ).loc main_arg10) :=
  (W5_of_ne m ρ c main_arg10 (by decide)).trans (W4_main_arg10 m ρ c)
theorem W6_main_arg10 (c : Dev nD) : W6 m ρ c (Proc.devRef .tc main_arg10) = m ((c : Thread nD τ).loc main_arg10) :=
  (show W6 m ρ c (Proc.devRef .tc main_arg10) = W5 m ρ c (Proc.devRef .tc main_arg10) from by dsimp only [W6, hostOps3]; after_results_simp <;> rfl).trans (W5_main_arg10 m ρ c)

/-- THE FRAME: every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c)⟩) (run_all m ρ)

end Cert.Kernel.Hand

end
-- ==== Proof.KiRuns0.lean ====
/-
  The body of the first graph-convolution call, run once per branch of its one conditional.
  At the first row tile of a batch entry the body refills its scratch, slab by slab, with the entry's feature block times
  each of the three weight blocks (three matrix products, three stores that tile the scratch) and then computes the tile's
  output from the adjacency-class tile, the three refilled slabs and the bias; at the other row tiles it leaves the scratch
  alone and computes the output from the three slabs the scratch holds.  The inputs and the output go through whole staging
  buffers; the weights and the scratch are read and written one leading-axis slab at a time.
-/
import proofs.«165070_j9002251452429_2_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev cond0 (i : grid0.Coords) : Prop :=
  (Scalar.cmpi .ne (Scalar.extui (Scalar.cmpi .eq (BitVec.ofNat 32 (i 1).val) 0#32)) 0#32) = 1#1

private theorem z3 : (![0, 0, 0] : Fin 3 → Nat) = fun _ => 0 := by
  funext a; fin_cases a <;> rfl
private theorem z1 : (![0] : Fin 1 → Nat) = fun _ => 0 := by
  funext a; fin_cases a; rfl

/-- The three slabs of a projected-features scratch, one per adjacency class, as the body's loads read them. -/
def slab0 (xs : Vec F S3x2048x64 .f32) : Vec F S1x2048x64 .f32 :=
  View.ld xs (Rect.unit (s := S3x2048x64) ![0, 0, 0] S1x2048x64.size inb_S3x2048x64_S1x2048x64_0_0_0)
def slab1 (xs : Vec F S3x2048x64 .f32) : Vec F S1x2048x64 .f32 :=
  View.ld xs (Rect.unit (s := S3x2048x64) ![1, 0, 0] S1x2048x64.size inb_S3x2048x64_S1x2048x64_1_0_0)
def slab2 (xs : Vec F S3x2048x64 .f32) : Vec F S1x2048x64 .f32 :=
  View.ld xs (Rect.unit (s := S3x2048x64) ![2, 0, 0] S1x2048x64.size inb_S3x2048x64_S1x2048x64_2_0_0)

/-- The three weight blocks, one per adjacency class, as the body's loads read them. -/
def wslab0 (x2 : Vec F S3x32x64 .f32) : Vec F S1x32x64 .f32 :=
  View.ld x2 (Rect.unit (s := S3x32x64) ![0, 0, 0] S1x32x64.size inb_S3x32x64_S1x32x64_0_0_0)
def wslab1 (x2 : Vec F S3x32x64 .f32) : Vec F S1x32x64 .f32 :=
  View.ld x2 (Rect.unit (s := S3x32x64) ![1, 0, 0] S1x32x64.size inb_S3x32x64_S1x32x64_1_0_0)
def wslab2 (x2 : Vec F S3x32x64 .f32) : Vec F S1x32x64 .f32 :=
  View.ld x2 (Rect.unit (s := S3x32x64) ![2, 0, 0] S1x32x64.size inb_S3x32x64_S1x32x64_2_0_0)

/-- The refilled scratch: slab r holds the features times the r-th weight block; the three stores tile it. -/
def xwOf (x0 : Vec F S1x2048x32 .f32) (x2 : Vec F S3x32x64 .f32) : Vec F S3x2048x64 .f32 :=
  View.canon
    [(⟨Rect.unit (s := S3x2048x64) ![2, 0, 0] S1x2048x64.size inb_S3x2048x64_S1x2048x64_2_0_0, k0_pay5 x0 (wslab2 x2)⟩ : View.Piece (Elt F) S3x2048x64 .f32),
     ⟨Rect.unit (s := S3x2048x64) ![1, 0, 0] S1x2048x64.size inb_S3x2048x64_S1x2048x64_1_0_0, k0_pay4 x0 (wslab1 x2)⟩,
     ⟨Rect.unit (s := S3x2048x64) ![0, 0, 0] S1x2048x64.size inb_S3x2048x64_S1x2048x64_0_0_0, k0_pay3 x0 (wslab0 x2)⟩]

/-- The output block of a row tile: the class-wise adjacency masks times the scratch slabs, summed, plus the bias,
    normalised by row and clamped at zero. -/
def out0 (x1 : Vec F S1x512x2048 .i32) (xs : Vec F S3x2048x64 .f32) (x3 : Vec F S64 .f32) : Vec F S1x512x64 .f32 :=
  k0_pay1 (k0_pay6 x1 (slab0 xs) (slab1 xs) (slab2 xs)) x3

/-- The last-stored slab of the refilled scratch is its payload. -/
theorem slab2_xwOf (x0 : Vec F S1x2048x32 .f32) (x2 : Vec F S3x32x64 .f32) :
    slab2 (xwOf x0 x2) = k0_pay5 x0 (wslab2 x2) := by
  funext x
  simp only [slab2, xwOf, View.ld]
  exact View.canon_cons_emb (Rect.unit (s := S3x2048x64) ![2, 0, 0] S1x2048x64.size inb_S3x2048x64_S1x2048x64_2_0_0) _ _ x

/-- The middle slab lies off the last store's rectangle (they differ on the leading axis), so it reads its own payload. -/
theorem slab1_xwOf (x0 : Vec F S1x2048x32 .f32) (x2 : Vec F S3x32x64 .f32) :
    slab1 (xwOf x0 x2) = k0_pay4 x0 (wslab1 x2) := by
  funext x
  have hd : Disjoint (Rect.unit (s := S3x2048x64) ![2, 0, 0] S1x2048x64.size inb_S3x2048x64_S1x2048x64_2_0_0).set (Rect.unit (s := S3x2048x64) ![1, 0, 0] S1x2048x64.size inb_S3x2048x64_S1x2048x64_1_0_0).set :=
    Rect.unit_disjoint (0 : Fin 3) (Or.inr (by decide))
  have hn : (Rect.unit (s := S3x2048x64) ![1, 0, 0] S1x2048x64.size inb_S3x2048x64_S1x2048x64_1_0_0).toLoadRect.idx x ∉ (Rect.unit (s := S3x2048x64) ![2, 0, 0] S1x2048x64.size inb_S3x2048x64_S1x2048x64_2_0_0).set :=
    Finset.disjoint_right.mp hd ((Rect.unit (s := S3x2048x64) ![1, 0, 0] S1x2048x64.size inb_S3x2048x64_S1x2048x64_1_0_0).toLoadRect.idx_mem x)
  simp only [slab1, xwOf, View.ld]
  rw [View.canon_cons_of_not_mem (⟨(Rect.unit (s := S3x2048x64) ![2, 0, 0] S1x2048x64.size inb_S3x2048x64_S1x2048x64_2_0_0), _⟩ : View.Piece (Elt F) S3x2048x64 .f32) _ hn]
  exact View.canon_cons_emb (Rect.unit (s := S3x2048x64) ![1, 0, 0] S1x2048x64.size inb_S3x2048x64_S1x2048x64_1_0_0) _ _ x

/-- The first slab lies off both later stores' rectangles, so it reads its own payload. -/
theorem slab0_xwOf (x0 : Vec F S1x2048x32 .f32) (x2 : Vec F S3x32x64 .f32) :
    slab0 (xwOf x0 x2) = k0_pay3 x0 (wslab0 x2) := by
  funext x
  have hd2 : Disjoint (Rect.unit (s := S3x2048x64) ![2, 0, 0] S1x2048x64.size inb_S3x2048x64_S1x2048x64_2_0_0).set (Rect.unit (s := S3x2048x64) ![0, 0, 0] S1x2048x64.size inb_S3x2048x64_S1x2048x64_0_0_0).set :=
    Rect.unit_disjoint (0 : Fin 3) (Or.inr (by decide))
  have hd1 : Disjoint (Rect.unit (s := S3x2048x64) ![1, 0, 0] S1x2048x64.size inb_S3x2048x64_S1x2048x64_1_0_0).set (Rect.unit (s := S3x2048x64) ![0, 0, 0] S1x2048x64.size inb_S3x2048x64_S1x2048x64_0_0_0).set :=
    Rect.unit_disjoint (0 : Fin 3) (Or.inr (by decide))
  have hn2 : (Rect.unit (s := S3x2048x64) ![0, 0, 0] S1x2048x64.size inb_S3x2048x64_S1x2048x64_0_0_0).toLoadRect.idx x ∉ (Rect.unit (s := S3x2048x64) ![2, 0, 0] S1x2048x64.size inb_S3x2048x64_S1x2048x64_2_0_0).set :=
    Finset.disjoint_right.mp hd2 ((Rect.unit (s := S3x2048x64) ![0, 0, 0] S1x2048x64.size inb_S3x2048x64_S1x2048x64_0_0_0).toLoadRect.idx_mem x)
  have hn1 : (Rect.unit (s := S3x2048x64) ![0, 0, 0] S1x2048x64.size inb_S3x2048x64_S1x2048x64_0_0_0).toLoadRect.idx x ∉ (Rect.unit (s := S3x2048x64) ![1, 0, 0] S1x2048x64.size inb_S3x2048x64_S1x2048x64_1_0_0).set :=
    Finset.disjoint_right.mp hd1 ((Rect.unit (s := S3x2048x64) ![0, 0, 0] S1x2048x64.size inb_S3x2048x64_S1x2048x64_0_0_0).toLoadRect.idx_mem x)
  simp only [slab0, xwOf, View.ld]
  rw [View.canon_cons_of_not_mem (⟨(Rect.unit (s := S3x2048x64) ![2, 0, 0] S1x2048x64.size inb_S3x2048x64_S1x2048x64_2_0_0), _⟩ : View.Piece (Elt F) S3x2048x64 .f32) _ hn2,
    View.canon_cons_of_not_mem (⟨(Rect.unit (s := S3x2048x64) ![1, 0, 0] S1x2048x64.size inb_S3x2048x64_S1x2048x64_1_0_0), _⟩ : View.Piece (Elt F) S3x2048x64 .f32) _ hn1]
  exact View.canon_cons_emb (Rect.unit (s := S3x2048x64) ![0, 0, 0] S1x2048x64.size inb_S3x2048x64_S1x2048x64_0_0_0) _ _ x

/-- A later row tile of a batch entry: the scratch keeps the projected features `xs` it was handed, and the output
    block is the tile's payload of the adjacency-class tile, the three slabs of that scratch and the bias. -/
theorem run0_keep (c : Dev nD) (i : grid0.Coords)
    (arg2 : Memref sig .tc .vmem S1x2048x32 .f32) (harg2 : arg2.IsWhole)
    (arg3 : Memref sig .tc .vmem S1x512x2048 .i32) (harg3 : arg3.IsWhole)
    (arg4 : Memref sig .tc .vmem S3x32x64 .f32) (harg4 : arg4.IsWhole)
    (arg5 : Memref sig .tc .vmem S64 .f32) (harg5 : arg5.IsWhole)
    (arg6 : Memref sig .tc .vmem S1x512x64 .f32) (harg6 : arg6.IsWhole)
    (arg7 : Memref sig .tc .vmem S3x2048x64 .f32) (harg7 : arg7.IsWhole)
    (hc : ¬ cond0 i)
    (x0 : Vec F S1x2048x32 .f32) (x1 : Vec F S1x512x2048 .i32) (x2 : Vec F S3x32x64 .f32) (x3 : Vec F S64 .f32)
    (xs : Vec F S3x2048x64 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out0 x1 xs x3) ∗ owns (c : Thread nD τ) arg7 fullShare xs) -∗ K ⟨⟩))
      ⊢ wp frame (wpE (defs₀ (F := F)) Variants.none c none) E
          (cc0_kernel i arg2 harg2 arg3 harg3 arg4 harg4 arg5 harg5 arg6 harg6 arg7 harg7) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg2.eq_unread hf0; obtain rfl := harg3.eq_unread hf1
  obtain rfl := harg4.eq_unread hf2; obtain rfl := harg5.eq_unread hf3
  obtain rfl := harg7.eq_unread hf5
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    rw [View.read_writes_eq_canon _ _ _ (fun y => View.cover_of_tiledL _ S1x512x64.size (by sl_kernel_rfl) y),
      View.canon_unit_zero z3]
    unfold out0 slab0 slab1 slab2
    simp only [View.readAt_eq_ld, harg3.read_unread, harg7.read_unread, harg5.read_unread,
      View.ld_unit_zero (S := S1x512x2048) z3, View.ld_unit_zero (S := S64) z1]
  iexists _; isplitr; · ipureintro; exact hf5
  iexact H5

/-- The first row tile of a batch entry: the scratch is refilled with the entry's features times the three weight blocks,
    whatever it held, and the output block is the tile's payload over the refilled scratch. -/
theorem run0_fill (c : Dev nD) (i : grid0.Coords)
    (arg2 : Memref sig .tc .vmem S1x2048x32 .f32) (harg2 : arg2.IsWhole)
    (arg3 : Memref sig .tc .vmem S1x512x2048 .i32) (harg3 : arg3.IsWhole)
    (arg4 : Memref sig .tc .vmem S3x32x64 .f32) (harg4 : arg4.IsWhole)
    (arg5 : Memref sig .tc .vmem S64 .f32) (harg5 : arg5.IsWhole)
    (arg6 : Memref sig .tc .vmem S1x512x64 .f32) (harg6 : arg6.IsWhole)
    (arg7 : Memref sig .tc .vmem S3x2048x64 .f32) (harg7 : arg7.IsWhole)
    (hc : cond0 i)
    (x0 : Vec F S1x2048x32 .f32) (x1 : Vec F S1x512x2048 .i32) (x2 : Vec F S3x32x64 .f32) (x3 : Vec F S64 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out0 x1 (xwOf x0 x2) x3)
            ∗ owns (c : Thread nD τ) arg7 fullShare (xwOf x0 x2)) -∗ K ⟨⟩))
      ⊢ wp frame (wpE (defs₀ (F := F)) Variants.none c none) E
          (cc0_kernel i arg2 harg2 arg3 harg3 arg4 harg4 arg5 harg5 arg6 harg6 arg7 harg7) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg2.eq_unread hf0; obtain rfl := harg3.eq_unread hf1
  obtain rfl := harg4.eq_unread hf2; obtain rfl := harg5.eq_unread hf3
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    sl_unfold_words
    rw [View.read_writes_eq_canon _ _ _ (fun y => View.cover_of_tiledL _ S1x512x64.size (by sl_kernel_rfl) y),
      View.canon_unit_zero z3]
    simp only [View.readAt_eq_ld, harg2.read_unread, harg3.read_unread, harg4.read_unread, harg5.read_unread,
      View.ld_unit_zero (S := S1x512x2048) z3, View.ld_unit_zero (S := S1x2048x32) z3, View.ld_unit_zero (S := S64) z1]
    unfold out0 slab0 slab1 slab2 xwOf wslab0 wslab1 wslab2
    rw [View.readCov_eq_canon_ld (s := S3x2048x64) _ _ _ (fun y => View.cover_of_tiledL (s := S3x2048x64) _ S1x2048x64.size (by sl_kernel_rfl) y)]
    rw [View.readCov_eq_canon_ld (s := S3x2048x64) _ _ _ (fun y => View.cover_of_tiledL (s := S3x2048x64) _ S1x2048x64.size (by sl_kernel_rfl) y)]
    rw [View.readCov_eq_canon_ld (s := S3x2048x64) _ _ _ (fun y => View.cover_of_tiledL (s := S3x2048x64) _ S1x2048x64.size (by sl_kernel_rfl) y)]
  iexists _; isplitr; swap; · iexact H5
  ipureintro
  sl_unfold_words
  rw [View.read_writes_eq_canon (s := S3x2048x64) _ _ _ (fun y => View.cover_of_tiledL (s := S3x2048x64) _ S1x2048x64.size (by sl_kernel_rfl) y)]
  unfold xwOf wslab0 wslab1 wslab2
  simp only [View.readAt_eq_ld, harg2.read_unread, harg4.read_unread, View.ld_unit_zero (S := S1x2048x32) z3]

end Cert.KernelIdeal.Hand

end
-- ==== Proof.KiDat0.lean ====
/-
  The proof data of the first graph-convolution call and its body obligation.  The grid is (batch entry, row tile) with
  the row tile fastest, 32 points; at point t the entry is t / 4.  The scratch holds, after the first row tile of an
  entry, that entry's features times the weights, and keeps it through the entry's other three tiles: its contents after
  n points are defined by recursion on n.  Each input buffer is left at its block, the output buffer at the tile's payload.
-/
import proofs.«165070_j9002251452429_2_alg».proof.Proof.KiRuns0
import proofs.«165070_j9002251452429_2_alg».proof.Proof.KiLaunchP
import proofs.«165070_j9002251452429_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0
variable (V : (c : Dev nD) → (b : Ref sig .tc) → Buf (Elt F) ((c : Thread nD τ).loc b))

/-- Window `w`'s block of its array, as the region finds the array, at grid point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The refill branch is taken exactly at the points whose index is a multiple of four: the first row tile of each batch entry. -/
theorem hcond0 : ∀ t : Fin cfg0.N, cond0 (grid0.coords t) ↔ t.val % 4 = 0 :=
  (by decide +kernel : ∀ t : Fin grid0.N, cond0 (grid0.coords t) ↔ t.val % 4 = 0)

/-- The scratch operand, a whole buffer of the kernel's own. -/
abbrev scM0 : Memref sig .tc .vmem S3x2048x64 .f32 := Memref.whole cc0_scratch0

/-- What the scratch holds after the first `n` points: refilled with the batch entry's features times the weights at
    every fourth point (its three slabs, one per relation), kept in between (before the first point: not named). -/
def scr0 (c : Dev nD) : ℕ → Vec F S3x2048x64 .f32
  | 0 => constant S3x2048x64 .f32 0x00000000#32
  | n + 1 => if h : n < cfg0.N then (if n % 4 = 0 then xwOf (iblk0 V c 0 ⟨n, h⟩) (iblk0 V c 2 ⟨n, h⟩) else scr0 c n) else scr0 c n

theorem scr0_fill (c : Dev nD) (t : Fin cfg0.N) (h : t.val % 4 = 0) :
    scr0 V c (t.val + 1) = xwOf (iblk0 V c 0 t) (iblk0 V c 2 t) := by
  rw [scr0, dif_pos t.isLt, if_pos h]
theorem scr0_keep (c : Dev nD) (t : Fin cfg0.N) (h : ¬ t.val % 4 = 0) :
    scr0 V c (t.val + 1) = scr0 V c t.val := by
  rw [scr0, dif_pos t.isLt, if_neg h]

/-- The output tile the body leaves at point `t`: the tile's payload of the adjacency tile, the scratch as the point
    leaves it, and the bias. -/
def out0At (c : Dev nD) (t : Fin cfg0.N) : Vec F S1x512x64 .f32 :=
  out0 (iblk0 V c 1 t) (scr0 V c (t.val + 1)) (iblk0 V c 3 t)

/-- The core's other scoped buffers (staging buffers and scratch of the other calls), each whole at some contents. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg4_1), ((c : Thread nD τ).loc cc2_stg4_1) ↦{fullShare} f)
    ∗ (∃ f : Buf (Elt F) ((c : Thread nD τ).loc cc2_scratch0), ((c : Thread nD τ).loc cc2_scratch0) ↦{fullShare} f))

/-- The body's invariant after `n` points: the scratch at the contents computed so far, beside the other scoped buffers and the generator register. -/
def Phi0 (c : Dev nD) (n : ℕ) : sProp 𝕄 :=
  iprop((∃ d, ⌜n ≠ 0 → d = scr0 V c n⌝ ∗ owns (c : Thread nD τ) scM0 fullShare d) ∗ rest0 c ∗ (∃ r, prngReg c r))

/-- The pipeline's proof data: the arrays as found; every input buffer left at its block, the output at `out0At`;
    nothing owed, full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0At V c t
  Φ t := Phi0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0At V c t := by dsimp only [dat0]

/-- Input window 0's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
/-- Input window 1's current staging buffer holds its block at every point, fetched there or not. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
/-- Input window 2's current staging buffer holds its block at every point, fetched there or not. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
/-- Input window 3's current staging buffer holds its block at every point, fetched there or not. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

end Region0

section Region0Body
variable (V : (c : Dev nD) → (b : Ref sig .tc) → Buf (Elt F) ((c : Thread nD τ).loc b))

/-- The body at any point: each input buffer holds its block; at a refill point the run refills the scratch whatever it
    held, elsewhere the scratch holds what the points before computed and is kept; the output buffer is left at the
    tile's payload; the other scoped buffers and the core's dues ride along untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [after0_0, after0_1, after0_2, after0_3, after0_4]
  rw [show (dat0 V c).Φ t.castSucc = Phi0 V c t.val from rfl, show (dat0 V c).Φ t.succ = Phi0 V c (t.val + 1) from rfl]
  unfold Phi0 Dat.owesAt Pipeline.owesWithin
  rw [show (dat0 V c).owed t.castSucc = 0 from rfl, show (dat0 V c).owed t.succ = 0 from rfl]
  iintro ⟨⟨⟨%ds, %hds, HS⟩, HR, Hg⟩, ⟨%W, -, HW⟩, ⟨%d0, H0⟩, ⟨%d1, H1⟩, ⟨%d2, H2⟩, ⟨%d3, H3⟩, ⟨%d4, H4⟩⟩
  by_cases hc : cond0 (grid0.coords t)
  · have h4 : t.val % 4 = 0 := (hcond0 t).mp hc
    iapply (run0_fill c (grid0.coords t) _ _ _ _ _ _ _ _ _ _ _ _ hc (iblk0 V c 0 t) (iblk0 V c 1 t) (iblk0 V c 2 t) (iblk0 V c 3 t) Set.univ _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, H4, HS⟩
    isplitl [HS HR Hg]
    · isplitl [HS]
      · iexists _; isplitr; swap; · iexact HS
        ipureintro; intro _; exact (scr0_fill V c t h4).symm
      isplitl [HR]; · iexact HR
      iexact Hg
    isplitl [HW]
    · iexists W; isplitr; · ipureintro; exact fun _ _ => Or.inl trivial
      iexact HW
    isplitl [H0]; · iexact H0
    isplitl [H1]; · iexact H1
    isplitl [H2]; · iexact H2
    isplitl [H3]; · iexact H3
    unfold out0At; rw [scr0_fill V c t h4]; iexact H4
  · have h4 : ¬ t.val % 4 = 0 := fun h => hc ((hcond0 t).mpr h)
    have ht : t.val ≠ 0 := fun h => h4 (by rw [h])
    obtain rfl := hds ht
    iapply (run0_keep c (grid0.coords t) _ _ _ _ _ _ _ _ _ _ _ _ hc (iblk0 V c 0 t) (iblk0 V c 1 t) (iblk0 V c 2 t) (iblk0 V c 3 t) (scr0 V c t.val) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS]
      · iexists _; isplitr; swap; · iexact HS
        ipureintro; intro _; exact (scr0_keep V c t h4).symm
      isplitl [HR]; · iexact HR
      iexact Hg
    isplitl [HW]
    · iexists W; isplitr; · ipureintro; exact fun _ _ => Or.inl trivial
      iexact HW
    isplitl [H0]; · iexact H0
    isplitl [H1]; · iexact H1
    isplitl [H2]; · iexact H2
    isplitl [H3]; · iexact H3
    unfold out0At; rw [scr0_keep V c t h4]; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0Body

end Cert.KernelIdeal.Hand

end
-- ==== Proof.KiRuns1.lean ====
/-
  The body of the second graph-convolution call, run once per branch of its one conditional.
  At the first row tile of a batch entry the body refills its scratch with the entry's feature block times the weight
  block (one matrix product) and then computes the tile's output from the adjacency tile, the refilled scratch and the
  bias; at the other row tiles it leaves the scratch alone and computes the output from what the scratch holds.  Every
  load and store goes through a whole staging buffer, so each buffer's contents after the body are the stored payload.
-/
import proofs.«165070_j9002251452429_2_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The branch of the second region's body: taken exactly at the points whose second grid coordinate is zero,
    that is at the first row tile of each batch entry. -/
abbrev cond1 (i : grid1.Coords) : Prop :=
  (Scalar.cmpi .ne (Scalar.extui (Scalar.cmpi .eq (BitVec.ofNat 32 (i 1).val) 0#32)) 0#32) = 1#1

theorem hz3 : (![0, 0, 0] : Fin 3 → Nat) = fun _ => 0 := by
  funext a; fin_cases a <;> rfl
theorem hz1 : (![0] : Fin 1 → Nat) = fun _ => 0 := by
  funext a; fin_cases a; rfl

/-- A later row tile of a batch entry: the scratch keeps the projected features `xs` it was handed, and the output
    block is the tile's payload of the adjacency tile, that scratch and the bias. -/
theorem run1_keep (c : Dev nD) (i : grid1.Coords)
    (arg2 : Memref sig .tc .vmem S1x2048x64 .f32) (harg2 : arg2.IsWhole)
    (arg3 : Memref sig .tc .vmem S1x512x2048 .f32) (harg3 : arg3.IsWhole)
    (arg4 : Memref sig .tc .vmem S1x64x64 .f32) (harg4 : arg4.IsWhole)
    (arg5 : Memref sig .tc .vmem S64 .f32) (harg5 : arg5.IsWhole)
    (arg6 : Memref sig .tc .vmem S1x512x64 .f32) (harg6 : arg6.IsWhole)
    (arg7 : Memref sig .tc .vmem S1x2048x64 .f32) (harg7 : arg7.IsWhole)
    (hc : ¬ cond1 i)
    (x0 : Vec F S1x2048x64 .f32) (x1 : Vec F S1x512x2048 .f32) (x2 : Vec F S1x64x64 .f32) (x3 : Vec F S64 .f32)
    (xs : Vec F S1x2048x64 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k1_pay2 x1 xs x3) ∗ owns (c : Thread nD τ) arg7 fullShare xs) -∗ K ⟨⟩))
      ⊢ wp frame (wpE (defs₀ (F := F)) Variants.none c none) E
          (cc1_kernel i arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg2.eq_unread hf0; obtain rfl := harg3.eq_unread hf1
  obtain rfl := harg4.eq_unread hf2; obtain rfl := harg5.eq_unread hf3
  obtain rfl := harg7.eq_unread hf5
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    rw [View.read_writes_eq_canon _ _ _ (fun y => View.cover_of_tiledL _ S1x512x64.size (by sl_kernel_rfl) y),
      View.canon_unit_zero hz3]
    simp only [View.readAt_eq_ld, harg3.read_unread, harg7.read_unread, harg5.read_unread,
      View.ld_unit_zero (S := S1x512x2048) hz3, View.ld_unit_zero (S := S1x2048x64) hz3, View.ld_unit_zero (S := S64) hz1]
  iexists _; isplitr; · ipureintro; exact hf5
  iexact H5

/-- The first row tile of a batch entry: the scratch is refilled with the entry's features times the weights, whatever it
    held, and the output block is the tile's payload over the refilled scratch. -/
theorem run1_fill (c : Dev nD) (i : grid1.Coords)
    (arg2 : Memref sig .tc .vmem S1x2048x64 .f32) (harg2 : arg2.IsWhole)
    (arg3 : Memref sig .tc .vmem S1x512x2048 .f32) (harg3 : arg3.IsWhole)
    (arg4 : Memref sig .tc .vmem S1x64x64 .f32) (harg4 : arg4.IsWhole)
    (arg5 : Memref sig .tc .vmem S64 .f32) (harg5 : arg5.IsWhole)
    (arg6 : Memref sig .tc .vmem S1x512x64 .f32) (harg6 : arg6.IsWhole)
    (arg7 : Memref sig .tc .vmem S1x2048x64 .f32) (harg7 : arg7.IsWhole)
    (hc : cond1 i)
    (x0 : Vec F S1x2048x64 .f32) (x1 : Vec F S1x512x2048 .f32) (x2 : Vec F S1x64x64 .f32) (x3 : Vec F S64 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k1_pay2 x1 (k1_pay1 x0 x2) x3)
            ∗ owns (c : Thread nD τ) arg7 fullShare (k1_pay1 x0 x2)) -∗ K ⟨⟩))
      ⊢ wp frame (wpE (defs₀ (F := F)) Variants.none c none) E
          (cc1_kernel i arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg2.eq_unread hf0; obtain rfl := harg3.eq_unread hf1
  obtain rfl := harg4.eq_unread hf2; obtain rfl := harg5.eq_unread hf3
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    sl_unfold_words
    rw [View.read_writes_eq_canon _ _ _ (fun y => View.cover_of_tiledL _ S1x512x64.size (by sl_kernel_rfl) y), View.canon_unit_zero hz3, View.readCov_unit_zero _ hz3]
    simp only [View.readAt_eq_ld, harg2.read_unread, harg3.read_unread, harg4.read_unread, harg5.read_unread,
      View.ld_unit_zero (S := S1x512x2048) hz3, View.ld_unit_zero (S := S1x2048x64) hz3,
      View.ld_unit_zero (S := S1x64x64) hz3, View.ld_unit_zero (S := S64) hz1]
  iexists _; isplitr; swap; · iexact H5
  ipureintro
  sl_unfold_words
  rw [View.read_writes_eq_canon _ _ _ (fun y => View.cover_of_tiledL _ S1x2048x64.size (by sl_kernel_rfl) y), View.canon_unit_zero hz3]
  simp only [View.readAt_eq_ld, harg2.read_unread, harg4.read_unread,
    View.ld_unit_zero (S := S1x2048x64) hz3, View.ld_unit_zero (S := S1x64x64) hz3]

end Cert.KernelIdeal.Hand

end
-- ==== Proof.KiDat1.lean ====
/-
  The proof data of the second graph-convolution call and its body obligation.  The grid is (batch entry, row tile) with
  the row tile fastest, 32 points; at point t the entry is t / 4.  The scratch holds, after the first row tile of an
  entry, that entry's features times the weights, and keeps it through the entry's other three tiles: its contents after
  n points are defined by recursion on n.  Each input buffer is left at its block, the output buffer at the tile's payload.
-/
import proofs.«165070_j9002251452429_2_alg».proof.Proof.KiRuns1
import proofs.«165070_j9002251452429_2_alg».proof.Proof.KiLaunchP
import proofs.«165070_j9002251452429_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1
variable (V : (c : Dev nD) → (b : Ref sig .tc) → Buf (Elt F) ((c : Thread nD τ).loc b))

/-- Window `w`'s block of its array, as the region finds the array, at grid point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The refill branch is taken exactly at the points whose index is a multiple of four: the first row tile of each batch entry. -/
theorem hcond1 : ∀ t : Fin cfg1.N, cond1 (grid1.coords t) ↔ t.val % 4 = 0 :=
  (by decide +kernel : ∀ t : Fin grid1.N, cond1 (grid1.coords t) ↔ t.val % 4 = 0)

/-- The scratch operand, a whole buffer of the kernel's own. -/
abbrev scM1 : Memref sig .tc .vmem S1x2048x64 .f32 := Memref.whole cc1_scratch0

/-- What the scratch holds after the first `n` points: refilled with the batch entry's features times the weights at
    every fourth point, kept in between (before the first point: not named). -/
def scr1 (c : Dev nD) : ℕ → Vec F S1x2048x64 .f32
  | 0 => constant S1x2048x64 .f32 0x00000000#32
  | n + 1 => if h : n < cfg1.N then (if n % 4 = 0 then k1_pay1 (iblk1 V c 0 ⟨n, h⟩) (iblk1 V c 2 ⟨n, h⟩) else scr1 c n) else scr1 c n

theorem scr1_fill (c : Dev nD) (t : Fin cfg1.N) (h : t.val % 4 = 0) :
    scr1 V c (t.val + 1) = k1_pay1 (iblk1 V c 0 t) (iblk1 V c 2 t) := by
  rw [scr1, dif_pos t.isLt, if_pos h]
theorem scr1_keep (c : Dev nD) (t : Fin cfg1.N) (h : ¬ t.val % 4 = 0) :
    scr1 V c (t.val + 1) = scr1 V c t.val := by
  rw [scr1, dif_pos t.isLt, if_neg h]

/-- The output tile the body leaves at point `t`: the tile's payload of the adjacency tile, the scratch as the point
    leaves it, and the bias. -/
def out1At (c : Dev nD) (t : Fin cfg1.N) : Vec F S1x512x64 .f32 :=
  k1_pay2 (iblk1 V c 1 t) (scr1 V c (t.val + 1)) (iblk1 V c 3 t)

/-- The core's other scoped buffers (staging buffers and scratch of the other calls), each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg4_1), ((c : Thread nD τ).loc cc2_stg4_1) ↦{fullShare} f)
    ∗ (∃ f : Buf (Elt F) ((c : Thread nD τ).loc cc2_scratch0), ((c : Thread nD τ).loc cc2_scratch0) ↦{fullShare} f))

/-- The body's invariant after `n` points: the scratch at the contents computed so far, beside the other scoped buffers and the generator register. -/
def Phi1 (c : Dev nD) (n : ℕ) : sProp 𝕄 :=
  iprop((∃ d, ⌜n ≠ 0 → d = scr1 V c n⌝ ∗ owns (c : Thread nD τ) scM1 fullShare d) ∗ rest1 c ∗ (∃ r, prngReg c r))

/-- The pipeline's proof data: the arrays as found; every input buffer left at its block, the output at `out1At`;
    nothing owed, full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1At V c t
  Φ t := Phi1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1At V c t := by dsimp only [dat1]

/-- Input window 0's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
/-- Input window 1's current staging buffer holds its block at every point, fetched there or not. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
/-- Input window 2's current staging buffer holds its block at every point, fetched there or not. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
/-- Input window 3's current staging buffer holds its block at every point, fetched there or not. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

end Region1

section Region1Body
variable (V : (c : Dev nD) → (b : Ref sig .tc) → Buf (Elt F) ((c : Thread nD τ).loc b))

/-- The body at any point: each input buffer holds its block; at a refill point the run refills the scratch whatever it
    held, elsewhere the scratch holds what the points before computed and is kept; the output buffer is left at the
    tile's payload; the other scoped buffers and the core's dues ride along untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [after1_0, after1_1, after1_2, after1_3, after1_4]
  rw [show (dat1 V c).Φ t.castSucc = Phi1 V c t.val from rfl, show (dat1 V c).Φ t.succ = Phi1 V c (t.val + 1) from rfl]
  unfold Phi1 Dat.owesAt Pipeline.owesWithin
  rw [show (dat1 V c).owed t.castSucc = 0 from rfl, show (dat1 V c).owed t.succ = 0 from rfl]
  iintro ⟨⟨⟨%ds, %hds, HS⟩, HR, Hg⟩, ⟨%W, -, HW⟩, ⟨%d0, H0⟩, ⟨%d1, H1⟩, ⟨%d2, H2⟩, ⟨%d3, H3⟩, ⟨%d4, H4⟩⟩
  by_cases hc : cond1 (grid1.coords t)
  · have h4 : t.val % 4 = 0 := (hcond1 t).mp hc
    iapply (run1_fill c (grid1.coords t) _ _ _ _ _ _ _ _ _ _ _ _ hc (iblk1 V c 0 t) (iblk1 V c 1 t) (iblk1 V c 2 t) (iblk1 V c 3 t) Set.univ _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, H4, HS⟩
    isplitl [HS HR Hg]
    · isplitl [HS]
      · iexists _; isplitr; swap; · iexact HS
        ipureintro; intro _; exact (scr1_fill V c t h4).symm
      isplitl [HR]; · iexact HR
      iexact Hg
    isplitl [HW]
    · iexists W; isplitr; · ipureintro; exact fun _ _ => Or.inl trivial
      iexact HW
    isplitl [H0]; · iexact H0
    isplitl [H1]; · iexact H1
    isplitl [H2]; · iexact H2
    isplitl [H3]; · iexact H3
    unfold out1At; rw [scr1_fill V c t h4]; iexact H4
  · have h4 : ¬ t.val % 4 = 0 := fun h => hc ((hcond1 t).mpr h)
    have ht : t.val ≠ 0 := fun h => h4 (by rw [h])
    obtain rfl := hds ht
    iapply (run1_keep c (grid1.coords t) _ _ _ _ _ _ _ _ _ _ _ _ hc (iblk1 V c 0 t) (iblk1 V c 1 t) (iblk1 V c 2 t) (iblk1 V c 3 t) (scr1 V c t.val) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS]
      · iexists _; isplitr; swap; · iexact HS
        ipureintro; intro _; exact (scr1_keep V c t h4).symm
      isplitl [HR]; · iexact HR
      iexact Hg
    isplitl [HW]
    · iexists W; isplitr; · ipureintro; exact fun _ _ => Or.inl trivial
      iexact HW
    isplitl [H0]; · iexact H0
    isplitl [H1]; · iexact H1
    isplitl [H2]; · iexact H2
    isplitl [H3]; · iexact H3
    unfold out1At; rw [scr1_keep V c t h4]; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1Body

end Cert.KernelIdeal.Hand

end
-- ==== Proof.KiRuns2.lean ====
/-
  The body of the third graph-convolution call, run once per branch of its one conditional.
  At the first row tile of a batch entry the body refills its scratch with the entry's feature block times the weight
  block (one matrix product) and then computes the tile's output from the adjacency tile, the refilled scratch and the
  bias; at the other row tiles it leaves the scratch alone and computes the output from what the scratch holds.  Every
  load and store goes through a whole staging buffer, so each buffer's contents after the body are the stored payload.
-/
import proofs.«165070_j9002251452429_2_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«165070_j9002251452429_2_alg».proof.Proof.KiRuns1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The branch of the third region's body: taken exactly at the points whose second grid coordinate is zero,
    that is at the first row tile of each batch entry. -/
abbrev cond2 (i : grid2.Coords) : Prop :=
  (Scalar.cmpi .ne (Scalar.extui (Scalar.cmpi .eq (BitVec.ofNat 32 (i 1).val) 0#32)) 0#32) = 1#1

/-- A later row tile of a batch entry: the scratch keeps the projected features `xs` it was handed, and the output
    block is the tile's payload of the adjacency tile, that scratch and the bias. -/
theorem run2_keep (c : Dev nD) (i : grid2.Coords)
    (arg2 : Memref sig .tc .vmem S1x2048x64 .f32) (harg2 : arg2.IsWhole)
    (arg3 : Memref sig .tc .vmem S1x512x2048 .f32) (harg3 : arg3.IsWhole)
    (arg4 : Memref sig .tc .vmem S1x64x64 .f32) (harg4 : arg4.IsWhole)
    (arg5 : Memref sig .tc .vmem S64 .f32) (harg5 : arg5.IsWhole)
    (arg6 : Memref sig .tc .vmem S1x512x64 .f32) (harg6 : arg6.IsWhole)
    (arg7 : Memref sig .tc .vmem S1x2048x64 .f32) (harg7 : arg7.IsWhole)
    (hc : ¬ cond2 i)
    (x0 : Vec F S1x2048x64 .f32) (x1 : Vec F S1x512x2048 .f32) (x2 : Vec F S1x64x64 .f32) (x3 : Vec F S64 .f32)
    (xs : Vec F S1x2048x64 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k2_pay2 x1 xs x3) ∗ owns (c : Thread nD τ) arg7 fullShare xs) -∗ K ⟨⟩))
      ⊢ wp frame (wpE (defs₀ (F := F)) Variants.none c none) E
          (cc2_kernel i arg2 harg2 arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg2.eq_unread hf0; obtain rfl := harg3.eq_unread hf1
  obtain rfl := harg4.eq_unread hf2; obtain rfl := harg5.eq_unread hf3
  obtain rfl := harg7.eq_unread hf5
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    rw [View.read_writes_eq_canon _ _ _ (fun y => View.cover_of_tiledL _ S1x512x64.size (by sl_kernel_rfl) y),
      View.canon_unit_zero hz3]
    simp only [View.readAt_eq_ld, harg3.read_unread, harg7.read_unread, harg5.read_unread,
      View.ld_unit_zero (S := S1x512x2048) hz3, View.ld_unit_zero (S := S1x2048x64) hz3, View.ld_unit_zero (S := S64) hz1]
  iexists _; isplitr; · ipureintro; exact hf5
  iexact H5

/-- The first row tile of a batch entry: the scratch is refilled with the entry's features times the weights, whatever it
    held, and the output block is the tile's payload over the refilled scratch. -/
theorem run2_fill (c : Dev nD) (i : grid2.Coords)
    (arg2 : Memref sig .tc .vmem S1x2048x64 .f32) (harg2 : arg2.IsWhole)
    (arg3 : Memref sig .tc .vmem S1x512x2048 .f32) (harg3 : arg3.IsWhole)
    (arg4 : Memref sig .tc .vmem S1x64x64 .f32) (harg4 : arg4.IsWhole)
    (arg5 : Memref sig .tc .vmem S64 .f32) (harg5 : arg5.IsWhole)
    (arg6 : Memref sig .tc .vmem S1x512x64 .f32) (harg6 : arg6.IsWhole)
    (arg7 : Memref sig .tc .vmem S1x2048x64 .f32) (harg7 : arg7.IsWhole)
    (hc : cond2 i)
    (x0 : Vec F S1x2048x64 .f32) (x1 : Vec F S1x512x2048 .f32) (x2 : Vec F S1x64x64 .f32) (x3 : Vec F S64 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k2_pay2 x1 (k2_pay1 x0 x2) x3)
            ∗ owns (c : Thread nD τ) arg7 fullShare (k2_pay1 x0 x2)) -∗ K ⟨⟩))
      ⊢ wp frame (wpE (defs₀ (F := F)) Variants.none c none) E
          (cc2_kernel i arg2 harg2 arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg2.eq_unread hf0; obtain rfl := harg3.eq_unread hf1
  obtain rfl := harg4.eq_unread hf2; obtain rfl := harg5.eq_unread hf3
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    sl_unfold_words
    rw [View.read_writes_eq_canon _ _ _ (fun y => View.cover_of_tiledL _ S1x512x64.size (by sl_kernel_rfl) y), View.canon_unit_zero hz3, View.readCov_unit_zero _ hz3]
    simp only [View.readAt_eq_ld, harg2.read_unread, harg3.read_unread, harg4.read_unread, harg5.read_unread,
      View.ld_unit_zero (S := S1x512x2048) hz3, View.ld_unit_zero (S := S1x2048x64) hz3,
      View.ld_unit_zero (S := S1x64x64) hz3, View.ld_unit_zero (S := S64) hz1]
  iexists _; isplitr; swap; · iexact H5
  ipureintro
  sl_unfold_words
  rw [View.read_writes_eq_canon _ _ _ (fun y => View.cover_of_tiledL _ S1x2048x64.size (by sl_kernel_rfl) y), View.canon_unit_zero hz3]
  simp only [View.readAt_eq_ld, harg2.read_unread, harg4.read_unread,
    View.ld_unit_zero (S := S1x2048x64) hz3, View.ld_unit_zero (S := S1x64x64) hz3]

end Cert.KernelIdeal.Hand

end
-- ==== Proof.KiDat2.lean ====
/-
  The proof data of the third graph-convolution call and its body obligation.  The grid is (batch entry, row tile) with
  the row tile fastest, 32 points; at point t the entry is t / 4.  The scratch holds, after the first row tile of an
  entry, that entry's features times the weights, and keeps it through the entry's other three tiles: its contents after
  n points are defined by recursion on n.  Each input buffer is left at its block, the output buffer at the tile's payload.
-/
import proofs.«165070_j9002251452429_2_alg».proof.Proof.KiRuns2
import proofs.«165070_j9002251452429_2_alg».proof.Proof.KiLaunchP
import proofs.«165070_j9002251452429_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region2
variable (V : (c : Dev nD) → (b : Ref sig .tc) → Buf (Elt F) ((c : Thread nD τ).loc b))

/-- Window `w`'s block of its array, as the region finds the array, at grid point `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The refill branch is taken exactly at the points whose index is a multiple of four: the first row tile of each batch entry. -/
theorem hcond2 : ∀ t : Fin cfg2.N, cond2 (grid2.coords t) ↔ t.val % 4 = 0 :=
  (by decide +kernel : ∀ t : Fin grid2.N, cond2 (grid2.coords t) ↔ t.val % 4 = 0)

/-- The scratch operand, a whole buffer of the kernel's own. -/
abbrev scM2 : Memref sig .tc .vmem S1x2048x64 .f32 := Memref.whole cc2_scratch0

/-- What the scratch holds after the first `n` points: refilled with the batch entry's features times the weights at
    every fourth point, kept in between (before the first point: not named). -/
def scr2 (c : Dev nD) : ℕ → Vec F S1x2048x64 .f32
  | 0 => constant S1x2048x64 .f32 0x00000000#32
  | n + 1 => if h : n < cfg2.N then (if n % 4 = 0 then k2_pay1 (iblk2 V c 0 ⟨n, h⟩) (iblk2 V c 2 ⟨n, h⟩) else scr2 c n) else scr2 c n

theorem scr2_fill (c : Dev nD) (t : Fin cfg2.N) (h : t.val % 4 = 0) :
    scr2 V c (t.val + 1) = k2_pay1 (iblk2 V c 0 t) (iblk2 V c 2 t) := by
  rw [scr2, dif_pos t.isLt, if_pos h]
theorem scr2_keep (c : Dev nD) (t : Fin cfg2.N) (h : ¬ t.val % 4 = 0) :
    scr2 V c (t.val + 1) = scr2 V c t.val := by
  rw [scr2, dif_pos t.isLt, if_neg h]

/-- The output tile the body leaves at point `t`: the tile's payload of the adjacency tile, the scratch as the point
    leaves it, and the bias. -/
def out2At (c : Dev nD) (t : Fin cfg2.N) : Vec F S1x512x64 .f32 :=
  k2_pay2 (iblk2 V c 1 t) (scr2 V c (t.val + 1)) (iblk2 V c 3 t)

/-- The core's other scoped buffers (staging buffers and scratch of the other calls), each whole at some contents. -/
def rest2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_scratch0), ((c : Thread nD τ).loc cc1_scratch0) ↦{fullShare} f))

/-- The body's invariant after `n` points: the scratch at the contents computed so far, beside the other scoped buffers and the generator register. -/
def Phi2 (c : Dev nD) (n : ℕ) : sProp 𝕄 :=
  iprop((∃ d, ⌜n ≠ 0 → d = scr2 V c n⌝ ∗ owns (c : Thread nD τ) scM2 fullShare d) ∗ rest2 c ∗ (∃ r, prngReg c r))

/-- The pipeline's proof data: the arrays as found; every input buffer left at its block, the output at `out2At`;
    nothing owed, full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2At V c t
  Φ t := Phi2 V c t.val
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2At V c t := by dsimp only [dat2]

/-- Input window 0's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
/-- Input window 1's current staging buffer holds its block at every point, fetched there or not. -/
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
/-- Input window 2's current staging buffer holds its block at every point, fetched there or not. -/
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
/-- Input window 3's current staging buffer holds its block at every point, fetched there or not. -/
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

end Region2

section Region2Body
variable (V : (c : Dev nD) → (b : Ref sig .tc) → Buf (Elt F) ((c : Thread nD τ).loc b))

/-- The body at any point: each input buffer holds its block; at a refill point the run refills the scratch whatever it
    held, elsewhere the scratch holds what the points before computed and is kept; the output buffer is left at the
    tile's payload; the other scoped buffers and the core's dues ride along untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [after2_0, after2_1, after2_2, after2_3, after2_4]
  rw [show (dat2 V c).Φ t.castSucc = Phi2 V c t.val from rfl, show (dat2 V c).Φ t.succ = Phi2 V c (t.val + 1) from rfl]
  unfold Phi2 Dat.owesAt Pipeline.owesWithin
  rw [show (dat2 V c).owed t.castSucc = 0 from rfl, show (dat2 V c).owed t.succ = 0 from rfl]
  iintro ⟨⟨⟨%ds, %hds, HS⟩, HR, Hg⟩, ⟨%W, -, HW⟩, ⟨%d0, H0⟩, ⟨%d1, H1⟩, ⟨%d2, H2⟩, ⟨%d3, H3⟩, ⟨%d4, H4⟩⟩
  by_cases hc : cond2 (grid2.coords t)
  · have h4 : t.val % 4 = 0 := (hcond2 t).mp hc
    iapply (run2_fill c (grid2.coords t) _ _ _ _ _ _ _ _ _ _ _ _ hc (iblk2 V c 0 t) (iblk2 V c 1 t) (iblk2 V c 2 t) (iblk2 V c 3 t) Set.univ _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, H4, HS⟩
    isplitl [HS HR Hg]
    · isplitl [HS]
      · iexists _; isplitr; swap; · iexact HS
        ipureintro; intro _; exact (scr2_fill V c t h4).symm
      isplitl [HR]; · iexact HR
      iexact Hg
    isplitl [HW]
    · iexists W; isplitr; · ipureintro; exact fun _ _ => Or.inl trivial
      iexact HW
    isplitl [H0]; · iexact H0
    isplitl [H1]; · iexact H1
    isplitl [H2]; · iexact H2
    isplitl [H3]; · iexact H3
    unfold out2At; rw [scr2_fill V c t h4]; iexact H4
  · have h4 : ¬ t.val % 4 = 0 := fun h => hc ((hcond2 t).mpr h)
    have ht : t.val ≠ 0 := fun h => h4 (by rw [h])
    obtain rfl := hds ht
    iapply (run2_keep c (grid2.coords t) _ _ _ _ _ _ _ _ _ _ _ _ hc (iblk2 V c 0 t) (iblk2 V c 1 t) (iblk2 V c 2 t) (iblk2 V c 3 t) (scr2 V c t.val) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS HR Hg]
    · isplitl [HS]
      · iexists _; isplitr; swap; · iexact HS
        ipureintro; intro _; exact (scr2_keep V c t h4).symm
      isplitl [HR]; · iexact HR
      iexact Hg
    isplitl [HW]
    · iexists W; isplitr; · ipureintro; exact fun _ _ => Or.inl trivial
      iexact HW
    isplitl [H0]; · iexact H0
    isplitl [H1]; · iexact H1
    isplitl [H2]; · iexact H2
    isplitl [H3]; · iexact H3
    unfold out2At; rw [scr2_keep V c t h4]; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2Body

end Cert.KernelIdeal.Hand

end
-- ==== Proof.KiMain.lean ====
/-
  The whole run of @main: three graph-convolution calls, each followed by a stretch of host operations (batch
  normalisation, maximum over the nodes, the slice of the next weights; at the end the concatenation and the linear map).
  Between two items every unscoped buffer is held at a named valuation: a call replaces its windows' arrays by what its
  write-backs leave, a stretch folds its operations.  The run is the library's theorem for @main as a list of segments.
-/
import proofs.«165070_j9002251452429_2_alg».proof.Proof.KiDat0
import proofs.«165070_j9002251452429_2_alg».proof.Proof.KiDat1
import proofs.«165070_j9002251452429_2_alg».proof.Proof.KiDat2
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The host stretches allocate nothing -/
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

variable (m : (ℓ : Loc nD τ sig) → Buf (Elt F) ℓ) (ρ : Dev nD → PrngReg)

/-! ## The buffers' contents between the items of @main -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the first call: its windows' arrays at what the write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operations that follow it. -/
def W2 (c : Dev nD) : Valuation τ sig (Elt F) := StableHlo.after hostOps1 (W1 m ρ c)
abbrev V2 : (c : Dev nD) → (b : Ref sig .tc) → Buf (Elt F) ((c : Thread nD τ).loc b) := fun c b => W2 m ρ c b

/-- After the second call: its windows' arrays at what the write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the host operations that follow it. -/
def W4 (c : Dev nD) : Valuation τ sig (Elt F) := StableHlo.after hostOps2 (W3 m ρ c)
abbrev V4 : (c : Dev nD) → (b : Ref sig .tc) → Buf (Elt F) ((c : Thread nD τ).loc b) := fun c b => W4 m ρ c b

/-- After the third call: its windows' arrays at what the write-backs leave, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the host operations that follow it. -/
def W6 (c : Dev nD) : Valuation τ sig (Elt F) := StableHlo.after hostOps3 (W5 m ρ c)
abbrev V6 : (c : Dev nD) → (b : Ref sig .tc) → Buf (Elt F) ((c : Thread nD τ).loc b) := fun c b => W6 m ρ c b

/-! ## The proof data family and what rides along -/

abbrev adm : (p : Fin 3) → (pcfgs (F := F) p).Adm := fun p => (cfgs p).toPCfg_adm
/-- Every call's proof data, each at the contents its call is entered with. -/
def pdats : (p : Fin 3) → (c : Dev nD) → Dat τ (Elt F) Unit ℕ (Pipeline.UD sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
/-- A stretch of host operations as a segment over the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The three calls as segments -/

-- a library lemma stated over the pinned configuration unifies with the printed one only when unification may unfold
-- plain definitions in a metavariable's type
set_option backward.isDefEq.respectTransparency.types false in
/-- The first call as a segment: entered with every unscoped buffer at `W0`, left with them at `W1`.  Its windows'
    arrays are taken out of the unscoped buffers and put back at what the write-backs leave; its scratch comes out of the
    scoped buffers at some contents and goes back at some contents; the generator register passes through; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Phi0 (V0 m ρ) c 0 from rfl]; unfold Phi0 rest0
    rw [show (Pipeline.scopedRest (Ix := Unit) (Name := ℕ) (U := Pipeline.UD sig nD τ) (Lvl := ℕ) (Val := Elt F) (Pipeline.pin (pcfgs (F := F)) adm 0).spec c : sProp 𝕄) = _
      from scopedRest0_eq (Ix := Unit) (Val := Elt F) (Name := ℕ) (U := Pipeline.UD sig nD τ) (Lvl := ℕ) c]
    iintro ⟨Hp, -, ⟨H0, H1, H2, H3, H4, H5, H6, H7, H8, H9, H10, H11, H12, H13, H14, H15, H16, H17, H18⟩⟩
    isplitl [H0]
    · icases H0 with ⟨%f, H0⟩; iexists f; isplitr; · ipureintro; exact fun h => absurd rfl h
      simp only [scM0, owns_whole]; iexact H0
    isplitl [H1 H2 H3 H4 H5 H6 H7 H8 H9 H10 H11 H12 H13 H14 H15 H16 H17 H18]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    iexact Hp
  hout c := by
    rw [Pipeline.ownSems0_none, show (pdats m ρ 0 c).Φ (Fin.last _) = Phi0 (V0 m ρ) c cfg0.N from rfl]; unfold Phi0 rest0
    rw [show (Pipeline.scopedRest (Ix := Unit) (Name := ℕ) (U := Pipeline.UD sig nD τ) (Lvl := ℕ) (Val := Elt F) (Pipeline.pin (pcfgs (F := F)) adm 0).spec c : sProp 𝕄) = _
      from scopedRest0_eq (Ix := Unit) (Val := Elt F) (Name := ℕ) (U := Pipeline.UD sig nD τ) (Lvl := ℕ) c]
    iintro ⟨⟨%d, -, H0⟩, ⟨H1, H2, H3, H4, H5, H6, H7, H8, H9, H10, H11, H12, H13, H14, H15, H16, H17, H18⟩, Hp⟩
    isplitl [Hp]; · iexact Hp
    isplitr; · iempintro
    isplitl [H0]; (· iexists d; simp only [scM0, owns_whole]; iexact H0)
    isplitl [H1]; (· iexact H1)
    isplitl [H2]; (· iexact H2)
    isplitl [H3]; (· iexact H3)
    isplitl [H4]; (· iexact H4)
    isplitl [H5]; (· iexact H5)
    isplitl [H6]; (· iexact H6)
    isplitl [H7]; (· iexact H7)
    isplitl [H8]; (· iexact H8)
    isplitl [H9]; (· iexact H9)
    isplitl [H10]; (· iexact H10)
    isplitl [H11]; (· iexact H11)
    isplitl [H12]; (· iexact H12)
    isplitl [H13]; (· iexact H13)
    isplitl [H14]; (· iexact H14)
    isplitl [H15]; (· iexact H15)
    isplitl [H16]; (· iexact H16)
    isplitl [H17]; (· iexact H17)
    iexact H18
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The second call as a segment: entered with every unscoped buffer at `W2`, left with them at `W3`.  Its windows'
    arrays are taken out of the unscoped buffers and put back at what the write-backs leave; its scratch comes out of the
    scoped buffers at some contents and goes back at some contents; the generator register passes through; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Phi1 (V2 m ρ) c 0 from rfl]; unfold Phi1 rest1
    rw [show (Pipeline.scopedRest (Ix := Unit) (Name := ℕ) (U := Pipeline.UD sig nD τ) (Lvl := ℕ) (Val := Elt F) (Pipeline.pin (pcfgs (F := F)) adm 1).spec c : sProp 𝕄) = _
      from scopedRest1_eq (Ix := Unit) (Val := Elt F) (Name := ℕ) (U := Pipeline.UD sig nD τ) (Lvl := ℕ) c]
    iintro ⟨Hp, -, ⟨H0, H1, H2, H3, H4, H5, H6, H7, H8, H9, H10, H11, H12, H13, H14, H15, H16, H17, H18⟩⟩
    isplitl [H9]
    · icases H9 with ⟨%f, H9⟩; iexists f; isplitr; · ipureintro; exact fun h => absurd rfl h
      simp only [scM1, owns_whole]; iexact H9
    isplitl [H0 H1 H2 H3 H4 H5 H6 H7 H8 H10 H11 H12 H13 H14 H15 H16 H17 H18]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    iexact Hp
  hout c := by
    rw [Pipeline.ownSems0_none, show (pdats m ρ 1 c).Φ (Fin.last _) = Phi1 (V2 m ρ) c cfg1.N from rfl]; unfold Phi1 rest1
    rw [show (Pipeline.scopedRest (Ix := Unit) (Name := ℕ) (U := Pipeline.UD sig nD τ) (Lvl := ℕ) (Val := Elt F) (Pipeline.pin (pcfgs (F := F)) adm 1).spec c : sProp 𝕄) = _
      from scopedRest1_eq (Ix := Unit) (Val := Elt F) (Name := ℕ) (U := Pipeline.UD sig nD τ) (Lvl := ℕ) c]
    iintro ⟨⟨%d, -, H9⟩, ⟨H0, H1, H2, H3, H4, H5, H6, H7, H8, H10, H11, H12, H13, H14, H15, H16, H17, H18⟩, Hp⟩
    isplitl [Hp]; · iexact Hp
    isplitr; · iempintro
    isplitl [H0]; (· iexact H0)
    isplitl [H1]; (· iexact H1)
    isplitl [H2]; (· iexact H2)
    isplitl [H3]; (· iexact H3)
    isplitl [H4]; (· iexact H4)
    isplitl [H5]; (· iexact H5)
    isplitl [H6]; (· iexact H6)
    isplitl [H7]; (· iexact H7)
    isplitl [H8]; (· iexact H8)
    isplitl [H9]; (· iexists d; simp only [scM1, owns_whole]; iexact H9)
    isplitl [H10]; (· iexact H10)
    isplitl [H11]; (· iexact H11)
    isplitl [H12]; (· iexact H12)
    isplitl [H13]; (· iexact H13)
    isplitl [H14]; (· iexact H14)
    isplitl [H15]; (· iexact H15)
    isplitl [H16]; (· iexact H16)
    isplitl [H17]; (· iexact H17)
    iexact H18
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The third call as a segment: entered with every unscoped buffer at `W4`, left with them at `W5`.  Its windows'
    arrays are taken out of the unscoped buffers and put back at what the write-backs leave; its scratch comes out of the
    scoped buffers at some contents and goes back at some contents; the generator register passes through; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Phi2 (V4 m ρ) c 0 from rfl]; unfold Phi2 rest2
    rw [show (Pipeline.scopedRest (Ix := Unit) (Name := ℕ) (U := Pipeline.UD sig nD τ) (Lvl := ℕ) (Val := Elt F) (Pipeline.pin (pcfgs (F := F)) adm 2).spec c : sProp 𝕄) = _
      from scopedRest2_eq (Ix := Unit) (Val := Elt F) (Name := ℕ) (U := Pipeline.UD sig nD τ) (Lvl := ℕ) c]
    iintro ⟨Hp, -, ⟨H0, H1, H2, H3, H4, H5, H6, H7, H8, H9, H10, H11, H12, H13, H14, H15, H16, H17, H18⟩⟩
    isplitl [H18]
    · icases H18 with ⟨%f, H18⟩; iexists f; isplitr; · ipureintro; exact fun h => absurd rfl h
      simp only [scM2, owns_whole]; iexact H18
    isplitl [H0 H1 H2 H3 H4 H5 H6 H7 H8 H9 H10 H11 H12 H13 H14 H15 H16 H17]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    iexact Hp
  hout c := by
    rw [Pipeline.ownSems0_none, show (pdats m ρ 2 c).Φ (Fin.last _) = Phi2 (V4 m ρ) c cfg2.N from rfl]; unfold Phi2 rest2
    rw [show (Pipeline.scopedRest (Ix := Unit) (Name := ℕ) (U := Pipeline.UD sig nD τ) (Lvl := ℕ) (Val := Elt F) (Pipeline.pin (pcfgs (F := F)) adm 2).spec c : sProp 𝕄) = _
      from scopedRest2_eq (Ix := Unit) (Val := Elt F) (Name := ℕ) (U := Pipeline.UD sig nD τ) (Lvl := ℕ) c]
    iintro ⟨⟨%d, -, H18⟩, ⟨H0, H1, H2, H3, H4, H5, H6, H7, H8, H9, H10, H11, H12, H13, H14, H15, H16, H17⟩, Hp⟩
    isplitl [Hp]; · iexact Hp
    isplitr; · iempintro
    isplitl [H0]; (· iexact H0)
    isplitl [H1]; (· iexact H1)
    isplitl [H2]; (· iexact H2)
    isplitl [H3]; (· iexact H3)
    isplitl [H4]; (· iexact H4)
    isplitl [H5]; (· iexact H5)
    isplitl [H6]; (· iexact H6)
    isplitl [H7]; (· iexact H7)
    isplitl [H8]; (· iexact H8)
    isplitl [H9]; (· iexact H9)
    isplitl [H10]; (· iexact H10)
    isplitl [H11]; (· iexact H11)
    isplitl [H12]; (· iexact H12)
    isplitl [H13]; (· iexact H13)
    isplitl [H14]; (· iexact H14)
    isplitl [H15]; (· iexact H15)
    isplitl [H16]; (· iexact H16)
    isplitl [H17]; (· iexact H17)
    iexists d; simp only [scM2, owns_whole]; iexact H18
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its six segments, and the run -/

abbrev segs : List (Pipeline.Seg (pcfgs (F := F)) adm (pdats m ρ) () defs₀ 𝒱₀ L lv) :=
  [ .region (reg0 m ρ), .host (hseg hostOps1 hostOps1_sub hostOps1_fresh (W1 m ρ)),
    .region (reg1 m ρ), .host (hseg hostOps2 hostOps2_sub hostOps2_fresh (W3 m ρ)),
    .region (reg2 m ρ), .host (hseg hostOps3 hostOps3_sub hostOps3_fresh (W5 m ρ)) ]
theorem main_run (c : Dev nD) : main (F := F) c = Pipeline.Seg.run (segs m ρ) := (main_chain c).trans (by chain_rfl)

set_option backward.isDefEq.respectTransparency.types false in
/-- THE RUN.  From any memory with zero counters every weakly fair execution of @main terminates, nothing faulting, and
    every unscoped buffer ends at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (StableHlo.after hostOps3 (W5 m ρ c)) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Hand

end
-- ==== Proof.KiEnds.lean ====
/-
  The ends of the run: no item of @main writes an argument array (a call reads it through an input window or leaves it
  aside, a host operation writes only its own result), so at every boundary each argument's buffer holds its launch
  contents; with the run, that is the frame.
-/
import proofs.«165070_j9002251452429_2_alg».proof.Proof.KiMain

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## No item writes an argument: at every boundary each argument's buffer holds its launch contents -/

theorem W1_main_arg0 (c : Dev nD) : W1 m ρ c (Proc.devRef .tc main_arg0) = m ((c : Thread nD τ).loc main_arg0) :=
  ((W1_arr m ρ c 0).trans (((dat0 (V0 m ρ) c).arrAt_in 0 rfl _).trans (A_eq0 (V0 m ρ) c 0))).trans rfl
theorem W2_main_arg0 (c : Dev nD) : W2 m ρ c (Proc.devRef .tc main_arg0) = m ((c : Thread nD τ).loc main_arg0) :=
  (show W2 m ρ c (Proc.devRef .tc main_arg0) = W1 m ρ c (Proc.devRef .tc main_arg0) from by dsimp only [W2, hostOps1]; after_results_simp <;> rfl).trans (W1_main_arg0 m ρ c)
theorem W3_main_arg0 (c : Dev nD) : W3 m ρ c (Proc.devRef .tc main_arg0) = m ((c : Thread nD τ).loc main_arg0) :=
  (W3_of_ne m ρ c main_arg0 (by decide)).trans (W2_main_arg0 m ρ c)
theorem W4_main_arg0 (c : Dev nD) : W4 m ρ c (Proc.devRef .tc main_arg0) = m ((c : Thread nD τ).loc main_arg0) :=
  (show W4 m ρ c (Proc.devRef .tc main_arg0) = W3 m ρ c (Proc.devRef .tc main_arg0) from by dsimp only [W4, hostOps2]; after_results_simp <;> rfl).trans (W3_main_arg0 m ρ c)
theorem W5_main_arg0 (c : Dev nD) : W5 m ρ c (Proc.devRef .tc main_arg0) = m ((c : Thread nD τ).loc main_arg0) :=
  (W5_of_ne m ρ c main_arg0 (by decide)).trans (W4_main_arg0 m ρ c)
theorem W6_main_arg0 (c : Dev nD) : W6 m ρ c (Proc.devRef .tc main_arg0) = m ((c : Thread nD τ).loc main_arg0) :=
  (show W6 m ρ c (Proc.devRef .tc main_arg0) = W5 m ρ c (Proc.devRef .tc main_arg0) from by dsimp only [W6, hostOps3]; after_results_simp <;> rfl).trans (W5_main_arg0 m ρ c)

theorem W1_main_arg1 (c : Dev nD) : W1 m ρ c (Proc.devRef .tc main_arg1) = m ((c : Thread nD τ).loc main_arg1) :=
  ((W1_arr m ρ c 1).trans (((dat0 (V0 m ρ) c).arrAt_in 1 rfl _).trans (A_eq0 (V0 m ρ) c 1))).trans rfl
theorem W2_main_arg1 (c : Dev nD) : W2 m ρ c (Proc.devRef .tc main_arg1) = m ((c : Thread nD τ).loc main_arg1) :=
  (show W2 m ρ c (Proc.devRef .tc main_arg1) = W1 m ρ c (Proc.devRef .tc main_arg1) from by dsimp only [W2, hostOps1]; after_results_simp <;> rfl).trans (W1_main_arg1 m ρ c)
theorem W3_main_arg1 (c : Dev nD) : W3 m ρ c (Proc.devRef .tc main_arg1) = m ((c : Thread nD τ).loc main_arg1) :=
  (W3_of_ne m ρ c main_arg1 (by decide)).trans (W2_main_arg1 m ρ c)
theorem W4_main_arg1 (c : Dev nD) : W4 m ρ c (Proc.devRef .tc main_arg1) = m ((c : Thread nD τ).loc main_arg1) :=
  (show W4 m ρ c (Proc.devRef .tc main_arg1) = W3 m ρ c (Proc.devRef .tc main_arg1) from by dsimp only [W4, hostOps2]; after_results_simp <;> rfl).trans (W3_main_arg1 m ρ c)
theorem W5_main_arg1 (c : Dev nD) : W5 m ρ c (Proc.devRef .tc main_arg1) = m ((c : Thread nD τ).loc main_arg1) :=
  (W5_of_ne m ρ c main_arg1 (by decide)).trans (W4_main_arg1 m ρ c)
theorem W6_main_arg1 (c : Dev nD) : W6 m ρ c (Proc.devRef .tc main_arg1) = m ((c : Thread nD τ).loc main_arg1) :=
  (show W6 m ρ c (Proc.devRef .tc main_arg1) = W5 m ρ c (Proc.devRef .tc main_arg1) from by dsimp only [W6, hostOps3]; after_results_simp <;> rfl).trans (W5_main_arg1 m ρ c)

theorem W1_main_arg2 (c : Dev nD) : W1 m ρ c (Proc.devRef .tc main_arg2) = m ((c : Thread nD τ).loc main_arg2) :=
  (W1_of_ne m ρ c main_arg2 (by decide)).trans rfl
theorem W2_main_arg2 (c : Dev nD) : W2 m ρ c (Proc.devRef .tc main_arg2) = m ((c : Thread nD τ).loc main_arg2) :=
  (show W2 m ρ c (Proc.devRef .tc main_arg2) = W1 m ρ c (Proc.devRef .tc main_arg2) from by dsimp only [W2, hostOps1]; after_results_simp <;> rfl).trans (W1_main_arg2 m ρ c)
theorem W3_main_arg2 (c : Dev nD) : W3 m ρ c (Proc.devRef .tc main_arg2) = m ((c : Thread nD τ).loc main_arg2) :=
  ((W3_arr m ρ c 1).trans (((dat1 (V2 m ρ) c).arrAt_in 1 rfl _).trans (A_eq1 (V2 m ρ) c 1))).trans (W2_main_arg2 m ρ c)
theorem W4_main_arg2 (c : Dev nD) : W4 m ρ c (Proc.devRef .tc main_arg2) = m ((c : Thread nD τ).loc main_arg2) :=
  (show W4 m ρ c (Proc.devRef .tc main_arg2) = W3 m ρ c (Proc.devRef .tc main_arg2) from by dsimp only [W4, hostOps2]; after_results_simp <;> rfl).trans (W3_main_arg2 m ρ c)
theorem W5_main_arg2 (c : Dev nD) : W5 m ρ c (Proc.devRef .tc main_arg2) = m ((c : Thread nD τ).loc main_arg2) :=
  ((W5_arr m ρ c 1).trans (((dat2 (V4 m ρ) c).arrAt_in 1 rfl _).trans (A_eq2 (V4 m ρ) c 1))).trans (W4_main_arg2 m ρ c)
theorem W6_main_arg2 (c : Dev nD) : W6 m ρ c (Proc.devRef .tc main_arg2) = m ((c : Thread nD τ).loc main_arg2) :=
  (show W6 m ρ c (Proc.devRef .tc main_arg2) = W5 m ρ c (Proc.devRef .tc main_arg2) from by dsimp only [W6, hostOps3]; after_results_simp <;> rfl).trans (W5_main_arg2 m ρ c)

theorem W1_main_arg3 (c : Dev nD) : W1 m ρ c (Proc.devRef .tc main_arg3) = m ((c : Thread nD τ).loc main_arg3) :=
  ((W1_arr m ρ c 2).trans (((dat0 (V0 m ρ) c).arrAt_in 2 rfl _).trans (A_eq0 (V0 m ρ) c 2))).trans rfl
theorem W2_main_arg3 (c : Dev nD) : W2 m ρ c (Proc.devRef .tc main_arg3) = m ((c : Thread nD τ).loc main_arg3) :=
  (show W2 m ρ c (Proc.devRef .tc main_arg3) = W1 m ρ c (Proc.devRef .tc main_arg3) from by dsimp only [W2, hostOps1]; after_results_simp <;> rfl).trans (W1_main_arg3 m ρ c)
theorem W3_main_arg3 (c : Dev nD) : W3 m ρ c (Proc.devRef .tc main_arg3) = m ((c : Thread nD τ).loc main_arg3) :=
  (W3_of_ne m ρ c main_arg3 (by decide)).trans (W2_main_arg3 m ρ c)
theorem W4_main_arg3 (c : Dev nD) : W4 m ρ c (Proc.devRef .tc main_arg3) = m ((c : Thread nD τ).loc main_arg3) :=
  (show W4 m ρ c (Proc.devRef .tc main_arg3) = W3 m ρ c (Proc.devRef .tc main_arg3) from by dsimp only [W4, hostOps2]; after_results_simp <;> rfl).trans (W3_main_arg3 m ρ c)
theorem W5_main_arg3 (c : Dev nD) : W5 m ρ c (Proc.devRef .tc main_arg3) = m ((c : Thread nD τ).loc main_arg3) :=
  (W5_of_ne m ρ c main_arg3 (by decide)).trans (W4_main_arg3 m ρ c)
theorem W6_main_arg3 (c : Dev nD) : W6 m ρ c (Proc.devRef .tc main_arg3) = m ((c : Thread nD τ).loc main_arg3) :=
  (show W6 m ρ c (Proc.devRef .tc main_arg3) = W5 m ρ c (Proc.devRef .tc main_arg3) from by dsimp only [W6, hostOps3]; after_results_simp <;> rfl).trans (W5_main_arg3 m ρ c)

theorem W1_main_arg4 (c : Dev nD) : W1 m ρ c (Proc.devRef .tc main_arg4) = m ((c : Thread nD τ).loc main_arg4) :=
  ((W1_arr m ρ c 3).trans (((dat0 (V0 m ρ) c).arrAt_in 3 rfl _).trans (A_eq0 (V0 m ρ) c 3))).trans rfl
theorem W2_main_arg4 (c : Dev nD) : W2 m ρ c (Proc.devRef .tc main_arg4) = m ((c : Thread nD τ).loc main_arg4) :=
  (show W2 m ρ c (Proc.devRef .tc main_arg4) = W1 m ρ c (Proc.devRef .tc main_arg4) from by dsimp only [W2, hostOps1]; after_results_simp <;> rfl).trans (W1_main_arg4 m ρ c)
theorem W3_main_arg4 (c : Dev nD) : W3 m ρ c (Proc.devRef .tc main_arg4) = m ((c : Thread nD τ).loc main_arg4) :=
  (W3_of_ne m ρ c main_arg4 (by decide)).trans (W2_main_arg4 m ρ c)
theorem W4_main_arg4 (c : Dev nD) : W4 m ρ c (Proc.devRef .tc main_arg4) = m ((c : Thread nD τ).loc main_arg4) :=
  (show W4 m ρ c (Proc.devRef .tc main_arg4) = W3 m ρ c (Proc.devRef .tc main_arg4) from by dsimp only [W4, hostOps2]; after_results_simp <;> rfl).trans (W3_main_arg4 m ρ c)
theorem W5_main_arg4 (c : Dev nD) : W5 m ρ c (Proc.devRef .tc main_arg4) = m ((c : Thread nD τ).loc main_arg4) :=
  (W5_of_ne m ρ c main_arg4 (by decide)).trans (W4_main_arg4 m ρ c)
theorem W6_main_arg4 (c : Dev nD) : W6 m ρ c (Proc.devRef .tc main_arg4) = m ((c : Thread nD τ).loc main_arg4) :=
  (show W6 m ρ c (Proc.devRef .tc main_arg4) = W5 m ρ c (Proc.devRef .tc main_arg4) from by dsimp only [W6, hostOps3]; after_results_simp <;> rfl).trans (W5_main_arg4 m ρ c)

theorem W1_main_arg5 (c : Dev nD) : W1 m ρ c (Proc.devRef .tc main_arg5) = m ((c : Thread nD τ).loc main_arg5) :=
  (W1_of_ne m ρ c main_arg5 (by decide)).trans rfl
theorem W2_main_arg5 (c : Dev nD) : W2 m ρ c (Proc.devRef .tc main_arg5) = m ((c : Thread nD τ).loc main_arg5) :=
  (show W2 m ρ c (Proc.devRef .tc main_arg5) = W1 m ρ c (Proc.devRef .tc main_arg5) from by dsimp only [W2, hostOps1]; after_results_simp <;> rfl).trans (W1_main_arg5 m ρ c)
theorem W3_main_arg5 (c : Dev nD) : W3 m ρ c (Proc.devRef .tc main_arg5) = m ((c : Thread nD τ).loc main_arg5) :=
  (W3_of_ne m ρ c main_arg5 (by decide)).trans (W2_main_arg5 m ρ c)
theorem W4_main_arg5 (c : Dev nD) : W4 m ρ c (Proc.devRef .tc main_arg5) = m ((c : Thread nD τ).loc main_arg5) :=
  (show W4 m ρ c (Proc.devRef .tc main_arg5) = W3 m ρ c (Proc.devRef .tc main_arg5) from by dsimp only [W4, hostOps2]; after_results_simp <;> rfl).trans (W3_main_arg5 m ρ c)
theorem W5_main_arg5 (c : Dev nD) : W5 m ρ c (Proc.devRef .tc main_arg5) = m ((c : Thread nD τ).loc main_arg5) :=
  (W5_of_ne m ρ c main_arg5 (by decide)).trans (W4_main_arg5 m ρ c)
theorem W6_main_arg5 (c : Dev nD) : W6 m ρ c (Proc.devRef .tc main_arg5) = m ((c : Thread nD τ).loc main_arg5) :=
  (show W6 m ρ c (Proc.devRef .tc main_arg5) = W5 m ρ c (Proc.devRef .tc main_arg5) from by dsimp only [W6, hostOps3]; after_results_simp <;> rfl).trans (W5_main_arg5 m ρ c)

theorem W1_main_arg6 (c : Dev nD) : W1 m ρ c (Proc.devRef .tc main_arg6) = m ((c : Thread nD τ).loc main_arg6) :=
  (W1_of_ne m ρ c main_arg6 (by decide)).trans rfl
theorem W2_main_arg6 (c : Dev nD) : W2 m ρ c (Proc.devRef .tc main_arg6) = m ((c : Thread nD τ).loc main_arg6) :=
  (show W2 m ρ c (Proc.devRef .tc main_arg6) = W1 m ρ c (Proc.devRef .tc main_arg6) from by dsimp only [W2, hostOps1]; after_results_simp <;> rfl).trans (W1_main_arg6 m ρ c)
theorem W3_main_arg6 (c : Dev nD) : W3 m ρ c (Proc.devRef .tc main_arg6) = m ((c : Thread nD τ).loc main_arg6) :=
  ((W3_arr m ρ c 3).trans (((dat1 (V2 m ρ) c).arrAt_in 3 rfl _).trans (A_eq1 (V2 m ρ) c 3))).trans (W2_main_arg6 m ρ c)
theorem W4_main_arg6 (c : Dev nD) : W4 m ρ c (Proc.devRef .tc main_arg6) = m ((c : Thread nD τ).loc main_arg6) :=
  (show W4 m ρ c (Proc.devRef .tc main_arg6) = W3 m ρ c (Proc.devRef .tc main_arg6) from by dsimp only [W4, hostOps2]; after_results_simp <;> rfl).trans (W3_main_arg6 m ρ c)
theorem W5_main_arg6 (c : Dev nD) : W5 m ρ c (Proc.devRef .tc main_arg6) = m ((c : Thread nD τ).loc main_arg6) :=
  (W5_of_ne m ρ c main_arg6 (by decide)).trans (W4_main_arg6 m ρ c)
theorem W6_main_arg6 (c : Dev nD) : W6 m ρ c (Proc.devRef .tc main_arg6) = m ((c : Thread nD τ).loc main_arg6) :=
  (show W6 m ρ c (Proc.devRef .tc main_arg6) = W5 m ρ c (Proc.devRef .tc main_arg6) from by dsimp only [W6, hostOps3]; after_results_simp <;> rfl).trans (W5_main_arg6 m ρ c)

theorem W1_main_arg7 (c : Dev nD) : W1 m ρ c (Proc.devRef .tc main_arg7) = m ((c : Thread nD τ).loc main_arg7) :=
  (W1_of_ne m ρ c main_arg7 (by decide)).trans rfl
theorem W2_main_arg7 (c : Dev nD) : W2 m ρ c (Proc.devRef .tc main_arg7) = m ((c : Thread nD τ).loc main_arg7) :=
  (show W2 m ρ c (Proc.devRef .tc main_arg7) = W1 m ρ c (Proc.devRef .tc main_arg7) from by dsimp only [W2, hostOps1]; after_results_simp <;> rfl).trans (W1_main_arg7 m ρ c)
theorem W3_main_arg7 (c : Dev nD) : W3 m ρ c (Proc.devRef .tc main_arg7) = m ((c : Thread nD τ).loc main_arg7) :=
  (W3_of_ne m ρ c main_arg7 (by decide)).trans (W2_main_arg7 m ρ c)
theorem W4_main_arg7 (c : Dev nD) : W4 m ρ c (Proc.devRef .tc main_arg7) = m ((c : Thread nD τ).loc main_arg7) :=
  (show W4 m ρ c (Proc.devRef .tc main_arg7) = W3 m ρ c (Proc.devRef .tc main_arg7) from by dsimp only [W4, hostOps2]; after_results_simp <;> rfl).trans (W3_main_arg7 m ρ c)
theorem W5_main_arg7 (c : Dev nD) : W5 m ρ c (Proc.devRef .tc main_arg7) = m ((c : Thread nD τ).loc main_arg7) :=
  (W5_of_ne m ρ c main_arg7 (by decide)).trans (W4_main_arg7 m ρ c)
theorem W6_main_arg7 (c : Dev nD) : W6 m ρ c (Proc.devRef .tc main_arg7) = m ((c : Thread nD τ).loc main_arg7) :=
  (show W6 m ρ c (Proc.devRef .tc main_arg7) = W5 m ρ c (Proc.devRef .tc main_arg7) from by dsimp only [W6, hostOps3]; after_results_simp <;> rfl).trans (W5_main_arg7 m ρ c)

theorem W1_main_arg8 (c : Dev nD) : W1 m ρ c (Proc.devRef .tc main_arg8) = m ((c : Thread nD τ).loc main_arg8) :=
  (W1_of_ne m ρ c main_arg8 (by decide)).trans rfl
theorem W2_main_arg8 (c : Dev nD) : W2 m ρ c (Proc.devRef .tc main_arg8) = m ((c : Thread nD τ).loc main_arg8) :=
  (show W2 m ρ c (Proc.devRef .tc main_arg8) = W1 m ρ c (Proc.devRef .tc main_arg8) from by dsimp only [W2, hostOps1]; after_results_simp <;> rfl).trans (W1_main_arg8 m ρ c)
theorem W3_main_arg8 (c : Dev nD) : W3 m ρ c (Proc.devRef .tc main_arg8) = m ((c : Thread nD τ).loc main_arg8) :=
  (W3_of_ne m ρ c main_arg8 (by decide)).trans (W2_main_arg8 m ρ c)
theorem W4_main_arg8 (c : Dev nD) : W4 m ρ c (Proc.devRef .tc main_arg8) = m ((c : Thread nD τ).loc main_arg8) :=
  (show W4 m ρ c (Proc.devRef .tc main_arg8) = W3 m ρ c (Proc.devRef .tc main_arg8) from by dsimp only [W4, hostOps2]; after_results_simp <;> rfl).trans (W3_main_arg8 m ρ c)
theorem W5_main_arg8 (c : Dev nD) : W5 m ρ c (Proc.devRef .tc main_arg8) = m ((c : Thread nD τ).loc main_arg8) :=
  ((W5_arr m ρ c 3).trans (((dat2 (V4 m ρ) c).arrAt_in 3 rfl _).trans (A_eq2 (V4 m ρ) c 3))).trans (W4_main_arg8 m ρ c)
theorem W6_main_arg8 (c : Dev nD) : W6 m ρ c (Proc.devRef .tc main_arg8) = m ((c : Thread nD τ).loc main_arg8) :=
  (show W6 m ρ c (Proc.devRef .tc main_arg8) = W5 m ρ c (Proc.devRef .tc main_arg8) from by dsimp only [W6, hostOps3]; after_results_simp <;> rfl).trans (W5_main_arg8 m ρ c)

theorem W1_main_arg9 (c : Dev nD) : W1 m ρ c (Proc.devRef .tc main_arg9) = m ((c : Thread nD τ).loc main_arg9) :=
  (W1_of_ne m ρ c main_arg9 (by decide)).trans rfl
theorem W2_main_arg9 (c : Dev nD) : W2 m ρ c (Proc.devRef .tc main_arg9) = m ((c : Thread nD τ).loc main_arg9) :=
  (show W2 m ρ c (Proc.devRef .tc main_arg9) = W1 m ρ c (Proc.devRef .tc main_arg9) from by dsimp only [W2, hostOps1]; after_results_simp <;> rfl).trans (W1_main_arg9 m ρ c)
theorem W3_main_arg9 (c : Dev nD) : W3 m ρ c (Proc.devRef .tc main_arg9) = m ((c : Thread nD τ).loc main_arg9) :=
  (W3_of_ne m ρ c main_arg9 (by decide)).trans (W2_main_arg9 m ρ c)
theorem W4_main_arg9 (c : Dev nD) : W4 m ρ c (Proc.devRef .tc main_arg9) = m ((c : Thread nD τ).loc main_arg9) :=
  (show W4 m ρ c (Proc.devRef .tc main_arg9) = W3 m ρ c (Proc.devRef .tc main_arg9) from by dsimp only [W4, hostOps2]; after_results_simp <;> rfl).trans (W3_main_arg9 m ρ c)
theorem W5_main_arg9 (c : Dev nD) : W5 m ρ c (Proc.devRef .tc main_arg9) = m ((c : Thread nD τ).loc main_arg9) :=
  (W5_of_ne m ρ c main_arg9 (by decide)).trans (W4_main_arg9 m ρ c)
theorem W6_main_arg9 (c : Dev nD) : W6 m ρ c (Proc.devRef .tc main_arg9) = m ((c : Thread nD τ).loc main_arg9) :=
  (show W6 m ρ c (Proc.devRef .tc main_arg9) = W5 m ρ c (Proc.devRef .tc main_arg9) from by dsimp only [W6, hostOps3]; after_results_simp <;> rfl).trans (W5_main_arg9 m ρ c)

theorem W1_main_arg10 (c : Dev nD) : W1 m ρ c (Proc.devRef .tc main_arg10) = m ((c : Thread nD τ).loc main_arg10) :=
  (W1_of_ne m ρ c main_arg10 (by decide)).trans rfl
theorem W2_main_arg10 (c : Dev nD) : W2 m ρ c (Proc.devRef .tc main_arg10) = m ((c : Thread nD τ).loc main_arg10) :=
  (show W2 m ρ c (Proc.devRef .tc main_arg10) = W1 m ρ c (Proc.devRef .tc main_arg10) from by dsimp only [W2, hostOps1]; after_results_simp <;> rfl).trans (W1_main_arg10 m ρ c)
theorem W3_main_arg10 (c : Dev nD) : W3 m ρ c (Proc.devRef .tc main_arg10) = m ((c : Thread nD τ).loc main_arg10) :=
  (W3_of_ne m ρ c main_arg10 (by decide)).trans (W2_main_arg10 m ρ c)
theorem W4_main_arg10 (c : Dev nD) : W4 m ρ c (Proc.devRef .tc main_arg10) = m ((c : Thread nD τ).loc main_arg10) :=
  (show W4 m ρ c (Proc.devRef .tc main_arg10) = W3 m ρ c (Proc.devRef .tc main_arg10) from by dsimp only [W4, hostOps2]; after_results_simp <;> rfl).trans (W3_main_arg10 m ρ c)
theorem W5_main_arg10 (c : Dev nD) : W5 m ρ c (Proc.devRef .tc main_arg10) = m ((c : Thread nD τ).loc main_arg10) :=
  (W5_of_ne m ρ c main_arg10 (by decide)).trans (W4_main_arg10 m ρ c)
theorem W6_main_arg10 (c : Dev nD) : W6 m ρ c (Proc.devRef .tc main_arg10) = m ((c : Thread nD τ).loc main_arg10) :=
  (show W6 m ρ c (Proc.devRef .tc main_arg10) = W5 m ρ c (Proc.devRef .tc main_arg10) from by dsimp only [W6, hostOps3]; after_results_simp <;> rfl).trans (W5_main_arg10 m ρ c)

/-- THE FRAME: every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c)⟩) (run_all m ρ)

end Cert.KernelIdeal.Hand

end
-- ==== Proof.LibRealClosure.lean ====
/-
  Closure of the finite extended reals under the exact float operations.

  A float value read exactly is an extended real, and every float operation is the textbook operation on
  the extended reals. An extended real is called REAL here when it is the coercion of a real number.
  The reals are closed under sum, product, negation, difference, finite sums and maxima; under the
  quotient by a nonzero real; under the square root of a nonnegative real (which is again nonnegative)
  and the reciprocal square root of a positive real (which is again positive). The float literals
  0, 1, 2, 3, 512, 2^-63 * 9223372 (about 1e-12) and 2^-40 * 10995116 (about 1e-5) are real, the last
  two positive. On reals a sum of products re-associates: summing m j * (sum over d of x j d * w d) over j
  is summing (sum over j of m j * x j d) * w d over d. A sum of products whose left factors all vanish is
  zero, with no finiteness needed, since zero times any extended real is zero. A sum of squares of reals
  is a nonnegative real, so its square root is a nonnegative real and the maximum of that root with a
  positive real is a positive real.
-/
import Idealize.ShloMosaic.PureOps.Ideal
import Idealize.ShloMosaic.PureOps.Ideal.Laws
import Mathlib.Data.EReal.Operations
import Mathlib.Data.EReal.Inv

noncomputable section

open scoped BigOperators

namespace Cert.LibRealClosure

open Idealize.ShloMosaic

/-! ## Real extended reals -/

/-- An extended real is real when it is the coercion of a real number. -/
def IsReal (a : EReal) : Prop := ∃ r : ℝ, a = (r : EReal)

/-- The coercion of a real number is real. -/
protected theorem IsReal.coe (r : ℝ) : IsReal (r : EReal) := ⟨r, rfl⟩

/-- Zero is real. -/
protected theorem IsReal.zero : IsReal 0 := ⟨0, EReal.coe_zero.symm⟩

/-- One is real. -/
protected theorem IsReal.one : IsReal 1 := ⟨1, EReal.coe_one.symm⟩

/-- A real extended real is neither infinity. -/
theorem IsReal.ne_top {a : EReal} (ha : IsReal a) : a ≠ ⊤ := by
  obtain ⟨x, rfl⟩ := ha; exact EReal.coe_ne_top x

theorem IsReal.ne_bot {a : EReal} (ha : IsReal a) : a ≠ ⊥ := by
  obtain ⟨x, rfl⟩ := ha; exact EReal.coe_ne_bot x

/-- An extended real that is neither infinity is real. -/
theorem isReal_of_ne {a : EReal} (hb : a ≠ ⊥) (ht : a ≠ ⊤) : IsReal a :=
  ⟨a.toReal, (EReal.coe_toReal ht hb).symm⟩

/-- The sum of two reals is real. -/
protected theorem IsReal.add {a b : EReal} (ha : IsReal a) (hb : IsReal b) : IsReal (a + b) := by
  obtain ⟨x, rfl⟩ := ha; obtain ⟨y, rfl⟩ := hb
  exact ⟨x + y, (EReal.coe_add x y).symm⟩

/-- The product of two reals is real. -/
protected theorem IsReal.mul {a b : EReal} (ha : IsReal a) (hb : IsReal b) : IsReal (a * b) := by
  obtain ⟨x, rfl⟩ := ha; obtain ⟨y, rfl⟩ := hb
  exact ⟨x * y, (EReal.coe_mul x y).symm⟩

/-- The negation of a real is real. -/
protected theorem IsReal.neg {a : EReal} (ha : IsReal a) : IsReal (-a) := by
  obtain ⟨x, rfl⟩ := ha
  exact ⟨-x, (EReal.coe_neg x).symm⟩

/-- The difference of two reals is real. -/
protected theorem IsReal.sub {a b : EReal} (ha : IsReal a) (hb : IsReal b) : IsReal (a - b) := by
  obtain ⟨x, rfl⟩ := ha; obtain ⟨y, rfl⟩ := hb
  exact ⟨x - y, (EReal.coe_sub x y).symm⟩

/-- The maximum of two reals is one of them, hence real. -/
protected theorem IsReal.max {a b : EReal} (ha : IsReal a) (hb : IsReal b) : IsReal (Max.max a b) := by
  rcases le_total a b with h | h
  · rw [max_eq_right h]; exact hb
  · rw [max_eq_left h]; exact ha

/-- The minimum of two reals is one of them, hence real. -/
protected theorem IsReal.min {a b : EReal} (ha : IsReal a) (hb : IsReal b) : IsReal (Min.min a b) := by
  rcases le_total a b with h | h
  · rw [min_eq_left h]; exact ha
  · rw [min_eq_right h]; exact hb

/-- A sum of reals over a finite set is real. -/
protected theorem IsReal.finset_sum {ι : Type*} (s : Finset ι) (f : ι → EReal)
    (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact IsReal.add (h a (Finset.mem_insert_self a s)) (ih fun i hi => h i (Finset.mem_insert_of_mem hi))

/-- A sum of reals over a finite type is real. -/
protected theorem IsReal.sum {ι : Type*} [Fintype ι] (f : ι → EReal) (h : ∀ i, IsReal (f i)) :
    IsReal (∑ i, f i) :=
  IsReal.finset_sum Finset.univ f fun i _ => h i

/-- A finite sum of coerced reals is the coercion of the real sum. -/
theorem coe_sum {ι : Type*} [Fintype ι] (f : ι → ℝ) :
    (∑ i, (f i : EReal)) = ((∑ i, f i : ℝ) : EReal) := by
  classical
  induction (Finset.univ : Finset ι) using Finset.induction_on with
  | empty => simp
  | insert a s ha ih => rw [Finset.sum_insert ha, Finset.sum_insert ha, ih, EReal.coe_add]

/-! ## The quotient, the square root and the reciprocal square root -/

/-- The quotient of two coerced reals by a nonzero divisor is the coerced real quotient. -/
theorem div_coe_coe (x : ℝ) {y : ℝ} (hy : y ≠ 0) :
    Ideal.div (x : EReal) (y : EReal) = ((x / y : ℝ) : EReal) := by
  rw [Ideal.div_coe hy, ← EReal.coe_mul, mul_one_div]

/-- The quotient of a real by a nonzero real is real. -/
protected theorem IsReal.div {a b : EReal} (ha : IsReal a) (hb : IsReal b) (hb0 : b ≠ 0) :
    IsReal (Ideal.div a b) := by
  obtain ⟨x, rfl⟩ := ha; obtain ⟨y, rfl⟩ := hb
  have hy : y ≠ 0 := fun h => hb0 (by rw [h, EReal.coe_zero])
  exact ⟨x / y, div_coe_coe x hy⟩

/-- The square root of a nonnegative coerced real is the coerced real square root. -/
theorem sqrt_coe_of_nonneg {r : ℝ} (h : 0 ≤ r) : Ideal.sqrt (r : EReal) = (Real.sqrt r : EReal) := by
  rw [Ideal.sqrt_coe, if_neg (not_lt.mpr h)]

/-- The square root of a nonnegative real is real. -/
protected theorem IsReal.sqrt {a : EReal} (ha : IsReal a) (h0 : 0 ≤ a) : IsReal (Ideal.sqrt a) := by
  obtain ⟨x, rfl⟩ := ha
  exact ⟨Real.sqrt x, sqrt_coe_of_nonneg (EReal.coe_nonneg.mp h0)⟩

/-- The square root of a nonnegative real is nonnegative. -/
theorem sqrt_nonneg {a : EReal} (ha : IsReal a) (h0 : 0 ≤ a) : 0 ≤ Ideal.sqrt a := by
  obtain ⟨x, rfl⟩ := ha
  rw [sqrt_coe_of_nonneg (EReal.coe_nonneg.mp h0)]
  exact EReal.coe_nonneg.mpr (Real.sqrt_nonneg x)

/-- The square root of a positive real is positive. -/
theorem sqrt_pos {a : EReal} (ha : IsReal a) (h0 : 0 < a) : 0 < Ideal.sqrt a := by
  obtain ⟨x, rfl⟩ := ha
  have hx : 0 < x := EReal.coe_pos.mp h0
  rw [sqrt_coe_of_nonneg hx.le]
  exact EReal.coe_pos.mpr (Real.sqrt_pos.mpr hx)

/-- The reciprocal square root of a positive coerced real is the coerced reciprocal of the real root. -/
theorem rsqrt_coe_of_pos {r : ℝ} (h : 0 < r) :
    Ideal.rsqrt (r : EReal) = (((Real.sqrt r)⁻¹ : ℝ) : EReal) := by
  rw [Ideal.rsqrt_coe, if_neg (not_lt.mpr h.le), if_neg h.ne']

/-- The reciprocal square root of a positive real is real. -/
protected theorem IsReal.rsqrt {a : EReal} (ha : IsReal a) (h0 : 0 < a) : IsReal (Ideal.rsqrt a) := by
  obtain ⟨x, rfl⟩ := ha
  exact ⟨(Real.sqrt x)⁻¹, rsqrt_coe_of_pos (EReal.coe_pos.mp h0)⟩

/-- The reciprocal square root of a positive real is positive. -/
theorem rsqrt_pos {a : EReal} (ha : IsReal a) (h0 : 0 < a) : 0 < Ideal.rsqrt a := by
  obtain ⟨x, rfl⟩ := ha
  have hx : 0 < x := EReal.coe_pos.mp h0
  rw [rsqrt_coe_of_pos hx]
  exact EReal.coe_pos.mpr (inv_pos.mpr (Real.sqrt_pos.mpr hx))

/-! ## The same facts on the float operations of a program read exactly -/

section Fields
variable {φ : FTy} {a b : Ideal φ}

theorem isReal_addf (ha : IsReal a) (hb : IsReal b) : IsReal (FloatOps.addf a b) := by
  rw [Ideal.addf_def]; exact ha.add hb
theorem isReal_subf (ha : IsReal a) (hb : IsReal b) : IsReal (FloatOps.subf a b) := by
  rw [Ideal.subf_def]; exact ha.sub hb
theorem isReal_mulf (ha : IsReal a) (hb : IsReal b) : IsReal (FloatOps.mulf a b) := by
  rw [Ideal.mulf_def]; exact ha.mul hb
theorem isReal_negf (ha : IsReal a) : IsReal (FloatOps.negf a) := by
  rw [Ideal.negf_def]; exact ha.neg
/-- A kernel's maximum of two reals is real. The host's maximum is the same operation. -/
theorem isReal_maximumf (ha : IsReal a) (hb : IsReal b) : IsReal (FloatOps.maximumf a b) := by
  rw [Ideal.maximumf_def]; exact ha.max hb
theorem isReal_minimumf (ha : IsReal a) (hb : IsReal b) : IsReal (FloatOps.minimumf a b) := by
  rw [Ideal.minimumf_def]; exact ha.min hb
/-- A kernel's quotient of a real by a nonzero real is real. -/
theorem isReal_divf (ha : IsReal a) (hb : IsReal b) (hb0 : b ≠ 0) : IsReal (FloatOps.divf a b) := by
  rw [Ideal.divf_def]; exact ha.div hb hb0
/-- The host's quotient of a real by a nonzero real is real. -/
theorem isReal_hostDivf (ha : IsReal a) (hb : IsReal b) (hb0 : b ≠ 0) : IsReal (FloatOps.hostDivf a b) := by
  rw [Ideal.hostDivf_def]; exact ha.div hb hb0
/-- A kernel's square root of a nonnegative real is real. -/
theorem isReal_sqrt (ha : IsReal a) (h0 : 0 ≤ a) : IsReal (FloatOps.sqrt a) := by
  rw [Ideal.sqrt_def]; exact ha.sqrt h0
/-- The host's square root of a nonnegative real is real. -/
theorem isReal_hostSqrt (ha : IsReal a) (h0 : 0 ≤ a) : IsReal (FloatOps.hostUnary .sqrt a) := by
  rw [Ideal.hostUnary_sqrt_def]; exact ha.sqrt h0
/-- A kernel's reciprocal square root of a positive real is real. -/
theorem isReal_rsqrt (ha : IsReal a) (h0 : 0 < a) : IsReal (FloatOps.rsqrt a) := by
  rw [Ideal.rsqrt_def]; exact ha.rsqrt h0
/-- The host's reciprocal square root of a positive real is real. -/
theorem isReal_hostRsqrt (ha : IsReal a) (h0 : 0 < a) : IsReal (FloatOps.hostUnary .rsqrt a) := by
  rw [Ideal.hostUnary_rsqrt_def]; exact ha.rsqrt h0

end Fields

/-! ## Float literals -/

/-- The single-precision word of all zeros denotes 0. -/
theorem ofBits_f32_zero : Ideal.ofBits .f32 0x00000000#32 = 0 := Ideal.ofBits_zero_f32

/-- The single-precision word 0x3F800000 denotes 1. -/
theorem ofBits_f32_one : Ideal.ofBits .f32 0x3F800000#32 = 1 := by
  simp [Ideal.ofBits, Ideal.ieee, -EReal.coe_mul]
  norm_num

/-- The single-precision word 0x40000000 denotes 2. -/
theorem ofBits_f32_two : Ideal.ofBits .f32 0x40000000#32 = ((2 : ℝ) : EReal) := by
  simp [Ideal.ofBits, Ideal.ieee, -EReal.coe_mul]
  norm_num

/-- The single-precision word 0x40400000 denotes 3. -/
theorem ofBits_f32_three : Ideal.ofBits .f32 0x40400000#32 = ((3 : ℝ) : EReal) := by
  simp [Ideal.ofBits, Ideal.ieee, -EReal.coe_mul]
  norm_num

/-- The single-precision word 0x44000000 denotes 512. -/
theorem ofBits_f32_512 : Ideal.ofBits .f32 0x44000000#32 = ((512 : ℝ) : EReal) := by
  simp [Ideal.ofBits, Ideal.ieee, -EReal.coe_mul]
  norm_num

/-- The single-precision word 0x2B8CBCCC denotes 9223372 * 2^-63, the float nearest 1e-12. -/
theorem ofBits_f32_eps12 :
    Ideal.ofBits .f32 0x2B8CBCCC#32 = ((9223372 * (2 : ℝ) ^ (-63 : ℤ) : ℝ) : EReal) := by
  simp [Ideal.ofBits, Ideal.ieee, -EReal.coe_mul]

/-- The single-precision word 0x3727C5AC denotes 10995116 * 2^-40, the float nearest 1e-5. -/
theorem ofBits_f32_eps5 :
    Ideal.ofBits .f32 0x3727C5AC#32 = ((10995116 * (2 : ℝ) ^ (-40 : ℤ) : ℝ) : EReal) := by
  simp [Ideal.ofBits, Ideal.ieee, -EReal.coe_mul]

/-- The single-precision word 0xFF800000 denotes minus infinity. -/
theorem ofBits_f32_neg_inf : Ideal.ofBits .f32 0xFF800000#32 = ⊥ := by
  simp [Ideal.ofBits, Ideal.ieee]

theorem isReal_ofBits_f32_zero : IsReal (Ideal.ofBits .f32 0x00000000#32) := by
  rw [ofBits_f32_zero]; exact IsReal.zero
theorem isReal_ofBits_f32_one : IsReal (Ideal.ofBits .f32 0x3F800000#32) := by
  rw [ofBits_f32_one]; exact IsReal.one
theorem isReal_ofBits_f32_two : IsReal (Ideal.ofBits .f32 0x40000000#32) := ⟨_, ofBits_f32_two⟩
theorem isReal_ofBits_f32_three : IsReal (Ideal.ofBits .f32 0x40400000#32) := ⟨_, ofBits_f32_three⟩
theorem isReal_ofBits_f32_512 : IsReal (Ideal.ofBits .f32 0x44000000#32) := ⟨_, ofBits_f32_512⟩
theorem isReal_ofBits_f32_eps12 : IsReal (Ideal.ofBits .f32 0x2B8CBCCC#32) := ⟨_, ofBits_f32_eps12⟩
theorem isReal_ofBits_f32_eps5 : IsReal (Ideal.ofBits .f32 0x3727C5AC#32) := ⟨_, ofBits_f32_eps5⟩

/-- The literal 1 is positive. -/
theorem ofBits_f32_one_pos : 0 < Ideal.ofBits .f32 0x3F800000#32 := by
  rw [ofBits_f32_one]; exact zero_lt_one
/-- The literal 512 is positive, hence not zero. -/
theorem ofBits_f32_512_pos : 0 < Ideal.ofBits .f32 0x44000000#32 := by
  rw [ofBits_f32_512]; exact EReal.coe_pos.mpr (by norm_num)
theorem ofBits_f32_512_ne_zero : Ideal.ofBits .f32 0x44000000#32 ≠ 0 := ofBits_f32_512_pos.ne'
/-- The literal nearest 1e-12 is positive. -/
theorem ofBits_f32_eps12_pos : 0 < Ideal.ofBits .f32 0x2B8CBCCC#32 := by
  rw [ofBits_f32_eps12]; exact EReal.coe_pos.mpr (by positivity)
/-- The literal nearest 1e-5 is positive. -/
theorem ofBits_f32_eps5_pos : 0 < Ideal.ofBits .f32 0x3727C5AC#32 := by
  rw [ofBits_f32_eps5]; exact EReal.coe_pos.mpr (by positivity)

/-! ## Re-association of a sum of products -/

/-- On reals, the sum over j of m j times the sum over d of x j d * w d is the sum over d of
    (the sum over j of m j * x j d) times w d. -/
theorem sum_mul_sum_assoc {J D : Type*} [Fintype J] [Fintype D] (m : J → EReal) (x : J → D → EReal)
    (w : D → EReal) (hm : ∀ j, IsReal (m j)) (hx : ∀ j d, IsReal (x j d)) (hw : ∀ d, IsReal (w d)) :
    ∑ j, m j * ∑ d, x j d * w d = ∑ d, (∑ j, m j * x j d) * w d := by
  choose m' hm' using hm
  choose x' hx' using hx
  choose w' hw' using hw
  have hL : ∑ j, m j * ∑ d, x j d * w d = ((∑ j, m' j * ∑ d, x' j d * w' d : ℝ) : EReal) := by
    rw [← coe_sum]
    refine Finset.sum_congr rfl fun j _ => ?_
    rw [EReal.coe_mul, ← coe_sum, hm' j]
    congr 1
    refine Finset.sum_congr rfl fun d _ => ?_
    rw [EReal.coe_mul, hx' j d, hw' d]
  have hR : ∑ d, (∑ j, m j * x j d) * w d = ((∑ d, (∑ j, m' j * x' j d) * w' d : ℝ) : EReal) := by
    rw [← coe_sum]
    refine Finset.sum_congr rfl fun d _ => ?_
    rw [EReal.coe_mul, ← coe_sum, hw' d]
    congr 1
    refine Finset.sum_congr rfl fun j _ => ?_
    rw [EReal.coe_mul, hm' j, hx' j d]
  rw [hL, hR]
  congr 1
  simp only [Finset.mul_sum, Finset.sum_mul]
  rw [Finset.sum_comm]
  refine Finset.sum_congr rfl fun d _ => Finset.sum_congr rfl fun j _ => ?_
  ring

/-- A sum of products whose left factors are all zero is zero: zero times any extended real is zero. -/
theorem sum_zero_mul {J : Type*} [Fintype J] (m x : J → EReal) (hm : ∀ j, m j = 0) :
    ∑ j, m j * x j = 0 :=
  Finset.sum_eq_zero fun j _ => by rw [hm j, zero_mul]

/-- So with all left factors zero, the sum over d of (the sum over j of m j * x j d) times w d is zero. -/
theorem sum_sum_zero_mul_mul {J D : Type*} [Fintype J] [Fintype D] (m : J → EReal) (x : J → D → EReal)
    (w : D → EReal) (hm : ∀ j, m j = 0) : ∑ d, (∑ j, m j * x j d) * w d = 0 :=
  Finset.sum_eq_zero fun d _ => by rw [sum_zero_mul m (fun j => x j d) hm, zero_mul]

/-! ## Sums of squares -/

/-- The square of a real is nonnegative. -/
theorem mul_self_nonneg_of_isReal {a : EReal} (ha : IsReal a) : 0 ≤ a * a := by
  obtain ⟨x, rfl⟩ := ha
  rw [← EReal.coe_mul]; exact EReal.coe_nonneg.mpr (mul_self_nonneg x)

/-- A sum of squares of reals is real. -/
theorem isReal_sum_mul_self {ι : Type*} [Fintype ι] (y : ι → EReal) (hy : ∀ i, IsReal (y i)) :
    IsReal (∑ i, y i * y i) :=
  IsReal.sum _ fun i => (hy i).mul (hy i)

/-- A sum of squares of reals is nonnegative. -/
theorem sum_mul_self_nonneg {ι : Type*} [Fintype ι] (y : ι → EReal) (hy : ∀ i, IsReal (y i)) :
    0 ≤ ∑ i, y i * y i :=
  Finset.sum_nonneg fun i _ => mul_self_nonneg_of_isReal (hy i)

/-- The square root of a sum of squares of reals is real. -/
theorem isReal_sqrt_sum_mul_self {ι : Type*} [Fintype ι] (y : ι → EReal) (hy : ∀ i, IsReal (y i)) :
    IsReal (Ideal.sqrt (∑ i, y i * y i)) :=
  (isReal_sum_mul_self y hy).sqrt (sum_mul_self_nonneg y hy)

/-- The square root of a sum of squares of reals is nonnegative. -/
theorem sqrt_sum_mul_self_nonneg {ι : Type*} [Fintype ι] (y : ι → EReal) (hy : ∀ i, IsReal (y i)) :
    0 ≤ Ideal.sqrt (∑ i, y i * y i) :=
  sqrt_nonneg (isReal_sum_mul_self y hy) (sum_mul_self_nonneg y hy)

/-- The maximum of a real with a positive real is a positive real. -/
theorem isReal_max_of_pos {a e : EReal} (ha : IsReal a) (he : IsReal e) : IsReal (Max.max a e) :=
  ha.max he

theorem max_pos_of_pos_right {a e : EReal} (he0 : 0 < e) : 0 < Max.max a e :=
  lt_max_of_lt_right he0

theorem max_ne_zero_of_pos_right {a e : EReal} (he0 : 0 < e) : Max.max a e ≠ 0 :=
  (max_pos_of_pos_right he0).ne'

/-- The maximum of the root of a sum of squares of reals with a positive real is a positive real. -/
theorem isReal_max_sqrt_sum_mul_self {ι : Type*} [Fintype ι] (y : ι → EReal) (hy : ∀ i, IsReal (y i))
    {e : EReal} (he : IsReal e) : IsReal (Max.max (Ideal.sqrt (∑ i, y i * y i)) e) :=
  (isReal_sqrt_sum_mul_self y hy).max he

theorem max_sqrt_sum_mul_self_pos {ι : Type*} [Fintype ι] (y : ι → EReal) {e : EReal} (he0 : 0 < e) :
    0 < Max.max (Ideal.sqrt (∑ i, y i * y i)) e :=
  max_pos_of_pos_right he0

/-! ## A running maximum started at minus infinity -/

/-- The maximum of a nonempty finite family of reals, folded from minus infinity, is real. -/
theorem isReal_fold_max_bot {ι : Type*} (s : Finset ι) (f : ι → EReal) (hs : s.Nonempty)
    (hf : ∀ i ∈ s, IsReal (f i)) : IsReal (s.fold Max.max ⊥ f) := by
  classical
  have key : ∀ t : Finset ι, (∀ i ∈ t, IsReal (f i)) →
      (t.fold Max.max ⊥ f = ⊥ ∧ t = ∅) ∨ IsReal (t.fold Max.max ⊥ f) := by
    intro t
    induction t using Finset.induction_on with
    | empty => intro _; exact Or.inl ⟨Finset.fold_empty, rfl⟩
    | insert a t ha ih =>
      intro h
      right
      rw [Finset.fold_insert ha]
      rcases ih (fun i hi => h i (Finset.mem_insert_of_mem hi)) with ⟨h0, _⟩ | hr
      · rw [h0, max_bot_right]; exact h a (Finset.mem_insert_self a t)
      · exact (h a (Finset.mem_insert_self a t)).max hr
  rcases key s hf with ⟨_, he⟩ | hr
  · exact absurd he hs.ne_empty
  · exact hr

/-- The quotient of a real by a positive real is real. -/
theorem IsReal.div_of_pos {a b : EReal} (ha : IsReal a) (hb : IsReal b) (hb0 : 0 < b) :
    IsReal (Ideal.div a b) :=
  ha.div hb hb0.ne'

/-- A real is the coercion of its real part. -/
theorem IsReal.coe_toReal {a : EReal} (ha : IsReal a) : ((a.toReal : ℝ) : EReal) = a :=
  EReal.coe_toReal ha.ne_top ha.ne_bot

end Cert.LibRealClosure
-- ==== Proof.RefTails.lean ====
/-
  The chains of host operations that the reference applies more than once, as functions of their operand.

  Normalisation over the batch and feature axes: for an array y indexed by (b, n, c), the mean over (b, c) at
  each n is the sum divided by 512; the centred array is y minus that mean; the variance at n is the sum over
  (b, c) of the squared centred array divided by 512; the result is the centred array times the reciprocal
  square root of the variance plus the literal nearest 1e-5. The reference applies this to the first and to the
  second layer's activation. The maximum over the axis n, started at minus infinity, is applied to all three
  layers' results; the three maxima are concatenated along the feature axis and passed through one matrix
  product plus a bias. Each stage of the reference is, by unfolding, one of these functions of an earlier stage.
-/
import proofs.«165070_j9002251452429_2_alg».proof.Proof.RefReadP
import proofs.«165070_j9002251452429_2_alg».proof.Proof.LibRealClosure

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-! ## Normalisation over the batch and feature axes -/

/-- The sum of y over the axes (b, c), at each n. -/
def bnSum (y : (⟨S8x2048x64, .f32⟩ : BufTy).Contents (Elt F)) : (⟨S2048, .f32⟩ : BufTy).Contents (Elt F) :=
  Host.reduceAdd y (constant S_ .f32 0x00000000#32) reducesTo_S8x2048x64_S2048_d0_2 h_S_

/-- The mean of y over the axes (b, c): the sum divided by 512, as an array over (1, n, 1). -/
def bnMean (y : (⟨S8x2048x64, .f32⟩ : BufTy).Contents (Elt F)) : (⟨S1x2048x1, .f32⟩ : BufTy).Contents (Elt F) :=
  Host.divf (broadcastInDim S1x2048x1 ![1] bcast_S2048_S1x2048x1_1 (bnSum y))
    (broadcastInDim S1x2048x1 ![] bcast_S_S1x2048x1 (constant S_ .f32 0x44000000#32))

/-- y minus its mean over (b, c). -/
def bnCentered (y : (⟨S8x2048x64, .f32⟩ : BufTy).Contents (Elt F)) : (⟨S8x2048x64, .f32⟩ : BufTy).Contents (Elt F) :=
  subf y (broadcastInDim S8x2048x64 ![0, 1, 2] bcast_S1x2048x1_S8x2048x64_0_1_2 (bnMean y))

/-- The variance of y over (b, c): the sum of the squared centred array divided by 512. -/
def bnVar (y : (⟨S8x2048x64, .f32⟩ : BufTy).Contents (Elt F)) : (⟨S1x2048x1, .f32⟩ : BufTy).Contents (Elt F) :=
  Host.divf (broadcastInDim S1x2048x1 ![1] bcast_S2048_S1x2048x1_1 (bnSum (mulf (bnCentered y) (bnCentered y))))
    (broadcastInDim S1x2048x1 ![] bcast_S_S1x2048x1 (constant S_ .f32 0x44000000#32))

/-- The reciprocal square root of the variance plus the literal nearest 1e-5. -/
def bnScale (y : (⟨S8x2048x64, .f32⟩ : BufTy).Contents (Elt F)) : (⟨S1x2048x1, .f32⟩ : BufTy).Contents (Elt F) :=
  Host.rsqrt (addf (bnVar y) (broadcastInDim S1x2048x1 ![] bcast_S_S1x2048x1 (constant S_ .f32 0x3727C5AC#32)))

/-- The normalised array: the centred array times the scale. -/
def bn (y : (⟨S8x2048x64, .f32⟩ : BufTy).Contents (Elt F)) : (⟨S8x2048x64, .f32⟩ : BufTy).Contents (Elt F) :=
  mulf (bnCentered y) (broadcastInDim S8x2048x64 ![0, 1, 2] bcast_S1x2048x1_S8x2048x64_0_1_2 (bnScale y))

/-- The reference's first normalisation is bn of the first layer's activation. -/
theorem v54_eq (x0 : (⟨S8x2048x32, .f32⟩ : BufTy).Contents (Elt F)) (x1 : (⟨S8x2048x2048, .i32⟩ : BufTy).Contents (Elt F)) (x3 : (⟨S3x32x64, .f32⟩ : BufTy).Contents (Elt F)) (x4 : (⟨S64, .f32⟩ : BufTy).Contents (Elt F)) :
    val_main_v54 (F := F) x0 x1 x3 x4 = bn (val_main_v36 (F := F) x0 x1 x3 x4) := rfl

/-- The reference's second normalisation is bn of the second layer's activation. -/
theorem v110_eq (x0 : (⟨S8x2048x32, .f32⟩ : BufTy).Contents (Elt F)) (x1 : (⟨S8x2048x2048, .i32⟩ : BufTy).Contents (Elt F)) (x2 : (⟨S8x2048x2048, .f32⟩ : BufTy).Contents (Elt F)) (x3 : (⟨S3x32x64, .f32⟩ : BufTy).Contents (Elt F)) (x4 : (⟨S64, .f32⟩ : BufTy).Contents (Elt F)) (x5 : (⟨S3x64x64, .f32⟩ : BufTy).Contents (Elt F)) (x6 : (⟨S64, .f32⟩ : BufTy).Contents (Elt F)) :
    val_main_v110 (F := F) x0 x1 x2 x3 x4 x5 x6 = bn (val_main_v92 (F := F) x0 x1 x2 x3 x4 x5 x6) := rfl

/-! ## The maximum over the axis n -/

/-- The maximum of y over the axis n, started at minus infinity, at each (b, c). -/
def mx (y : (⟨S8x2048x64, .f32⟩ : BufTy).Contents (Elt F)) : (⟨S8x64, .f32⟩ : BufTy).Contents (Elt F) :=
  Host.reduce FloatOps.maximumf y (constant S_ .f32 0xFF800000#32) reducesTo_S8x2048x64_S8x64_d1 h_S_

theorem v55_eq (x0 : (⟨S8x2048x32, .f32⟩ : BufTy).Contents (Elt F)) (x1 : (⟨S8x2048x2048, .i32⟩ : BufTy).Contents (Elt F)) (x3 : (⟨S3x32x64, .f32⟩ : BufTy).Contents (Elt F)) (x4 : (⟨S64, .f32⟩ : BufTy).Contents (Elt F)) :
    val_main_v55 (F := F) x0 x1 x3 x4 = mx (val_main_v54 (F := F) x0 x1 x3 x4) := rfl

theorem v111_eq (x0 : (⟨S8x2048x32, .f32⟩ : BufTy).Contents (Elt F)) (x1 : (⟨S8x2048x2048, .i32⟩ : BufTy).Contents (Elt F)) (x2 : (⟨S8x2048x2048, .f32⟩ : BufTy).Contents (Elt F)) (x3 : (⟨S3x32x64, .f32⟩ : BufTy).Contents (Elt F)) (x4 : (⟨S64, .f32⟩ : BufTy).Contents (Elt F)) (x5 : (⟨S3x64x64, .f32⟩ : BufTy).Contents (Elt F)) (x6 : (⟨S64, .f32⟩ : BufTy).Contents (Elt F)) :
    val_main_v111 (F := F) x0 x1 x2 x3 x4 x5 x6 = mx (val_main_v110 (F := F) x0 x1 x2 x3 x4 x5 x6) := rfl

theorem v148_eq (x0 : (⟨S8x2048x32, .f32⟩ : BufTy).Contents (Elt F)) (x1 : (⟨S8x2048x2048, .i32⟩ : BufTy).Contents (Elt F)) (x2 : (⟨S8x2048x2048, .f32⟩ : BufTy).Contents (Elt F)) (x3 : (⟨S3x32x64, .f32⟩ : BufTy).Contents (Elt F)) (x4 : (⟨S64, .f32⟩ : BufTy).Contents (Elt F)) (x5 : (⟨S3x64x64, .f32⟩ : BufTy).Contents (Elt F)) (x6 : (⟨S64, .f32⟩ : BufTy).Contents (Elt F)) (x7 : (⟨S3x64x64, .f32⟩ : BufTy).Contents (Elt F)) (x8 : (⟨S64, .f32⟩ : BufTy).Contents (Elt F)) :
    val_main_v148 (F := F) x0 x1 x2 x3 x4 x5 x6 x7 x8 = mx (val_main_v147 (F := F) x0 x1 x2 x3 x4 x5 x6 x7 x8) := rfl

/-! ## The concatenation and the final matrix product -/

/-- The three maxima side by side along the feature axis. -/
def out0 (p q r : (⟨S8x64, .f32⟩ : BufTy).Contents (Elt F)) : (⟨S8x192, .f32⟩ : BufTy).Contents (Elt F) :=
  concatenate S8x192 1 [⟨S8x64, p⟩, ⟨S8x64, q⟩, ⟨S8x64, r⟩] concatenates_S8x64_S8x64_S8x64_S8x192_d1

/-- The concatenation times the weight matrix, plus the bias along the feature axis. -/
def out1 (p q r : (⟨S8x64, .f32⟩ : BufTy).Contents (Elt F)) (w9 : (⟨S192x64, .f32⟩ : BufTy).Contents (Elt F)) (b10 : (⟨S64, .f32⟩ : BufTy).Contents (Elt F)) : (⟨S8x64, .f32⟩ : BufTy).Contents (Elt F) :=
  addf (Host.dotGeneral dot_S8x192_S192x64_S8x64_1_0_0_1_n_n none (out0 p q r) w9)
    (broadcastInDim S8x64 ![0, 1] bcast_S1x64_S8x64_0_1 (broadcastInDim S1x64 ![1] bcast_S64_S1x64_1 b10))

theorem v149_eq (x0 : (⟨S8x2048x32, .f32⟩ : BufTy).Contents (Elt F)) (x1 : (⟨S8x2048x2048, .i32⟩ : BufTy).Contents (Elt F)) (x2 : (⟨S8x2048x2048, .f32⟩ : BufTy).Contents (Elt F)) (x3 : (⟨S3x32x64, .f32⟩ : BufTy).Contents (Elt F)) (x4 : (⟨S64, .f32⟩ : BufTy).Contents (Elt F)) (x5 : (⟨S3x64x64, .f32⟩ : BufTy).Contents (Elt F)) (x6 : (⟨S64, .f32⟩ : BufTy).Contents (Elt F)) (x7 : (⟨S3x64x64, .f32⟩ : BufTy).Contents (Elt F)) (x8 : (⟨S64, .f32⟩ : BufTy).Contents (Elt F)) :
    val_main_v149 (F := F) x0 x1 x2 x3 x4 x5 x6 x7 x8
      = out0 (val_main_v55 (F := F) x0 x1 x3 x4) (val_main_v111 (F := F) x0 x1 x2 x3 x4 x5 x6)
          (val_main_v148 (F := F) x0 x1 x2 x3 x4 x5 x6 x7 x8) := rfl

theorem v153_eq (x0 : (⟨S8x2048x32, .f32⟩ : BufTy).Contents (Elt F)) (x1 : (⟨S8x2048x2048, .i32⟩ : BufTy).Contents (Elt F)) (x2 : (⟨S8x2048x2048, .f32⟩ : BufTy).Contents (Elt F)) (x3 : (⟨S3x32x64, .f32⟩ : BufTy).Contents (Elt F)) (x4 : (⟨S64, .f32⟩ : BufTy).Contents (Elt F)) (x5 : (⟨S3x64x64, .f32⟩ : BufTy).Contents (Elt F)) (x6 : (⟨S64, .f32⟩ : BufTy).Contents (Elt F)) (x7 : (⟨S3x64x64, .f32⟩ : BufTy).Contents (Elt F)) (x8 : (⟨S64, .f32⟩ : BufTy).Contents (Elt F)) (x9 : (⟨S192x64, .f32⟩ : BufTy).Contents (Elt F)) (x10 : (⟨S64, .f32⟩ : BufTy).Contents (Elt F)) :
    val_main_v153 (F := F) x0 x1 x2 x3 x4 x5 x6 x7 x8 x9 x10
      = out1 (val_main_v55 (F := F) x0 x1 x3 x4) (val_main_v111 (F := F) x0 x1 x2 x3 x4 x5 x6)
          (val_main_v148 (F := F) x0 x1 x2 x3 x4 x5 x6 x7 x8) x9 x10 := rfl

/-! ## The stages read at an index -/

section Apply
variable (y : (⟨S8x2048x64, .f32⟩ : BufTy).Contents (Elt F))

/-- A broadcast reads its operand at some index, so what holds of every element of the operand holds of
    every element of the broadcast. -/
theorem forall_broadcastInDim {α : Type} {s t : Shape} (P : α → Prop) (dims : Fin s.rank → Fin t.rank)
    (h : s.BroadcastsInDim t dims) (x : s.Idx → α) (hx : ∀ k, P (x k)) (j : t.Idx) :
    P (broadcastInDim t dims h x j) := hx _

/-- The broadcast of a literal over (1, n, 1) is the literal at every index. -/
theorem bcast_literal_apply (w : BitVec 32) (i : S1x2048x1.Idx) :
    broadcastInDim S1x2048x1 ![] bcast_S_S1x2048x1 (constant (F := F) S_ .f32 w) i = FloatOps.ofBits .f32 w := rfl

theorem bnMean_apply (i : S1x2048x1.Idx) :
    bnMean y i = FloatOps.hostDivf (broadcastInDim S1x2048x1 ![1] bcast_S2048_S1x2048x1_1 (bnSum y) i)
      (FloatOps.ofBits .f32 0x44000000#32) := rfl

theorem bnCentered_apply (i : S8x2048x64.Idx) :
    bnCentered y i = FloatOps.subf (y i)
      (broadcastInDim S8x2048x64 ![0, 1, 2] bcast_S1x2048x1_S8x2048x64_0_1_2 (bnMean y) i) := rfl

theorem bnVar_apply (i : S1x2048x1.Idx) :
    bnVar y i = FloatOps.hostDivf
      (broadcastInDim S1x2048x1 ![1] bcast_S2048_S1x2048x1_1 (bnSum (mulf (bnCentered y) (bnCentered y))) i)
      (FloatOps.ofBits .f32 0x44000000#32) := rfl

theorem bnScale_apply (i : S1x2048x1.Idx) :
    bnScale y i = FloatOps.hostUnary .rsqrt (FloatOps.addf (bnVar y i) (FloatOps.ofBits .f32 0x3727C5AC#32)) := rfl

theorem bn_apply (i : S8x2048x64.Idx) :
    bn y i = FloatOps.mulf (bnCentered y i)
      (broadcastInDim S8x2048x64 ![0, 1, 2] bcast_S1x2048x1_S8x2048x64_0_1_2 (bnScale y) i) := rfl

end Apply

/-! ## Read exactly, the normalised array of a real array is real -/

section Real
open Cert.LibRealClosure

/-- The quotient of a nonnegative real by a positive real is nonnegative. -/
theorem div_nonneg_of_isReal {a b : EReal} (ha : IsReal a) (hb : IsReal b) (ha0 : 0 ≤ a) (hb0 : 0 < b) :
    0 ≤ Ideal.div a b := by
  obtain ⟨x, rfl⟩ := ha; obtain ⟨z, rfl⟩ := hb
  have hz : 0 < z := EReal.coe_pos.mp hb0
  rw [div_coe_coe x hz.ne']
  exact EReal.coe_nonneg.mpr (div_nonneg (EReal.coe_nonneg.mp ha0) hz.le)

/-- A nonnegative real plus a positive real is positive. -/
theorem add_pos_of_isReal {a e : EReal} (ha : IsReal a) (he : IsReal e) (ha0 : 0 ≤ a) (he0 : 0 < e) :
    0 < a + e := by
  obtain ⟨x, rfl⟩ := ha; obtain ⟨z, rfl⟩ := he
  rw [← EReal.coe_add]
  exact EReal.coe_pos.mpr (add_pos_of_nonneg_of_pos (EReal.coe_nonneg.mp ha0) (EReal.coe_pos.mp he0))

variable (y : (⟨S8x2048x64, .f32⟩ : BufTy).Contents (Elt Ideal))

/-- The sum over (b, c) of a real array is real at each n: zero plus a finite sum of reals. -/
theorem bnSum_real (hy : ∀ i, IsReal (y i)) (j : S2048.Idx) : IsReal (bnSum (F := Ideal) y j) := by
  show IsReal (Ideal.hostReduceAdd reducesTo_S8x2048x64_S2048_d0_2 y (Ideal.ofBits .f32 0x00000000#32) j)
  unfold Ideal.hostReduceAdd
  exact isReal_ofBits_f32_zero.add (IsReal.finset_sum _ _ fun i _ => hy i)

/-- The sum over (b, c) of a nonnegative array is nonnegative at each n. -/
theorem bnSum_nonneg (hy : ∀ i, (0 : EReal) ≤ y i) (j : S2048.Idx) : (0 : EReal) ≤ bnSum (F := Ideal) y j := by
  show (0 : EReal) ≤ Ideal.hostReduceAdd reducesTo_S8x2048x64_S2048_d0_2 y (Ideal.ofBits .f32 0x00000000#32) j
  unfold Ideal.hostReduceAdd
  rw [ofBits_f32_zero, zero_add]
  exact Finset.sum_nonneg fun i _ => hy i

/-- The mean of a real array is real: a real sum divided by 512. -/
theorem bnMean_real (hy : ∀ i, IsReal (y i)) (i : S1x2048x1.Idx) : IsReal (bnMean (F := Ideal) y i) := by
  rw [bnMean_apply, Ideal.ofBits_def]
  exact isReal_hostDivf (forall_broadcastInDim IsReal _ _ _ (bnSum_real y hy) i) isReal_ofBits_f32_512
    ofBits_f32_512_ne_zero

/-- The centred array of a real array is real. -/
theorem bnCentered_real (hy : ∀ i, IsReal (y i)) (i : S8x2048x64.Idx) : IsReal (bnCentered (F := Ideal) y i) := by
  rw [bnCentered_apply]
  exact isReal_subf (hy i) (forall_broadcastInDim IsReal _ _ _ (bnMean_real y hy) i)

/-- The squared centred array of a real array is real. -/
theorem bnSq_real (hy : ∀ i, IsReal (y i)) (k : S8x2048x64.Idx) :
    IsReal (mulf (F := Ideal) (s := S8x2048x64) (φ := .f32) (bnCentered (F := Ideal) y) (bnCentered (F := Ideal) y) k) := by
  show IsReal (FloatOps.mulf (F := Ideal) (φ := .f32) (bnCentered (F := Ideal) y k) (bnCentered (F := Ideal) y k))
  exact isReal_mulf (bnCentered_real y hy k) (bnCentered_real y hy k)

/-- The squared centred array of a real array is nonnegative. -/
theorem bnSq_nonneg (hy : ∀ i, IsReal (y i)) (k : S8x2048x64.Idx) :
    (0 : EReal) ≤ mulf (F := Ideal) (s := S8x2048x64) (φ := .f32) (bnCentered (F := Ideal) y) (bnCentered (F := Ideal) y) k := by
  show (0 : EReal) ≤ FloatOps.mulf (F := Ideal) (φ := .f32) (bnCentered (F := Ideal) y k) (bnCentered (F := Ideal) y k)
  rw [Ideal.mulf_def]
  exact mul_self_nonneg_of_isReal (bnCentered_real y hy k)

/-- The variance of a real array is real. -/
theorem bnVar_real (hy : ∀ i, IsReal (y i)) (i : S1x2048x1.Idx) : IsReal (bnVar (F := Ideal) y i) := by
  rw [bnVar_apply, Ideal.ofBits_def]
  exact isReal_hostDivf (forall_broadcastInDim IsReal _ _ _ (bnSum_real _ (bnSq_real y hy)) i)
    isReal_ofBits_f32_512 ofBits_f32_512_ne_zero

/-- The variance of a real array is nonnegative: a sum of squares of reals divided by 512. -/
theorem bnVar_nonneg (hy : ∀ i, IsReal (y i)) (i : S1x2048x1.Idx) : (0 : EReal) ≤ bnVar (F := Ideal) y i := by
  rw [bnVar_apply, Ideal.ofBits_def, Ideal.hostDivf_def]
  exact div_nonneg_of_isReal (forall_broadcastInDim IsReal _ _ _ (bnSum_real _ (bnSq_real y hy)) i)
    isReal_ofBits_f32_512
    (forall_broadcastInDim (fun a : EReal => 0 ≤ a) _ _ _ (bnSum_nonneg _ (bnSq_nonneg y hy)) i)
    ofBits_f32_512_pos

/-- The variance plus the literal nearest 1e-5 is a positive real. -/
theorem bnVar_add_eps_pos (hy : ∀ i, IsReal (y i)) (i : S1x2048x1.Idx) :
    (0 : EReal) < bnVar (F := Ideal) y i + Ideal.ofBits .f32 0x3727C5AC#32 :=
  add_pos_of_isReal (bnVar_real y hy i) isReal_ofBits_f32_eps5 (bnVar_nonneg y hy i) ofBits_f32_eps5_pos

/-- So its reciprocal square root, the scale, is real. -/
theorem bnScale_real (hy : ∀ i, IsReal (y i)) (i : S1x2048x1.Idx) : IsReal (bnScale (F := Ideal) y i) := by
  rw [bnScale_apply, Ideal.ofBits_def]
  refine isReal_hostRsqrt (isReal_addf (bnVar_real y hy i) isReal_ofBits_f32_eps5) ?_
  rw [Ideal.addf_def]
  exact bnVar_add_eps_pos y hy i

/-- The normalised array of a real array is real. -/
theorem bn_real (hy : ∀ i, IsReal (y i)) : ∀ i, IsReal (bn (F := Ideal) y i) := by
  intro i
  rw [bn_apply]
  exact isReal_mulf (bnCentered_real y hy i) (forall_broadcastInDim IsReal _ _ _ (bnScale_real y hy) i)

end Real

end Cert.ReferenceIdeal.Hand
-- ==== Proof.LibHostFold.lean ====
/-
  A general fact about straight lines of host operations: the contents after two lines run one after the other are
  the contents after the second, started from the contents after the first. It lets a long line be read a stretch at a
  time, each stretch at whatever contents the earlier ones left.
-/
import Idealize.ShloMosaic.Lib.StableHlo.Run

namespace Idealize.ShloMosaic.StableHlo

variable {τ : Topo} {sig : RefSig} {Val : EltTy → Type}

/-- The fold of the operations' results over a concatenation is the fold over the second part of the fold over the
    first. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Idealize.ShloMosaic.StableHlo
-- ==== Proof.KiHost.lean ====
/-
  The host stretches between the kernel's calls compute, from a call's result array, the batch-normalised array that
  feeds the next call and the per-feature maximum over the nodes that goes to the output; the last stretch concatenates
  the three maxima and applies the linear map.  The reference runs the same operations on its own layer outputs, so each
  stretch is read here, over any valuation, as the reference's chain applied to what the valuation holds.
-/
import proofs.«165070_j9002251452429_2_alg».proof.Proof.KiMain
import proofs.«165070_j9002251452429_2_alg».proof.Proof.RefTails
import proofs.«165070_j9002251452429_2_alg».proof.Proof.LibHostFold
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.ReferenceIdeal.Hand (bn mx)

/-! ## The host stretches of the kernel's program, read over any valuation, in the vocabulary of the reference's
    shared chains: the batch normalisation `bn`, the maximum over the nodes `mx`, the closing concatenation and
    linear map `out0`, `out1` (the two programs spell these stretches with the same operations). -/

set_option maxHeartbeats 4000000 in
theorem after1_v18 (V : Valuation τ sig (Elt F)) :
    StableHlo.after hostOps1 V (Proc.devRef .tc main_v18) = bn (V (Proc.devRef .tc main_v0)) := by
  dsimp only [hostOps1]
  after_results_simp <;> rfl

set_option maxHeartbeats 4000000 in
theorem after1_v19 (V : Valuation τ sig (Elt F)) :
    StableHlo.after hostOps1 V (Proc.devRef .tc main_v19) = mx (bn (V (Proc.devRef .tc main_v0))) := by
  dsimp only [hostOps1]
  after_results_simp <;> rfl

set_option maxHeartbeats 4000000 in
theorem after1_v20 (V : Valuation τ sig (Elt F)) :
    StableHlo.after hostOps1 V (Proc.devRef .tc main_v20)
      = extractStridedSlice S1x64x64 ![0, 0, 0] (V (Proc.devRef .tc main_arg5)) slices_S3x64x64_S1x64x64_0_0_0 := by
  dsimp only [hostOps1]
  after_results_simp <;> rfl

set_option maxHeartbeats 4000000 in
theorem after2_v39 (V : Valuation τ sig (Elt F)) :
    StableHlo.after hostOps2 V (Proc.devRef .tc main_v39) = bn (V (Proc.devRef .tc main_v21)) := by
  dsimp only [hostOps2]
  after_results_simp <;> rfl

set_option maxHeartbeats 4000000 in
theorem after2_v40 (V : Valuation τ sig (Elt F)) :
    StableHlo.after hostOps2 V (Proc.devRef .tc main_v40) = mx (bn (V (Proc.devRef .tc main_v21))) := by
  dsimp only [hostOps2]
  after_results_simp <;> rfl

set_option maxHeartbeats 4000000 in
theorem after2_v41 (V : Valuation τ sig (Elt F)) :
    StableHlo.after hostOps2 V (Proc.devRef .tc main_v41)
      = extractStridedSlice S1x64x64 ![0, 0, 0] (V (Proc.devRef .tc main_arg7)) slices_S3x64x64_S1x64x64_0_0_0 := by
  dsimp only [hostOps2]
  after_results_simp <;> rfl

set_option maxHeartbeats 4000000 in
theorem after2_v19 (V : Valuation τ sig (Elt F)) :
    StableHlo.after hostOps2 V (Proc.devRef .tc main_v19) = V (Proc.devRef .tc main_v19) := by
  dsimp only [hostOps2]
  after_results_simp <;> rfl

/-! The closing stretch is read in two steps, the maximum first, then the concatenation and the linear map over
    whatever the first step left (a three-operand operation reads its operands through a family of references, which
    is only a literal once the valuation under it is a variable). -/

theorem after3_split (V : Valuation τ sig (Elt F)) :
    StableHlo.after hostOps3 V = StableHlo.after (hostOps3.drop 2) (StableHlo.after (hostOps3.take 2) V) := by
  rw [← StableHlo.after_append, List.take_append_drop]

set_option maxHeartbeats 4000000 in
theorem pre3_v43 (V : Valuation τ sig (Elt F)) :
    StableHlo.after (hostOps3.take 2) V (Proc.devRef .tc main_v43) = mx (V (Proc.devRef .tc main_v42)) := by
  dsimp only [hostOps3, List.take]
  after_results_simp <;> rfl
set_option maxHeartbeats 4000000 in
theorem pre3_keep (V : Valuation τ sig (Elt F)) (b : Ref sig .tc) (h1 : b ≠ main_cst_11) (h2 : b ≠ main_v43) :
    StableHlo.after (hostOps3.take 2) V (Proc.devRef .tc b) = V (Proc.devRef .tc b) := by
  dsimp only [hostOps3, List.take]
  simp only [StableHlo.after_cons, StableHlo.after_nil]
  rw [StableHlo.binary_result_ne _ _ _ _ _ _ _ _ h2, StableHlo.nullary_result_ne _ _ _ _ h1]

set_option maxHeartbeats 4000000 in
theorem tail3_v44 (V : Valuation τ sig (Elt F)) :
    StableHlo.after (hostOps3.drop 2) V (Proc.devRef .tc main_v44)
      = Cert.ReferenceIdeal.Hand.out0 (V (Proc.devRef .tc main_v19)) (V (Proc.devRef .tc main_v40)) (V (Proc.devRef .tc main_v43)) := by
  dsimp only [hostOps3, List.drop]
  after_results
  rfl
set_option maxHeartbeats 4000000 in
theorem tail3_v48 (V : Valuation τ sig (Elt F)) :
    StableHlo.after (hostOps3.drop 2) V (Proc.devRef .tc main_v48)
      = Cert.ReferenceIdeal.Hand.out1 (V (Proc.devRef .tc main_v19)) (V (Proc.devRef .tc main_v40)) (V (Proc.devRef .tc main_v43))
          (V (Proc.devRef .tc main_arg9)) (V (Proc.devRef .tc main_arg10)) := by
  dsimp only [hostOps3, List.drop]
  after_results
  rfl

theorem after3_v44 (V : Valuation τ sig (Elt F)) :
    StableHlo.after hostOps3 V (Proc.devRef .tc main_v44)
      = Cert.ReferenceIdeal.Hand.out0 (V (Proc.devRef .tc main_v19)) (V (Proc.devRef .tc main_v40)) (mx (V (Proc.devRef .tc main_v42))) := by
  rw [after3_split, tail3_v44, pre3_v43, pre3_keep V main_v19 (by decide) (by decide), pre3_keep V main_v40 (by decide) (by decide)]
theorem after3_v48 (V : Valuation τ sig (Elt F)) :
    StableHlo.after hostOps3 V (Proc.devRef .tc main_v48)
      = Cert.ReferenceIdeal.Hand.out1 (V (Proc.devRef .tc main_v19)) (V (Proc.devRef .tc main_v40)) (mx (V (Proc.devRef .tc main_v42)))
          (V (Proc.devRef .tc main_arg9)) (V (Proc.devRef .tc main_arg10)) := by
  rw [after3_split, tail3_v48, pre3_v43, pre3_keep V main_v19 (by decide) (by decide), pre3_keep V main_v40 (by decide) (by decide),
    pre3_keep V main_arg9 (by decide) (by decide), pre3_keep V main_arg10 (by decide) (by decide)]

/-- The slice of the first relation's weights read at an index: the stacked weights at slab 0. -/
theorem slice0_apply {α : Type} (X : S3x64x64.Idx → α) (d e : Fin 64) :
    extractStridedSlice S1x64x64 ![0, 0, 0] X slices_S3x64x64_S1x64x64_0_0_0 (ValueIdx.ix3 0 d e) = X (ValueIdx.ix3 0 d e) :=
  extractStridedSlice_apply _ X _ (ValueIdx.ix3 0 d e) (ValueIdx.ix3 0 d e) (fun a => by
    match a with
    | ⟨0, _⟩ => rfl
    | ⟨1, _⟩ => exact (Nat.zero_add _).symm
    | ⟨2, _⟩ => exact (Nat.zero_add _).symm)

variable (m : (ℓ : Loc nD τ sig) → Buf (Elt F) ℓ) (ρ : Dev nD → PrngReg)

/-! ## The layer outputs and what is computed from them, along the boundaries -/

theorem W2_v18 (c : Dev nD) : W2 m ρ c (Proc.devRef .tc main_v18) = bn (W1 m ρ c (Proc.devRef .tc main_v0)) := after1_v18 _
theorem W2_v19 (c : Dev nD) : W2 m ρ c (Proc.devRef .tc main_v19) = mx (bn (W1 m ρ c (Proc.devRef .tc main_v0))) := after1_v19 _
theorem W2_v20 (c : Dev nD) : W2 m ρ c (Proc.devRef .tc main_v20)
    = extractStridedSlice S1x64x64 ![0, 0, 0] (W1 m ρ c (Proc.devRef .tc main_arg5)) slices_S3x64x64_S1x64x64_0_0_0 := after1_v20 _
theorem W3_v19 (c : Dev nD) : W3 m ρ c (Proc.devRef .tc main_v19) = W2 m ρ c (Proc.devRef .tc main_v19) := W3_of_ne m ρ c main_v19 (by decide)
theorem W4_v39 (c : Dev nD) : W4 m ρ c (Proc.devRef .tc main_v39) = bn (W3 m ρ c (Proc.devRef .tc main_v21)) := after2_v39 _
theorem W4_v40 (c : Dev nD) : W4 m ρ c (Proc.devRef .tc main_v40) = mx (bn (W3 m ρ c (Proc.devRef .tc main_v21))) := after2_v40 _
theorem W4_v41 (c : Dev nD) : W4 m ρ c (Proc.devRef .tc main_v41)
    = extractStridedSlice S1x64x64 ![0, 0, 0] (W3 m ρ c (Proc.devRef .tc main_arg7)) slices_S3x64x64_S1x64x64_0_0_0 := after2_v41 _
theorem W4_v19 (c : Dev nD) : W4 m ρ c (Proc.devRef .tc main_v19) = W3 m ρ c (Proc.devRef .tc main_v19) := after2_v19 _
theorem W5_v19 (c : Dev nD) : W5 m ρ c (Proc.devRef .tc main_v19) = W4 m ρ c (Proc.devRef .tc main_v19) := W5_of_ne m ρ c main_v19 (by decide)
theorem W5_v40 (c : Dev nD) : W5 m ρ c (Proc.devRef .tc main_v40) = W4 m ρ c (Proc.devRef .tc main_v40) := W5_of_ne m ρ c main_v40 (by decide)
theorem W6_v44 (c : Dev nD) : W6 m ρ c (Proc.devRef .tc main_v44)
    = Cert.ReferenceIdeal.Hand.out0 (W5 m ρ c (Proc.devRef .tc main_v19)) (W5 m ρ c (Proc.devRef .tc main_v40)) (mx (W5 m ρ c (Proc.devRef .tc main_v42))) := after3_v44 _
theorem W6_v48 (c : Dev nD) : W6 m ρ c (Proc.devRef .tc main_v48)
    = Cert.ReferenceIdeal.Hand.out1 (W5 m ρ c (Proc.devRef .tc main_v19)) (W5 m ρ c (Proc.devRef .tc main_v40)) (mx (W5 m ρ c (Proc.devRef .tc main_v42)))
        (W5 m ρ c (Proc.devRef .tc main_arg9)) (W5 m ρ c (Proc.devRef .tc main_arg10)) := after3_v48 _

end Cert.KernelIdeal.Hand

end
-- ==== Proof.Spec.lean ====
/-
  The arithmetic of one graph-convolution row on the extended reals, shared by the two sides of the bridge: the
  0/1 weight of a label test, the Euclidean normalisation of a row with a floor on the norm, and the positive part.
-/
import Idealize.ShloMosaic.PureOps.Ideal
import Mathlib.Data.EReal.Operations

noncomputable section

namespace Cert.Spec

open Idealize.ShloMosaic

/-- The weight of an integer label `v` for the relation labelled `k`: one when they agree, zero otherwise. -/
def eqI (v k : BitVec 32) : EReal := if v = k then 1 else 0

/-- The weight of an adjacency entry `v` for the relation labelled by the real `k`: one when `v = k`, zero otherwise. -/
def eqF (v k : EReal) : EReal := if v = k then 1 else 0

/-- Entry `e` of the row `y` divided by the row's Euclidean norm, the norm floored at `eps`. -/
def nrm {n : ℕ} (eps : EReal) (y : Fin n → EReal) (e : Fin n) : EReal :=
  Ideal.div (y e) (Max.max (Ideal.sqrt (∑ e' : Fin n, y e' * y e')) eps)

/-- The positive part. -/
def relu (a : EReal) : EReal := Max.max a 0

/-- The floor of the norm: the binary value of the single-precision literal written 1e-12. -/
def eps12 : EReal := Ideal.ofBits .f32 0x2B8CBCCC#32

theorem eqI_eq_zero_or_one (v k : BitVec 32) : eqI v k = 0 ∨ eqI v k = 1 := by
  unfold eqI; split <;> simp
theorem eqF_eq_zero_or_one (v k : EReal) : eqF v k = 0 ∨ eqF v k = 1 := by
  unfold eqF; split <;> simp

end Cert.Spec

end
-- ==== Proof.KiPay1.lean ====
/-
  The second kernel's two stored values read at an entry, on the extended reals. The feature block times the weight
  block is, at (j, e), the sum over d of x(j, d) * w(d, e). The output block is, at (i, e), the positive part of the
  row y(i, ·) divided by its Euclidean norm floored at eps, where y(i, e) is the sum over j of the 0/1 weight of the
  adjacency entry a(i, j) = 1 times the transformed feature xs(j, e), plus the bias b(e).
  Also the pieces the other two kernels share: a matrix product accumulated into zero read at an entry, the 0/1 weight
  of a comparison converted to a number, a lane sum, the two column layout forms, and the normalisation of a row.
-/
import proofs.«165070_j9002251452429_2_alg».proof.Proof.Gen.KernelIdeal.Skeleton
import proofs.«165070_j9002251452429_2_alg».proof.Proof.Spec
import proofs.«165070_j9002251452429_2_alg».proof.Proof.LibRealClosure
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen
open scoped BigOperators

/-! ## Two layout forms: a vector as a column, and a column spread over the lanes -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The 0/1 weight of a comparison -/

/-- An ordered-equal comparison of two extended reals, widened to a word and converted to a number, is one when they
    are equal and zero otherwise. -/
theorem mask_oeq (a b : EReal) :
    (FloatOps.sitofp (F := Ideal) .f32 ((FloatOps.cmpf (F := Ideal) (φ := .f32) .oeq a b).setWidth 32) : EReal)
      = Cert.Spec.eqF a b := by
  have e1 : ((BitVec.ofBool true).setWidth 32).toInt = 1 := by decide
  have e0 : ((BitVec.ofBool false).setWidth 32).toInt = 0 := by decide
  show (((((Ideal.cmp .oeq a b).setWidth 32).toInt : ℤ) : ℝ) : EReal) = _
  unfold Ideal.cmp Cert.Spec.eqF
  by_cases h : a = b
  · rw [if_pos h, decide_eq_true h, e1]; simp
  · rw [if_neg h, decide_eq_false h, e0]; simp

/-! ## Matrix products read at an entry -/

theorem dotA_lhs0 (i : S2048x64.Idx) (q : dot_S2048x64_S64x64_S2048x64_1_0_0_1_n_n.contr.Idx) :
    (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide),
    dif_pos (show (0 : Fin S2048x64.rank) ∈ dot_S2048x64_S64x64_S2048x64_1_0_0_1_n_n.lhsNonContracting by decide)]
  rfl
theorem dotA_rhs1 (i : S2048x64.Idx) (q : dot_S2048x64_S64x64_S2048x64_1_0_0_1_n_n.contr.Idx) :
    (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide),
    dif_pos (show (1 : Fin S64x64.rank) ∈ dot_S2048x64_S64x64_S2048x64_1_0_0_1_n_n.rhsNonContracting by decide)]
  rfl

/-- Entry (p, q) of the 2048 x 64 by 64 x 64 product accumulated into zero: the sum over the inner coordinate of the
    products of the two factors' entries. -/
theorem dotA_apply {φ₁ φ₂ : FTy} (lhs : FVec Ideal S2048x64 φ₁) (rhs : FVec Ideal S64x64 φ₂) (p : Fin 2048) (q : Fin 64) :
    matmul (F := Ideal) dot_S2048x64_S64x64_S2048x64_1_0_0_1_n_n none lhs rhs (constant (F := Ideal) S2048x64 .f32 0x00000000#32) (ix2 p q)
      = ∑ d : Fin 64, lhs (ix2 p d) * rhs (ix2 d q) := by
  refine (Ideal.matmul_constant_zero_apply dot_S2048x64_S64x64_S2048x64_1_0_0_1_n_n none lhs rhs (ix2 p q)).trans ?_
  rw [← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx (ix2 p q) ((contrEquiv1 dot_S2048x64_S64x64_S2048x64_1_0_0_1_n_n 64 rfl rfl).symm k) = ix2 p k :=
    funext fun a => Fin.ext (by
      match a with
      | ⟨0, _⟩ => exact dotA_lhs0 _ _
      | ⟨1, _⟩ => exact (dot_S2048x64_S64x64_S2048x64_1_0_0_1_n_n.lhsIdx_val_of_single rfl _ _).trans hk)
  have er : dot_S2048x64_S64x64_S2048x64_1_0_0_1_n_n.rhsIdx (ix2 p q) ((contrEquiv1 dot_S2048x64_S64x64_S2048x64_1_0_0_1_n_n 64 rfl rfl).symm k) = ix2 k q :=
    funext fun a => Fin.ext (by
      match a with
      | ⟨0, _⟩ => exact (dot_S2048x64_S64x64_S2048x64_1_0_0_1_n_n.rhsIdx_val_of_single rfl _ _).trans hk
      | ⟨1, _⟩ => exact dotA_rhs1 _ _)
  rw [el, er]

theorem dotB_lhs0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
theorem dotB_rhs1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- Entry (p, q) of the 512 x 2048 by 2048 x 64 product accumulated into zero: the sum over the inner coordinate of the
    products of the two factors' entries. -/
theorem dotB_apply {φ₁ φ₂ : FTy} (lhs : FVec Ideal S512x2048 φ₁) (rhs : FVec Ideal S2048x64 φ₂) (p : Fin 512) (q : Fin 64) :
    matmul (F := Ideal) dot_S512x2048_S2048x64_S512x64_1_0_0_1_n_n none lhs rhs (constant (F := Ideal) S512x64 .f32 0x00000000#32) (ix2 p q)
      = ∑ d : Fin 2048, lhs (ix2 p d) * rhs (ix2 d q) := by
  refine (Ideal.matmul_constant_zero_apply dot_S512x2048_S2048x64_S512x64_1_0_0_1_n_n none lhs rhs (ix2 p q)).trans ?_
  rw [← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 p q) ((contrEquiv1 dot_S512x2048_S2048x64_S512x64_1_0_0_1_n_n 2048 rfl rfl).symm k) = ix2 p k :=
    funext fun a => Fin.ext (by
      match a with
      | ⟨0, _⟩ => exact dotB_lhs0 _ _
      | ⟨1, _⟩ => exact (dot_S512x2048_S2048x64_S512x64_1_0_0_1_n_n.lhsIdx_val_of_single rfl _ _).trans hk)
  have er : dot_S512x2048_S2048x64_S512x64_1_0_0_1_n_n.rhsIdx (ix2 p q) ((contrEquiv1 dot_S512x2048_S2048x64_S512x64_1_0_0_1_n_n 2048 rfl rfl).symm k) = ix2 k q :=
    funext fun a => Fin.ext (by
      match a with
      | ⟨0, _⟩ => exact (dot_S512x2048_S2048x64_S512x64_1_0_0_1_n_n.rhsIdx_val_of_single rfl _ _).trans hk
      | ⟨1, _⟩ => exact dotB_rhs1 _ _)
  rw [el, er]

/-! ## A lane sum, and the normalisation of a row -/

/-- The sum over the 64 lanes of row `i`. -/
theorem laneSum_apply (v : FVec Ideal S512x64 .f32) (i : Fin 512) :
    multiReduction (F := Ideal) .add [1] S512 v 0x00000000#32 reduces_S512x64_S512 (.inl rfl) rfl (ix1 i)
      = ∑ e' : Fin 64, v (ix2 i e') := by
  refine (Ideal.multiReduction_add_single v 0x00000000#32 reduces_S512x64_S512 (.inl rfl) rfl (ix1 i)).trans ?_
  refine Finset.sum_congr rfl fun k _ => congrArg v ?_
  funext a
  refine Fin.ext ?_
  match a with
  | ⟨0, _⟩ => rfl
  | ⟨1, _⟩ => rfl

/-- A 512 x 64 block divided, row by row, by the root of the row's sum of squares floored at the literal eps: at
    (i, e) it is entry e of row i normalised. -/
theorem rowNormalise_apply (v : FVec Ideal S512x64 .f32) (i : Fin 512) (e : Fin 64) :
    divf v (broadcastTo S512x64
        (maximumf
          (sqrt (shapeCast S512x1
            (multiReduction (F := Ideal) .add [1] S512 (mulf v v) 0x00000000#32 reduces_S512x64_S512 (.inl rfl) rfl)
            shapeCasts_S512_S512x1))
          (broadcast S512x1 (Scalar.ofBits (F := Ideal) .f32 0x2B8CBCCC#32)))
        broadcasts_S512x1_S512x64) (ix2 i e)
      = Cert.Spec.nrm Cert.Spec.eps12 (fun e' => v (ix2 i e')) e := by
  refine (divf_apply _ _ _).trans ?_
  unfold Cert.Spec.nrm
  refine congrArg (Ideal.div (v (ix2 i e))) ?_
  refine (broadcastTo_a1_ab_apply _ _ i e).trans ?_
  refine (maximumf_apply _ _ _).trans ?_
  refine congrArg₂ max (congrArg Ideal.sqrt ?_) rfl
  refine (shapeCast_a_a1_apply _ _ i 0).trans ?_
  exact laneSum_apply _ i

/-! ## The first stored value: features times weights -/

/-- The feature block times the weight block, at (j, e). -/
theorem k1_pay1_apply (x0 : Vec Ideal S1x2048x64 .f32) (x2 : Vec Ideal S1x64x64 .f32) (j : Fin 2048) (e : Fin 64) :
    k1_pay1 (F := Ideal) x0 x2 (ix3 0 j e) = ∑ d : Fin 64, x0 (ix3 0 j d) * x2 (ix3 0 d e) := by
  unfold k1_pay1
  refine (shapeCast_ab_1ab_apply _ _ 0 j e).trans ?_
  refine (dotA_apply _ _ j e).trans ?_
  refine Finset.sum_congr rfl fun d _ => ?_
  rw [truncf_apply, truncf_apply, shapeCast_1ab_ab_apply, shapeCast_1ab_ab_apply]

/-! ## The second stored value: aggregate, add the bias, normalise, take the positive part -/

/-- Row i of the aggregate: the sum over the nodes j of the weight of a(i, j) = 1 times xs(j, e), plus the bias. -/
def y1 (x1 : Vec Ideal S1x512x2048 .f32) (xs : Vec Ideal S1x2048x64 .f32) (x3 : Vec Ideal S64 .f32) (i : Fin 512) (e : Fin 64) : EReal :=
  (∑ j : Fin 2048, Cert.Spec.eqF (x1 (ix3 0 i j)) 1 * xs (ix3 0 j e)) + x3 (ix1 e)

/-- The aggregate block before normalisation, as the operations build it: zero plus the product of the 0/1 weights
    with the transformed features, plus the bias spread over the rows. -/
def aggBias (x1 : Vec Ideal S1x512x2048 .f32) (xs : Vec Ideal S1x2048x64 .f32) (x3 : Vec Ideal S64 .f32) : FVec Ideal S512x64 .f32 :=
  addf
    (addf (broadcast S512x64 (Scalar.ofBits (F := Ideal) .f32 0x00000000#32))
      (matmul (F := Ideal) dot_S512x2048_S2048x64_S512x64_1_0_0_1_n_n none
        (truncf .bf16
          (sitofp .f32
            (extui 32
              (cmpf .oeq (shapeCast S512x2048 x1 shapeCasts_S1x512x2048_S512x2048)
                (broadcast S512x2048 (Scalar.ofBits (F := Ideal) .f32 0x3F800000#32)))
              natLt_1_32))
          bitsLt_bf16_f32)
        (truncf .bf16 (shapeCast S2048x64 xs shapeCasts_S1x2048x64_S2048x64) bitsLt_bf16_f32)
        (constant (F := Ideal) S512x64 .f32 0x00000000#32)))
    (broadcastTo S512x64 (shapeCast S1x64 x3 shapeCasts_S64_S1x64) broadcasts_S1x64_S512x64)

theorem aggBias_apply (x1 : Vec Ideal S1x512x2048 .f32) (xs : Vec Ideal S1x2048x64 .f32) (x3 : Vec Ideal S64 .f32)
    (i : Fin 512) (e : Fin 64) : aggBias x1 xs x3 (ix2 i e) = y1 x1 xs x3 i e := by
  unfold aggBias y1
  refine (addf_apply _ _ _).trans ?_
  refine congrArg₂ (· + ·) ?_ ?_
  · refine (addf_apply _ _ _).trans ?_
    refine (congrArg₂ (· + ·) (Ideal.ofBits_zero_f32) (dotB_apply _ _ i e)).trans ?_
    refine (zero_add _).trans ?_
    refine Finset.sum_congr rfl fun j _ => ?_
    refine congrArg₂ (· * ·) ?_ ?_
    · refine (mask_oeq _ _).trans ?_
      refine congrArg₂ Cert.Spec.eqF (shapeCast_1ab_ab_apply _ _ i j) Cert.LibRealClosure.ofBits_f32_one
    · exact shapeCast_1ab_ab_apply _ _ j e
  · refine (broadcastTo_1b_ab_apply _ _ i e).trans ?_
    exact shapeCast_a_1a_apply _ _ 0 e

/-- The stored block is the positive part of the normalised aggregate. -/
theorem k1_pay2_eq (x1 : Vec Ideal S1x512x2048 .f32) (xs : Vec Ideal S1x2048x64 .f32) (x3 : Vec Ideal S64 .f32) :
    k1_pay2 (F := Ideal) x1 xs x3
      = shapeCast S1x512x64
          (maximumf
            (divf (aggBias x1 xs x3) (broadcastTo S512x64
              (maximumf
                (sqrt (shapeCast S512x1
                  (multiReduction (F := Ideal) .add [1] S512 (mulf (aggBias x1 xs x3) (aggBias x1 xs x3)) 0x00000000#32
                    reduces_S512x64_S512 (.inl rfl) rfl)
                  shapeCasts_S512_S512x1))
                (broadcast S512x1 (Scalar.ofBits (F := Ideal) .f32 0x2B8CBCCC#32)))
              broadcasts_S512x1_S512x64))
            (broadcast S512x64 (Scalar.ofBits (F := Ideal) .f32 0x00000000#32)))
          shapeCasts_S512x64_S1x512x64 := rfl

theorem k1_pay2_apply (x1 : Vec Ideal S1x512x2048 .f32) (xs : Vec Ideal S1x2048x64 .f32) (x3 : Vec Ideal S64 .f32)
    (i : Fin 512) (e : Fin 64) :
    k1_pay2 (F := Ideal) x1 xs x3 (ix3 0 i e) = Cert.Spec.relu (Cert.Spec.nrm Cert.Spec.eps12 (y1 x1 xs x3 i) e) := by
  rw [k1_pay2_eq]
  refine (shapeCast_ab_1ab_apply _ _ 0 i e).trans ?_
  refine (maximumf_apply _ _ _).trans ?_
  unfold Cert.Spec.relu
  refine congrArg₂ max ?_ Ideal.ofBits_zero_f32
  refine (rowNormalise_apply _ i e).trans ?_
  refine congrArg (fun y => Cert.Spec.nrm Cert.Spec.eps12 y e) ?_
  funext e'
  exact aggBias_apply x1 xs x3 i e'

end Cert.KernelIdeal.Hand

end
-- ==== Proof.KiPay0.lean ====
/-
  The first kernel's stored values read at an entry, on the extended reals. Each of the three feature transforms is,
  at (j, e), the sum over d of x(j, d) * w(d, e) for one relation's weight block w. The value carried to the output
  is, at (i, e), the sum over the three relations k = 1, 2, 3 of the sum over the nodes j of the 0/1 weight of the
  integer label a(i, j) = k times that relation's transformed feature s_k(j, e). The output block is, at (i, e), the
  positive part of the row y(i, ·) divided by its Euclidean norm floored at eps, y being the carried value plus the bias.
-/
import proofs.«165070_j9002251452429_2_alg».proof.Proof.Gen.KernelIdeal.Skeleton
import proofs.«165070_j9002251452429_2_alg».proof.Proof.Spec
import proofs.«165070_j9002251452429_2_alg».proof.Proof.LibRealClosure
import proofs.«165070_j9002251452429_2_alg».proof.Proof.KiPay1
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen
open scoped BigOperators

/-! ## The 0/1 weight of an integer label test -/

/-- An equality test of two 32-bit labels, widened to a word and converted to a number, is one when they agree and
    zero otherwise. -/
theorem mask_eqI (a k : BitVec 32) :
    (FloatOps.sitofp (F := Ideal) .f32 ((IntOp.cmpi .eq a k).setWidth 32) : EReal) = Cert.Spec.eqI a k := by
  have e1 : ((BitVec.ofBool true).setWidth 32).toInt = 1 := by decide
  have e0 : ((BitVec.ofBool false).setWidth 32).toInt = 0 := by decide
  show (((((IntOp.cmpi .eq a k).setWidth 32).toInt : ℤ) : ℝ) : EReal) = _
  unfold IntOp.cmpi Cert.Spec.eqI
  by_cases h : a = k
  · rw [if_pos h, show (a == k) = true from beq_iff_eq.mpr h, e1]; simp
  · rw [if_neg h, show (a == k) = false from beq_eq_false_iff_ne.mpr h, e0]; simp

/-! ## The 2048 x 32 by 32 x 64 product read at an entry -/

theorem dotC_lhs0 (i : S2048x64.Idx) (q : dot_S2048x32_S32x64_S2048x64_1_0_0_1_n_n.contr.Idx) :
    (dot_S2048x32_S32x64_S2048x64_1_0_0_1_n_n.lhsIdx i q 0).val = (i 0).val := by
  unfold DotDims.lhsIdx
  rw [dif_neg (show ¬(0 : Fin S2048x32.rank) ∈ dot_S2048x32_S32x64_S2048x64_1_0_0_1_n_n.lhsBatch by decide),
    dif_pos (show (0 : Fin S2048x32.rank) ∈ dot_S2048x32_S32x64_S2048x64_1_0_0_1_n_n.lhsNonContracting by decide)]
  rfl
theorem dotC_rhs1 (i : S2048x64.Idx) (q : dot_S2048x32_S32x64_S2048x64_1_0_0_1_n_n.contr.Idx) :
    (dot_S2048x32_S32x64_S2048x64_1_0_0_1_n_n.rhsIdx i q 1).val = (i 1).val := by
  unfold DotDims.rhsIdx
  rw [dif_neg (show ¬(1 : Fin S32x64.rank) ∈ dot_S2048x32_S32x64_S2048x64_1_0_0_1_n_n.rhsBatch by decide),
    dif_pos (show (1 : Fin S32x64.rank) ∈ dot_S2048x32_S32x64_S2048x64_1_0_0_1_n_n.rhsNonContracting by decide)]
  rfl

/-- Entry (p, q) of the 2048 x 32 by 32 x 64 product accumulated into zero: the sum over the inner coordinate of the
    products of the two factors' entries. -/
theorem dotC_apply {φ₁ φ₂ : FTy} (lhs : FVec Ideal S2048x32 φ₁) (rhs : FVec Ideal S32x64 φ₂) (p : Fin 2048) (q : Fin 64) :
    matmul (F := Ideal) dot_S2048x32_S32x64_S2048x64_1_0_0_1_n_n none lhs rhs (constant (F := Ideal) S2048x64 .f32 0x00000000#32) (ix2 p q)
      = ∑ d : Fin 32, lhs (ix2 p d) * rhs (ix2 d q) := by
  refine (Ideal.matmul_constant_zero_apply dot_S2048x32_S32x64_S2048x64_1_0_0_1_n_n none lhs rhs (ix2 p q)).trans ?_
  rw [← Equiv.sum_comp (contrEquiv1 dot_S2048x32_S32x64_S2048x64_1_0_0_1_n_n 32 rfl rfl).symm]
  refine Finset.sum_congr rfl fun k _ => ?_
  have hk := contrEquiv1_symm_val dot_S2048x32_S32x64_S2048x64_1_0_0_1_n_n 32 rfl rfl k
  have el : dot_S2048x32_S32x64_S2048x64_1_0_0_1_n_n.lhsIdx (ix2 p q) ((contrEquiv1 dot_S2048x32_S32x64_S2048x64_1_0_0_1_n_n 32 rfl rfl).symm k) = ix2 p k :=
    funext fun a => Fin.ext (by
      match a with
      | ⟨0, _⟩ => exact dotC_lhs0 _ _
      | ⟨1, _⟩ => exact (dot_S2048x32_S32x64_S2048x64_1_0_0_1_n_n.lhsIdx_val_of_single rfl _ _).trans hk)
  have er : dot_S2048x32_S32x64_S2048x64_1_0_0_1_n_n.rhsIdx (ix2 p q) ((contrEquiv1 dot_S2048x32_S32x64_S2048x64_1_0_0_1_n_n 32 rfl rfl).symm k) = ix2 k q :=
    funext fun a => Fin.ext (by
      match a with
      | ⟨0, _⟩ => exact (dot_S2048x32_S32x64_S2048x64_1_0_0_1_n_n.rhsIdx_val_of_single rfl _ _).trans hk
      | ⟨1, _⟩ => exact dotC_rhs1 _ _)
  rw [el, er]

/-! ## The three stored feature transforms: features times the weights of one relation -/

/-- The feature block in the product's input format, at (j, d). -/
theorem k0_pay2_apply (x0 : Vec Ideal S1x2048x32 .f32) (j : Fin 2048) (d : Fin 32) :
    k0_pay2 (F := Ideal) x0 (ix2 j d) = x0 (ix3 0 j d) := by
  unfold k0_pay2
  exact (truncf_apply (ψ := .bf16) _ bitsLt_bf16_f32 _).trans (shapeCast_1ab_ab_apply _ _ j d)

/-- The feature block times the first relation's weight block, at (j, e). -/
theorem k0_pay3_apply (x0 : Vec Ideal S1x2048x32 .f32) (w : Vec Ideal S1x32x64 .f32) (j : Fin 2048) (e : Fin 64) :
    k0_pay3 (F := Ideal) x0 w (ix3 0 j e) = ∑ d : Fin 32, x0 (ix3 0 j d) * w (ix3 0 d e) := by
  unfold k0_pay3
  refine (shapeCast_ab_1ab_apply _ _ 0 j e).trans ?_
  refine (dotC_apply _ _ j e).trans ?_
  refine Finset.sum_congr rfl fun d _ => ?_
  exact congrArg₂ (· * ·) (k0_pay2_apply x0 j d) ((truncf_apply (ψ := .bf16) _ bitsLt_bf16_f32 _).trans (shapeCast_1ab_ab_apply _ _ d e))

/-- The feature block times the second relation's weight block, at (j, e). -/
theorem k0_pay4_apply (x0 : Vec Ideal S1x2048x32 .f32) (w : Vec Ideal S1x32x64 .f32) (j : Fin 2048) (e : Fin 64) :
    k0_pay4 (F := Ideal) x0 w (ix3 0 j e) = ∑ d : Fin 32, x0 (ix3 0 j d) * w (ix3 0 d e) := by
  unfold k0_pay4
  refine (shapeCast_ab_1ab_apply _ _ 0 j e).trans ?_
  refine (dotC_apply _ _ j e).trans ?_
  refine Finset.sum_congr rfl fun d _ => ?_
  exact congrArg₂ (· * ·) (k0_pay2_apply x0 j d) ((truncf_apply (ψ := .bf16) _ bitsLt_bf16_f32 _).trans (shapeCast_1ab_ab_apply _ _ d e))

/-- The feature block times the third relation's weight block, at (j, e). -/
theorem k0_pay5_apply (x0 : Vec Ideal S1x2048x32 .f32) (w : Vec Ideal S1x32x64 .f32) (j : Fin 2048) (e : Fin 64) :
    k0_pay5 (F := Ideal) x0 w (ix3 0 j e) = ∑ d : Fin 32, x0 (ix3 0 j d) * w (ix3 0 d e) := by
  unfold k0_pay5
  refine (shapeCast_ab_1ab_apply _ _ 0 j e).trans ?_
  refine (dotC_apply _ _ j e).trans ?_
  refine Finset.sum_congr rfl fun d _ => ?_
  exact congrArg₂ (· * ·) (k0_pay2_apply x0 j d) ((truncf_apply (ψ := .bf16) _ bitsLt_bf16_f32 _).trans (shapeCast_1ab_ab_apply _ _ d e))

/-! ## One relation's aggregate, and the sum of the three -/

/-- The 0/1 weights of the label k times one relation's transformed features: at (i, e), the sum over the nodes j of
    the weight of a(i, j) = k times s(j, e). -/
theorem relTerm_apply (x1 : Vec Ideal S1x512x2048 .i32) (s : Vec Ideal S1x2048x64 .f32) (k : BitVec 32)
    (i : Fin 512) (e : Fin 64) :
    matmul (F := Ideal) dot_S512x2048_S2048x64_S512x64_1_0_0_1_n_n none
        (truncf .bf16
          (sitofp (F := Ideal) .f32
            (extui 32
              (cmpi .eq (shapeCast S512x2048 x1 shapeCasts_S1x512x2048_S512x2048) (broadcast S512x2048 k))
              natLt_1_32))
          bitsLt_bf16_f32)
        (truncf .bf16 (shapeCast S2048x64 s shapeCasts_S1x2048x64_S2048x64) bitsLt_bf16_f32)
        (constant (F := Ideal) S512x64 .f32 0x00000000#32) (ix2 i e)
      = ∑ j : Fin 2048, Cert.Spec.eqI (x1 (ix3 0 i j)) k * s (ix3 0 j e) := by
  refine (dotB_apply _ _ i e).trans ?_
  refine Finset.sum_congr rfl fun j _ => ?_
  refine congrArg₂ (· * ·) ?_ ((truncf_apply (ψ := .bf16) _ bitsLt_bf16_f32 _).trans (shapeCast_1ab_ab_apply _ _ j e))
  refine (mask_eqI _ _).trans ?_
  exact congrArg (fun v => Cert.Spec.eqI v k) (shapeCast_1ab_ab_apply _ _ i j)

/-- The carried value: the three relations' aggregates added in order, from zero. -/
theorem k0_pay6_apply (x1 : Vec Ideal S1x512x2048 .i32) (s0 s1 s2 : Vec Ideal S1x2048x64 .f32) (i : Fin 512) (e : Fin 64) :
    k0_pay6 (F := Ideal) x1 s0 s1 s2 (ix2 i e)
      = ((∑ j : Fin 2048, Cert.Spec.eqI (x1 (ix3 0 i j)) 1#32 * s0 (ix3 0 j e))
          + (∑ j : Fin 2048, Cert.Spec.eqI (x1 (ix3 0 i j)) 2#32 * s1 (ix3 0 j e)))
        + (∑ j : Fin 2048, Cert.Spec.eqI (x1 (ix3 0 i j)) 3#32 * s2 (ix3 0 j e)) := by
  unfold k0_pay6
  refine (addf_apply _ _ _).trans ?_
  refine congrArg₂ (· + ·) ?_ (relTerm_apply x1 s2 3#32 i e)
  refine (addf_apply _ _ _).trans ?_
  refine congrArg₂ (· + ·) ?_ (relTerm_apply x1 s1 2#32 i e)
  refine (addf_apply _ _ _).trans ?_
  exact (congrArg₂ (· + ·) Ideal.ofBits_zero_f32 (relTerm_apply x1 s0 1#32 i e)).trans (zero_add _)

/-! ## The stored output: add the bias, normalise, take the positive part -/

/-- Row i of the aggregate over the three relations, plus the bias. -/
def y0 (x1 : Vec Ideal S1x512x2048 .i32) (s0 s1 s2 : Vec Ideal S1x2048x64 .f32) (x3 : Vec Ideal S64 .f32) (i : Fin 512) (e : Fin 64) : EReal :=
  (((∑ j : Fin 2048, Cert.Spec.eqI (x1 (ix3 0 i j)) 1#32 * s0 (ix3 0 j e))
      + (∑ j : Fin 2048, Cert.Spec.eqI (x1 (ix3 0 i j)) 2#32 * s1 (ix3 0 j e)))
    + (∑ j : Fin 2048, Cert.Spec.eqI (x1 (ix3 0 i j)) 3#32 * s2 (ix3 0 j e))) + x3 (ix1 e)

/-- A block with the bias vector added to every row. -/
def withBias (v : FVec Ideal S512x64 .f32) (b : Vec Ideal S64 .f32) : FVec Ideal S512x64 .f32 :=
  addf v (broadcastTo S512x64 (shapeCast S1x64 b shapeCasts_S64_S1x64) broadcasts_S1x64_S512x64)

theorem withBias_apply (v : FVec Ideal S512x64 .f32) (b : Vec Ideal S64 .f32) (i : Fin 512) (e : Fin 64) :
    withBias v b (ix2 i e) = v (ix2 i e) + b (ix1 e) := by
  unfold withBias
  refine (addf_apply _ _ _).trans ?_
  refine congrArg (v (ix2 i e) + ·) ?_
  exact (broadcastTo_1b_ab_apply _ _ i e).trans (shapeCast_a_1a_apply _ _ 0 e)

/-- The stored block is the positive part of the normalised block-plus-bias. -/
theorem k0_pay1_eq (v : FVec Ideal S512x64 .f32) (b : Vec Ideal S64 .f32) :
    k0_pay1 (F := Ideal) v b
      = shapeCast S1x512x64
          (maximumf
            (divf (withBias v b) (broadcastTo S512x64
              (maximumf
                (sqrt (shapeCast S512x1
                  (multiReduction (F := Ideal) .add [1] S512 (mulf (withBias v b) (withBias v b)) 0x00000000#32
                    reduces_S512x64_S512 (.inl rfl) rfl)
                  shapeCasts_S512_S512x1))
                (broadcast S512x1 (Scalar.ofBits (F := Ideal) .f32 0x2B8CBCCC#32)))
              broadcasts_S512x1_S512x64))
            (broadcast S512x64 (Scalar.ofBits (F := Ideal) .f32 0x00000000#32)))
          shapeCasts_S512x64_S1x512x64 := rfl

theorem k0_out_apply (x1 : Vec Ideal S1x512x2048 .i32) (s0 s1 s2 : Vec Ideal S1x2048x64 .f32) (x3 : Vec Ideal S64 .f32)
    (i : Fin 512) (e : Fin 64) :
    k0_pay1 (F := Ideal) (k0_pay6 (F := Ideal) x1 s0 s1 s2) x3 (ix3 0 i e)
      = Cert.Spec.relu (Cert.Spec.nrm Cert.Spec.eps12 (y0 x1 s0 s1 s2 x3 i) e) := by
  rw [k0_pay1_eq]
  refine (shapeCast_ab_1ab_apply _ _ 0 i e).trans ?_
  refine (maximumf_apply _ _ _).trans ?_
  unfold Cert.Spec.relu
  refine congrArg₂ max ?_ Ideal.ofBits_zero_f32
  refine (rowNormalise_apply _ i e).trans ?_
  refine congrArg (fun y => Cert.Spec.nrm Cert.Spec.eps12 y e) ?_
  funext e'
  refine (withBias_apply _ _ i e').trans ?_
  exact congrArg (· + x3 (ix1 e')) (k0_pay6_apply x1 s0 s1 s2 i e')

end Cert.KernelIdeal.Hand

end
-- ==== Proof.KiVal0.lean ====
/-
  What the first graph-convolution call leaves in its result array, as one function of the arrays the call is entered
  with, index by index, on the extended reals.  The grid is (batch entry, row tile), the row tile fastest: at point t the
  entry is t / 4 and the tile t % 4.  Each input block is read where its window puts it; the scratch, refilled at an entry's
  first tile and kept through the other three, holds after every point the entry's features times each of the three weight
  blocks; so the tile a point writes back is the closed form's rows t % 4 * 512 .. + 511 of entry t / 4, and the 32 tiles
  cover the array.
-/
import proofs.«165070_j9002251452429_2_alg».proof.Proof.KiDat0
import proofs.«165070_j9002251452429_2_alg».proof.Proof.KiPay0
import proofs.«165070_j9002251452429_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.GenP
open Idealize.ShloMosaic Idealize.ShloMosaic.TcCoe Idealize.SL.Sem
open Idealize.ShloMosaic.Pipeline (Dat)
open Idealize.ShloMosaic.ValueIdx
open scoped BigOperators

/-! ## The index maps, decided once over the grid -/

/-- At point `t` the batch entry is `t / 4` and the row tile `t % 4`: the features' block follows the entry, the
    relation's and the result's blocks follow the entry and the tile, the weights and the bias stay put. -/
theorem idx_facts0 : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 3) = 0 ∧ win0_2.index t (1 : Fin 3) = 0 ∧ win0_2.index t (2 : Fin 3) = 0
    ∧ win0_3.index t (0 : Fin 1) = 0
    ∧ win0_4.index t (0 : Fin 3) = t.val / 4 ∧ win0_4.index t (1 : Fin 3) = t.val % 4 ∧ win0_4.index t (2 : Fin 3) = 0 :=
  (by decide +kernel : ∀ t : Fin grid0.N, _)

/-! ## The slabs read at an index -/

section Slabs
variable {F : FTy → Type} [FloatOps F]

/-- Slab `r` of a scratch at row `j`, column `e` is the scratch at `(r, j, e)`. -/
theorem slab0_apply (xs : Vec F S3x2048x64 .f32) (j : Fin 2048) (e : Fin 64) : slab0 xs (ix3 0 j e) = xs (ix3 0 j e) := by
  refine congrArg xs (funext fun a => Fin.ext ?_)
  match a with
  | ⟨0, _⟩ => rfl
  | ⟨1, _⟩ => show 0 + 1 * j.val = j.val; omega
  | ⟨2, _⟩ => show 0 + 1 * e.val = e.val; omega
theorem slab1_apply (xs : Vec F S3x2048x64 .f32) (j : Fin 2048) (e : Fin 64) : slab1 xs (ix3 0 j e) = xs (ix3 1 j e) := by
  refine congrArg xs (funext fun a => Fin.ext ?_)
  match a with
  | ⟨0, _⟩ => rfl
  | ⟨1, _⟩ => show 0 + 1 * j.val = j.val; omega
  | ⟨2, _⟩ => show 0 + 1 * e.val = e.val; omega
theorem slab2_apply (xs : Vec F S3x2048x64 .f32) (j : Fin 2048) (e : Fin 64) : slab2 xs (ix3 0 j e) = xs (ix3 2 j e) := by
  refine congrArg xs (funext fun a => Fin.ext ?_)
  match a with
  | ⟨0, _⟩ => rfl
  | ⟨1, _⟩ => show 0 + 1 * j.val = j.val; omega
  | ⟨2, _⟩ => show 0 + 1 * e.val = e.val; omega

/-- Weight block `r` at row `d`, column `e` is the weights at `(r, d, e)`. -/
theorem wslab0_apply (x2 : Vec F S3x32x64 .f32) (d : Fin 32) (e : Fin 64) : wslab0 x2 (ix3 0 d e) = x2 (ix3 0 d e) := by
  refine congrArg x2 (funext fun a => Fin.ext ?_)
  match a with
  | ⟨0, _⟩ => rfl
  | ⟨1, _⟩ => show 0 + 1 * d.val = d.val; omega
  | ⟨2, _⟩ => show 0 + 1 * e.val = e.val; omega
theorem wslab1_apply (x2 : Vec F S3x32x64 .f32) (d : Fin 32) (e : Fin 64) : wslab1 x2 (ix3 0 d e) = x2 (ix3 1 d e) := by
  refine congrArg x2 (funext fun a => Fin.ext ?_)
  match a with
  | ⟨0, _⟩ => rfl
  | ⟨1, _⟩ => show 0 + 1 * d.val = d.val; omega
  | ⟨2, _⟩ => show 0 + 1 * e.val = e.val; omega
theorem wslab2_apply (x2 : Vec F S3x32x64 .f32) (d : Fin 32) (e : Fin 64) : wslab2 x2 (ix3 0 d e) = x2 (ix3 2 d e) := by
  refine congrArg x2 (funext fun a => Fin.ext ?_)
  match a with
  | ⟨0, _⟩ => rfl
  | ⟨1, _⟩ => show 0 + 1 * d.val = d.val; omega
  | ⟨2, _⟩ => show 0 + 1 * e.val = e.val; omega

end Slabs

/-! ## The input blocks read at an index -/

section Blocks
variable (V : (c : Dev nD) → (b : Ref sig .tc) → Buf (Elt Ideal) ((c : Thread nD τ).loc b))

/-- The features' block at point `t` is batch entry `t / 4` of the features. -/
theorem iblk0_0_apply (c : Dev nD) (t : Fin cfg0.N) (b : Fin 8) (hb : b.val = t.val / 4) (j : Fin 2048) (d : Fin 32) :
    (iblk0 V c 0 t : Vec Ideal S1x2048x32 .f32) (ix3 0 j d) = (V c main_arg0 : S8x2048x32.Idx → EReal) (ix3 b j d) := by
  obtain ⟨e0, e1, e2, -⟩ := idx_facts0 t
  show V c main_arg0 (((cfg0.win 0).blk t).view.emb (ix3 0 j d)) = V c main_arg0 (ix3 b j d)
  refine congrArg _ (funext fun a => Fin.ext ?_)
  match a with
  | ⟨0, _⟩ => show win0_0.index t (0 : Fin 3) * 1 + 1 * 0 = b.val; omega
  | ⟨1, _⟩ => show win0_0.index t (1 : Fin 3) * 2048 + 1 * j.val = j.val; omega
  | ⟨2, _⟩ => show win0_0.index t (2 : Fin 3) * 32 + 1 * d.val = d.val; omega

/-- The relation's block at point `t` is row tile `t % 4` of batch entry `t / 4`. -/
theorem iblk0_1_apply (c : Dev nD) (t : Fin cfg0.N) (b : Fin 8) (hb : b.val = t.val / 4) (i' : Fin 512) (i : Fin 2048)
    (hi : i.val = t.val % 4 * 512 + i'.val) (j : Fin 2048) :
    (iblk0 V c 1 t : Vec Ideal S1x512x2048 .i32) (ix3 0 i' j) = (V c main_arg1 : S8x2048x2048.Idx → BitVec 32) (ix3 b i j) := by
  obtain ⟨-, -, -, e0, e1, e2, -⟩ := idx_facts0 t
  show V c main_arg1 (((cfg0.win 1).blk t).view.emb (ix3 0 i' j)) = V c main_arg1 (ix3 b i j)
  refine congrArg _ (funext fun a => Fin.ext ?_)
  match a with
  | ⟨0, _⟩ => show win0_1.index t (0 : Fin 3) * 1 + 1 * 0 = b.val; omega
  | ⟨1, _⟩ => show win0_1.index t (1 : Fin 3) * 512 + 1 * i'.val = i.val; omega
  | ⟨2, _⟩ => show win0_1.index t (2 : Fin 3) * 2048 + 1 * j.val = j.val; omega

/-- The weights' block is the weights, at every point. -/
theorem iblk0_2_apply (c : Dev nD) (t : Fin cfg0.N) (r : Fin 3) (d : Fin 32) (e : Fin 64) :
    (iblk0 V c 2 t : Vec Ideal S3x32x64 .f32) (ix3 r d e) = (V c main_arg3 : S3x32x64.Idx → EReal) (ix3 r d e) := by
  obtain ⟨-, -, -, -, -, -, e0, e1, e2, -⟩ := idx_facts0 t
  show V c main_arg3 (((cfg0.win 2).blk t).view.emb (ix3 r d e)) = V c main_arg3 (ix3 r d e)
  refine congrArg _ (funext fun a => Fin.ext ?_)
  match a with
  | ⟨0, _⟩ => show win0_2.index t (0 : Fin 3) * 3 + 1 * r.val = r.val; omega
  | ⟨1, _⟩ => show win0_2.index t (1 : Fin 3) * 32 + 1 * d.val = d.val; omega
  | ⟨2, _⟩ => show win0_2.index t (2 : Fin 3) * 64 + 1 * e.val = e.val; omega

/-- The bias's block is the bias, at every point. -/
theorem iblk0_3_apply (c : Dev nD) (t : Fin cfg0.N) (e : Fin 64) :
    (iblk0 V c 3 t : Vec Ideal S64 .f32) (ix1 e) = (V c main_arg4 : S64.Idx → EReal) (ix1 e) := by
  obtain ⟨-, -, -, -, -, -, -, -, -, e0, -⟩ := idx_facts0 t
  show V c main_arg4 (((cfg0.win 3).blk t).view.emb (ix1 e)) = V c main_arg4 (ix1 e)
  refine congrArg _ (funext fun a => Fin.ext ?_)
  match a with
  | ⟨0, _⟩ => show win0_3.index t (0 : Fin 1) * 64 + 1 * e.val = e.val; omega

end Blocks

/-! ## The refilled scratch read at an index -/

theorem xwOf_apply0 (x0 : Vec Ideal S1x2048x32 .f32) (x2 : Vec Ideal S3x32x64 .f32) (j : Fin 2048) (e : Fin 64) :
    xwOf x0 x2 (ix3 0 j e) = ∑ d : Fin 32, x0 (ix3 0 j d) * x2 (ix3 0 d e) :=
  calc xwOf x0 x2 (ix3 0 j e) = slab0 (xwOf x0 x2) (ix3 0 j e) := (slab0_apply _ j e).symm
    _ = k0_pay3 x0 (wslab0 x2) (ix3 0 j e) := by rw [slab0_xwOf]
    _ = ∑ d : Fin 32, x0 (ix3 0 j d) * wslab0 x2 (ix3 0 d e) := k0_pay3_apply _ _ j e
    _ = _ := by simp only [wslab0_apply]

theorem xwOf_apply1 (x0 : Vec Ideal S1x2048x32 .f32) (x2 : Vec Ideal S3x32x64 .f32) (j : Fin 2048) (e : Fin 64) :
    xwOf x0 x2 (ix3 1 j e) = ∑ d : Fin 32, x0 (ix3 0 j d) * x2 (ix3 1 d e) :=
  calc xwOf x0 x2 (ix3 1 j e) = slab1 (xwOf x0 x2) (ix3 0 j e) := (slab1_apply _ j e).symm
    _ = k0_pay4 x0 (wslab1 x2) (ix3 0 j e) := by rw [slab1_xwOf]
    _ = ∑ d : Fin 32, x0 (ix3 0 j d) * wslab1 x2 (ix3 0 d e) := k0_pay4_apply _ _ j e
    _ = _ := by simp only [wslab1_apply]

theorem xwOf_apply2 (x0 : Vec Ideal S1x2048x32 .f32) (x2 : Vec Ideal S3x32x64 .f32) (j : Fin 2048) (e : Fin 64) :
    xwOf x0 x2 (ix3 2 j e) = ∑ d : Fin 32, x0 (ix3 0 j d) * x2 (ix3 2 d e) :=
  calc xwOf x0 x2 (ix3 2 j e) = slab2 (xwOf x0 x2) (ix3 0 j e) := (slab2_apply _ j e).symm
    _ = k0_pay5 x0 (wslab2 x2) (ix3 0 j e) := by rw [slab2_xwOf]
    _ = ∑ d : Fin 32, x0 (ix3 0 j d) * wslab2 x2 (ix3 0 d e) := k0_pay5_apply _ _ j e
    _ = _ := by simp only [wslab2_apply]

/-- Slab `r` of the refilled scratch is the features times weight block `r`. -/
theorem xwOf_apply (x0 : Vec Ideal S1x2048x32 .f32) (x2 : Vec Ideal S3x32x64 .f32) (r : Fin 3) (j : Fin 2048) (e : Fin 64) :
    xwOf x0 x2 (ix3 r j e) = ∑ d : Fin 32, x0 (ix3 0 j d) * x2 (ix3 r d e) := by
  match r with
  | ⟨0, _⟩ => exact xwOf_apply0 x0 x2 j e
  | ⟨1, _⟩ => exact xwOf_apply1 x0 x2 j e
  | ⟨2, _⟩ => exact xwOf_apply2 x0 x2 j e

/-- Row `j`, column `e` of batch entry `b`'s features times weight block `r`. -/
def xw0 (A0 : S8x2048x32.Idx → EReal) (A2 : S3x32x64.Idx → EReal) (b : Fin 8) (r : Fin 3) (j : Fin 2048) (e : Fin 64) : EReal :=
  ∑ d : Fin 32, A0 (ix3 b j d) * A2 (ix3 r d e)

section Region
variable (V : (c : Dev nD) → (b : Ref sig .tc) → Buf (Elt Ideal) ((c : Thread nD τ).loc b))

/-- At a refill point the scratch holds the product for the point's batch entry. -/
theorem scr0_fill_apply (c : Dev nD) (t : Fin cfg0.N) (h4 : t.val % 4 = 0) (b : Fin 8) (hb : b.val = t.val / 4)
    (r : Fin 3) (j : Fin 2048) (e : Fin 64) :
    scr0 V c (t.val + 1) (ix3 r j e)
      = xw0 (V c main_arg0) (V c main_arg3) b r j e := by
  rw [scr0_fill V c t h4]
  unfold xw0
  refine (xwOf_apply (iblk0 V c 0 t) (iblk0 V c 2 t) r j e).trans ?_
  refine Finset.sum_congr rfl fun d _ => ?_
  exact congrArg₂ (fun x y : EReal => x * y) (iblk0_0_apply V c t b hb j d) (iblk0_2_apply V c t r d e)

/-- After EVERY point the scratch holds the product for the point's batch entry: refilled at the entry's first row
    tile, kept through the other three. -/
theorem scr0_apply (c : Dev nD) (n : ℕ) : ∀ (h : n < cfg0.N) (b : Fin 8), b.val = n / 4 → ∀ (r : Fin 3) (j : Fin 2048) (e : Fin 64),
    scr0 V c (n + 1) (ix3 r j e)
      = xw0 (V c main_arg0) (V c main_arg3) b r j e := by
  induction n with
  | zero =>
    intro h b hb r j e
    exact scr0_fill_apply V c ⟨0, h⟩ rfl b hb r j e
  | succ n ih =>
    intro h b hb r j e
    by_cases h4 : (n + 1) % 4 = 0
    · exact scr0_fill_apply V c ⟨n + 1, h⟩ h4 b hb r j e
    · rw [scr0_keep V c ⟨n + 1, h⟩ h4]
      exact ih (by omega) b (by omega) r j e

/-! ## The closed form -/

/-- Row `i` of batch entry `b` of the first graph convolution: over the three relations, the relation's 0/1 mask of the
    row times the features times the relation's weights, summed, plus the bias; the row normalised and clamped at zero. -/
def G0 (A0 : S8x2048x32.Idx → EReal) (A1 : S8x2048x2048.Idx → BitVec 32) (A2 : S3x32x64.Idx → EReal) (A3 : S64.Idx → EReal)
    (b : Fin 8) (i : Fin 2048) (e : Fin 64) : EReal :=
  Cert.Spec.relu (Cert.Spec.nrm Cert.Spec.eps12 (fun e' =>
    (((∑ j : Fin 2048, Cert.Spec.eqI (A1 (ix3 b i j)) 1#32 * ∑ d : Fin 32, A0 (ix3 b j d) * A2 (ix3 0 d e'))
      + (∑ j : Fin 2048, Cert.Spec.eqI (A1 (ix3 b i j)) 2#32 * ∑ d : Fin 32, A0 (ix3 b j d) * A2 (ix3 1 d e')))
      + (∑ j : Fin 2048, Cert.Spec.eqI (A1 (ix3 b i j)) 3#32 * ∑ d : Fin 32, A0 (ix3 b j d) * A2 (ix3 2 d e')))
      + A3 (ix1 e')) e)

/-- The result array as one function of its index. -/
def G0buf (c : Dev nD) : S8x2048x64.Idx → EReal := fun x =>
  G0 (V c main_arg0) (V c main_arg1) (V c main_arg3) (V c main_arg4) (x 0) (x 1) (x 2)

/-- The output tile the body leaves at point `t`, at row `i'` of the tile, is row `t % 4 * 512 + i'` of entry `t / 4`. -/
theorem out0At_apply (c : Dev nD) (t : Fin cfg0.N) (b : Fin 8) (hb : b.val = t.val / 4) (i' : Fin 512) (i : Fin 2048)
    (hi : i.val = t.val % 4 * 512 + i'.val) (e : Fin 64) :
    out0At V c t (ix3 0 i' e) = G0 (V c main_arg0) (V c main_arg1) (V c main_arg3) (V c main_arg4) b i e := by
  unfold out0At out0
  refine (k0_out_apply (iblk0 V c 1 t) (slab0 (scr0 V c (t.val + 1))) (slab1 (scr0 V c (t.val + 1)))
    (slab2 (scr0 V c (t.val + 1))) (iblk0 V c 3 t) i' e).trans ?_
  unfold G0
  refine congrArg Cert.Spec.relu (congrArg (fun y => Cert.Spec.nrm Cert.Spec.eps12 y e) (funext fun e' => ?_))
  unfold y0
  simp only [slab0_apply, slab1_apply, slab2_apply,
    scr0_apply V c t.val t.isLt b hb,
    iblk0_1_apply V c t b hb i' i hi, iblk0_3_apply V c t, xw0]

/-- What point `t` writes back, index by index, is the closed form at the index's place in the array. -/
theorem flushed0_pt (c : Dev nD) (t : Fin cfg0.N) (y : S1x512x64.Idx) :
    out0At V c t y = G0buf V c (((cfg0.win 4).blk t).view.emb y) := by
  obtain ⟨i0, i', e, rfl⟩ : ∃ (i0 : Fin 1) (i' : Fin 512) (e : Fin 64), y = ix3 i0 i' e := ⟨y 0, y 1, y 2, eq_ix3 y⟩
  obtain rfl : i0 = 0 := Subsingleton.elim _ _
  have ht : t.val < 32 := lt_of_lt_of_eq t.isLt N_0
  obtain ⟨-, -, -, -, -, -, -, -, -, -, e0, e1, e2⟩ := idx_facts0 t
  have hemb : ((cfg0.win 4).blk t).view.emb (ix3 (0 : Fin 1) i' e)
      = (ix3 (⟨t.val / 4, by omega⟩ : Fin 8) (⟨t.val % 4 * 512 + i'.val, by omega⟩ : Fin 2048) e : S8x2048x64.Idx) := by
    funext a; apply Fin.ext
    match a with
    | ⟨0, _⟩ => show win0_4.index t (0 : Fin 3) * 1 + 1 * 0 = t.val / 4; omega
    | ⟨1, _⟩ => show win0_4.index t (1 : Fin 3) * 512 + 1 * i'.val = t.val % 4 * 512 + i'.val; omega
    | ⟨2, _⟩ => show win0_4.index t (2 : Fin 3) * 64 + 1 * e.val = e.val; omega
  exact (out0At_apply V c t ⟨t.val / 4, by omega⟩ rfl i'
    ⟨t.val % 4 * 512 + i'.val, by omega⟩ rfl e).trans (congrArg (G0buf V c) hemb).symm

/-- WHAT POINT `t` WRITES BACK is block `t` of the closed form of the arrays as the call finds them. -/
theorem flushed0_eq (c : Dev nD) (t : Fin cfg0.N) :
    (dat0 (F := Ideal) V c).flushed 4 t = ((cfg0.win 4).blk t).view.read (Elt Ideal) (G0buf V c) := by
  show (cfg0.win 4).cut (grid0.coords t) ((dat0 (F := Ideal) V c).after 4 t) = _
  rw [after0_4]
  funext y
  exact flushed0_pt V c t y

/-- An index of the result array is in point `t`'s block iff each coordinate is in the block's range on its axis. -/
theorem mem_blk0 (t : Fin cfg0.N) (x : S8x2048x64.Idx) :
    x ∈ ((cfg0.win 4).blk t).view.set ↔ ∀ a : Fin 3, win0_4.index t a * S1x512x64.size a ≤ (x a).val
      ∧ (x a).val < win0_4.index t a * S1x512x64.size a + S1x512x64.size a := by
  show x ∈ ((View.whole main_v0).slice (win0_4.rect t)).set ↔ _
  rw [View.set_slice_whole, Rect.mem_set_unit]
  exact Iff.rfl

/-- Every index of the result array is in some point's block: row `i` of entry `b` in the block of point `4 b + i / 512`. -/
theorem cover0 (x : S8x2048x64.Idx) :
    ∃ t : Fin cfg0.N, (cfg0.win 4).flush t = true ∧ x ∈ ((cfg0.win 4).blk t).view.set := by
  have h0 : (x 0).val < 8 := (x 0).isLt
  have h1 : (x 1).val < 2048 := (x 1).isLt
  have h2 : (x 2).val < 64 := (x 2).isLt
  have hN : cfg0.N = 32 := N_0
  have hlt : 4 * (x 0).val + (x 1).val / 512 < cfg0.N := by rw [hN]; omega
  refine ⟨⟨4 * (x 0).val + (x 1).val / 512, hlt⟩, flush0_4 _, ?_⟩
  rw [mem_blk0]
  obtain ⟨-, -, -, -, -, -, -, -, -, -, e0, e1, e2⟩ := idx_facts0 ⟨4 * (x 0).val + (x 1).val / 512, hlt⟩
  have tv : (⟨4 * (x 0).val + (x 1).val / 512, hlt⟩ : Fin cfg0.N).val = 4 * (x 0).val + (x 1).val / 512 := rfl
  intro a
  match a with
  | ⟨0, _⟩ =>
    show win0_4.index ⟨4 * (x 0).val + (x 1).val / 512, hlt⟩ (0 : Fin 3) * 1 ≤ (x 0).val
      ∧ (x 0).val < win0_4.index ⟨4 * (x 0).val + (x 1).val / 512, hlt⟩ (0 : Fin 3) * 1 + 1
    omega
  | ⟨1, _⟩ =>
    show win0_4.index ⟨4 * (x 0).val + (x 1).val / 512, hlt⟩ (1 : Fin 3) * 512 ≤ (x 1).val
      ∧ (x 1).val < win0_4.index ⟨4 * (x 0).val + (x 1).val / 512, hlt⟩ (1 : Fin 3) * 512 + 512
    omega
  | ⟨2, _⟩ =>
    show win0_4.index ⟨4 * (x 0).val + (x 1).val / 512, hlt⟩ (2 : Fin 3) * 64 ≤ (x 2).val
      ∧ (x 2).val < win0_4.index ⟨4 * (x 0).val + (x 1).val / 512, hlt⟩ (2 : Fin 3) * 64 + 64
    omega

/-- THE RESULT ARRAY after the call: the closed form of the arrays the call is entered with, everywhere. -/
theorem final0 (c : Dev nD) : (dat0 (F := Ideal) V c).arrAt 4 cfg0.N = G0buf V c :=
  (dat0 (F := Ideal) V c).arrAt_eq_of_cover 4 (G0buf V c)
    (fun t _ => flushed0_eq V c t) cover0

/-- Index by index. -/
theorem val0 (c : Dev nD) (b : Fin 8) (i : Fin 2048) (e : Fin 64) :
    (dat0 (F := Ideal) V c).arrAt 4 cfg0.N (ix3 b i e)
      = G0 (V c main_arg0) (V c main_arg1) (V c main_arg3) (V c main_arg4) b i e :=
  congrFun (final0 V c) (ix3 b i e)

end Region

end Cert.KernelIdeal.Hand

end
-- ==== Proof.KiVal1.lean ====
/-
  The second graph-convolution call, from its blocks to its result array.  The grid is (batch entry, row tile) with the
  row tile fastest: point t works on entry t / 4 and on rows 512 (t % 4) … 512 (t % 4) + 511 of that entry.  Each input
  block is read where its window puts it in its array; the scratch, refilled at an entry's first tile and kept through the
  other three, holds after EVERY point t the features of entry t / 4 times the weights; so the tile a point writes back is
  the same rows of one function G1 of the four arrays the call is entered with, and since the 32 tiles cover the result
  array, the array ends as G1, index by index.
-/
import proofs.«165070_j9002251452429_2_alg».proof.Proof.KiDat1
import proofs.«165070_j9002251452429_2_alg».proof.Proof.Spec
import Idealize.ShloMosaic.Lib.ValueIdx
import Idealize.ShloMosaic.Lib.Pipeline.Value
import proofs.«165070_j9002251452429_2_alg».proof.Proof.KiPay1

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat)
open scoped BigOperators

/-! ## The printed index maps over the grid -/

/-- At point `t` the batch entry is `t / 4` and the row tile `t % 4`: the feature window sits at the entry, the adjacency
    and result windows at the entry and the tile, the weight and bias windows at the origin. -/
theorem idx_facts1 : ∀ t : Fin cfg1.N,
    win1_0.index t (0 : Fin 3) = t.val / 4 ∧ win1_0.index t (1 : Fin 3) = 0 ∧ win1_0.index t (2 : Fin 3) = 0
    ∧ win1_1.index t (0 : Fin 3) = t.val / 4 ∧ win1_1.index t (1 : Fin 3) = t.val % 4 ∧ win1_1.index t (2 : Fin 3) = 0
    ∧ win1_2.index t (0 : Fin 3) = 0 ∧ win1_2.index t (1 : Fin 3) = 0 ∧ win1_2.index t (2 : Fin 3) = 0
    ∧ win1_3.index t (0 : Fin 1) = 0
    ∧ win1_4.index t (0 : Fin 3) = t.val / 4 ∧ win1_4.index t (1 : Fin 3) = t.val % 4 ∧ win1_4.index t (2 : Fin 3) = 0 :=
  (by decide +kernel : ∀ t : Fin grid1.N, _)

variable {F : FTy → Type} [FloatOps F]

section Blocks
variable (V : (c : Dev nD) → (b : Ref sig .tc) → Buf (Elt F) ((c : Thread nD τ).loc b))

/-- The feature block at point `t` is the batch entry `t / 4` of the feature array. -/
theorem iblk1_0_apply (c : Dev nD) (t : Fin cfg1.N) (x : S1x2048x64.Idx) (k : S8x2048x64.Idx)
    (hk0 : (k 0).val = t.val / 4) (hk1 : (k 1).val = (x 1).val) (hk2 : (k 2).val = (x 2).val) :
    (iblk1 V c 0 t : Vec F S1x2048x64 .f32) x = (V c main_v18 : S8x2048x64.Idx → Elt F .f32) k := by
  obtain ⟨e0, e1, e2, -⟩ := idx_facts1 t
  have hx0 : (x 0).val < 1 := (x 0).isLt
  unfold iblk1
  rw [View.read_apply]
  show V c main_v18 _ = V c main_v18 _
  congr 1
  funext a
  apply Fin.ext
  match a with
  | ⟨0, _⟩ => show win1_0.index t (0 : Fin 3) * 1 + 1 * (x 0).val = (k 0).val; rw [e0, hk0]; omega
  | ⟨1, _⟩ => show win1_0.index t (1 : Fin 3) * 2048 + 1 * (x 1).val = (k 1).val; rw [e1, hk1]; omega
  | ⟨2, _⟩ => show win1_0.index t (2 : Fin 3) * 64 + 1 * (x 2).val = (k 2).val; rw [e2, hk2]; omega

/-- The adjacency tile at point `t` is rows `512 (t % 4) …` of the batch entry `t / 4` of the adjacency array. -/
theorem iblk1_1_apply (c : Dev nD) (t : Fin cfg1.N) (x : S1x512x2048.Idx) (k : S8x2048x2048.Idx)
    (hk0 : (k 0).val = t.val / 4) (hk1 : (k 1).val = t.val % 4 * 512 + (x 1).val) (hk2 : (k 2).val = (x 2).val) :
    (iblk1 V c 1 t : Vec F S1x512x2048 .f32) x = (V c main_arg2 : S8x2048x2048.Idx → Elt F .f32) k := by
  obtain ⟨-, -, -, e0, e1, e2, -⟩ := idx_facts1 t
  have hx0 : (x 0).val < 1 := (x 0).isLt
  unfold iblk1
  rw [View.read_apply]
  show V c main_arg2 _ = V c main_arg2 _
  congr 1
  funext a
  apply Fin.ext
  match a with
  | ⟨0, _⟩ => show win1_1.index t (0 : Fin 3) * 1 + 1 * (x 0).val = (k 0).val; rw [e0, hk0]; omega
  | ⟨1, _⟩ => show win1_1.index t (1 : Fin 3) * 512 + 1 * (x 1).val = (k 1).val; rw [e1, hk1]; omega
  | ⟨2, _⟩ => show win1_1.index t (2 : Fin 3) * 2048 + 1 * (x 2).val = (k 2).val; rw [e2, hk2]; omega

/-- The weight block at every point is the whole weight array. -/
theorem iblk1_2_apply (c : Dev nD) (t : Fin cfg1.N) (x : S1x64x64.Idx) :
    (iblk1 V c 2 t : Vec F S1x64x64 .f32) x = (V c main_v20 : S1x64x64.Idx → Elt F .f32) x := by
  obtain ⟨-, -, -, -, -, -, e0, e1, e2, -⟩ := idx_facts1 t
  unfold iblk1
  rw [View.read_apply]
  show V c main_v20 _ = V c main_v20 _
  congr 1
  funext a
  apply Fin.ext
  match a with
  | ⟨0, _⟩ => show win1_2.index t (0 : Fin 3) * 1 + 1 * (x 0).val = (x 0).val; rw [e0]; omega
  | ⟨1, _⟩ => show win1_2.index t (1 : Fin 3) * 64 + 1 * (x 1).val = (x 1).val; rw [e1]; omega
  | ⟨2, _⟩ => show win1_2.index t (2 : Fin 3) * 64 + 1 * (x 2).val = (x 2).val; rw [e2]; omega

/-- The bias block at every point is the whole bias array. -/
theorem iblk1_3_apply (c : Dev nD) (t : Fin cfg1.N) (x : S64.Idx) :
    (iblk1 V c 3 t : Vec F S64 .f32) x = (V c main_arg6 : S64.Idx → Elt F .f32) x := by
  obtain ⟨-, -, -, -, -, -, -, -, -, e0, -⟩ := idx_facts1 t
  unfold iblk1
  rw [View.read_apply]
  show V c main_arg6 _ = V c main_arg6 _
  congr 1
  funext a
  apply Fin.ext
  match a with
  | ⟨0, _⟩ => show win1_3.index t (0 : Fin 1) * 64 + 1 * (x 0).val = (x 0).val; rw [e0]; omega

end Blocks

/-! ## The result array as one function of the arrays the call is entered with -/

/-- The features of node `j` of batch entry `b` times the weights, at feature `e`. -/
def xw1 (A0 : S8x2048x64.Idx → EReal) (A2 : S1x64x64.Idx → EReal) (b : Fin 8) (j : Fin 2048) (e : Fin 64) : EReal :=
  ∑ d : Fin 64, A0 (ix3 b j d) * A2 (ix3 0 d e)

/-- Row `i` of batch entry `b` of the layer's result, at feature `e`: the features of every node `j` times the weights,
    summed over the nodes adjacent to `i` (adjacency entry equal to one), plus the bias; the row divided by its
    Euclidean norm floored at the small constant; the positive part. -/
def G1 (A0 : S8x2048x64.Idx → EReal) (A1 : S8x2048x2048.Idx → EReal) (A2 : S1x64x64.Idx → EReal) (A3 : S64.Idx → EReal)
    (b : Fin 8) (i : Fin 2048) (e : Fin 64) : EReal :=
  Cert.Spec.relu (Cert.Spec.nrm Cert.Spec.eps12
    (fun e' => (∑ j : Fin 2048, Cert.Spec.eqF (A1 (ix3 b i j)) 1 * ∑ d : Fin 64, A0 (ix3 b j d) * A2 (ix3 0 d e')) + A3 (ix1 e')) e)

/-- The same, as an array. -/
def G1arr (A0 : S8x2048x64.Idx → EReal) (A1 : S8x2048x2048.Idx → EReal) (A2 : S1x64x64.Idx → EReal) (A3 : S64.Idx → EReal) :
    S8x2048x64.Idx → EReal := fun k => G1 A0 A1 A2 A3 (k 0) (k 1) (k 2)

section Value
variable (V : (c : Dev nD) → (b : Ref sig .tc) → Buf (Elt Ideal) ((c : Thread nD τ).loc b))

/-- At a refill point the scratch is left holding the entry's features times the weights. -/
theorem scr1_fill_apply (c : Dev nD) (t : Fin cfg1.N) (h4 : t.val % 4 = 0) (b : Fin 8) (hb : b.val = t.val / 4)
    (j : Fin 2048) (e : Fin 64) :
    scr1 (F := Ideal) V c (t.val + 1) (ix3 0 j e) = xw1 (V c main_v18) (V c main_v20) b j e := by
  rw [scr1_fill V c t h4]
  refine (k1_pay1_apply (iblk1 V c 0 t) (iblk1 V c 2 t) j e).trans ?_
  unfold xw1
  refine Finset.sum_congr rfl fun d _ => ?_
  exact congrArg₂ (fun u v : EReal => u * v) (iblk1_0_apply V c t (ix3 0 j d) (ix3 b j d) hb rfl rfl) (iblk1_2_apply V c t (ix3 0 d e))

/-- After every point `n` the scratch holds the features times the weights of the batch entry `n / 4`: refilled at the
    entry's first row tile, kept through the other three. -/
theorem scr1_apply (c : Dev nD) : ∀ (n : ℕ) (hn : n < cfg1.N) (b : Fin 8) (hb : b.val = n / 4) (j : Fin 2048) (e : Fin 64),
    scr1 (F := Ideal) V c (n + 1) (ix3 0 j e) = xw1 (V c main_v18) (V c main_v20) b j e := by
  intro n
  induction n with
  | zero => intro hn b hb j e; exact scr1_fill_apply V c ⟨0, hn⟩ rfl b hb j e
  | succ n ih =>
    intro hn b hb j e
    by_cases h4 : (n + 1) % 4 = 0
    · exact scr1_fill_apply V c ⟨n + 1, hn⟩ h4 b hb j e
    · rw [scr1_keep V c ⟨n + 1, hn⟩ h4]
      exact ih (Nat.lt_of_succ_lt hn) b (by omega) j e

end Value

section Value2
variable (V : (c : Dev nD) → (b : Ref sig .tc) → Buf (Elt Ideal) ((c : Thread nD τ).loc b))

/-- The tile point `t` leaves in the result's buffer, at row `q` of the tile: row `512 (t % 4) + q` of entry `t / 4` of `G1`. -/
theorem out1At_apply (c : Dev nD) (t : Fin cfg1.N) (q : Fin 512) (e : Fin 64) (k : S8x2048x64.Idx)
    (hk0 : (k 0).val = t.val / 4) (hk1 : (k 1).val = t.val % 4 * 512 + q.val) (hk2 : (k 2).val = e.val) :
    (out1At (F := Ideal) V c t : Vec Ideal S1x512x64 .f32) (ix3 0 q e)
      = G1 (V c main_v18) (V c main_arg2) (V c main_v20) (V c main_arg6) (k 0) (k 1) (k 2) := by
  obtain rfl : k 2 = e := Fin.ext hk2
  unfold out1At
  refine (k1_pay2_apply (iblk1 V c 1 t) (scr1 V c (t.val + 1)) (iblk1 V c 3 t) q (k 2)).trans ?_
  unfold G1
  refine congrArg Cert.Spec.relu ?_
  refine congrArg (fun y => Cert.Spec.nrm Cert.Spec.eps12 y (k 2)) ?_
  funext e'
  unfold y1
  refine congrArg₂ (fun u v : EReal => u + v) (Finset.sum_congr rfl fun j _ => ?_) (iblk1_3_apply V c t (ix1 e'))
  exact congrArg₂ (fun u v : EReal => Cert.Spec.eqF u 1 * v)
    (iblk1_1_apply V c t (ix3 0 q j) (ix3 (k 0) (k 1) j) hk0 hk1 rfl)
    (scr1_apply V c t.val t.isLt (k 0) hk0 j e')

end Value2

section Array
variable (V : (c : Dev nD) → (b : Ref sig .tc) → Buf (Elt Ideal) ((c : Thread nD τ).loc b))

/-- What point `t` writes back is block `t` of `G1` of the arrays as the call finds them. -/
theorem flushed1_eq (c : Dev nD) (t : Fin cfg1.N) :
    (dat1 (F := Ideal) V c).flushed 4 t
      = ((cfg1.win 4).blk t).view.read (Elt Ideal) (G1arr (V c main_v18) (V c main_arg2) (V c main_v20) (V c main_arg6)) := by
  show (cfg1.win 4).cut (grid1.coords t) ((dat1 V c).after 4 t) = _
  rw [after1_4]
  refine funext fun (y : S1x512x64.Idx) => ?_
  obtain ⟨p, q, e, rfl⟩ : ∃ (p : Fin 1) (q : Fin 512) (e : Fin 64), y = ix3 p q e := ⟨y 0, y 1, y 2, eq_ix3 y⟩
  obtain rfl : p = 0 := Subsingleton.elim _ _
  obtain ⟨-, -, -, -, -, -, -, -, -, -, e0, e1, e2⟩ := idx_facts1 t
  rw [View.read_apply]
  refine out1At_apply V c t q e (((cfg1.win 4).blk t).view.emb (ix3 0 q e)) ?_ ?_ ?_
  · show win1_4.index t (0 : Fin 3) * 1 + 1 * 0 = t.val / 4
    rw [e0]; omega
  · show win1_4.index t (1 : Fin 3) * 512 + 1 * q.val = t.val % 4 * 512 + q.val
    rw [e1]; omega
  · show win1_4.index t (2 : Fin 3) * 64 + 1 * e.val = e.val
    rw [e2]; omega

/-- An index of the result array is in point `t`'s block iff each coordinate is in the block's range on its axis. -/
theorem mem_blk1 (t : Fin cfg1.N) (k : S8x2048x64.Idx) :
    k ∈ ((cfg1.win 4).blk t).view.set
      ↔ ∀ a : Fin 3, win1_4.index t a * S1x512x64.size a ≤ (k a).val ∧ (k a).val < win1_4.index t a * S1x512x64.size a + S1x512x64.size a := by
  show k ∈ ((View.whole main_v21).slice (win1_4.rect t)).set ↔ _
  rw [View.set_slice_whole, Rect.mem_set_unit]
  exact Iff.rfl

/-- Every index of the result array is in some point's block: row `r` of entry `b` is written at point `4 b + r / 512`. -/
theorem cover1 (k : S8x2048x64.Idx) :
    ∃ t : Fin cfg1.N, (cfg1.win 4).flush t = true ∧ k ∈ ((cfg1.win 4).blk t).view.set := by
  have hN : cfg1.N = 32 := N_1
  have h0 : (k 0).val < 8 := (k 0).isLt
  have h1 : (k 1).val < 2048 := (k 1).isLt
  have h2 : (k 2).val < 64 := (k 2).isLt
  have hn : 4 * (k 0).val + (k 1).val / 512 < cfg1.N := by omega
  obtain ⟨-, -, -, -, -, -, -, -, -, -, e0, e1, e2⟩ := idx_facts1 ⟨4 * (k 0).val + (k 1).val / 512, hn⟩
  have e0' : win1_4.index ⟨4 * (k 0).val + (k 1).val / 512, hn⟩ (0 : Fin 3) = (4 * (k 0).val + (k 1).val / 512) / 4 := e0
  have e1' : win1_4.index ⟨4 * (k 0).val + (k 1).val / 512, hn⟩ (1 : Fin 3) = (4 * (k 0).val + (k 1).val / 512) % 4 := e1
  refine ⟨⟨4 * (k 0).val + (k 1).val / 512, hn⟩, flush1_4 _, ?_⟩
  rw [mem_blk1]
  intro a
  match a with
  | ⟨0, _⟩ =>
    show win1_4.index _ (0 : Fin 3) * 1 ≤ (k 0).val ∧ (k 0).val < win1_4.index _ (0 : Fin 3) * 1 + 1
    rw [e0']; omega
  | ⟨1, _⟩ =>
    show win1_4.index _ (1 : Fin 3) * 512 ≤ (k 1).val ∧ (k 1).val < win1_4.index _ (1 : Fin 3) * 512 + 512
    rw [e1']; omega
  | ⟨2, _⟩ =>
    show win1_4.index _ (2 : Fin 3) * 64 ≤ (k 2).val ∧ (k 2).val < win1_4.index _ (2 : Fin 3) * 64 + 64
    rw [e2]; omega

/-- The result array after the call is `G1` of the arrays the call is entered with. -/
theorem final1 (c : Dev nD) :
    (dat1 (F := Ideal) V c).arrAt 4 cfg1.N = G1arr (V c main_v18) (V c main_arg2) (V c main_v20) (V c main_arg6) :=
  (dat1 V c).arrAt_eq_of_cover 4 (G1arr (V c main_v18) (V c main_arg2) (V c main_v20) (V c main_arg6))
    (fun t _ => flushed1_eq V c t) cover1

/-- The result array after the call, index by index. -/
theorem val1 (c : Dev nD) (b : Fin 8) (i : Fin 2048) (e : Fin 64) :
    ((dat1 (F := Ideal) V c).arrAt 4 cfg1.N : S8x2048x64.Idx → EReal) (ix3 b i e)
      = G1 (V c main_v18) (V c main_arg2) (V c main_v20) (V c main_arg6) b i e := by
  rw [final1 V c]
  rfl

end Array

end Cert.KernelIdeal.Hand

end
-- ==== Proof.KiPay2.lean ====
/-
  The third kernel's two stored values read at an entry, on the extended reals. The feature block times the weight
  block is, at (j, e), the sum over d of x(j, d) * w(d, e). The output block is, at (i, e), entry e of the row y(i, ·)
  divided by its Euclidean norm floored at eps — the middle layer's value without the positive part — where y(i, e)
  is the sum over j of the 0/1 weight of the adjacency entry a(i, j) = 1 times xs(j, e), plus the bias b(e).
-/
import proofs.«165070_j9002251452429_2_alg».proof.Proof.Gen.KernelIdeal.Skeleton
import proofs.«165070_j9002251452429_2_alg».proof.Proof.Spec
import proofs.«165070_j9002251452429_2_alg».proof.Proof.LibRealClosure
import proofs.«165070_j9002251452429_2_alg».proof.Proof.KiPay1
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen
open scoped BigOperators

/-! ## The first stored value: features times weights -/

/-- The feature block times the weight block, at (j, e). -/
theorem k2_pay1_apply (x0 : Vec Ideal S1x2048x64 .f32) (x2 : Vec Ideal S1x64x64 .f32) (j : Fin 2048) (e : Fin 64) :
    k2_pay1 (F := Ideal) x0 x2 (ix3 0 j e) = ∑ d : Fin 64, x0 (ix3 0 j d) * x2 (ix3 0 d e) := by
  unfold k2_pay1
  refine (shapeCast_ab_1ab_apply _ _ 0 j e).trans ?_
  refine (dotA_apply _ _ j e).trans ?_
  refine Finset.sum_congr rfl fun d _ => ?_
  rw [truncf_apply, truncf_apply, shapeCast_1ab_ab_apply, shapeCast_1ab_ab_apply]

/-! ## The second stored value: aggregate, add the bias, normalise -/

/-- Row i of the aggregate: the sum over the nodes j of the weight of a(i, j) = 1 times xs(j, e), plus the bias. -/
def y2 (x1 : Vec Ideal S1x512x2048 .f32) (xs : Vec Ideal S1x2048x64 .f32) (x3 : Vec Ideal S64 .f32) (i : Fin 512) (e : Fin 64) : EReal :=
  (∑ j : Fin 2048, Cert.Spec.eqF (x1 (ix3 0 i j)) 1 * xs (ix3 0 j e)) + x3 (ix1 e)

/-- The last layer's aggregate is the same function of its inputs as the middle layer's. -/
theorem y2_eq_y1 (x1 : Vec Ideal S1x512x2048 .f32) (xs : Vec Ideal S1x2048x64 .f32) (x3 : Vec Ideal S64 .f32) :
    y2 x1 xs x3 = y1 x1 xs x3 := rfl

/-- The stored block is the normalised aggregate, with no positive part taken. -/
theorem k2_pay2_eq (x1 : Vec Ideal S1x512x2048 .f32) (xs : Vec Ideal S1x2048x64 .f32) (x3 : Vec Ideal S64 .f32) :
    k2_pay2 (F := Ideal) x1 xs x3
      = shapeCast S1x512x64
          (divf (aggBias x1 xs x3) (broadcastTo S512x64
            (maximumf
              (sqrt (shapeCast S512x1
                (multiReduction (F := Ideal) .add [1] S512 (mulf (aggBias x1 xs x3) (aggBias x1 xs x3)) 0x00000000#32
                  reduces_S512x64_S512 (.inl rfl) rfl)
                shapeCasts_S512_S512x1))
              (broadcast S512x1 (Scalar.ofBits (F := Ideal) .f32 0x2B8CBCCC#32)))
            broadcasts_S512x1_S512x64))
          shapeCasts_S512x64_S1x512x64 := rfl

theorem k2_pay2_apply (x1 : Vec Ideal S1x512x2048 .f32) (xs : Vec Ideal S1x2048x64 .f32) (x3 : Vec Ideal S64 .f32)
    (i : Fin 512) (e : Fin 64) :
    k2_pay2 (F := Ideal) x1 xs x3 (ix3 0 i e) = Cert.Spec.nrm Cert.Spec.eps12 (y2 x1 xs x3 i) e := by
  rw [k2_pay2_eq]
  refine (shapeCast_ab_1ab_apply _ _ 0 i e).trans ?_
  refine (rowNormalise_apply _ i e).trans ?_
  refine congrArg (fun y => Cert.Spec.nrm Cert.Spec.eps12 y e) ?_
  funext e'
  exact aggBias_apply x1 xs x3 i e'

end Cert.KernelIdeal.Hand

end
-- ==== Proof.KiVal2.lean ====
/-
  The third graph-convolution call, from its blocks to its result array.  The grid is (batch entry, row tile) with the
  row tile fastest: point t works on entry t / 4 and on rows 512 (t % 4) … 512 (t % 4) + 511 of that entry.  Each input
  block is read where its window puts it in its array; the scratch, refilled at an entry's first tile and kept through the
  other three, holds after EVERY point t the features of entry t / 4 times the weights; so the tile a point writes back is
  the same rows of one function G2 of the four arrays the call is entered with — the normalised aggregate, with no
  positive part in this last layer — and since the 32 tiles cover the result array, the array ends as G2, index by index.
-/
import proofs.«165070_j9002251452429_2_alg».proof.Proof.KiDat2
import proofs.«165070_j9002251452429_2_alg».proof.Proof.Spec
import Idealize.ShloMosaic.Lib.ValueIdx
import Idealize.ShloMosaic.Lib.Pipeline.Value
import proofs.«165070_j9002251452429_2_alg».proof.Proof.KiPay2

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat)
open scoped BigOperators

/-! ## The printed index maps over the grid -/

/-- At point `t` the batch entry is `t / 4` and the row tile `t % 4`: the feature window sits at the entry, the adjacency
    and result windows at the entry and the tile, the weight and bias windows at the origin. -/
theorem idx_facts2 : ∀ t : Fin cfg2.N,
    win2_0.index t (0 : Fin 3) = t.val / 4 ∧ win2_0.index t (1 : Fin 3) = 0 ∧ win2_0.index t (2 : Fin 3) = 0
    ∧ win2_1.index t (0 : Fin 3) = t.val / 4 ∧ win2_1.index t (1 : Fin 3) = t.val % 4 ∧ win2_1.index t (2 : Fin 3) = 0
    ∧ win2_2.index t (0 : Fin 3) = 0 ∧ win2_2.index t (1 : Fin 3) = 0 ∧ win2_2.index t (2 : Fin 3) = 0
    ∧ win2_3.index t (0 : Fin 1) = 0
    ∧ win2_4.index t (0 : Fin 3) = t.val / 4 ∧ win2_4.index t (1 : Fin 3) = t.val % 4 ∧ win2_4.index t (2 : Fin 3) = 0 :=
  (by decide +kernel : ∀ t : Fin grid2.N, _)

variable {F : FTy → Type} [FloatOps F]

section Blocks
variable (V : (c : Dev nD) → (b : Ref sig .tc) → Buf (Elt F) ((c : Thread nD τ).loc b))

/-- The feature block at point `t` is the batch entry `t / 4` of the feature array. -/
theorem iblk2_0_apply (c : Dev nD) (t : Fin cfg2.N) (x : S1x2048x64.Idx) (k : S8x2048x64.Idx)
    (hk0 : (k 0).val = t.val / 4) (hk1 : (k 1).val = (x 1).val) (hk2 : (k 2).val = (x 2).val) :
    (iblk2 V c 0 t : Vec F S1x2048x64 .f32) x = (V c main_v39 : S8x2048x64.Idx → Elt F .f32) k := by
  obtain ⟨e0, e1, e2, -⟩ := idx_facts2 t
  have hx0 : (x 0).val < 1 := (x 0).isLt
  unfold iblk2
  rw [View.read_apply]
  show V c main_v39 _ = V c main_v39 _
  congr 1
  funext a
  apply Fin.ext
  match a with
  | ⟨0, _⟩ => show win2_0.index t (0 : Fin 3) * 1 + 1 * (x 0).val = (k 0).val; rw [e0, hk0]; omega
  | ⟨1, _⟩ => show win2_0.index t (1 : Fin 3) * 2048 + 1 * (x 1).val = (k 1).val; rw [e1, hk1]; omega
  | ⟨2, _⟩ => show win2_0.index t (2 : Fin 3) * 64 + 1 * (x 2).val = (k 2).val; rw [e2, hk2]; omega

/-- The adjacency tile at point `t` is rows `512 (t % 4) …` of the batch entry `t / 4` of the adjacency array. -/
theorem iblk2_1_apply (c : Dev nD) (t : Fin cfg2.N) (x : S1x512x2048.Idx) (k : S8x2048x2048.Idx)
    (hk0 : (k 0).val = t.val / 4) (hk1 : (k 1).val = t.val % 4 * 512 + (x 1).val) (hk2 : (k 2).val = (x 2).val) :
    (iblk2 V c 1 t : Vec F S1x512x2048 .f32) x = (V c main_arg2 : S8x2048x2048.Idx → Elt F .f32) k := by
  obtain ⟨-, -, -, e0, e1, e2, -⟩ := idx_facts2 t
  have hx0 : (x 0).val < 1 := (x 0).isLt
  unfold iblk2
  rw [View.read_apply]
  show V c main_arg2 _ = V c main_arg2 _
  congr 1
  funext a
  apply Fin.ext
  match a with
  | ⟨0, _⟩ => show win2_1.index t (0 : Fin 3) * 1 + 1 * (x 0).val = (k 0).val; rw [e0, hk0]; omega
  | ⟨1, _⟩ => show win2_1.index t (1 : Fin 3) * 512 + 1 * (x 1).val = (k 1).val; rw [e1, hk1]; omega
  | ⟨2, _⟩ => show win2_1.index t (2 : Fin 3) * 2048 + 1 * (x 2).val = (k 2).val; rw [e2, hk2]; omega

/-- The weight block at every point is the whole weight array. -/
theorem iblk2_2_apply (c : Dev nD) (t : Fin cfg2.N) (x : S1x64x64.Idx) :
    (iblk2 V c 2 t : Vec F S1x64x64 .f32) x = (V c main_v41 : S1x64x64.Idx → Elt F .f32) x := by
  obtain ⟨-, -, -, -, -, -, e0, e1, e2, -⟩ := idx_facts2 t
  unfold iblk2
  rw [View.read_apply]
  show V c main_v41 _ = V c main_v41 _
  congr 1
  funext a
  apply Fin.ext
  match a with
  | ⟨0, _⟩ => show win2_2.index t (0 : Fin 3) * 1 + 1 * (x 0).val = (x 0).val; rw [e0]; omega
  | ⟨1, _⟩ => show win2_2.index t (1 : Fin 3) * 64 + 1 * (x 1).val = (x 1).val; rw [e1]; omega
  | ⟨2, _⟩ => show win2_2.index t (2 : Fin 3) * 64 + 1 * (x 2).val = (x 2).val; rw [e2]; omega

/-- The bias block at every point is the whole bias array. -/
theorem iblk2_3_apply (c : Dev nD) (t : Fin cfg2.N) (x : S64.Idx) :
    (iblk2 V c 3 t : Vec F S64 .f32) x = (V c main_arg8 : S64.Idx → Elt F .f32) x := by
  obtain ⟨-, -, -, -, -, -, -, -, -, e0, -⟩ := idx_facts2 t
  unfold iblk2
  rw [View.read_apply]
  show V c main_arg8 _ = V c main_arg8 _
  congr 1
  funext a
  apply Fin.ext
  match a with
  | ⟨0, _⟩ => show win2_3.index t (0 : Fin 1) * 64 + 1 * (x 0).val = (x 0).val; rw [e0]; omega

end Blocks

/-! ## The result array as one function of the arrays the call is entered with -/

/-- The features of node `j` of batch entry `b` times the weights, at feature `e`. -/
def xw2 (A0 : S8x2048x64.Idx → EReal) (A2 : S1x64x64.Idx → EReal) (b : Fin 8) (j : Fin 2048) (e : Fin 64) : EReal :=
  ∑ d : Fin 64, A0 (ix3 b j d) * A2 (ix3 0 d e)

/-- Row `i` of batch entry `b` of the layer's result, at feature `e`: the features of every node `j` times the weights,
    summed over the nodes adjacent to `i` (adjacency entry equal to one), plus the bias; the row divided by its
    Euclidean norm floored at the small constant (no positive part is taken in this layer). -/
def G2 (A0 : S8x2048x64.Idx → EReal) (A1 : S8x2048x2048.Idx → EReal) (A2 : S1x64x64.Idx → EReal) (A3 : S64.Idx → EReal)
    (b : Fin 8) (i : Fin 2048) (e : Fin 64) : EReal :=
  Cert.Spec.nrm Cert.Spec.eps12
    (fun e' => (∑ j : Fin 2048, Cert.Spec.eqF (A1 (ix3 b i j)) 1 * ∑ d : Fin 64, A0 (ix3 b j d) * A2 (ix3 0 d e')) + A3 (ix1 e')) e

/-- The same, as an array. -/
def G2arr (A0 : S8x2048x64.Idx → EReal) (A1 : S8x2048x2048.Idx → EReal) (A2 : S1x64x64.Idx → EReal) (A3 : S64.Idx → EReal) :
    S8x2048x64.Idx → EReal := fun k => G2 A0 A1 A2 A3 (k 0) (k 1) (k 2)

section Value
variable (V : (c : Dev nD) → (b : Ref sig .tc) → Buf (Elt Ideal) ((c : Thread nD τ).loc b))

/-- At a refill point the scratch is left holding the entry's features times the weights. -/
theorem scr2_fill_apply (c : Dev nD) (t : Fin cfg2.N) (h4 : t.val % 4 = 0) (b : Fin 8) (hb : b.val = t.val / 4)
    (j : Fin 2048) (e : Fin 64) :
    scr2 (F := Ideal) V c (t.val + 1) (ix3 0 j e) = xw2 (V c main_v39) (V c main_v41) b j e := by
  rw [scr2_fill V c t h4]
  refine (k2_pay1_apply (iblk2 V c 0 t) (iblk2 V c 2 t) j e).trans ?_
  unfold xw2
  refine Finset.sum_congr rfl fun d _ => ?_
  exact congrArg₂ (fun u v : EReal => u * v) (iblk2_0_apply V c t (ix3 0 j d) (ix3 b j d) hb rfl rfl) (iblk2_2_apply V c t (ix3 0 d e))

/-- After every point `n` the scratch holds the features times the weights of the batch entry `n / 4`: refilled at the
    entry's first row tile, kept through the other three. -/
theorem scr2_apply (c : Dev nD) : ∀ (n : ℕ) (hn : n < cfg2.N) (b : Fin 8) (hb : b.val = n / 4) (j : Fin 2048) (e : Fin 64),
    scr2 (F := Ideal) V c (n + 1) (ix3 0 j e) = xw2 (V c main_v39) (V c main_v41) b j e := by
  intro n
  induction n with
  | zero => intro hn b hb j e; exact scr2_fill_apply V c ⟨0, hn⟩ rfl b hb j e
  | succ n ih =>
    intro hn b hb j e
    by_cases h4 : (n + 1) % 4 = 0
    · exact scr2_fill_apply V c ⟨n + 1, hn⟩ h4 b hb j e
    · rw [scr2_keep V c ⟨n + 1, hn⟩ h4]
      exact ih (Nat.lt_of_succ_lt hn) b (by omega) j e

end Value

section Value2
variable (V : (c : Dev nD) → (b : Ref sig .tc) → Buf (Elt Ideal) ((c : Thread nD τ).loc b))

/-- The tile point `t` leaves in the result's buffer, at row `q` of the tile: row `512 (t % 4) + q` of entry `t / 4` of `G2`. -/
theorem out2At_apply (c : Dev nD) (t : Fin cfg2.N) (q : Fin 512) (e : Fin 64) (k : S8x2048x64.Idx)
    (hk0 : (k 0).val = t.val / 4) (hk1 : (k 1).val = t.val % 4 * 512 + q.val) (hk2 : (k 2).val = e.val) :
    (out2At (F := Ideal) V c t : Vec Ideal S1x512x64 .f32) (ix3 0 q e)
      = G2 (V c main_v39) (V c main_arg2) (V c main_v41) (V c main_arg8) (k 0) (k 1) (k 2) := by
  obtain rfl : k 2 = e := Fin.ext hk2
  unfold out2At
  refine (k2_pay2_apply (iblk2 V c 1 t) (scr2 V c (t.val + 1)) (iblk2 V c 3 t) q (k 2)).trans ?_
  unfold G2
  refine congrArg (fun y => Cert.Spec.nrm Cert.Spec.eps12 y (k 2)) ?_
  funext e'
  unfold y2
  refine congrArg₂ (fun u v : EReal => u + v) (Finset.sum_congr rfl fun j _ => ?_) (iblk2_3_apply V c t (ix1 e'))
  exact congrArg₂ (fun u v : EReal => Cert.Spec.eqF u 1 * v)
    (iblk2_1_apply V c t (ix3 0 q j) (ix3 (k 0) (k 1) j) hk0 hk1 rfl)
    (scr2_apply V c t.val t.isLt (k 0) hk0 j e')

end Value2

section Array
variable (V : (c : Dev nD) → (b : Ref sig .tc) → Buf (Elt Ideal) ((c : Thread nD τ).loc b))

/-- What point `t` writes back is block `t` of `G2` of the arrays as the call finds them. -/
theorem flushed2_eq (c : Dev nD) (t : Fin cfg2.N) :
    (dat2 (F := Ideal) V c).flushed 4 t
      = ((cfg2.win 4).blk t).view.read (Elt Ideal) (G2arr (V c main_v39) (V c main_arg2) (V c main_v41) (V c main_arg8)) := by
  show (cfg2.win 4).cut (grid2.coords t) ((dat2 V c).after 4 t) = _
  rw [after2_4]
  refine funext fun (y : S1x512x64.Idx) => ?_
  obtain ⟨p, q, e, rfl⟩ : ∃ (p : Fin 1) (q : Fin 512) (e : Fin 64), y = ix3 p q e := ⟨y 0, y 1, y 2, eq_ix3 y⟩
  obtain rfl : p = 0 := Subsingleton.elim _ _
  obtain ⟨-, -, -, -, -, -, -, -, -, -, e0, e1, e2⟩ := idx_facts2 t
  rw [View.read_apply]
  refine out2At_apply V c t q e (((cfg2.win 4).blk t).view.emb (ix3 0 q e)) ?_ ?_ ?_
  · show win2_4.index t (0 : Fin 3) * 1 + 1 * 0 = t.val / 4
    rw [e0]; omega
  · show win2_4.index t (1 : Fin 3) * 512 + 1 * q.val = t.val % 4 * 512 + q.val
    rw [e1]; omega
  · show win2_4.index t (2 : Fin 3) * 64 + 1 * e.val = e.val
    rw [e2]; omega

/-- An index of the result array is in point `t`'s block iff each coordinate is in the block's range on its axis. -/
theorem mem_blk2 (t : Fin cfg2.N) (k : S8x2048x64.Idx) :
    k ∈ ((cfg2.win 4).blk t).view.set
      ↔ ∀ a : Fin 3, win2_4.index t a * S1x512x64.size a ≤ (k a).val ∧ (k a).val < win2_4.index t a * S1x512x64.size a + S1x512x64.size a := by
  show k ∈ ((View.whole main_v42).slice (win2_4.rect t)).set ↔ _
  rw [View.set_slice_whole, Rect.mem_set_unit]
  exact Iff.rfl

/-- Every index of the result array is in some point's block: row `r` of entry `b` is written at point `4 b + r / 512`. -/
theorem cover2 (k : S8x2048x64.Idx) :
    ∃ t : Fin cfg2.N, (cfg2.win 4).flush t = true ∧ k ∈ ((cfg2.win 4).blk t).view.set := by
  have hN : cfg2.N = 32 := N_2
  have h0 : (k 0).val < 8 := (k 0).isLt
  have h1 : (k 1).val < 2048 := (k 1).isLt
  have h2 : (k 2).val < 64 := (k 2).isLt
  have hn : 4 * (k 0).val + (k 1).val / 512 < cfg2.N := by omega
  obtain ⟨-, -, -, -, -, -, -, -, -, -, e0, e1, e2⟩ := idx_facts2 ⟨4 * (k 0).val + (k 1).val / 512, hn⟩
  have e0' : win2_4.index ⟨4 * (k 0).val + (k 1).val / 512, hn⟩ (0 : Fin 3) = (4 * (k 0).val + (k 1).val / 512) / 4 := e0
  have e1' : win2_4.index ⟨4 * (k 0).val + (k 1).val / 512, hn⟩ (1 : Fin 3) = (4 * (k 0).val + (k 1).val / 512) % 4 := e1
  refine ⟨⟨4 * (k 0).val + (k 1).val / 512, hn⟩, flush2_4 _, ?_⟩
  rw [mem_blk2]
  intro a
  match a with
  | ⟨0, _⟩ =>
    show win2_4.index _ (0 : Fin 3) * 1 ≤ (k 0).val ∧ (k 0).val < win2_4.index _ (0 : Fin 3) * 1 + 1
    rw [e0']; omega
  | ⟨1, _⟩ =>
    show win2_4.index _ (1 : Fin 3) * 512 ≤ (k 1).val ∧ (k 1).val < win2_4.index _ (1 : Fin 3) * 512 + 512
    rw [e1']; omega
  | ⟨2, _⟩ =>
    show win2_4.index _ (2 : Fin 3) * 64 ≤ (k 2).val ∧ (k 2).val < win2_4.index _ (2 : Fin 3) * 64 + 64
    rw [e2]; omega

/-- The result array after the call is `G2` of the arrays the call is entered with. -/
theorem final2 (c : Dev nD) :
    (dat2 (F := Ideal) V c).arrAt 4 cfg2.N = G2arr (V c main_v39) (V c main_arg2) (V c main_v41) (V c main_arg8) :=
  (dat2 V c).arrAt_eq_of_cover 4 (G2arr (V c main_v39) (V c main_arg2) (V c main_v41) (V c main_arg8))
    (fun t _ => flushed2_eq V c t) cover2

/-- The result array after the call, index by index. -/
theorem val2 (c : Dev nD) (b : Fin 8) (i : Fin 2048) (e : Fin 64) :
    ((dat2 (F := Ideal) V c).arrAt 4 cfg2.N : S8x2048x64.Idx → EReal) (ix3 b i e)
      = G2 (V c main_v39) (V c main_arg2) (V c main_v41) (V c main_arg8) b i e := by
  rw [final2 V c]
  rfl

end Array

end Cert.KernelIdeal.Hand

end
-- ==== Proof.RefConvDefs.lean ====
/-
  What one graph-convolution stage of the reference computes, before the normalisation: the row `yR2` (float relation
  labels, 64 input features) and the row `yR1` (integer relation labels, 32 input features), over literal shapes; and how a
  compare-for-equality followed by a conversion of the bit to a float reads on the extended reals.
-/
import proofs.«165070_j9002251452429_2_alg».proof.Proof.Spec
import proofs.«165070_j9002251452429_2_alg».proof.Proof.LibRealClosure
import Idealize.ShloMosaic.Lib.ValueIdx
import Idealize.ShloMosaic.PureOps.Ideal.Laws

noncomputable section

namespace Cert.ReferenceIdeal.Hand

open Idealize.ShloMosaic Idealize.ShloMosaic.ValueIdx
open scoped BigOperators

/-- A float compare-for-equality followed by the conversion of the resulting bit to a float is the 0/1 weight of the test. -/
theorem uitofp_cmpf_oeq (v k : EReal) :
    (FloatOps.uitofp (F := Ideal) .f32 (FloatOps.cmpf (F := Ideal) (φ := .f32) .oeq v k) : EReal) = Cert.Spec.eqF v k := by
  unfold Cert.Spec.eqF
  show (((BitVec.ofBool (decide (v = k))).toNat : ℝ) : EReal) = _
  by_cases h : v = k
  · simp [h]
  · simp [h]

/-- An integer compare-for-equality followed by the conversion of the resulting bit to a float is the 0/1 weight of the test. -/
theorem uitofp_cmpi_eq (v k : BitVec 32) :
    (FloatOps.uitofp (F := Ideal) .f32 (IntOp.cmpi .eq v k) : EReal) = Cert.Spec.eqI v k := by
  unfold Cert.Spec.eqI IntOp.cmpi
  show (((BitVec.ofBool (v == k)).toNat : ℝ) : EReal) = _
  by_cases h : v = k
  · simp [h]
  · simp [h]

/-- The single-precision words of 1, 2 and 3 as extended reals. -/
theorem ofBits_one : Ideal.ofBits .f32 0x3F800000#32 = (1 : EReal) := Cert.LibRealClosure.ofBits_f32_one
theorem ofBits_two : Ideal.ofBits .f32 0x40000000#32 = (2 : EReal) := Cert.LibRealClosure.ofBits_f32_two
theorem ofBits_three : Ideal.ofBits .f32 0x40400000#32 = (3 : EReal) := Cert.LibRealClosure.ofBits_f32_three

/-- One output row of a graph convolution whose relation labels are floats: for each of the three relations, the
    neighbours carrying that label are summed feature by feature and the sum is multiplied by that relation's weight
    matrix; the three products are added, then the bias. -/
def yR2 (h : (⟨3, ![8, 2048, 64]⟩ : Shape).Idx → EReal) (a : (⟨3, ![8, 2048, 2048]⟩ : Shape).Idx → EReal)
    (w : (⟨3, ![3, 64, 64]⟩ : Shape).Idx → EReal) (bias : (⟨1, ![64]⟩ : Shape).Idx → EReal)
    (b : Fin 8) (i : Fin 2048) (e : Fin 64) : EReal :=
  (((∑ d : Fin 64, (∑ j : Fin 2048, Cert.Spec.eqF (a (ix3 b i j)) 1 * h (ix3 b j d)) * w (ix3 0 d e))
      + (∑ d : Fin 64, (∑ j : Fin 2048, Cert.Spec.eqF (a (ix3 b i j)) 2 * h (ix3 b j d)) * w (ix3 1 d e)))
      + (∑ d : Fin 64, (∑ j : Fin 2048, Cert.Spec.eqF (a (ix3 b i j)) 3 * h (ix3 b j d)) * w (ix3 2 d e)))
    + bias (ix1 e)

/-- The same row when the relation labels are 32-bit integers and the input has 32 features. -/
def yR1 (x : (⟨3, ![8, 2048, 32]⟩ : Shape).Idx → EReal) (rel : (⟨3, ![8, 2048, 2048]⟩ : Shape).Idx → BitVec 32)
    (w : (⟨3, ![3, 32, 64]⟩ : Shape).Idx → EReal) (bias : (⟨1, ![64]⟩ : Shape).Idx → EReal)
    (b : Fin 8) (i : Fin 2048) (e : Fin 64) : EReal :=
  (((∑ d : Fin 32, (∑ j : Fin 2048, Cert.Spec.eqI (rel (ix3 b i j)) 1#32 * x (ix3 b j d)) * w (ix3 0 d e))
      + (∑ d : Fin 32, (∑ j : Fin 2048, Cert.Spec.eqI (rel (ix3 b i j)) 2#32 * x (ix3 b j d)) * w (ix3 1 d e)))
      + (∑ d : Fin 32, (∑ j : Fin 2048, Cert.Spec.eqI (rel (ix3 b i j)) 3#32 * x (ix3 b j d)) * w (ix3 2 d e)))
    + bias (ix1 e)

end Cert.ReferenceIdeal.Hand

end
-- ==== Proof.RefConv1.lean ====
/-
  The reference's first graph-convolution stage read at an index: each of its operations is read at (b, i, e) in turn
  (the three relation weights of the integer labels, the neighbour sums, the weight slabs, the three products, the bias, the
  sum of squares, the normalisation and the positive part), and the result is the row `yR1` of the input features, normalised.
-/
import proofs.«165070_j9002251452429_2_alg».proof.Proof.RefReadP
import proofs.«165070_j9002251452429_2_alg».proof.Proof.Spec
import proofs.«165070_j9002251452429_2_alg».proof.Proof.RefConvDefs
import Idealize.ShloMosaic.Lib.ValueIdx
import Idealize.ShloMosaic.PureOps.Ideal.Laws

noncomputable section

namespace Cert.ReferenceIdeal.Hand

open Cert.ReferenceIdeal Cert.ReferenceIdeal.Gen Cert.ReferenceIdeal.ReadP Idealize.ShloMosaic Idealize.ShloMosaic.ValueIdx
open scoped BigOperators

/-- The weight of relation 1 at (b, i, j): one where the label there is 1, zero elsewhere. -/
theorem mask1_1 (x1 : (⟨S8x2048x2048, .i32⟩ : BufTy).Contents (Elt Ideal)) (b : Fin 8) (i j : Fin 2048) :
    val_main_v3 (F := Ideal) x1 (ix3 b i j) = Cert.Spec.eqI (x1 (ix3 b i j)) 1#32 := by
  rw [val_main_v3_apply, val_main_v2_apply, val_main_v1_apply, val_main_c_apply, uitofp_cmpi_eq]

/-- The features of the neighbours in relation 1, summed: feature d of row (b, i). -/
theorem nbr1_1 (x0 : (⟨S8x2048x32, .f32⟩ : BufTy).Contents (Elt Ideal)) (x1 : (⟨S8x2048x2048, .i32⟩ : BufTy).Contents (Elt Ideal)) (b : Fin 8) (i : Fin 2048) (d : Fin 32) :
    val_main_v4 (F := Ideal) x0 x1 (ix3 b i d)
      = ∑ j : Fin 2048, Cert.Spec.eqI (x1 (ix3 b i j)) 1#32 * x0 (ix3 b j d) := by
  rw [val_main_v4_apply]
  refine Finset.sum_congr rfl fun j _ => ?_
  have el : lidx_main_v4 (ix3 b i d) j = ix3 b i j := funext fun a => Fin.ext (by match a with | ⟨0, _⟩ => rfl | ⟨1, _⟩ => rfl | ⟨2, _⟩ => rfl)
  have er : ridx_main_v4 (ix3 b i d) j = ix3 b j d := funext fun a => Fin.ext (by match a with | ⟨0, _⟩ => rfl | ⟨1, _⟩ => rfl | ⟨2, _⟩ => rfl)
  rw [el, er, mask1_1]

/-- The weight matrix of relation 1: the slab 0 of the stacked weights. -/
theorem wslab1_1 (x3 : (⟨S3x32x64, .f32⟩ : BufTy).Contents (Elt Ideal)) (d : Fin 32) (e : Fin 64) :
    val_main_v6 (F := Ideal) x3 (ix2 d e) = x3 (ix3 0 d e) := by
  rw [val_main_v6_apply, val_main_v5_apply]
  refine congrArg x3 (funext fun a => Fin.ext ?_)
  have hd : d.val < 32 := d.isLt
  have he : e.val < 64 := e.isLt
  match a with
  | ⟨0, _⟩ => rfl
  | ⟨1, _⟩ => show (d.val * 64 + e.val) / 64 % 32 = d.val; omega
  | ⟨2, _⟩ => show (d.val * 64 + e.val) % 64 = e.val; omega

/-- The contribution of relation 1 to entry e of row (b, i). -/
theorem term1_1 (x0 : (⟨S8x2048x32, .f32⟩ : BufTy).Contents (Elt Ideal)) (x1 : (⟨S8x2048x2048, .i32⟩ : BufTy).Contents (Elt Ideal)) (x3 : (⟨S3x32x64, .f32⟩ : BufTy).Contents (Elt Ideal)) (b : Fin 8) (i : Fin 2048) (e : Fin 64) :
    val_main_v7 (F := Ideal) x0 x1 x3 (ix3 b i e)
      = ∑ d : Fin 32, (∑ j : Fin 2048, Cert.Spec.eqI (x1 (ix3 b i j)) 1#32 * x0 (ix3 b j d)) * x3 (ix3 0 d e) := by
  rw [val_main_v7_apply]
  refine Finset.sum_congr rfl fun d _ => ?_
  have el : lidx_main_v7 (ix3 b i e) d = ix3 b i d := funext fun a => Fin.ext (by match a with | ⟨0, _⟩ => rfl | ⟨1, _⟩ => rfl | ⟨2, _⟩ => rfl)
  have er : ridx_main_v7 (ix3 b i e) d = ix2 d e := funext fun a => Fin.ext (by match a with | ⟨0, _⟩ => rfl | ⟨1, _⟩ => rfl)
  rw [el, er, nbr1_1, wslab1_1]

/-- The weight of relation 2 at (b, i, j): one where the label there is 2, zero elsewhere. -/
theorem mask1_2 (x1 : (⟨S8x2048x2048, .i32⟩ : BufTy).Contents (Elt Ideal)) (b : Fin 8) (i j : Fin 2048) :
    val_main_v11 (F := Ideal) x1 (ix3 b i j) = Cert.Spec.eqI (x1 (ix3 b i j)) 2#32 := by
  rw [val_main_v11_apply, val_main_v10_apply, val_main_v9_apply, val_main_c_0_apply, uitofp_cmpi_eq]

/-- The features of the neighbours in relation 2, summed: feature d of row (b, i). -/
theorem nbr1_2 (x0 : (⟨S8x2048x32, .f32⟩ : BufTy).Contents (Elt Ideal)) (x1 : (⟨S8x2048x2048, .i32⟩ : BufTy).Contents (Elt Ideal)) (b : Fin 8) (i : Fin 2048) (d : Fin 32) :
    val_main_v12 (F := Ideal) x0 x1 (ix3 b i d)
      = ∑ j : Fin 2048, Cert.Spec.eqI (x1 (ix3 b i j)) 2#32 * x0 (ix3 b j d) := by
  rw [val_main_v12_apply]
  refine Finset.sum_congr rfl fun j _ => ?_
  have el : lidx_main_v12 (ix3 b i d) j = ix3 b i j := funext fun a => Fin.ext (by match a with | ⟨0, _⟩ => rfl | ⟨1, _⟩ => rfl | ⟨2, _⟩ => rfl)
  have er : ridx_main_v12 (ix3 b i d) j = ix3 b j d := funext fun a => Fin.ext (by match a with | ⟨0, _⟩ => rfl | ⟨1, _⟩ => rfl | ⟨2, _⟩ => rfl)
  rw [el, er, mask1_2]

/-- The weight matrix of relation 2: the slab 1 of the stacked weights. -/
theorem wslab1_2 (x3 : (⟨S3x32x64, .f32⟩ : BufTy).Contents (Elt Ideal)) (d : Fin 32) (e : Fin 64) :
    val_main_v14 (F := Ideal) x3 (ix2 d e) = x3 (ix3 1 d e) := by
  rw [val_main_v14_apply, val_main_v13_apply]
  refine congrArg x3 (funext fun a => Fin.ext ?_)
  have hd : d.val < 32 := d.isLt
  have he : e.val < 64 := e.isLt
  match a with
  | ⟨0, _⟩ => rfl
  | ⟨1, _⟩ => show (d.val * 64 + e.val) / 64 % 32 = d.val; omega
  | ⟨2, _⟩ => show (d.val * 64 + e.val) % 64 = e.val; omega

/-- The contribution of relation 2 to entry e of row (b, i). -/
theorem term1_2 (x0 : (⟨S8x2048x32, .f32⟩ : BufTy).Contents (Elt Ideal)) (x1 : (⟨S8x2048x2048, .i32⟩ : BufTy).Contents (Elt Ideal)) (x3 : (⟨S3x32x64, .f32⟩ : BufTy).Contents (Elt Ideal)) (b : Fin 8) (i : Fin 2048) (e : Fin 64) :
    val_main_v15 (F := Ideal) x0 x1 x3 (ix3 b i e)
      = ∑ d : Fin 32, (∑ j : Fin 2048, Cert.Spec.eqI (x1 (ix3 b i j)) 2#32 * x0 (ix3 b j d)) * x3 (ix3 1 d e) := by
  rw [val_main_v15_apply]
  refine Finset.sum_congr rfl fun d _ => ?_
  have el : lidx_main_v15 (ix3 b i e) d = ix3 b i d := funext fun a => Fin.ext (by match a with | ⟨0, _⟩ => rfl | ⟨1, _⟩ => rfl | ⟨2, _⟩ => rfl)
  have er : ridx_main_v15 (ix3 b i e) d = ix2 d e := funext fun a => Fin.ext (by match a with | ⟨0, _⟩ => rfl | ⟨1, _⟩ => rfl)
  rw [el, er, nbr1_2, wslab1_2]

/-- The weight of relation 3 at (b, i, j): one where the label there is 3, zero elsewhere. -/
theorem mask1_3 (x1 : (⟨S8x2048x2048, .i32⟩ : BufTy).Contents (Elt Ideal)) (b : Fin 8) (i j : Fin 2048) :
    val_main_v19 (F := Ideal) x1 (ix3 b i j) = Cert.Spec.eqI (x1 (ix3 b i j)) 3#32 := by
  rw [val_main_v19_apply, val_main_v18_apply, val_main_v17_apply, val_main_c_1_apply, uitofp_cmpi_eq]

/-- The features of the neighbours in relation 3, summed: feature d of row (b, i). -/
theorem nbr1_3 (x0 : (⟨S8x2048x32, .f32⟩ : BufTy).Contents (Elt Ideal)) (x1 : (⟨S8x2048x2048, .i32⟩ : BufTy).Contents (Elt Ideal)) (b : Fin 8) (i : Fin 2048) (d : Fin 32) :
    val_main_v20 (F := Ideal) x0 x1 (ix3 b i d)
      = ∑ j : Fin 2048, Cert.Spec.eqI (x1 (ix3 b i j)) 3#32 * x0 (ix3 b j d) := by
  rw [val_main_v20_apply]
  refine Finset.sum_congr rfl fun j _ => ?_
  have el : lidx_main_v20 (ix3 b i d) j = ix3 b i j := funext fun a => Fin.ext (by match a with | ⟨0, _⟩ => rfl | ⟨1, _⟩ => rfl | ⟨2, _⟩ => rfl)
  have er : ridx_main_v20 (ix3 b i d) j = ix3 b j d := funext fun a => Fin.ext (by match a with | ⟨0, _⟩ => rfl | ⟨1, _⟩ => rfl | ⟨2, _⟩ => rfl)
  rw [el, er, mask1_3]

/-- The weight matrix of relation 3: the slab 2 of the stacked weights. -/
theorem wslab1_3 (x3 : (⟨S3x32x64, .f32⟩ : BufTy).Contents (Elt Ideal)) (d : Fin 32) (e : Fin 64) :
    val_main_v22 (F := Ideal) x3 (ix2 d e) = x3 (ix3 2 d e) := by
  rw [val_main_v22_apply, val_main_v21_apply]
  refine congrArg x3 (funext fun a => Fin.ext ?_)
  have hd : d.val < 32 := d.isLt
  have he : e.val < 64 := e.isLt
  match a with
  | ⟨0, _⟩ => rfl
  | ⟨1, _⟩ => show (d.val * 64 + e.val) / 64 % 32 = d.val; omega
  | ⟨2, _⟩ => show (d.val * 64 + e.val) % 64 = e.val; omega

/-- The contribution of relation 3 to entry e of row (b, i). -/
theorem term1_3 (x0 : (⟨S8x2048x32, .f32⟩ : BufTy).Contents (Elt Ideal)) (x1 : (⟨S8x2048x2048, .i32⟩ : BufTy).Contents (Elt Ideal)) (x3 : (⟨S3x32x64, .f32⟩ : BufTy).Contents (Elt Ideal)) (b : Fin 8) (i : Fin 2048) (e : Fin 64) :
    val_main_v23 (F := Ideal) x0 x1 x3 (ix3 b i e)
      = ∑ d : Fin 32, (∑ j : Fin 2048, Cert.Spec.eqI (x1 (ix3 b i j)) 3#32 * x0 (ix3 b j d)) * x3 (ix3 2 d e) := by
  rw [val_main_v23_apply]
  refine Finset.sum_congr rfl fun d _ => ?_
  have el : lidx_main_v23 (ix3 b i e) d = ix3 b i d := funext fun a => Fin.ext (by match a with | ⟨0, _⟩ => rfl | ⟨1, _⟩ => rfl | ⟨2, _⟩ => rfl)
  have er : ridx_main_v23 (ix3 b i e) d = ix2 d e := funext fun a => Fin.ext (by match a with | ⟨0, _⟩ => rfl | ⟨1, _⟩ => rfl)
  rw [el, er, nbr1_3, wslab1_3]

/-- The row before the normalisation: the three contributions added to zero in turn, then the bias. -/
theorem row1 (x0 : (⟨S8x2048x32, .f32⟩ : BufTy).Contents (Elt Ideal)) (x1 : (⟨S8x2048x2048, .i32⟩ : BufTy).Contents (Elt Ideal)) (x3 : (⟨S3x32x64, .f32⟩ : BufTy).Contents (Elt Ideal)) (x4 : (⟨S64, .f32⟩ : BufTy).Contents (Elt Ideal)) (b : Fin 8) (i : Fin 2048) (e : Fin 64) :
    val_main_v27 (F := Ideal) x0 x1 x3 x4 (ix3 b i e) = yR1 (x0) x1 x3 x4 b i e := by
  have eb : idx_main_v25 (idx_main_v26 (ix3 b i e)) = ix1 e := funext fun a => Fin.ext (by match a with | ⟨0, _⟩ => rfl)
  rw [val_main_v27_apply, val_main_v24_apply, val_main_v16_apply, val_main_v8_apply,
    val_main_v0_apply, val_main_cst_apply, term1_1, term1_2, term1_3,
    val_main_v26_apply, val_main_v25_apply, eb]
  simp only [Ideal.addf_def, Ideal.ofBits_def, Ideal.ofBits_zero_f32, zero_add]
  rfl

/-- The sum of the squares of row (b, i). -/
theorem sumsq1 (x0 : (⟨S8x2048x32, .f32⟩ : BufTy).Contents (Elt Ideal)) (x1 : (⟨S8x2048x2048, .i32⟩ : BufTy).Contents (Elt Ideal)) (x3 : (⟨S3x32x64, .f32⟩ : BufTy).Contents (Elt Ideal)) (x4 : (⟨S64, .f32⟩ : BufTy).Contents (Elt Ideal)) (b : Fin 8) (i : Fin 2048) :
    val_main_v29 (F := Ideal) x0 x1 x3 x4 (ix2 b i)
      = ∑ e' : Fin 64, val_main_v27 (F := Ideal) x0 x1 x3 x4 (ix3 b i e') * val_main_v27 (F := Ideal) x0 x1 x3 x4 (ix3 b i e') := by
  rw [val_main_v29_apply, val_main_cst_2_apply, Ideal.ofBits_def, Ideal.ofBits_zero_f32, zero_add]
  refine Finset.sum_congr rfl fun k _ => ?_
  have e1 : idx_main_v29 (ix2 b i) k = ix3 b i k := funext fun a => Fin.ext (by match a with | ⟨0, _⟩ => rfl | ⟨1, _⟩ => rfl | ⟨2, _⟩ => rfl)
  rw [e1, val_main_v28_apply]
  rfl

/-- The first graph-convolution stage of the reference at (b, i, e): the positive part of the normalised row built from the input features. -/
theorem ref_conv1 (x0 : (⟨S8x2048x32, .f32⟩ : BufTy).Contents (Elt Ideal)) (x1 : (⟨S8x2048x2048, .i32⟩ : BufTy).Contents (Elt Ideal)) (x3 : (⟨S3x32x64, .f32⟩ : BufTy).Contents (Elt Ideal)) (x4 : (⟨S64, .f32⟩ : BufTy).Contents (Elt Ideal)) (b : Fin 8) (i : Fin 2048) (e : Fin 64) :
    val_main_v36 (F := Ideal) x0 x1 x3 x4 (ix3 b i e)
      = Cert.Spec.relu (Cert.Spec.nrm Cert.Spec.eps12 (yR1 (x0) x1 x3 x4 b i) e) := by
  have e1 : idx_main_v30 (idx_main_v34 (ix3 b i e)) = ix2 b i := funext fun a => Fin.ext (by match a with | ⟨0, _⟩ => rfl | ⟨1, _⟩ => rfl)
  rw [val_main_v36_apply, val_main_call0_v0_apply, val_main_call0_cst_apply, val_main_v35_apply, val_main_v34_apply, val_main_v33_apply,
    val_main_v31_apply, val_main_v32_apply, val_main_cst_3_apply, val_main_v30_apply, e1, sumsq1]
  simp only [row1, Ideal.maximumf_def, Ideal.hostDivf_def, Ideal.hostUnary_sqrt_def, Ideal.ofBits_def, Ideal.ofBits_zero_f32]
  rfl

end Cert.ReferenceIdeal.Hand

end
-- ==== Proof.RefConv2.lean ====
/-
  The reference's second graph-convolution stage read at an index: each of its operations is read at (b, i, e) in turn
  (the three relation weights, the neighbour sums, the weight slabs, the three products, the bias, the sum of squares, the
  normalisation and the positive part), and the result is the row `yR2` of the first stage's output, normalised.
-/
import proofs.«165070_j9002251452429_2_alg».proof.Proof.RefReadP
import proofs.«165070_j9002251452429_2_alg».proof.Proof.Spec
import proofs.«165070_j9002251452429_2_alg».proof.Proof.RefConvDefs
import Idealize.ShloMosaic.Lib.ValueIdx
import Idealize.ShloMosaic.PureOps.Ideal.Laws

noncomputable section

namespace Cert.ReferenceIdeal.Hand

open Cert.ReferenceIdeal Cert.ReferenceIdeal.Gen Cert.ReferenceIdeal.ReadP Idealize.ShloMosaic Idealize.ShloMosaic.ValueIdx
open scoped BigOperators

/-- The weight of relation 1 at (b, i, j): one where the label there is 1, zero elsewhere. -/
theorem mask2_1 (x2 : (⟨S8x2048x2048, .f32⟩ : BufTy).Contents (Elt Ideal)) (b : Fin 8) (i j : Fin 2048) :
    val_main_v59 (F := Ideal) x2 (ix3 b i j) = Cert.Spec.eqF (x2 (ix3 b i j)) 1 := by
  rw [val_main_v59_apply, val_main_v58_apply, val_main_v57_apply, val_main_cst_11_apply, uitofp_cmpf_oeq,
    Ideal.ofBits_def, ofBits_one]

/-- The features of the neighbours in relation 1, summed: feature d of row (b, i). -/
theorem nbr2_1 (x0 : (⟨S8x2048x32, .f32⟩ : BufTy).Contents (Elt Ideal)) (x1 : (⟨S8x2048x2048, .i32⟩ : BufTy).Contents (Elt Ideal)) (x2 : (⟨S8x2048x2048, .f32⟩ : BufTy).Contents (Elt Ideal)) (x3 : (⟨S3x32x64, .f32⟩ : BufTy).Contents (Elt Ideal)) (x4 : (⟨S64, .f32⟩ : BufTy).Contents (Elt Ideal)) (b : Fin 8) (i : Fin 2048) (d : Fin 64) :
    val_main_v60 (F := Ideal) x0 x1 x2 x3 x4 (ix3 b i d)
      = ∑ j : Fin 2048, Cert.Spec.eqF (x2 (ix3 b i j)) 1 * val_main_v54 (F := Ideal) x0 x1 x3 x4 (ix3 b j d) := by
  rw [val_main_v60_apply]
  refine Finset.sum_congr rfl fun j _ => ?_
  have el : lidx_main_v60 (ix3 b i d) j = ix3 b i j := funext fun a => Fin.ext (by match a with | ⟨0, _⟩ => rfl | ⟨1, _⟩ => rfl | ⟨2, _⟩ => rfl)
  have er : ridx_main_v60 (ix3 b i d) j = ix3 b j d := funext fun a => Fin.ext (by match a with | ⟨0, _⟩ => rfl | ⟨1, _⟩ => rfl | ⟨2, _⟩ => rfl)
  rw [el, er, mask2_1]

/-- The weight matrix of relation 1: the slab 0 of the stacked weights. -/
theorem wslab2_1 (x5 : (⟨S3x64x64, .f32⟩ : BufTy).Contents (Elt Ideal)) (d : Fin 64) (e : Fin 64) :
    val_main_v62 (F := Ideal) x5 (ix2 d e) = x5 (ix3 0 d e) := by
  rw [val_main_v62_apply, val_main_v61_apply]
  refine congrArg x5 (funext fun a => Fin.ext ?_)
  have hd : d.val < 64 := d.isLt
  have he : e.val < 64 := e.isLt
  match a with
  | ⟨0, _⟩ => rfl
  | ⟨1, _⟩ => show (d.val * 64 + e.val) / 64 % 64 = d.val; omega
  | ⟨2, _⟩ => show (d.val * 64 + e.val) % 64 = e.val; omega

/-- The contribution of relation 1 to entry e of row (b, i). -/
theorem term2_1 (x0 : (⟨S8x2048x32, .f32⟩ : BufTy).Contents (Elt Ideal)) (x1 : (⟨S8x2048x2048, .i32⟩ : BufTy).Contents (Elt Ideal)) (x2 : (⟨S8x2048x2048, .f32⟩ : BufTy).Contents (Elt Ideal)) (x3 : (⟨S3x32x64, .f32⟩ : BufTy).Contents (Elt Ideal)) (x4 : (⟨S64, .f32⟩ : BufTy).Contents (Elt Ideal)) (x5 : (⟨S3x64x64, .f32⟩ : BufTy).Contents (Elt Ideal)) (b : Fin 8) (i : Fin 2048) (e : Fin 64) :
    val_main_v63 (F := Ideal) x0 x1 x2 x3 x4 x5 (ix3 b i e)
      = ∑ d : Fin 64, (∑ j : Fin 2048, Cert.Spec.eqF (x2 (ix3 b i j)) 1 * val_main_v54 (F := Ideal) x0 x1 x3 x4 (ix3 b j d)) * x5 (ix3 0 d e) := by
  rw [val_main_v63_apply]
  refine Finset.sum_congr rfl fun d _ => ?_
  have el : lidx_main_v63 (ix3 b i e) d = ix3 b i d := funext fun a => Fin.ext (by match a with | ⟨0, _⟩ => rfl | ⟨1, _⟩ => rfl | ⟨2, _⟩ => rfl)
  have er : ridx_main_v63 (ix3 b i e) d = ix2 d e := funext fun a => Fin.ext (by match a with | ⟨0, _⟩ => rfl | ⟨1, _⟩ => rfl)
  rw [el, er, nbr2_1, wslab2_1]

/-- The weight of relation 2 at (b, i, j): one where the label there is 2, zero elsewhere. -/
theorem mask2_2 (x2 : (⟨S8x2048x2048, .f32⟩ : BufTy).Contents (Elt Ideal)) (b : Fin 8) (i j : Fin 2048) :
    val_main_v67 (F := Ideal) x2 (ix3 b i j) = Cert.Spec.eqF (x2 (ix3 b i j)) 2 := by
  rw [val_main_v67_apply, val_main_v66_apply, val_main_v65_apply, val_main_cst_12_apply, uitofp_cmpf_oeq,
    Ideal.ofBits_def, ofBits_two]

/-- The features of the neighbours in relation 2, summed: feature d of row (b, i). -/
theorem nbr2_2 (x0 : (⟨S8x2048x32, .f32⟩ : BufTy).Contents (Elt Ideal)) (x1 : (⟨S8x2048x2048, .i32⟩ : BufTy).Contents (Elt Ideal)) (x2 : (⟨S8x2048x2048, .f32⟩ : BufTy).Contents (Elt Ideal)) (x3 : (⟨S3x32x64, .f32⟩ : BufTy).Contents (Elt Ideal)) (x4 : (⟨S64, .f32⟩ : BufTy).Contents (Elt Ideal)) (b : Fin 8) (i : Fin 2048) (d : Fin 64) :
    val_main_v68 (F := Ideal) x0 x1 x2 x3 x4 (ix3 b i d)
      = ∑ j : Fin 2048, Cert.Spec.eqF (x2 (ix3 b i j)) 2 * val_main_v54 (F := Ideal) x0 x1 x3 x4 (ix3 b j d) := by
  rw [val_main_v68_apply]
  refine Finset.sum_congr rfl fun j _ => ?_
  have el : lidx_main_v68 (ix3 b i d) j = ix3 b i j := funext fun a => Fin.ext (by match a with | ⟨0, _⟩ => rfl | ⟨1, _⟩ => rfl | ⟨2, _⟩ => rfl)
  have er : ridx_main_v68 (ix3 b i d) j = ix3 b j d := funext fun a => Fin.ext (by match a with | ⟨0, _⟩ => rfl | ⟨1, _⟩ => rfl | ⟨2, _⟩ => rfl)
  rw [el, er, mask2_2]

/-- The weight matrix of relation 2: the slab 1 of the stacked weights. -/
theorem wslab2_2 (x5 : (⟨S3x64x64, .f32⟩ : BufTy).Contents (Elt Ideal)) (d : Fin 64) (e : Fin 64) :
    val_main_v70 (F := Ideal) x5 (ix2 d e) = x5 (ix3 1 d e) := by
  rw [val_main_v70_apply, val_main_v69_apply]
  refine congrArg x5 (funext fun a => Fin.ext ?_)
  have hd : d.val < 64 := d.isLt
  have he : e.val < 64 := e.isLt
  match a with
  | ⟨0, _⟩ => rfl
  | ⟨1, _⟩ => show (d.val * 64 + e.val) / 64 % 64 = d.val; omega
  | ⟨2, _⟩ => show (d.val * 64 + e.val) % 64 = e.val; omega

/-- The contribution of relation 2 to entry e of row (b, i). -/
theorem term2_2 (x0 : (⟨S8x2048x32, .f32⟩ : BufTy).Contents (Elt Ideal)) (x1 : (⟨S8x2048x2048, .i32⟩ : BufTy).Contents (Elt Ideal)) (x2 : (⟨S8x2048x2048, .f32⟩ : BufTy).Contents (Elt Ideal)) (x3 : (⟨S3x32x64, .f32⟩ : BufTy).Contents (Elt Ideal)) (x4 : (⟨S64, .f32⟩ : BufTy).Contents (Elt Ideal)) (x5 : (⟨S3x64x64, .f32⟩ : BufTy).Contents (Elt Ideal)) (b : Fin 8) (i : Fin 2048) (e : Fin 64) :
    val_main_v71 (F := Ideal) x0 x1 x2 x3 x4 x5 (ix3 b i e)
      = ∑ d : Fin 64, (∑ j : Fin 2048, Cert.Spec.eqF (x2 (ix3 b i j)) 2 * val_main_v54 (F := Ideal) x0 x1 x3 x4 (ix3 b j d)) * x5 (ix3 1 d e) := by
  rw [val_main_v71_apply]
  refine Finset.sum_congr rfl fun d _ => ?_
  have el : lidx_main_v71 (ix3 b i e) d = ix3 b i d := funext fun a => Fin.ext (by match a with | ⟨0, _⟩ => rfl | ⟨1, _⟩ => rfl | ⟨2, _⟩ => rfl)
  have er : ridx_main_v71 (ix3 b i e) d = ix2 d e := funext fun a => Fin.ext (by match a with | ⟨0, _⟩ => rfl | ⟨1, _⟩ => rfl)
  rw [el, er, nbr2_2, wslab2_2]

/-- The weight of relation 3 at (b, i, j): one where the label there is 3, zero elsewhere. -/
theorem mask2_3 (x2 : (⟨S8x2048x2048, .f32⟩ : BufTy).Contents (Elt Ideal)) (b : Fin 8) (i j : Fin 2048) :
    val_main_v75 (F := Ideal) x2 (ix3 b i j) = Cert.Spec.eqF (x2 (ix3 b i j)) 3 := by
  rw [val_main_v75_apply, val_main_v74_apply, val_main_v73_apply, val_main_cst_13_apply, uitofp_cmpf_oeq,
    Ideal.ofBits_def, ofBits_three]

/-- The features of the neighbours in relation 3, summed: feature d of row (b, i). -/
theorem nbr2_3 (x0 : (⟨S8x2048x32, .f32⟩ : BufTy).Contents (Elt Ideal)) (x1 : (⟨S8x2048x2048, .i32⟩ : BufTy).Contents (Elt Ideal)) (x2 : (⟨S8x2048x2048, .f32⟩ : BufTy).Contents (Elt Ideal)) (x3 : (⟨S3x32x64, .f32⟩ : BufTy).Contents (Elt Ideal)) (x4 : (⟨S64, .f32⟩ : BufTy).Contents (Elt Ideal)) (b : Fin 8) (i : Fin 2048) (d : Fin 64) :
    val_main_v76 (F := Ideal) x0 x1 x2 x3 x4 (ix3 b i d)
      = ∑ j : Fin 2048, Cert.Spec.eqF (x2 (ix3 b i j)) 3 * val_main_v54 (F := Ideal) x0 x1 x3 x4 (ix3 b j d) := by
  rw [val_main_v76_apply]
  refine Finset.sum_congr rfl fun j _ => ?_
  have el : lidx_main_v76 (ix3 b i d) j = ix3 b i j := funext fun a => Fin.ext (by match a with | ⟨0, _⟩ => rfl | ⟨1, _⟩ => rfl | ⟨2, _⟩ => rfl)
  have er : ridx_main_v76 (ix3 b i d) j = ix3 b j d := funext fun a => Fin.ext (by match a with | ⟨0, _⟩ => rfl | ⟨1, _⟩ => rfl | ⟨2, _⟩ => rfl)
  rw [el, er, mask2_3]

/-- The weight matrix of relation 3: the slab 2 of the stacked weights. -/
theorem wslab2_3 (x5 : (⟨S3x64x64, .f32⟩ : BufTy).Contents (Elt Ideal)) (d : Fin 64) (e : Fin 64) :
    val_main_v78 (F := Ideal) x5 (ix2 d e) = x5 (ix3 2 d e) := by
  rw [val_main_v78_apply, val_main_v77_apply]
  refine congrArg x5 (funext fun a => Fin.ext ?_)
  have hd : d.val < 64 := d.isLt
  have he : e.val < 64 := e.isLt
  match a with
  | ⟨0, _⟩ => rfl
  | ⟨1, _⟩ => show (d.val * 64 + e.val) / 64 % 64 = d.val; omega
  | ⟨2, _⟩ => show (d.val * 64 + e.val) % 64 = e.val; omega

/-- The contribution of relation 3 to entry e of row (b, i). -/
theorem term2_3 (x0 : (⟨S8x2048x32, .f32⟩ : BufTy).Contents (Elt Ideal)) (x1 : (⟨S8x2048x2048, .i32⟩ : BufTy).Contents (Elt Ideal)) (x2 : (⟨S8x2048x2048, .f32⟩ : BufTy).Contents (Elt Ideal)) (x3 : (⟨S3x32x64, .f32⟩ : BufTy).Contents (Elt Ideal)) (x4 : (⟨S64, .f32⟩ : BufTy).Contents (Elt Ideal)) (x5 : (⟨S3x64x64, .f32⟩ : BufTy).Contents (Elt Ideal)) (b : Fin 8) (i : Fin 2048) (e : Fin 64) :
    val_main_v79 (F := Ideal) x0 x1 x2 x3 x4 x5 (ix3 b i e)
      = ∑ d : Fin 64, (∑ j : Fin 2048, Cert.Spec.eqF (x2 (ix3 b i j)) 3 * val_main_v54 (F := Ideal) x0 x1 x3 x4 (ix3 b j d)) * x5 (ix3 2 d e) := by
  rw [val_main_v79_apply]
  refine Finset.sum_congr rfl fun d _ => ?_
  have el : lidx_main_v79 (ix3 b i e) d = ix3 b i d := funext fun a => Fin.ext (by match a with | ⟨0, _⟩ => rfl | ⟨1, _⟩ => rfl | ⟨2, _⟩ => rfl)
  have er : ridx_main_v79 (ix3 b i e) d = ix2 d e := funext fun a => Fin.ext (by match a with | ⟨0, _⟩ => rfl | ⟨1, _⟩ => rfl)
  rw [el, er, nbr2_3, wslab2_3]

/-- The row before the normalisation: the three contributions added to zero in turn, then the bias. -/
theorem row2 (x0 : (⟨S8x2048x32, .f32⟩ : BufTy).Contents (Elt Ideal)) (x1 : (⟨S8x2048x2048, .i32⟩ : BufTy).Contents (Elt Ideal)) (x2 : (⟨S8x2048x2048, .f32⟩ : BufTy).Contents (Elt Ideal)) (x3 : (⟨S3x32x64, .f32⟩ : BufTy).Contents (Elt Ideal)) (x4 : (⟨S64, .f32⟩ : BufTy).Contents (Elt Ideal)) (x5 : (⟨S3x64x64, .f32⟩ : BufTy).Contents (Elt Ideal)) (x6 : (⟨S64, .f32⟩ : BufTy).Contents (Elt Ideal)) (b : Fin 8) (i : Fin 2048) (e : Fin 64) :
    val_main_v83 (F := Ideal) x0 x1 x2 x3 x4 x5 x6 (ix3 b i e) = yR2 (val_main_v54 (F := Ideal) x0 x1 x3 x4) x2 x5 x6 b i e := by
  have eb : idx_main_v81 (idx_main_v82 (ix3 b i e)) = ix1 e := funext fun a => Fin.ext (by match a with | ⟨0, _⟩ => rfl)
  rw [val_main_v83_apply, val_main_v80_apply, val_main_v72_apply, val_main_v64_apply,
    val_main_v56_apply, val_main_cst_10_apply, term2_1, term2_2, term2_3,
    val_main_v82_apply, val_main_v81_apply, eb]
  simp only [Ideal.addf_def, Ideal.ofBits_def, Ideal.ofBits_zero_f32, zero_add]
  rfl

/-- The sum of the squares of row (b, i). -/
theorem sumsq2 (x0 : (⟨S8x2048x32, .f32⟩ : BufTy).Contents (Elt Ideal)) (x1 : (⟨S8x2048x2048, .i32⟩ : BufTy).Contents (Elt Ideal)) (x2 : (⟨S8x2048x2048, .f32⟩ : BufTy).Contents (Elt Ideal)) (x3 : (⟨S3x32x64, .f32⟩ : BufTy).Contents (Elt Ideal)) (x4 : (⟨S64, .f32⟩ : BufTy).Contents (Elt Ideal)) (x5 : (⟨S3x64x64, .f32⟩ : BufTy).Contents (Elt Ideal)) (x6 : (⟨S64, .f32⟩ : BufTy).Contents (Elt Ideal)) (b : Fin 8) (i : Fin 2048) :
    val_main_v85 (F := Ideal) x0 x1 x2 x3 x4 x5 x6 (ix2 b i)
      = ∑ e' : Fin 64, val_main_v83 (F := Ideal) x0 x1 x2 x3 x4 x5 x6 (ix3 b i e') * val_main_v83 (F := Ideal) x0 x1 x2 x3 x4 x5 x6 (ix3 b i e') := by
  rw [val_main_v85_apply, val_main_cst_14_apply, Ideal.ofBits_def, Ideal.ofBits_zero_f32, zero_add]
  refine Finset.sum_congr rfl fun k _ => ?_
  have e1 : idx_main_v85 (ix2 b i) k = ix3 b i k := funext fun a => Fin.ext (by match a with | ⟨0, _⟩ => rfl | ⟨1, _⟩ => rfl | ⟨2, _⟩ => rfl)
  rw [e1, val_main_v84_apply]
  rfl

/-- The second graph-convolution stage of the reference at (b, i, e): the positive part of the normalised row built from the first stage's output. -/
theorem ref_conv2 (x0 : (⟨S8x2048x32, .f32⟩ : BufTy).Contents (Elt Ideal)) (x1 : (⟨S8x2048x2048, .i32⟩ : BufTy).Contents (Elt Ideal)) (x2 : (⟨S8x2048x2048, .f32⟩ : BufTy).Contents (Elt Ideal)) (x3 : (⟨S3x32x64, .f32⟩ : BufTy).Contents (Elt Ideal)) (x4 : (⟨S64, .f32⟩ : BufTy).Contents (Elt Ideal)) (x5 : (⟨S3x64x64, .f32⟩ : BufTy).Contents (Elt Ideal)) (x6 : (⟨S64, .f32⟩ : BufTy).Contents (Elt Ideal)) (b : Fin 8) (i : Fin 2048) (e : Fin 64) :
    val_main_v92 (F := Ideal) x0 x1 x2 x3 x4 x5 x6 (ix3 b i e)
      = Cert.Spec.relu (Cert.Spec.nrm Cert.Spec.eps12 (yR2 (val_main_v54 (F := Ideal) x0 x1 x3 x4) x2 x5 x6 b i) e) := by
  have e1 : idx_main_v86 (idx_main_v90 (ix3 b i e)) = ix2 b i := funext fun a => Fin.ext (by match a with | ⟨0, _⟩ => rfl | ⟨1, _⟩ => rfl)
  rw [val_main_v92_apply, val_main_call1_v0_apply, val_main_call1_cst_apply, val_main_v91_apply, val_main_v90_apply, val_main_v89_apply,
    val_main_v87_apply, val_main_v88_apply, val_main_cst_15_apply, val_main_v86_apply, e1, sumsq2]
  simp only [row2, Ideal.maximumf_def, Ideal.hostDivf_def, Ideal.hostUnary_sqrt_def, Ideal.ofBits_def, Ideal.ofBits_zero_f32]
  rfl

end Cert.ReferenceIdeal.Hand

end
-- ==== Proof.RefConv3.lean ====
/-
  The reference's third graph-convolution stage read at an index: each of its operations is read at (b, i, e) in turn
  (the three relation weights, the neighbour sums, the weight slabs, the three products, the bias, the sum of squares and the
  normalisation), and the result is the row `yR2` of the second stage's output, normalised.
-/
import proofs.«165070_j9002251452429_2_alg».proof.Proof.RefReadP
import proofs.«165070_j9002251452429_2_alg».proof.Proof.Spec
import proofs.«165070_j9002251452429_2_alg».proof.Proof.RefConvDefs
import Idealize.ShloMosaic.Lib.ValueIdx
import Idealize.ShloMosaic.PureOps.Ideal.Laws

noncomputable section

namespace Cert.ReferenceIdeal.Hand

open Cert.ReferenceIdeal Cert.ReferenceIdeal.Gen Cert.ReferenceIdeal.ReadP Idealize.ShloMosaic Idealize.ShloMosaic.ValueIdx
open scoped BigOperators

/-- The weight of relation 1 at (b, i, j): one where the label there is 1, zero elsewhere. -/
theorem mask3_1 (x2 : (⟨S8x2048x2048, .f32⟩ : BufTy).Contents (Elt Ideal)) (b : Fin 8) (i j : Fin 2048) :
    val_main_v115 (F := Ideal) x2 (ix3 b i j) = Cert.Spec.eqF (x2 (ix3 b i j)) 1 := by
  rw [val_main_v115_apply, val_main_v114_apply, val_main_v113_apply, val_main_cst_23_apply, uitofp_cmpf_oeq,
    Ideal.ofBits_def, ofBits_one]

/-- The features of the neighbours in relation 1, summed: feature d of row (b, i). -/
theorem nbr3_1 (x0 : (⟨S8x2048x32, .f32⟩ : BufTy).Contents (Elt Ideal)) (x1 : (⟨S8x2048x2048, .i32⟩ : BufTy).Contents (Elt Ideal)) (x2 : (⟨S8x2048x2048, .f32⟩ : BufTy).Contents (Elt Ideal)) (x3 : (⟨S3x32x64, .f32⟩ : BufTy).Contents (Elt Ideal)) (x4 : (⟨S64, .f32⟩ : BufTy).Contents (Elt Ideal)) (x5 : (⟨S3x64x64, .f32⟩ : BufTy).Contents (Elt Ideal)) (x6 : (⟨S64, .f32⟩ : BufTy).Contents (Elt Ideal)) (b : Fin 8) (i : Fin 2048) (d : Fin 64) :
    val_main_v116 (F := Ideal) x0 x1 x2 x3 x4 x5 x6 (ix3 b i d)
      = ∑ j : Fin 2048, Cert.Spec.eqF (x2 (ix3 b i j)) 1 * val_main_v110 (F := Ideal) x0 x1 x2 x3 x4 x5 x6 (ix3 b j d) := by
  rw [val_main_v116_apply]
  refine Finset.sum_congr rfl fun j _ => ?_
  have el : lidx_main_v116 (ix3 b i d) j = ix3 b i j := funext fun a => Fin.ext (by match a with | ⟨0, _⟩ => rfl | ⟨1, _⟩ => rfl | ⟨2, _⟩ => rfl)
  have er : ridx_main_v116 (ix3 b i d) j = ix3 b j d := funext fun a => Fin.ext (by match a with | ⟨0, _⟩ => rfl | ⟨1, _⟩ => rfl | ⟨2, _⟩ => rfl)
  rw [el, er, mask3_1]

/-- The weight matrix of relation 1: the slab 0 of the stacked weights. -/
theorem wslab3_1 (x7 : (⟨S3x64x64, .f32⟩ : BufTy).Contents (Elt Ideal)) (d : Fin 64) (e : Fin 64) :
    val_main_v118 (F := Ideal) x7 (ix2 d e) = x7 (ix3 0 d e) := by
  rw [val_main_v118_apply, val_main_v117_apply]
  refine congrArg x7 (funext fun a => Fin.ext ?_)
  have hd : d.val < 64 := d.isLt
  have he : e.val < 64 := e.isLt
  match a with
  | ⟨0, _⟩ => rfl
  | ⟨1, _⟩ => show (d.val * 64 + e.val) / 64 % 64 = d.val; omega
  | ⟨2, _⟩ => show (d.val * 64 + e.val) % 64 = e.val; omega

/-- The contribution of relation 1 to entry e of row (b, i). -/
theorem term3_1 (x0 : (⟨S8x2048x32, .f32⟩ : BufTy).Contents (Elt Ideal)) (x1 : (⟨S8x2048x2048, .i32⟩ : BufTy).Contents (Elt Ideal)) (x2 : (⟨S8x2048x2048, .f32⟩ : BufTy).Contents (Elt Ideal)) (x3 : (⟨S3x32x64, .f32⟩ : BufTy).Contents (Elt Ideal)) (x4 : (⟨S64, .f32⟩ : BufTy).Contents (Elt Ideal)) (x5 : (⟨S3x64x64, .f32⟩ : BufTy).Contents (Elt Ideal)) (x6 : (⟨S64, .f32⟩ : BufTy).Contents (Elt Ideal)) (x7 : (⟨S3x64x64, .f32⟩ : BufTy).Contents (Elt Ideal)) (b : Fin 8) (i : Fin 2048) (e : Fin 64) :
    val_main_v119 (F := Ideal) x0 x1 x2 x3 x4 x5 x6 x7 (ix3 b i e)
      = ∑ d : Fin 64, (∑ j : Fin 2048, Cert.Spec.eqF (x2 (ix3 b i j)) 1 * val_main_v110 (F := Ideal) x0 x1 x2 x3 x4 x5 x6 (ix3 b j d)) * x7 (ix3 0 d e) := by
  rw [val_main_v119_apply]
  refine Finset.sum_congr rfl fun d _ => ?_
  have el : lidx_main_v119 (ix3 b i e) d = ix3 b i d := funext fun a => Fin.ext (by match a with | ⟨0, _⟩ => rfl | ⟨1, _⟩ => rfl | ⟨2, _⟩ => rfl)
  have er : ridx_main_v119 (ix3 b i e) d = ix2 d e := funext fun a => Fin.ext (by match a with | ⟨0, _⟩ => rfl | ⟨1, _⟩ => rfl)
  rw [el, er, nbr3_1, wslab3_1]

/-- The weight of relation 2 at (b, i, j): one where the label there is 2, zero elsewhere. -/
theorem mask3_2 (x2 : (⟨S8x2048x2048, .f32⟩ : BufTy).Contents (Elt Ideal)) (b : Fin 8) (i j : Fin 2048) :
    val_main_v123 (F := Ideal) x2 (ix3 b i j) = Cert.Spec.eqF (x2 (ix3 b i j)) 2 := by
  rw [val_main_v123_apply, val_main_v122_apply, val_main_v121_apply, val_main_cst_24_apply, uitofp_cmpf_oeq,
    Ideal.ofBits_def, ofBits_two]

/-- The features of the neighbours in relation 2, summed: feature d of row (b, i). -/
theorem nbr3_2 (x0 : (⟨S8x2048x32, .f32⟩ : BufTy).Contents (Elt Ideal)) (x1 : (⟨S8x2048x2048, .i32⟩ : BufTy).Contents (Elt Ideal)) (x2 : (⟨S8x2048x2048, .f32⟩ : BufTy).Contents (Elt Ideal)) (x3 : (⟨S3x32x64, .f32⟩ : BufTy).Contents (Elt Ideal)) (x4 : (⟨S64, .f32⟩ : BufTy).Contents (Elt Ideal)) (x5 : (⟨S3x64x64, .f32⟩ : BufTy).Contents (Elt Ideal)) (x6 : (⟨S64, .f32⟩ : BufTy).Contents (Elt Ideal)) (b : Fin 8) (i : Fin 2048) (d : Fin 64) :
    val_main_v124 (F := Ideal) x0 x1 x2 x3 x4 x5 x6 (ix3 b i d)
      = ∑ j : Fin 2048, Cert.Spec.eqF (x2 (ix3 b i j)) 2 * val_main_v110 (F := Ideal) x0 x1 x2 x3 x4 x5 x6 (ix3 b j d) := by
  rw [val_main_v124_apply]
  refine Finset.sum_congr rfl fun j _ => ?_
  have el : lidx_main_v124 (ix3 b i d) j = ix3 b i j := funext fun a => Fin.ext (by match a with | ⟨0, _⟩ => rfl | ⟨1, _⟩ => rfl | ⟨2, _⟩ => rfl)
  have er : ridx_main_v124 (ix3 b i d) j = ix3 b j d := funext fun a => Fin.ext (by match a with | ⟨0, _⟩ => rfl | ⟨1, _⟩ => rfl | ⟨2, _⟩ => rfl)
  rw [el, er, mask3_2]

/-- The weight matrix of relation 2: the slab 1 of the stacked weights. -/
theorem wslab3_2 (x7 : (⟨S3x64x64, .f32⟩ : BufTy).Contents (Elt Ideal)) (d : Fin 64) (e : Fin 64) :
    val_main_v126 (F := Ideal) x7 (ix2 d e) = x7 (ix3 1 d e) := by
  rw [val_main_v126_apply, val_main_v125_apply]
  refine congrArg x7 (funext fun a => Fin.ext ?_)
  have hd : d.val < 64 := d.isLt
  have he : e.val < 64 := e.isLt
  match a with
  | ⟨0, _⟩ => rfl
  | ⟨1, _⟩ => show (d.val * 64 + e.val) / 64 % 64 = d.val; omega
  | ⟨2, _⟩ => show (d.val * 64 + e.val) % 64 = e.val; omega

/-- The contribution of relation 2 to entry e of row (b, i). -/
theorem term3_2 (x0 : (⟨S8x2048x32, .f32⟩ : BufTy).Contents (Elt Ideal)) (x1 : (⟨S8x2048x2048, .i32⟩ : BufTy).Contents (Elt Ideal)) (x2 : (⟨S8x2048x2048, .f32⟩ : BufTy).Contents (Elt Ideal)) (x3 : (⟨S3x32x64, .f32⟩ : BufTy).Contents (Elt Ideal)) (x4 : (⟨S64, .f32⟩ : BufTy).Contents (Elt Ideal)) (x5 : (⟨S3x64x64, .f32⟩ : BufTy).Contents (Elt Ideal)) (x6 : (⟨S64, .f32⟩ : BufTy).Contents (Elt Ideal)) (x7 : (⟨S3x64x64, .f32⟩ : BufTy).Contents (Elt Ideal)) (b : Fin 8) (i : Fin 2048) (e : Fin 64) :
    val_main_v127 (F := Ideal) x0 x1 x2 x3 x4 x5 x6 x7 (ix3 b i e)
      = ∑ d : Fin 64, (∑ j : Fin 2048, Cert.Spec.eqF (x2 (ix3 b i j)) 2 * val_main_v110 (F := Ideal) x0 x1 x2 x3 x4 x5 x6 (ix3 b j d)) * x7 (ix3 1 d e) := by
  rw [val_main_v127_apply]
  refine Finset.sum_congr rfl fun d _ => ?_
  have el : lidx_main_v127 (ix3 b i e) d = ix3 b i d := funext fun a => Fin.ext (by match a with | ⟨0, _⟩ => rfl | ⟨1, _⟩ => rfl | ⟨2, _⟩ => rfl)
  have er : ridx_main_v127 (ix3 b i e) d = ix2 d e := funext fun a => Fin.ext (by match a with | ⟨0, _⟩ => rfl | ⟨1, _⟩ => rfl)
  rw [el, er, nbr3_2, wslab3_2]

/-- The weight of relation 3 at (b, i, j): one where the label there is 3, zero elsewhere. -/
theorem mask3_3 (x2 : (⟨S8x2048x2048, .f32⟩ : BufTy).Contents (Elt Ideal)) (b : Fin 8) (i j : Fin 2048) :
    val_main_v131 (F := Ideal) x2 (ix3 b i j) = Cert.Spec.eqF (x2 (ix3 b i j)) 3 := by
  rw [val_main_v131_apply, val_main_v130_apply, val_main_v129_apply, val_main_cst_25_apply, uitofp_cmpf_oeq,
    Ideal.ofBits_def, ofBits_three]

/-- The features of the neighbours in relation 3, summed: feature d of row (b, i). -/
theorem nbr3_3 (x0 : (⟨S8x2048x32, .f32⟩ : BufTy).Contents (Elt Ideal)) (x1 : (⟨S8x2048x2048, .i32⟩ : BufTy).Contents (Elt Ideal)) (x2 : (⟨S8x2048x2048, .f32⟩ : BufTy).Contents (Elt Ideal)) (x3 : (⟨S3x32x64, .f32⟩ : BufTy).Contents (Elt Ideal)) (x4 : (⟨S64, .f32⟩ : BufTy).Contents (Elt Ideal)) (x5 : (⟨S3x64x64, .f32⟩ : BufTy).Contents (Elt Ideal)) (x6 : (⟨S64, .f32⟩ : BufTy).Contents (Elt Ideal)) (b : Fin 8) (i : Fin 2048) (d : Fin 64) :
    val_main_v132 (F := Ideal) x0 x1 x2 x3 x4 x5 x6 (ix3 b i d)
      = ∑ j : Fin 2048, Cert.Spec.eqF (x2 (ix3 b i j)) 3 * val_main_v110 (F := Ideal) x0 x1 x2 x3 x4 x5 x6 (ix3 b j d) := by
  rw [val_main_v132_apply]
  refine Finset.sum_congr rfl fun j _ => ?_
  have el : lidx_main_v132 (ix3 b i d) j = ix3 b i j := funext fun a => Fin.ext (by match a with | ⟨0, _⟩ => rfl | ⟨1, _⟩ => rfl | ⟨2, _⟩ => rfl)
  have er : ridx_main_v132 (ix3 b i d) j = ix3 b j d := funext fun a => Fin.ext (by match a with | ⟨0, _⟩ => rfl | ⟨1, _⟩ => rfl | ⟨2, _⟩ => rfl)
  rw [el, er, mask3_3]

/-- The weight matrix of relation 3: the slab 2 of the stacked weights. -/
theorem wslab3_3 (x7 : (⟨S3x64x64, .f32⟩ : BufTy).Contents (Elt Ideal)) (d : Fin 64) (e : Fin 64) :
    val_main_v134 (F := Ideal) x7 (ix2 d e) = x7 (ix3 2 d e) := by
  rw [val_main_v134_apply, val_main_v133_apply]
  refine congrArg x7 (funext fun a => Fin.ext ?_)
  have hd : d.val < 64 := d.isLt
  have he : e.val < 64 := e.isLt
  match a with
  | ⟨0, _⟩ => rfl
  | ⟨1, _⟩ => show (d.val * 64 + e.val) / 64 % 64 = d.val; omega
  | ⟨2, _⟩ => show (d.val * 64 + e.val) % 64 = e.val; omega

/-- The contribution of relation 3 to entry e of row (b, i). -/
theorem term3_3 (x0 : (⟨S8x2048x32, .f32⟩ : BufTy).Contents (Elt Ideal)) (x1 : (⟨S8x2048x2048, .i32⟩ : BufTy).Contents (Elt Ideal)) (x2 : (⟨S8x2048x2048, .f32⟩ : BufTy).Contents (Elt Ideal)) (x3 : (⟨S3x32x64, .f32⟩ : BufTy).Contents (Elt Ideal)) (x4 : (⟨S64, .f32⟩ : BufTy).Contents (Elt Ideal)) (x5 : (⟨S3x64x64, .f32⟩ : BufTy).Contents (Elt Ideal)) (x6 : (⟨S64, .f32⟩ : BufTy).Contents (Elt Ideal)) (x7 : (⟨S3x64x64, .f32⟩ : BufTy).Contents (Elt Ideal)) (b : Fin 8) (i : Fin 2048) (e : Fin 64) :
    val_main_v135 (F := Ideal) x0 x1 x2 x3 x4 x5 x6 x7 (ix3 b i e)
      = ∑ d : Fin 64, (∑ j : Fin 2048, Cert.Spec.eqF (x2 (ix3 b i j)) 3 * val_main_v110 (F := Ideal) x0 x1 x2 x3 x4 x5 x6 (ix3 b j d)) * x7 (ix3 2 d e) := by
  rw [val_main_v135_apply]
  refine Finset.sum_congr rfl fun d _ => ?_
  have el : lidx_main_v135 (ix3 b i e) d = ix3 b i d := funext fun a => Fin.ext (by match a with | ⟨0, _⟩ => rfl | ⟨1, _⟩ => rfl | ⟨2, _⟩ => rfl)
  have er : ridx_main_v135 (ix3 b i e) d = ix2 d e := funext fun a => Fin.ext (by match a with | ⟨0, _⟩ => rfl | ⟨1, _⟩ => rfl)
  rw [el, er, nbr3_3, wslab3_3]

/-- The row before the normalisation: the three contributions added to zero in turn, then the bias. -/
theorem row3 (x0 : (⟨S8x2048x32, .f32⟩ : BufTy).Contents (Elt Ideal)) (x1 : (⟨S8x2048x2048, .i32⟩ : BufTy).Contents (Elt Ideal)) (x2 : (⟨S8x2048x2048, .f32⟩ : BufTy).Contents (Elt Ideal)) (x3 : (⟨S3x32x64, .f32⟩ : BufTy).Contents (Elt Ideal)) (x4 : (⟨S64, .f32⟩ : BufTy).Contents (Elt Ideal)) (x5 : (⟨S3x64x64, .f32⟩ : BufTy).Contents (Elt Ideal)) (x6 : (⟨S64, .f32⟩ : BufTy).Contents (Elt Ideal)) (x7 : (⟨S3x64x64, .f32⟩ : BufTy).Contents (Elt Ideal)) (x8 : (⟨S64, .f32⟩ : BufTy).Contents (Elt Ideal)) (b : Fin 8) (i : Fin 2048) (e : Fin 64) :
    val_main_v139 (F := Ideal) x0 x1 x2 x3 x4 x5 x6 x7 x8 (ix3 b i e) = yR2 (val_main_v110 (F := Ideal) x0 x1 x2 x3 x4 x5 x6) x2 x7 x8 b i e := by
  have eb : idx_main_v137 (idx_main_v138 (ix3 b i e)) = ix1 e := funext fun a => Fin.ext (by match a with | ⟨0, _⟩ => rfl)
  rw [val_main_v139_apply, val_main_v136_apply, val_main_v128_apply, val_main_v120_apply,
    val_main_v112_apply, val_main_cst_22_apply, term3_1, term3_2, term3_3,
    val_main_v138_apply, val_main_v137_apply, eb]
  simp only [Ideal.addf_def, Ideal.ofBits_def, Ideal.ofBits_zero_f32, zero_add]
  rfl

/-- The sum of the squares of row (b, i). -/
theorem sumsq3 (x0 : (⟨S8x2048x32, .f32⟩ : BufTy).Contents (Elt Ideal)) (x1 : (⟨S8x2048x2048, .i32⟩ : BufTy).Contents (Elt Ideal)) (x2 : (⟨S8x2048x2048, .f32⟩ : BufTy).Contents (Elt Ideal)) (x3 : (⟨S3x32x64, .f32⟩ : BufTy).Contents (Elt Ideal)) (x4 : (⟨S64, .f32⟩ : BufTy).Contents (Elt Ideal)) (x5 : (⟨S3x64x64, .f32⟩ : BufTy).Contents (Elt Ideal)) (x6 : (⟨S64, .f32⟩ : BufTy).Contents (Elt Ideal)) (x7 : (⟨S3x64x64, .f32⟩ : BufTy).Contents (Elt Ideal)) (x8 : (⟨S64, .f32⟩ : BufTy).Contents (Elt Ideal)) (b : Fin 8) (i : Fin 2048) :
    val_main_v141 (F := Ideal) x0 x1 x2 x3 x4 x5 x6 x7 x8 (ix2 b i)
      = ∑ e' : Fin 64, val_main_v139 (F := Ideal) x0 x1 x2 x3 x4 x5 x6 x7 x8 (ix3 b i e') * val_main_v139 (F := Ideal) x0 x1 x2 x3 x4 x5 x6 x7 x8 (ix3 b i e') := by
  rw [val_main_v141_apply, val_main_cst_26_apply, Ideal.ofBits_def, Ideal.ofBits_zero_f32, zero_add]
  refine Finset.sum_congr rfl fun k _ => ?_
  have e1 : idx_main_v141 (ix2 b i) k = ix3 b i k := funext fun a => Fin.ext (by match a with | ⟨0, _⟩ => rfl | ⟨1, _⟩ => rfl | ⟨2, _⟩ => rfl)
  rw [e1, val_main_v140_apply]
  rfl

/-- The third graph-convolution stage of the reference at (b, i, e): the normalised row built from the second stage's output (no positive part). -/
theorem ref_conv3 (x0 : (⟨S8x2048x32, .f32⟩ : BufTy).Contents (Elt Ideal)) (x1 : (⟨S8x2048x2048, .i32⟩ : BufTy).Contents (Elt Ideal)) (x2 : (⟨S8x2048x2048, .f32⟩ : BufTy).Contents (Elt Ideal)) (x3 : (⟨S3x32x64, .f32⟩ : BufTy).Contents (Elt Ideal)) (x4 : (⟨S64, .f32⟩ : BufTy).Contents (Elt Ideal)) (x5 : (⟨S3x64x64, .f32⟩ : BufTy).Contents (Elt Ideal)) (x6 : (⟨S64, .f32⟩ : BufTy).Contents (Elt Ideal)) (x7 : (⟨S3x64x64, .f32⟩ : BufTy).Contents (Elt Ideal)) (x8 : (⟨S64, .f32⟩ : BufTy).Contents (Elt Ideal)) (b : Fin 8) (i : Fin 2048) (e : Fin 64) :
    val_main_v147 (F := Ideal) x0 x1 x2 x3 x4 x5 x6 x7 x8 (ix3 b i e)
      = Cert.Spec.nrm Cert.Spec.eps12 (yR2 (val_main_v110 (F := Ideal) x0 x1 x2 x3 x4 x5 x6) x2 x7 x8 b i) e := by
  have e1 : idx_main_v142 (idx_main_v146 (ix3 b i e)) = ix2 b i := funext fun a => Fin.ext (by match a with | ⟨0, _⟩ => rfl | ⟨1, _⟩ => rfl)
  rw [val_main_v147_apply, val_main_v146_apply, val_main_v145_apply,
    val_main_v143_apply, val_main_v144_apply, val_main_cst_27_apply, val_main_v142_apply, e1, sumsq3]
  simp only [row3, Ideal.maximumf_def, Ideal.hostDivf_def, Ideal.hostUnary_sqrt_def, Ideal.ofBits_def]
  rfl

end Cert.ReferenceIdeal.Hand

end
-- ==== Proof.SpecConv.lean ====
/-
  The three graph-convolution layers as the kernel computes them, as functions of whole arrays: for a node i of batch
  entry b, the masked sum over the nodes j of the PROJECTED features (features times weights, summed over the feature
  index d inside), plus the bias, the row then divided by its floored Euclidean norm (and its positive part taken in the
  first two layers).  The first layer has one masked sum per relation label 1, 2, 3 of an integer label array; the other
  two read a real adjacency array and keep the one term of label 1.
-/
import proofs.«165070_j9002251452429_2_alg».proof.Proof.Spec
import Idealize.ShloMosaic.Lib.ValueIdx

noncomputable section

namespace Cert.Spec

open Idealize.ShloMosaic Idealize.ShloMosaic.ValueIdx

/-- The first layer at (b, i, e). -/
def G0 (A0 : (⟨3, ![8, 2048, 32]⟩ : Shape).Idx → EReal) (A1 : (⟨3, ![8, 2048, 2048]⟩ : Shape).Idx → BitVec 32)
    (A2 : (⟨3, ![3, 32, 64]⟩ : Shape).Idx → EReal) (A3 : (⟨1, ![64]⟩ : Shape).Idx → EReal) (b : Fin 8) (i : Fin 2048) (e : Fin 64) : EReal :=
  relu (nrm eps12 (fun e' => (((∑ j : Fin 2048, eqI (A1 (ix3 b i j)) 1#32 * ∑ d : Fin 32, A0 (ix3 b j d) * A2 (ix3 0 d e'))
      + (∑ j : Fin 2048, eqI (A1 (ix3 b i j)) 2#32 * ∑ d : Fin 32, A0 (ix3 b j d) * A2 (ix3 1 d e')))
      + (∑ j : Fin 2048, eqI (A1 (ix3 b i j)) 3#32 * ∑ d : Fin 32, A0 (ix3 b j d) * A2 (ix3 2 d e'))) + A3 (ix1 e')) e)

/-- The row of the later layers before normalisation. -/
def yK (A0 : (⟨3, ![8, 2048, 64]⟩ : Shape).Idx → EReal) (A1 : (⟨3, ![8, 2048, 2048]⟩ : Shape).Idx → EReal)
    (A2 : (⟨3, ![1, 64, 64]⟩ : Shape).Idx → EReal) (A3 : (⟨1, ![64]⟩ : Shape).Idx → EReal) (b : Fin 8) (i : Fin 2048) (e' : Fin 64) : EReal :=
  (∑ j : Fin 2048, eqF (A1 (ix3 b i j)) 1 * ∑ d : Fin 64, A0 (ix3 b j d) * A2 (ix3 0 d e')) + A3 (ix1 e')

/-- The second layer at (b, i, e). -/
def G1 (A0 : (⟨3, ![8, 2048, 64]⟩ : Shape).Idx → EReal) (A1 : (⟨3, ![8, 2048, 2048]⟩ : Shape).Idx → EReal)
    (A2 : (⟨3, ![1, 64, 64]⟩ : Shape).Idx → EReal) (A3 : (⟨1, ![64]⟩ : Shape).Idx → EReal) (b : Fin 8) (i : Fin 2048) (e : Fin 64) : EReal :=
  relu (nrm eps12 (yK A0 A1 A2 A3 b i) e)

/-- The third layer at (b, i, e): no positive part. -/
def G2 (A0 : (⟨3, ![8, 2048, 64]⟩ : Shape).Idx → EReal) (A1 : (⟨3, ![8, 2048, 2048]⟩ : Shape).Idx → EReal)
    (A2 : (⟨3, ![1, 64, 64]⟩ : Shape).Idx → EReal) (A3 : (⟨1, ![64]⟩ : Shape).Idx → EReal) (b : Fin 8) (i : Fin 2048) (e : Fin 64) : EReal :=
  nrm eps12 (yK A0 A1 A2 A3 b i) e

end Cert.Spec

end
-- ==== Proof.ConvBridge.lean ====
/-
  The algebra that joins the two arrangements of a graph-convolution layer on the extended reals.

  One arrangement projects each neighbour's features by the weights first and then takes the masked sum over the
  neighbours; the other takes the masked sum of the neighbours' features first and then projects. On reals the two
  agree, term by term, by re-association of a finite double sum; the masks are 0/1 weights, hence real. Where the
  adjacency entries are 0 or 1, the terms of the labels 2 and 3 have all their weights zero and vanish, with no
  finiteness needed. Dividing a real row by its floored Euclidean norm, and taking the positive part, keep it real.
-/
import proofs.«165070_j9002251452429_2_alg».proof.Proof.SpecConv
import proofs.«165070_j9002251452429_2_alg».proof.Proof.RefConvDefs
import proofs.«165070_j9002251452429_2_alg».proof.Proof.LibRealClosure

noncomputable section

namespace Cert.Bridge

open Cert.LibRealClosure Cert.Spec Cert.ReferenceIdeal.Hand Idealize.ShloMosaic Idealize.ShloMosaic.ValueIdx
open scoped BigOperators

/-! ## The row arithmetic keeps reals real -/

/-- The 0/1 weight of an integer label test is real. -/
theorem isReal_eqI (v k : BitVec 32) : IsReal (eqI v k) := by
  unfold eqI; split
  · exact IsReal.one
  · exact IsReal.zero

/-- The 0/1 weight of a real label test is real. -/
theorem isReal_eqF (v k : EReal) : IsReal (eqF v k) := by
  unfold eqF; split
  · exact IsReal.one
  · exact IsReal.zero

/-- The positive part of a real is real. -/
theorem isReal_relu {a : EReal} (ha : IsReal a) : IsReal (relu a) := ha.max IsReal.zero

/-- The floor of the norm is a positive real. -/
theorem isReal_eps12 : IsReal eps12 := isReal_ofBits_f32_eps12
theorem eps12_pos : 0 < eps12 := ofBits_f32_eps12_pos

/-- An entry of a real row divided by the row's floored Euclidean norm is real: the norm is the root of a sum
    of squares of reals, the floor is a positive real, so the divisor is a positive real. -/
theorem isReal_nrm {n : ℕ} (eps : EReal) (heps : IsReal eps) (heps0 : 0 < eps) (y : Fin n → EReal)
    (hy : ∀ e, IsReal (y e)) (e : Fin n) : IsReal (nrm eps y e) := by
  unfold nrm
  exact (hy e).div (isReal_max_sqrt_sum_mul_self y hy heps) (max_ne_zero_of_pos_right heps0)

/-! ## Labels -/

theorem two_eq_coe : (2 : EReal) = ((2 : ℝ) : EReal) := rfl
theorem three_eq_coe : (3 : EReal) = ((3 : ℝ) : EReal) := rfl

/-- An entry that is 0 or 1 is not 2. -/
theorem eqF_two_of_zero_or_one {v : EReal} (hv : v = 0 ∨ v = 1) : eqF v 2 = 0 := by
  unfold eqF
  rw [if_neg]
  rcases hv with h | h
  · rw [h, two_eq_coe, ← EReal.coe_zero, EReal.coe_eq_coe_iff]; norm_num
  · rw [h, two_eq_coe, ← EReal.coe_one, EReal.coe_eq_coe_iff]; norm_num

/-- An entry that is 0 or 1 is not 3. -/
theorem eqF_three_of_zero_or_one {v : EReal} (hv : v = 0 ∨ v = 1) : eqF v 3 = 0 := by
  unfold eqF
  rw [if_neg]
  rcases hv with h | h
  · rw [h, three_eq_coe, ← EReal.coe_zero, EReal.coe_eq_coe_iff]; norm_num
  · rw [h, three_eq_coe, ← EReal.coe_one, EReal.coe_eq_coe_iff]; norm_num

/-! ## The first layer -/

section Conv1
variable (A0 : (⟨3, ![8, 2048, 32]⟩ : Shape).Idx → EReal) (A1 : (⟨3, ![8, 2048, 2048]⟩ : Shape).Idx → BitVec 32)
  (A2 : (⟨3, ![3, 32, 64]⟩ : Shape).Idx → EReal) (A3 : (⟨1, ![64]⟩ : Shape).Idx → EReal)

/-- One relation's term: the masked sum of projected features is the projection of the masked sum. -/
theorem conv1_term (h0 : ∀ i, IsReal (A0 i)) (h2 : ∀ i, IsReal (A2 i)) (k : BitVec 32) (r : Fin 3) (b : Fin 8)
    (i : Fin 2048) (e' : Fin 64) :
    (∑ j : Fin 2048, eqI (A1 (ix3 b i j)) k * ∑ d : Fin 32, A0 (ix3 b j d) * A2 (ix3 r d e'))
      = ∑ d : Fin 32, (∑ j : Fin 2048, eqI (A1 (ix3 b i j)) k * A0 (ix3 b j d)) * A2 (ix3 r d e') :=
  sum_mul_sum_assoc (fun j => eqI (A1 (ix3 b i j)) k) (fun j d => A0 (ix3 b j d)) (fun d => A2 (ix3 r d e'))
    (fun _ => isReal_eqI _ _) (fun _ _ => h0 _) (fun _ => h2 _)

/-- The first layer's row, projected features summed over the neighbours, is the reference's row, neighbours'
    features summed and then projected. No hypothesis on the bias. -/
theorem conv1_bridge (h0 : ∀ i, IsReal (A0 i)) (h2 : ∀ i, IsReal (A2 i)) (b : Fin 8) (i : Fin 2048) (e : Fin 64) :
    G0 A0 A1 A2 A3 b i e = relu (nrm eps12 (yR1 A0 A1 A2 A3 b i) e) := by
  unfold G0
  refine congrArg relu (congrArg (fun y => nrm eps12 y e) (funext fun e' => ?_))
  unfold yR1
  rw [conv1_term A0 A1 A2 h0 h2 1#32 0, conv1_term A0 A1 A2 h0 h2 2#32 1, conv1_term A0 A1 A2 h0 h2 3#32 2]

/-- The reference's first-layer row of real features, weights and bias is real. -/
theorem yR1_real (h0 : ∀ i, IsReal (A0 i)) (h2 : ∀ i, IsReal (A2 i)) (h3 : ∀ i, IsReal (A3 i)) (b : Fin 8)
    (i : Fin 2048) (e' : Fin 64) : IsReal (yR1 A0 A1 A2 A3 b i e') := by
  unfold yR1
  have t : ∀ (k : BitVec 32) (r : Fin 3),
      IsReal (∑ d : Fin 32, (∑ j : Fin 2048, eqI (A1 (ix3 b i j)) k * A0 (ix3 b j d)) * A2 (ix3 r d e')) :=
    fun k r => IsReal.sum _ fun d => (IsReal.sum _ fun j => (isReal_eqI _ _).mul (h0 _)).mul (h2 _)
  exact (((t _ _).add (t _ _)).add (t _ _)).add (h3 _)

/-- The first layer of real features, weights and bias is real. -/
theorem G0_real (h0 : ∀ i, IsReal (A0 i)) (h2 : ∀ i, IsReal (A2 i)) (h3 : ∀ i, IsReal (A3 i)) (b : Fin 8)
    (i : Fin 2048) (e : Fin 64) : IsReal (G0 A0 A1 A2 A3 b i e) := by
  rw [conv1_bridge A0 A1 A2 A3 h0 h2]
  exact isReal_relu (isReal_nrm eps12 isReal_eps12 eps12_pos _ (yR1_real A0 A1 A2 A3 h0 h2 h3 b i) e)

end Conv1

/-! ## The later layers -/

section Conv2
variable (H : (⟨3, ![8, 2048, 64]⟩ : Shape).Idx → EReal) (A : (⟨3, ![8, 2048, 2048]⟩ : Shape).Idx → EReal)
  (Wfull : (⟨3, ![3, 64, 64]⟩ : Shape).Idx → EReal) (W0 : (⟨3, ![1, 64, 64]⟩ : Shape).Idx → EReal)
  (bias : (⟨1, ![64]⟩ : Shape).Idx → EReal)

/-- The kernel's row of a later layer is the reference's row when the adjacency entries are 0 or 1: the
    reference's terms for the labels 2 and 3 vanish, and the label-1 term re-associates. -/
theorem yK_eq_yR2 (hW0 : ∀ (d e : Fin 64), W0 (ix3 0 d e) = Wfull (ix3 0 d e)) (hH : ∀ i, IsReal (H i))
    (hW : ∀ i, IsReal (Wfull i)) (hA : ∀ i, A i = 0 ∨ A i = 1) (b : Fin 8) (i : Fin 2048) (e' : Fin 64) :
    yK H A W0 bias b i e' = yR2 H A Wfull bias b i e' := by
  unfold yK yR2
  rw [sum_sum_zero_mul_mul (fun j => eqF (A (ix3 b i j)) 2) (fun j d => H (ix3 b j d)) (fun d => Wfull (ix3 1 d e'))
      (fun j => eqF_two_of_zero_or_one (hA _)),
    sum_sum_zero_mul_mul (fun j => eqF (A (ix3 b i j)) 3) (fun j d => H (ix3 b j d)) (fun d => Wfull (ix3 2 d e'))
      (fun j => eqF_three_of_zero_or_one (hA _)),
    add_zero, add_zero]
  congr 1
  rw [← sum_mul_sum_assoc (fun j => eqF (A (ix3 b i j)) 1) (fun j d => H (ix3 b j d)) (fun d => Wfull (ix3 0 d e'))
      (fun _ => isReal_eqF _ _) (fun _ _ => hH _) (fun _ => hW _)]
  refine Finset.sum_congr rfl fun j _ => ?_
  congr 1
  refine Finset.sum_congr rfl fun d _ => ?_
  rw [hW0 d e']

/-- The second layer is the positive part of the normalised reference row. -/
theorem conv2_bridge (hW0 : ∀ (d e : Fin 64), W0 (ix3 0 d e) = Wfull (ix3 0 d e)) (hH : ∀ i, IsReal (H i))
    (hW : ∀ i, IsReal (Wfull i)) (hA : ∀ i, A i = 0 ∨ A i = 1) (b : Fin 8) (i : Fin 2048) (e : Fin 64) :
    G1 H A W0 bias b i e = relu (nrm eps12 (yR2 H A Wfull bias b i) e) := by
  unfold G1
  rw [show yK H A W0 bias b i = yR2 H A Wfull bias b i from
    funext fun e' => yK_eq_yR2 H A Wfull W0 bias hW0 hH hW hA b i e']

/-- The third layer is the normalised reference row, with no positive part. -/
theorem conv3_bridge (hW0 : ∀ (d e : Fin 64), W0 (ix3 0 d e) = Wfull (ix3 0 d e)) (hH : ∀ i, IsReal (H i))
    (hW : ∀ i, IsReal (Wfull i)) (hA : ∀ i, A i = 0 ∨ A i = 1) (b : Fin 8) (i : Fin 2048) (e : Fin 64) :
    G2 H A W0 bias b i e = nrm eps12 (yR2 H A Wfull bias b i) e := by
  unfold G2
  rw [show yK H A W0 bias b i = yR2 H A Wfull bias b i from
    funext fun e' => yK_eq_yR2 H A Wfull W0 bias hW0 hH hW hA b i e']

/-- The kernel's row of a later layer, of real features, weights and bias, is real. -/
theorem yK_real (hH : ∀ i, IsReal (H i)) (hW0r : ∀ i, IsReal (W0 i)) (hb : ∀ i, IsReal (bias i)) (b : Fin 8)
    (i : Fin 2048) (e' : Fin 64) : IsReal (yK H A W0 bias b i e') := by
  unfold yK
  exact (IsReal.sum _ fun j => (isReal_eqF _ _).mul (IsReal.sum _ fun d => (hH _).mul (hW0r _))).add (hb _)

/-- The reference's row of a later layer, of real features, weights and bias, is real. -/
theorem yR2_real (hH : ∀ i, IsReal (H i)) (hW : ∀ i, IsReal (Wfull i)) (hb : ∀ i, IsReal (bias i)) (b : Fin 8)
    (i : Fin 2048) (e' : Fin 64) : IsReal (yR2 H A Wfull bias b i e') := by
  unfold yR2
  have t : ∀ (k : EReal) (r : Fin 3),
      IsReal (∑ d : Fin 64, (∑ j : Fin 2048, eqF (A (ix3 b i j)) k * H (ix3 b j d)) * Wfull (ix3 r d e')) :=
    fun k r => IsReal.sum _ fun d => (IsReal.sum _ fun j => (isReal_eqF _ _).mul (hH _)).mul (hW _)
  exact (((t _ _).add (t _ _)).add (t _ _)).add (hb _)

/-- The second layer of real features, weights and bias is real. -/
theorem G1_real (hH : ∀ i, IsReal (H i)) (hW0r : ∀ i, IsReal (W0 i)) (hb : ∀ i, IsReal (bias i)) (b : Fin 8)
    (i : Fin 2048) (e : Fin 64) : IsReal (G1 H A W0 bias b i e) := by
  unfold G1
  exact isReal_relu (isReal_nrm eps12 isReal_eps12 eps12_pos _ (yK_real H A W0 bias hH hW0r hb b i) e)

/-- The third layer of real features, weights and bias is real. -/
theorem G2_real (hH : ∀ i, IsReal (H i)) (hW0r : ∀ i, IsReal (W0 i)) (hb : ∀ i, IsReal (bias i)) (b : Fin 8)
    (i : Fin 2048) (e : Fin 64) : IsReal (G2 H A W0 bias b i e) := by
  unfold G2
  exact isReal_nrm eps12 isReal_eps12 eps12_pos _ (yK_real H A W0 bias hH hW0r hb b i) e

end Conv2

end Cert.Bridge
-- ==== Proof.PreFacts.lean ====
/-
  The precondition, decoded on the extended reals.

  The printed predicate is the conjunction, over the ten float inputs x, of "every entry of |x| is below plus
  infinity", followed by "every entry of the adjacency is 0 or 1"; the integer input is unconstrained. It is a
  rank-0 array of one bit, and the hypothesis says that bit is 1. A conjunction of bits is 1 exactly when both
  are; a conjunction over all entries of an array of bits that is 1 had a 1 at every entry. On the extended
  reals |x| is max x (-x), the word 0x7F800000 is plus infinity, and max x (-x) < plus infinity excludes both
  infinities, so x is the coercion of a real number. An equality test of extended reals is 1 exactly when the
  two are equal, a disjunction of bits is 1 exactly when one of them is, and the words 0x00000000 and
  0x3F800000 are 0 and 1.
-/
import proofs.«165070_j9002251452429_2_alg».proof.Pre_finite_inputs
import Idealize.ShloMosaic.Lib.ReduceAll
import Idealize.ShloMosaic.PureOps.Ideal
import proofs.«165070_j9002251452429_2_alg».proof.Proof.LibRealClosure

noncomputable section

namespace Cert.PreFacts

open Idealize.ShloMosaic Cert.Pre_finite_inputs Cert.LibRealClosure

/-- The rank-0 shape has one index. -/
instance : Subsingleton S_.Idx := ⟨fun a b => funext fun d => d.elim0⟩

/-- The single-precision word 0x7F800000 denotes plus infinity. -/
theorem ofBits_f32_inf : Ideal.ofBits .f32 0x7F800000#32 = ⊤ := by
  simp [Ideal.ofBits, Ideal.ieee]

/-- A bit made from a Boolean is 1 exactly when the Boolean is true. -/
theorem ofBool_eq_one (b : Bool) : BitVec.ofBool b = 1#1 ↔ b = true := by cases b <;> decide

/-- An extended real whose absolute value is below plus infinity is real. -/
theorem isReal_of_abs_lt_top {x : EReal} (h : max x (-x) < ⊤) : IsReal x := by
  refine isReal_of_ne ?_ ?_
  · rintro rfl
    simp at h
  · rintro rfl
    simp at h

/-- The element test "|x| < the word 0x7F800000" being 1 says x is real. -/
theorem isReal_of_test {x : Ideal .f32}
    (h : FloatOps.cmpf .olt (FloatOps.hostAbsf x) (FloatOps.ofBits (F := Ideal) .f32 0x7F800000#32) = 1#1) : IsReal x := by
  change Ideal.cmp .olt (max x (-x)) (Ideal.ofBits .f32 0x7F800000#32) = 1#1 at h
  rw [ofBits_f32_inf] at h
  unfold Ideal.cmp at h
  rw [ofBool_eq_one] at h
  exact isReal_of_abs_lt_top (of_decide_eq_true h)

/-- The element test "x = the word 0x00000000 or x = the word 0x3F800000" being 1 says x is 0 or 1. -/
theorem zero_or_one_of_test {x : Ideal .f32}
    (h : IntOp.ori (FloatOps.cmpf .oeq x (FloatOps.ofBits (F := Ideal) .f32 0x00000000#32))
          (FloatOps.cmpf .oeq x (FloatOps.ofBits (F := Ideal) .f32 0x3F800000#32)) = 1#1) : x = 0 ∨ x = 1 := by
  change IntOp.ori (Ideal.cmp .oeq x (Ideal.ofBits .f32 0x00000000#32))
          (Ideal.cmp .oeq x (Ideal.ofBits .f32 0x3F800000#32)) = 1#1 at h
  rw [ofBits_f32_zero, ofBits_f32_one, IntOp.ori_eq_one] at h
  unfold Ideal.cmp at h
  rw [ofBool_eq_one, ofBool_eq_one] at h
  rcases h with h | h
  · exact Or.inl (of_decide_eq_true h)
  · exact Or.inr (of_decide_eq_true h)

/-- One conjunct "every entry of |x| is below plus infinity", read back: every entry of x is real. -/
theorem all_real {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant S_ .f32 0x7F800000#32)))
          (constantI S_ 1 1#1) hr hu j = 1#1) (i : s.Idx) : IsReal (x i) :=
  isReal_of_test (Host.reduce_andi_all _ _ hr hu j e i)

/-- The last conjunct "every entry of x is 0 or 1", read back. -/
theorem all_zero_or_one {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
          (ori (cmpf .oeq x (broadcastInDim s ![] hb (constant S_ .f32 0x00000000#32)))
               (cmpf .oeq x (broadcastInDim s ![] hb (constant S_ .f32 0x3F800000#32))))
          (constantI S_ 1 1#1) hr hu j = 1#1) (i : s.Idx) : x i = 0 ∨ x i = 1 :=
  zero_or_one_of_test (Host.reduce_andi_all _ _ hr hu j e i)

/-- THE PRECONDITION DECODED: every float input is real at every entry, and every entry of the adjacency is 0 or 1. -/
theorem decode [Cert.Pre_finite_inputs.Facts]
    (a0 : FVec Ideal S8x2048x32 .f32) (a1 : IVec S8x2048x2048 32) (a2 : FVec Ideal S8x2048x2048 .f32)
    (a3 : FVec Ideal S3x32x64 .f32) (a4 : FVec Ideal S64 .f32) (a5 : FVec Ideal S3x64x64 .f32)
    (a6 : FVec Ideal S64 .f32) (a7 : FVec Ideal S3x64x64 .f32) (a8 : FVec Ideal S64 .f32)
    (a9 : FVec Ideal S192x64 .f32) (a10 : FVec Ideal S64 .f32)
    (h : Cert.Pre_finite_inputs.fn (F := Ideal) a0 a1 a2 a3 a4 a5 a6 a7 a8 a9 a10 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i)) ∧ (∀ i, IsReal (a10 i))
      ∧ (∀ i, a2 i = 0 ∨ a2 i = 1) := by
  have e := congrFun h (fun a => a.elim0)
  dsimp only [fn, fn_part1, fn_part2, fn_part3] at e
  simp only [andi, IntOp.andi_eq_one] at e
  obtain ⟨⟨⟨⟨⟨⟨⟨⟨⟨⟨e0, e2⟩, e3⟩, e4⟩, e5⟩, e6⟩, e7⟩, e8⟩, e9⟩, e10⟩, eadj⟩ := e
  exact ⟨all_real a0 _ _ _ _ e0, all_real a2 _ _ _ _ e2, all_real a3 _ _ _ _ e3, all_real a4 _ _ _ _ e4,
    all_real a5 _ _ _ _ e5, all_real a6 _ _ _ _ e6, all_real a7 _ _ _ _ e7, all_real a8 _ _ _ _ e8,
    all_real a9 _ _ _ _ e9, all_real a10 _ _ _ _ e10, all_zero_or_one a2 _ _ _ _ eadj⟩

end Cert.PreFacts

end
-- ==== Proof.KiAlg.lean ====
/-
  The bridge.  Layer by layer the kernel's result array equals the reference's stage of the same inputs: the kernel sums,
  over the neighbours j, the mask times the PROJECTED features (features times weights), the reference projects the
  masked sum; on reals the two are one double sum.  The inputs are reals by the precondition; a layer's output is a real
  array (a row divided by a positive real), and the batch normalisation of a real array is real, so the next layer's
  input is real again.  In layers 2 and 3 the reference also sums the terms of labels 2 and 3 of the adjacency array,
  which vanish because its entries are 0 or 1.  The stretches of host operations after each call are the same chains in
  both programs and are carried as opaque functions.
-/
import proofs.«165070_j9002251452429_2_alg».proof.Proof.KiEnds
import proofs.«165070_j9002251452429_2_alg».proof.Proof.KiHost
import proofs.«165070_j9002251452429_2_alg».proof.Proof.KiVal0
import proofs.«165070_j9002251452429_2_alg».proof.Proof.KiVal1
import proofs.«165070_j9002251452429_2_alg».proof.Proof.KiVal2
import proofs.«165070_j9002251452429_2_alg».proof.Proof.RefConv1
import proofs.«165070_j9002251452429_2_alg».proof.Proof.RefConv2
import proofs.«165070_j9002251452429_2_alg».proof.Proof.RefConv3
import proofs.«165070_j9002251452429_2_alg».proof.Proof.ConvBridge
import proofs.«165070_j9002251452429_2_alg».proof.Proof.PreFacts

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.LibRealClosure (IsReal)
open Cert.Bridge (isReal_relu isReal_nrm isReal_eps12 eps12_pos)
open Idealize.ShloMosaic.ValueIdx
open Cert.ReferenceIdeal.ReadP (val_main_v36 val_main_v54 val_main_v92 val_main_v110 val_main_v147)
open Cert.ReferenceIdeal.Hand (bn mx bn_real)

variable (m : (ℓ : Loc nD τ sig) → Buf (Elt Ideal) ℓ) (ρ : Dev nD → PrngReg) (c : Dev nD)

/-- Every index of a rank-3 array is built from its three coordinates. -/
theorem idx3 {a b d : ℕ} (x : (⟨3, ![a, b, d]⟩ : Shape).Idx) : x = ix3 (x 0) (x 1) (x 2) := eq_ix3 x

/-- An array of extended reals whose entries are 0 or 1. -/
def Is01 (A : (⟨3, ![8, 2048, 2048]⟩ : Shape).Idx → EReal) : Prop := ∀ i, A i = 0 ∨ A i = 1

/-- What the precondition says of the argument arrays on core `c`: the float inputs are real arrays and the adjacency
    array has entries 0 or 1. -/
structure Inputs : Prop where
  r0 : ∀ i, IsReal ((m ((c.tc : Thread nD τ).loc main_arg0)) i)
  r3 : ∀ i, IsReal ((m ((c.tc : Thread nD τ).loc main_arg3)) i)
  r4 : ∀ i, IsReal ((m ((c.tc : Thread nD τ).loc main_arg4)) i)
  r5 : ∀ i, IsReal ((m ((c.tc : Thread nD τ).loc main_arg5)) i)
  r6 : ∀ i, IsReal ((m ((c.tc : Thread nD τ).loc main_arg6)) i)
  r7 : ∀ i, IsReal ((m ((c.tc : Thread nD τ).loc main_arg7)) i)
  r8 : ∀ i, IsReal ((m ((c.tc : Thread nD τ).loc main_arg8)) i)
  a01 : Is01 (m ((c.tc : Thread nD τ).loc main_arg2))

/-! ## Layer 1 -/

/-- The first call's result array is the reference's first layer, entry by entry: the masked sum of the projected
    features is the projection of the masked sum, every entry being a real. -/
theorem layer1 (h : Inputs m c) :
    W1 m ρ c (Proc.devRef .tc main_v0) = val_main_v36 (F := Ideal) (m ((c.tc : Thread nD τ).loc main_arg0)) (m ((c.tc : Thread nD τ).loc main_arg1)) (m ((c.tc : Thread nD τ).loc main_arg3)) (m ((c.tc : Thread nD τ).loc main_arg4)) := by
  refine (W1_arr m ρ c 4).trans ?_
  rw [final0]
  funext x
  rw [idx3 x]
  exact (Cert.Bridge.conv1_bridge _ _ _ _ h.r0 h.r3 _ _ _).trans (Cert.ReferenceIdeal.Hand.ref_conv1 _ _ _ _ _ _ _).symm

/-- The first layer's output is a real array. -/
theorem R1_real (h : Inputs m c) : ∀ x, IsReal (val_main_v36 (F := Ideal) (m ((c.tc : Thread nD τ).loc main_arg0)) (m ((c.tc : Thread nD τ).loc main_arg1)) (m ((c.tc : Thread nD τ).loc main_arg3)) (m ((c.tc : Thread nD τ).loc main_arg4)) x) := fun x => by
  have e : val_main_v36 (F := Ideal) (m ((c.tc : Thread nD τ).loc main_arg0)) (m ((c.tc : Thread nD τ).loc main_arg1)) (m ((c.tc : Thread nD τ).loc main_arg3)) (m ((c.tc : Thread nD τ).loc main_arg4)) x = _ :=
    (congrArg _ (eq_ix3 x)).trans (Cert.ReferenceIdeal.Hand.ref_conv1 _ _ _ _ (x 0) (x 1) (x 2))
  rw [e]
  exact isReal_relu (isReal_nrm _ isReal_eps12 eps12_pos _ (fun e' => Cert.Bridge.yR1_real _ _ _ _ h.r0 h.r3 h.r4 _ _ e') _)

/-! ## Layer 2 -/

theorem layer2 (h : Inputs m c) :
    W3 m ρ c (Proc.devRef .tc main_v21) = val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W3_arr m ρ c 4).trans ?_
  rw [final1]
  funext x
  rw [idx3 x]
  show G1 (W2 m ρ c (Proc.devRef .tc main_v18)) (W2 m ρ c (Proc.devRef .tc main_arg2)) (W2 m ρ c (Proc.devRef .tc main_v20))
    (W2 m ρ c (Proc.devRef .tc main_arg6)) (x 0) (x 1) (x 2) = _
  rw [W2_v18, W2_main_arg2, W2_v20, W2_main_arg6, W1_main_arg5, layer1 m ρ c h]
  exact (Cert.Bridge.conv2_bridge _ _ (m ((c.tc : Thread nD τ).loc main_arg5)) _ _ (fun d e => slice0_apply _ d e)
      (bn_real _ (R1_real m c h)) h.r5 h.a01 _ _ _).trans (Cert.ReferenceIdeal.Hand.ref_conv2 _ _ _ _ _ _ _ _ _ _).symm

theorem R2_real (h : Inputs m c) : ∀ x, IsReal (val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) x) := fun x => by
  have e : val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) x = _ :=
    (congrArg _ (eq_ix3 x)).trans (Cert.ReferenceIdeal.Hand.ref_conv2 _ _ _ _ _ _ _ (x 0) (x 1) (x 2))
  rw [e]
  exact isReal_relu (isReal_nrm _ isReal_eps12 eps12_pos _
    (fun e' => Cert.Bridge.yR2_real _ _ _ _ (bn_real _ (R1_real m c h)) h.r5 h.r6 _ _ e') _)

/-! ## Layer 3 -/

theorem layer3 (h : Inputs m c) :
    W5 m ρ c (Proc.devRef .tc main_v42) = val_main_v147 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W5_arr m ρ c 4).trans ?_
  rw [final2]
  funext x
  rw [idx3 x]
  show G2 (W4 m ρ c (Proc.devRef .tc main_v39)) (W4 m ρ c (Proc.devRef .tc main_arg2)) (W4 m ρ c (Proc.devRef .tc main_v41))
    (W4 m ρ c (Proc.devRef .tc main_arg8)) (x 0) (x 1) (x 2) = _
  rw [W4_v39, W4_main_arg2, W4_v41, W4_main_arg8, W3_main_arg7, layer2 m ρ c h]
  exact (Cert.Bridge.conv3_bridge _ _ (m ((c.tc : Thread nD τ).loc main_arg7)) _ _ (fun d e => slice0_apply _ d e)
      (bn_real _ (R2_real m c h)) h.r7 h.a01 _ _ _).trans (Cert.ReferenceIdeal.Hand.ref_conv3 _ _ _ _ _ _ _ _ _ _ _ _).symm

/-! ## The results -/

theorem kernel_v44 (h : Inputs m c) :
    W6 m ρ c (Proc.devRef .tc main_v44)
      = Cert.ReferenceIdeal.Hand.out0 (mx (bn (val_main_v36 (F := Ideal) (m ((c.tc : Thread nD τ).loc main_arg0)) (m ((c.tc : Thread nD τ).loc main_arg1)) (m ((c.tc : Thread nD τ).loc main_arg3)) (m ((c.tc : Thread nD τ).loc main_arg4)))))
          (mx (bn (val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))))
          (mx (val_main_v147 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))) := by
  rw [W6_v44, W5_v19, W4_v19, W3_v19, W2_v19, W5_v40, W4_v40, layer1 m ρ c h, layer2 m ρ c h, layer3 m ρ c h]

theorem kernel_v48 (h : Inputs m c) :
    W6 m ρ c (Proc.devRef .tc main_v48)
      = Cert.ReferenceIdeal.Hand.out1 (mx (bn (val_main_v36 (F := Ideal) (m ((c.tc : Thread nD τ).loc main_arg0)) (m ((c.tc : Thread nD τ).loc main_arg1)) (m ((c.tc : Thread nD τ).loc main_arg3)) (m ((c.tc : Thread nD τ).loc main_arg4)))))
          (mx (bn (val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))))
          (mx (val_main_v147 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))) (m ((c.tc : Thread nD τ).loc main_arg9)) (m ((c.tc : Thread nD τ).loc main_arg10)) := by
  rw [W6_v48, W5_v19, W4_v19, W3_v19, W2_v19, W5_v40, W4_v40, W5_main_arg9, W5_main_arg10, layer1 m ρ c h, layer2 m ρ c h, layer3 m ρ c h]

end Cert.KernelIdeal.Hand

end
-- ==== Proof.RefArgs.lean ====
/-
  No operation of the reference writes an argument array: folded over the launch contents, the operations leave each
  argument's buffer as launched, so the reference's run ends with its arguments unchanged (its frame).
-/
import proofs.«165070_j9002251452429_2_alg».proof.Proof.RefRunP

noncomputable section

namespace Cert.ReferenceIdeal.Hand

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

set_option maxRecDepth 8192 in
set_option maxHeartbeats 75600000 in
/-- Argument 0 is no operation's result. -/
theorem fold_arg0 (m : (ℓ : Loc nD τ sig) → Buf (Elt F) ℓ) (c : Dev nD) :
    after ops (launchContents m c) (Proc.devRef .tc main_arg0) = m ((c.tc : Thread nD τ).loc main_arg0) := by
  after_results_simp <;> rfl

set_option maxRecDepth 8192 in
set_option maxHeartbeats 75600000 in
/-- Argument 1 is no operation's result. -/
theorem fold_arg1 (m : (ℓ : Loc nD τ sig) → Buf (Elt F) ℓ) (c : Dev nD) :
    after ops (launchContents m c) (Proc.devRef .tc main_arg1) = m ((c.tc : Thread nD τ).loc main_arg1) := by
  after_results_simp <;> rfl

set_option maxRecDepth 8192 in
set_option maxHeartbeats 75600000 in
/-- Argument 2 is no operation's result. -/
theorem fold_arg2 (m : (ℓ : Loc nD τ sig) → Buf (Elt F) ℓ) (c : Dev nD) :
    after ops (launchContents m c) (Proc.devRef .tc main_arg2) = m ((c.tc : Thread nD τ).loc main_arg2) := by
  after_results_simp <;> rfl

set_option maxRecDepth 8192 in
set_option maxHeartbeats 75600000 in
/-- Argument 3 is no operation's result. -/
theorem fold_arg3 (m : (ℓ : Loc nD τ sig) → Buf (Elt F) ℓ) (c : Dev nD) :
    after ops (launchContents m c) (Proc.devRef .tc main_arg3) = m ((c.tc : Thread nD τ).loc main_arg3) := by
  after_results_simp <;> rfl

set_option maxRecDepth 8192 in
set_option maxHeartbeats 75600000 in
/-- Argument 4 is no operation's result. -/
theorem fold_arg4 (m : (ℓ : Loc nD τ sig) → Buf (Elt F) ℓ) (c : Dev nD) :
    after ops (launchContents m c) (Proc.devRef .tc main_arg4) = m ((c.tc : Thread nD τ).loc main_arg4) := by
  after_results_simp <;> rfl

set_option maxRecDepth 8192 in
set_option maxHeartbeats 75600000 in
/-- Argument 5 is no operation's result. -/
theorem fold_arg5 (m : (ℓ : Loc nD τ sig) → Buf (Elt F) ℓ) (c : Dev nD) :
    after ops (launchContents m c) (Proc.devRef .tc main_arg5) = m ((c.tc : Thread nD τ).loc main_arg5) := by
  after_results_simp <;> rfl

set_option maxRecDepth 8192 in
set_option maxHeartbeats 75600000 in
/-- Argument 6 is no operation's result. -/
theorem fold_arg6 (m : (ℓ : Loc nD τ sig) → Buf (Elt F) ℓ) (c : Dev nD) :
    after ops (launchContents m c) (Proc.devRef .tc main_arg6) = m ((c.tc : Thread nD τ).loc main_arg6) := by
  after_results_simp <;> rfl

set_option maxRecDepth 8192 in
set_option maxHeartbeats 75600000 in
/-- Argument 7 is no operation's result. -/
theorem fold_arg7 (m : (ℓ : Loc nD τ sig) → Buf (Elt F) ℓ) (c : Dev nD) :
    after ops (launchContents m c) (Proc.devRef .tc main_arg7) = m ((c.tc : Thread nD τ).loc main_arg7) := by
  after_results_simp <;> rfl

set_option maxRecDepth 8192 in
set_option maxHeartbeats 75600000 in
/-- Argument 8 is no operation's result. -/
theorem fold_arg8 (m : (ℓ : Loc nD τ sig) → Buf (Elt F) ℓ) (c : Dev nD) :
    after ops (launchContents m c) (Proc.devRef .tc main_arg8) = m ((c.tc : Thread nD τ).loc main_arg8) := by
  after_results_simp <;> rfl

set_option maxRecDepth 8192 in
set_option maxHeartbeats 75600000 in
/-- Argument 9 is no operation's result. -/
theorem fold_arg9 (m : (ℓ : Loc nD τ sig) → Buf (Elt F) ℓ) (c : Dev nD) :
    after ops (launchContents m c) (Proc.devRef .tc main_arg9) = m ((c.tc : Thread nD τ).loc main_arg9) := by
  after_results_simp <;> rfl

set_option maxRecDepth 8192 in
set_option maxHeartbeats 75600000 in
/-- Argument 10 is no operation's result. -/
theorem fold_arg10 (m : (ℓ : Loc nD τ sig) → Buf (Elt F) ℓ) (c : Dev nD) :
    after ops (launchContents m c) (Proc.devRef .tc main_arg10) = m ((c.tc : Thread nD τ).loc main_arg10) := by
  after_results_simp <;> rfl

/-- The reference runs to the end and its arguments end unchanged. -/
theorem run_args (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_arg0).trans (fold_arg0 m c),
      (h c main_arg1).trans (fold_arg1 m c),
      (h c main_arg2).trans (fold_arg2 m c),
      (h c main_arg3).trans (fold_arg3 m c),
      (h c main_arg4).trans (fold_arg4 m c),
      (h c main_arg5).trans (fold_arg5 m c),
      (h c main_arg6).trans (fold_arg6 m c),
      (h c main_arg7).trans (fold_arg7 m c),
      (h c main_arg8).trans (fold_arg8 m c),
      (h c main_arg9).trans (fold_arg9 m c),
      (h c main_arg10).trans (fold_arg10 m c)⟩)
    (run_fold m ρ)

end Cert.ReferenceIdeal.Hand

end
-- ==== Proof.RefFold.lean ====
/-
  The reference's two results, read out of the fold of its 189 host operations a stretch at a time.

  The line of operations is cut into seven stretches: each layer's convolution, and after each the normalisation
  over the batch and feature axes with the maximum over the nodes (after the third layer, which is not
  normalised over the batch, a stretch with the maximum alone, then one with the concatenation, the final matrix
  product and the bias). The contents after the whole line are the contents after the last
  stretch started from the contents after the earlier ones. Over any starting contents, each stretch leaves at
  its result buffers the stretch's function of what the contents held at the buffers it reads, and leaves every
  buffer it does not write as it was. Chaining the seven readings gives each result as a function of the arguments.
-/
import proofs.«165070_j9002251452429_2_alg».proof.Proof.RefRunP
import proofs.«165070_j9002251452429_2_alg».proof.Proof.RefTails
import proofs.«165070_j9002251452429_2_alg».proof.Proof.LibHostFold

set_option maxRecDepth 16384

noncomputable section

namespace Cert.ReferenceIdeal.Hand

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The seven stretches -/

/-- The first layer's operations: the three masked sums, the bias, the row normalisation and the positive part. -/
abbrev s1 : List (HloOp τ sig (Elt F)) :=
  [ nullary main_cst (constant S_ .f32 0x00000000#32),
    unary main_cst main_v0 (broadcastInDim S8x2048x64 ![] bcast_S_S8x2048x64 : (⟨S_, .f32⟩ : BufTy).Contents (Elt F) → (⟨S8x2048x64, .f32⟩ : BufTy).Contents (Elt F)),
    nullary main_c (constantI S_ 32 1#32),
    unary main_c main_v1 (broadcastInDim S8x2048x2048 ![] bcast_S_S8x2048x2048 : (⟨S_, .i32⟩ : BufTy).Contents (Elt F) → (⟨S8x2048x2048, .i32⟩ : BufTy).Contents (Elt F)),
    binary main_arg1 main_v1 main_v2 (cmpi .eq : (⟨S8x2048x2048, .i32⟩ : BufTy).Contents (Elt F) → (⟨S8x2048x2048, .i32⟩ : BufTy).Contents (Elt F) → (⟨S8x2048x2048, .i1⟩ : BufTy).Contents (Elt F)),
    unary main_v2 main_v3 (uitofp .f32 : (⟨S8x2048x2048, .i1⟩ : BufTy).Contents (Elt F) → (⟨S8x2048x2048, .f32⟩ : BufTy).Contents (Elt F)),
    binary main_v3 main_arg0 main_v4 ((fun l r => Host.dotGeneral dot_S8x2048x2048_S8x2048x32_S8x2048x32_2_1_1_2_0_0 none l r) : (⟨S8x2048x2048, .f32⟩ : BufTy).Contents (Elt F) → (⟨S8x2048x32, .f32⟩ : BufTy).Contents (Elt F) → (⟨S8x2048x32, .f32⟩ : BufTy).Contents (Elt F)),
    unary main_arg3 main_v5 ((extractStridedSlice S1x32x64 ![0, 0, 0] · slices_S3x32x64_S1x32x64_0_0_0) : (⟨S3x32x64, .f32⟩ : BufTy).Contents (Elt F) → (⟨S1x32x64, .f32⟩ : BufTy).Contents (Elt F)),
    reshape main_v5 main_v6 rfl shapeCasts_S1x32x64_S32x64,
    binary main_v4 main_v6 main_v7 ((fun l r => Host.dotGeneral dot_S8x2048x32_S32x64_S8x2048x64_2_0_01_1_n_n none l r) : (⟨S8x2048x32, .f32⟩ : BufTy).Contents (Elt F) → (⟨S32x64, .f32⟩ : BufTy).Contents (Elt F) → (⟨S8x2048x64, .f32⟩ : BufTy).Contents (Elt F)),
    binary main_v0 main_v7 main_v8 (addf : (⟨S8x2048x64, .f32⟩ : BufTy).Contents (Elt F) → (⟨S8x2048x64, .f32⟩ : BufTy).Contents (Elt F) → (⟨S8x2048x64, .f32⟩ : BufTy).Contents (Elt F)),
    nullary main_c_0 (constantI S_ 32 2#32),
    unary main_c_0 main_v9 (broadcastInDim S8x2048x2048 ![] bcast_S_S8x2048x2048 : (⟨S_, .i32⟩ : BufTy).Contents (Elt F) → (⟨S8x2048x2048, .i32⟩ : BufTy).Contents (Elt F)),
    binary main_arg1 main_v9 main_v10 (cmpi .eq : (⟨S8x2048x2048, .i32⟩ : BufTy).Contents (Elt F) → (⟨S8x2048x2048, .i32⟩ : BufTy).Contents (Elt F) → (⟨S8x2048x2048, .i1⟩ : BufTy).Contents (Elt F)),
    unary main_v10 main_v11 (uitofp .f32 : (⟨S8x2048x2048, .i1⟩ : BufTy).Contents (Elt F) → (⟨S8x2048x2048, .f32⟩ : BufTy).Contents (Elt F)),
    binary main_v11 main_arg0 main_v12 ((fun l r => Host.dotGeneral dot_S8x2048x2048_S8x2048x32_S8x2048x32_2_1_1_2_0_0 none l r) : (⟨S8x2048x2048, .f32⟩ : BufTy).Contents (Elt F) → (⟨S8x2048x32, .f32⟩ : BufTy).Contents (Elt F) → (⟨S8x2048x32, .f32⟩ : BufTy).Contents (Elt F)),
    unary main_arg3 main_v13 ((extractStridedSlice S1x32x64 ![1, 0, 0] · slices_S3x32x64_S1x32x64_1_0_0) : (⟨S3x32x64, .f32⟩ : BufTy).Contents (Elt F) → (⟨S1x32x64, .f32⟩ : BufTy).Contents (Elt F)),
    reshape main_v13 main_v14 rfl shapeCasts_S1x32x64_S32x64,
    binary main_v12 main_v14 main_v15 ((fun l r => Host.dotGeneral dot_S8x2048x32_S32x64_S8x2048x64_2_0_01_1_n_n none l r) : (⟨S8x2048x32, .f32⟩ : BufTy).Contents (Elt F) → (⟨S32x64, .f32⟩ : BufTy).Contents (Elt F) → (⟨S8x2048x64, .f32⟩ : BufTy).Contents (Elt F)),
    binary main_v8 main_v15 main_v16 (addf : (⟨S8x2048x64, .f32⟩ : BufTy).Contents (Elt F) → (⟨S8x2048x64, .f32⟩ : BufTy).Contents (Elt F) → (⟨S8x2048x64, .f32⟩ : BufTy).Contents (Elt F)),
    nullary main_c_1 (constantI S_ 32 3#32),
    unary main_c_1 main_v17 (broadcastInDim S8x2048x2048 ![] bcast_S_S8x2048x2048 : (⟨S_, .i32⟩ : BufTy).Contents (Elt F) → (⟨S8x2048x2048, .i32⟩ : BufTy).Contents (Elt F)),
    binary main_arg1 main_v17 main_v18 (cmpi .eq : (⟨S8x2048x2048, .i32⟩ : BufTy).Contents (Elt F) → (⟨S8x2048x2048, .i32⟩ : BufTy).Contents (Elt F) → (⟨S8x2048x2048, .i1⟩ : BufTy).Contents (Elt F)),
    unary main_v18 main_v19 (uitofp .f32 : (⟨S8x2048x2048, .i1⟩ : BufTy).Contents (Elt F) → (⟨S8x2048x2048, .f32⟩ : BufTy).Contents (Elt F)),
    binary main_v19 main_arg0 main_v20 ((fun l r => Host.dotGeneral dot_S8x2048x2048_S8x2048x32_S8x2048x32_2_1_1_2_0_0 none l r) : (⟨S8x2048x2048, .f32⟩ : BufTy).Contents (Elt F) → (⟨S8x2048x32, .f32⟩ : BufTy).Contents (Elt F) → (⟨S8x2048x32, .f32⟩ : BufTy).Contents (Elt F)),
    unary main_arg3 main_v21 ((extractStridedSlice S1x32x64 ![2, 0, 0] · slices_S3x32x64_S1x32x64_2_0_0) : (⟨S3x32x64, .f32⟩ : BufTy).Contents (Elt F) → (⟨S1x32x64, .f32⟩ : BufTy).Contents (Elt F)),
    reshape main_v21 main_v22 rfl shapeCasts_S1x32x64_S32x64,
    binary main_v20 main_v22 main_v23 ((fun l r => Host.dotGeneral dot_S8x2048x32_S32x64_S8x2048x64_2_0_01_1_n_n none l r) : (⟨S8x2048x32, .f32⟩ : BufTy).Contents (Elt F) → (⟨S32x64, .f32⟩ : BufTy).Contents (Elt F) → (⟨S8x2048x64, .f32⟩ : BufTy).Contents (Elt F)),
    binary main_v16 main_v23 main_v24 (addf : (⟨S8x2048x64, .f32⟩ : BufTy).Contents (Elt F) → (⟨S8x2048x64, .f32⟩ : BufTy).Contents (Elt F) → (⟨S8x2048x64, .f32⟩ : BufTy).Contents (Elt F)),
    unary main_arg4 main_v25 (broadcastInDim S1x1x64 ![2] bcast_S64_S1x1x64_2 : (⟨S64, .f32⟩ : BufTy).Contents (Elt F) → (⟨S1x1x64, .f32⟩ : BufTy).Contents (Elt F)),
    unary main_v25 main_v26 (broadcastInDim S8x2048x64 ![0, 1, 2] bcast_S1x1x64_S8x2048x64_0_1_2 : (⟨S1x1x64, .f32⟩ : BufTy).Contents (Elt F) → (⟨S8x2048x64, .f32⟩ : BufTy).Contents (Elt F)),
    binary main_v24 main_v26 main_v27 (addf : (⟨S8x2048x64, .f32⟩ : BufTy).Contents (Elt F) → (⟨S8x2048x64, .f32⟩ : BufTy).Contents (Elt F) → (⟨S8x2048x64, .f32⟩ : BufTy).Contents (Elt F)),
    binary main_v27 main_v27 main_v28 (mulf : (⟨S8x2048x64, .f32⟩ : BufTy).Contents (Elt F) → (⟨S8x2048x64, .f32⟩ : BufTy).Contents (Elt F) → (⟨S8x2048x64, .f32⟩ : BufTy).Contents (Elt F)),
    nullary main_cst_2 (constant S_ .f32 0x00000000#32),
    binary main_v28 main_cst_2 main_v29 ((fun x v => Host.reduceAdd x v reducesTo_S8x2048x64_S8x2048_d2 h_S_) : (⟨S8x2048x64, .f32⟩ : BufTy).Contents (Elt F) → (⟨S_, .f32⟩ : BufTy).Contents (Elt F) → (⟨S8x2048, .f32⟩ : BufTy).Contents (Elt F)),
    unary main_v29 main_v30 (broadcastInDim S8x2048x1 ![0, 1] bcast_S8x2048_S8x2048x1_0_1 : (⟨S8x2048, .f32⟩ : BufTy).Contents (Elt F) → (⟨S8x2048x1, .f32⟩ : BufTy).Contents (Elt F)),
    unary main_v30 main_v31 (Host.sqrt : (⟨S8x2048x1, .f32⟩ : BufTy).Contents (Elt F) → (⟨S8x2048x1, .f32⟩ : BufTy).Contents (Elt F)),
    nullary main_cst_3 (constant S_ .f32 0x2B8CBCCC#32),
    unary main_cst_3 main_v32 (broadcastInDim S8x2048x1 ![] bcast_S_S8x2048x1 : (⟨S_, .f32⟩ : BufTy).Contents (Elt F) → (⟨S8x2048x1, .f32⟩ : BufTy).Contents (Elt F)),
    binary main_v31 main_v32 main_v33 (maximumf : (⟨S8x2048x1, .f32⟩ : BufTy).Contents (Elt F) → (⟨S8x2048x1, .f32⟩ : BufTy).Contents (Elt F) → (⟨S8x2048x1, .f32⟩ : BufTy).Contents (Elt F)),
    unary main_v33 main_v34 (broadcastInDim S8x2048x64 ![0, 1, 2] bcast_S8x2048x1_S8x2048x64_0_1_2 : (⟨S8x2048x1, .f32⟩ : BufTy).Contents (Elt F) → (⟨S8x2048x64, .f32⟩ : BufTy).Contents (Elt F)),
    binary main_v27 main_v34 main_v35 (Host.divf : (⟨S8x2048x64, .f32⟩ : BufTy).Contents (Elt F) → (⟨S8x2048x64, .f32⟩ : BufTy).Contents (Elt F) → (⟨S8x2048x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8x2048x64, .f32⟩) main_call0_v0) (broadcastInDim S8x2048x64 ![] bcast_S_S8x2048x64),
    TRef.binary (TRef.of (T := ⟨S8x2048x64, .f32⟩) main_v35) (TRef.of (T := ⟨S8x2048x64, .f32⟩) main_call0_v0) (TRef.of (T := ⟨S8x2048x64, .f32⟩) main_v36) maximumf ]

/-- The normalisation over the batch and feature axes of the first layer's activation, and its maximum over the nodes. -/
abbrev s2 : List (HloOp τ sig (Elt F)) :=
  [ nullary main_cst_4 (constant S_ .f32 0x00000000#32),
    binary main_v36 main_cst_4 main_v37 ((fun x v => Host.reduceAdd x v reducesTo_S8x2048x64_S2048_d0_2 h_S_) : (⟨S8x2048x64, .f32⟩ : BufTy).Contents (Elt F) → (⟨S_, .f32⟩ : BufTy).Contents (Elt F) → (⟨S2048, .f32⟩ : BufTy).Contents (Elt F)),
    unary main_v37 main_v38 (broadcastInDim S1x2048x1 ![1] bcast_S2048_S1x2048x1_1 : (⟨S2048, .f32⟩ : BufTy).Contents (Elt F) → (⟨S1x2048x1, .f32⟩ : BufTy).Contents (Elt F)),
    nullary main_cst_5 (constant S_ .f32 0x44000000#32),
    unary main_cst_5 main_v39 (broadcastInDim S1x2048x1 ![] bcast_S_S1x2048x1 : (⟨S_, .f32⟩ : BufTy).Contents (Elt F) → (⟨S1x2048x1, .f32⟩ : BufTy).Contents (Elt F)),
    binary main_v38 main_v39 main_v40 (Host.divf : (⟨S1x2048x1, .f32⟩ : BufTy).Contents (Elt F) → (⟨S1x2048x1, .f32⟩ : BufTy).Contents (Elt F) → (⟨S1x2048x1, .f32⟩ : BufTy).Contents (Elt F)),
    unary main_v40 main_v41 (broadcastInDim S8x2048x64 ![0, 1, 2] bcast_S1x2048x1_S8x2048x64_0_1_2 : (⟨S1x2048x1, .f32⟩ : BufTy).Contents (Elt F) → (⟨S8x2048x64, .f32⟩ : BufTy).Contents (Elt F)),
    binary main_v36 main_v41 main_v42 (subf : (⟨S8x2048x64, .f32⟩ : BufTy).Contents (Elt F) → (⟨S8x2048x64, .f32⟩ : BufTy).Contents (Elt F) → (⟨S8x2048x64, .f32⟩ : BufTy).Contents (Elt F)),
    binary main_v42 main_v42 main_v43 (mulf : (⟨S8x2048x64, .f32⟩ : BufTy).Contents (Elt F) → (⟨S8x2048x64, .f32⟩ : BufTy).Contents (Elt F) → (⟨S8x2048x64, .f32⟩ : BufTy).Contents (Elt F)),
    nullary main_cst_6 (constant S_ .f32 0x00000000#32),
    binary main_v43 main_cst_6 main_v44 ((fun x v => Host.reduceAdd x v reducesTo_S8x2048x64_S2048_d0_2 h_S_) : (⟨S8x2048x64, .f32⟩ : BufTy).Contents (Elt F) → (⟨S_, .f32⟩ : BufTy).Contents (Elt F) → (⟨S2048, .f32⟩ : BufTy).Contents (Elt F)),
    unary main_v44 main_v45 (broadcastInDim S1x2048x1 ![1] bcast_S2048_S1x2048x1_1 : (⟨S2048, .f32⟩ : BufTy).Contents (Elt F) → (⟨S1x2048x1, .f32⟩ : BufTy).Contents (Elt F)),
    nullary main_cst_7 (constant S_ .f32 0x44000000#32),
    unary main_cst_7 main_v46 (broadcastInDim S1x2048x1 ![] bcast_S_S1x2048x1 : (⟨S_, .f32⟩ : BufTy).Contents (Elt F) → (⟨S1x2048x1, .f32⟩ : BufTy).Contents (Elt F)),
    binary main_v45 main_v46 main_v47 (Host.divf : (⟨S1x2048x1, .f32⟩ : BufTy).Contents (Elt F) → (⟨S1x2048x1, .f32⟩ : BufTy).Contents (Elt F) → (⟨S1x2048x1, .f32⟩ : BufTy).Contents (Elt F)),
    unary main_v40 main_v48 (broadcastInDim S8x2048x64 ![0, 1, 2] bcast_S1x2048x1_S8x2048x64_0_1_2 : (⟨S1x2048x1, .f32⟩ : BufTy).Contents (Elt F) → (⟨S8x2048x64, .f32⟩ : BufTy).Contents (Elt F)),
    binary main_v36 main_v48 main_v49 (subf : (⟨S8x2048x64, .f32⟩ : BufTy).Contents (Elt F) → (⟨S8x2048x64, .f32⟩ : BufTy).Contents (Elt F) → (⟨S8x2048x64, .f32⟩ : BufTy).Contents (Elt F)),
    nullary main_cst_8 (constant S_ .f32 0x3727C5AC#32),
    unary main_cst_8 main_v50 (broadcastInDim S1x2048x1 ![] bcast_S_S1x2048x1 : (⟨S_, .f32⟩ : BufTy).Contents (Elt F) → (⟨S1x2048x1, .f32⟩ : BufTy).Contents (Elt F)),
    binary main_v47 main_v50 main_v51 (addf : (⟨S1x2048x1, .f32⟩ : BufTy).Contents (Elt F) → (⟨S1x2048x1, .f32⟩ : BufTy).Contents (Elt F) → (⟨S1x2048x1, .f32⟩ : BufTy).Contents (Elt F)),
    unary main_v51 main_v52 (Host.rsqrt : (⟨S1x2048x1, .f32⟩ : BufTy).Contents (Elt F) → (⟨S1x2048x1, .f32⟩ : BufTy).Contents (Elt F)),
    unary main_v52 main_v53 (broadcastInDim S8x2048x64 ![0, 1, 2] bcast_S1x2048x1_S8x2048x64_0_1_2 : (⟨S1x2048x1, .f32⟩ : BufTy).Contents (Elt F) → (⟨S8x2048x64, .f32⟩ : BufTy).Contents (Elt F)),
    binary main_v49 main_v53 main_v54 (mulf : (⟨S8x2048x64, .f32⟩ : BufTy).Contents (Elt F) → (⟨S8x2048x64, .f32⟩ : BufTy).Contents (Elt F) → (⟨S8x2048x64, .f32⟩ : BufTy).Contents (Elt F)),
    nullary main_cst_9 (constant S_ .f32 0xFF800000#32),
    binary main_v54 main_cst_9 main_v55 ((fun x v => Host.reduce FloatOps.maximumf x v reducesTo_S8x2048x64_S8x64_d1 h_S_) : (⟨S8x2048x64, .f32⟩ : BufTy).Contents (Elt F) → (⟨S_, .f32⟩ : BufTy).Contents (Elt F) → (⟨S8x64, .f32⟩ : BufTy).Contents (Elt F)) ]

/-- The second layer's operations, on the normalised first activation. -/
abbrev s3 : List (HloOp τ sig (Elt F)) :=
  [ nullary main_cst_10 (constant S_ .f32 0x00000000#32),
    unary main_cst_10 main_v56 (broadcastInDim S8x2048x64 ![] bcast_S_S8x2048x64 : (⟨S_, .f32⟩ : BufTy).Contents (Elt F) → (⟨S8x2048x64, .f32⟩ : BufTy).Contents (Elt F)),
    nullary main_cst_11 (constant S_ .f32 0x3F800000#32),
    unary main_cst_11 main_v57 (broadcastInDim S8x2048x2048 ![] bcast_S_S8x2048x2048 : (⟨S_, .f32⟩ : BufTy).Contents (Elt F) → (⟨S8x2048x2048, .f32⟩ : BufTy).Contents (Elt F)),
    binary main_arg2 main_v57 main_v58 (cmpf .oeq : (⟨S8x2048x2048, .f32⟩ : BufTy).Contents (Elt F) → (⟨S8x2048x2048, .f32⟩ : BufTy).Contents (Elt F) → (⟨S8x2048x2048, .i1⟩ : BufTy).Contents (Elt F)),
    unary main_v58 main_v59 (uitofp .f32 : (⟨S8x2048x2048, .i1⟩ : BufTy).Contents (Elt F) → (⟨S8x2048x2048, .f32⟩ : BufTy).Contents (Elt F)),
    binary main_v59 main_v54 main_v60 ((fun l r => Host.dotGeneral dot_S8x2048x2048_S8x2048x64_S8x2048x64_2_1_1_2_0_0 none l r) : (⟨S8x2048x2048, .f32⟩ : BufTy).Contents (Elt F) → (⟨S8x2048x64, .f32⟩ : BufTy).Contents (Elt F) → (⟨S8x2048x64, .f32⟩ : BufTy).Contents (Elt F)),
    unary main_arg5 main_v61 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v61 main_v62 rfl shapeCasts_S1x64x64_S64x64,
    binary main_v60 main_v62 main_v63 ((fun l r => Host.dotGeneral dot_S8x2048x64_S64x64_S8x2048x64_2_0_01_1_n_n none l r) : (⟨S8x2048x64, .f32⟩ : BufTy).Contents (Elt F) → (⟨S64x64, .f32⟩ : BufTy).Contents (Elt F) → (⟨S8x2048x64, .f32⟩ : BufTy).Contents (Elt F)),
    binary main_v56 main_v63 main_v64 (addf : (⟨S8x2048x64, .f32⟩ : BufTy).Contents (Elt F) → (⟨S8x2048x64, .f32⟩ : BufTy).Contents (Elt F) → (⟨S8x2048x64, .f32⟩ : BufTy).Contents (Elt F)),
    nullary main_cst_12 (constant S_ .f32 0x40000000#32),
    unary main_cst_12 main_v65 (broadcastInDim S8x2048x2048 ![] bcast_S_S8x2048x2048 : (⟨S_, .f32⟩ : BufTy).Contents (Elt F) → (⟨S8x2048x2048, .f32⟩ : BufTy).Contents (Elt F)),
    binary main_arg2 main_v65 main_v66 (cmpf .oeq : (⟨S8x2048x2048, .f32⟩ : BufTy).Contents (Elt F) → (⟨S8x2048x2048, .f32⟩ : BufTy).Contents (Elt F) → (⟨S8x2048x2048, .i1⟩ : BufTy).Contents (Elt F)),
    unary main_v66 main_v67 (uitofp .f32 : (⟨S8x2048x2048, .i1⟩ : BufTy).Contents (Elt F) → (⟨S8x2048x2048, .f32⟩ : BufTy).Contents (Elt F)),
    binary main_v67 main_v54 main_v68 ((fun l r => Host.dotGeneral dot_S8x2048x2048_S8x2048x64_S8x2048x64_2_1_1_2_0_0 none l r) : (⟨S8x2048x2048, .f32⟩ : BufTy).Contents (Elt F) → (⟨S8x2048x64, .f32⟩ : BufTy).Contents (Elt F) → (⟨S8x2048x64, .f32⟩ : BufTy).Contents (Elt F)),
    unary main_arg5 main_v69 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v69 main_v70 rfl shapeCasts_S1x64x64_S64x64,
    binary main_v68 main_v70 main_v71 ((fun l r => Host.dotGeneral dot_S8x2048x64_S64x64_S8x2048x64_2_0_01_1_n_n none l r) : (⟨S8x2048x64, .f32⟩ : BufTy).Contents (Elt F) → (⟨S64x64, .f32⟩ : BufTy).Contents (Elt F) → (⟨S8x2048x64, .f32⟩ : BufTy).Contents (Elt F)),
    binary main_v64 main_v71 main_v72 (addf : (⟨S8x2048x64, .f32⟩ : BufTy).Contents (Elt F) → (⟨S8x2048x64, .f32⟩ : BufTy).Contents (Elt F) → (⟨S8x2048x64, .f32⟩ : BufTy).Contents (Elt F)),
    nullary main_cst_13 (constant S_ .f32 0x40400000#32),
    unary main_cst_13 main_v73 (broadcastInDim S8x2048x2048 ![] bcast_S_S8x2048x2048 : (⟨S_, .f32⟩ : BufTy).Contents (Elt F) → (⟨S8x2048x2048, .f32⟩ : BufTy).Contents (Elt F)),
    binary main_arg2 main_v73 main_v74 (cmpf .oeq : (⟨S8x2048x2048, .f32⟩ : BufTy).Contents (Elt F) → (⟨S8x2048x2048, .f32⟩ : BufTy).Contents (Elt F) → (⟨S8x2048x2048, .i1⟩ : BufTy).Contents (Elt F)),
    unary main_v74 main_v75 (uitofp .f32 : (⟨S8x2048x2048, .i1⟩ : BufTy).Contents (Elt F) → (⟨S8x2048x2048, .f32⟩ : BufTy).Contents (Elt F)),
    binary main_v75 main_v54 main_v76 ((fun l r => Host.dotGeneral dot_S8x2048x2048_S8x2048x64_S8x2048x64_2_1_1_2_0_0 none l r) : (⟨S8x2048x2048, .f32⟩ : BufTy).Contents (Elt F) → (⟨S8x2048x64, .f32⟩ : BufTy).Contents (Elt F) → (⟨S8x2048x64, .f32⟩ : BufTy).Contents (Elt F)),
    unary main_arg5 main_v77 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v77 main_v78 rfl shapeCasts_S1x64x64_S64x64,
    binary main_v76 main_v78 main_v79 ((fun l r => Host.dotGeneral dot_S8x2048x64_S64x64_S8x2048x64_2_0_01_1_n_n none l r) : (⟨S8x2048x64, .f32⟩ : BufTy).Contents (Elt F) → (⟨S64x64, .f32⟩ : BufTy).Contents (Elt F) → (⟨S8x2048x64, .f32⟩ : BufTy).Contents (Elt F)),
    binary main_v72 main_v79 main_v80 (addf : (⟨S8x2048x64, .f32⟩ : BufTy).Contents (Elt F) → (⟨S8x2048x64, .f32⟩ : BufTy).Contents (Elt F) → (⟨S8x2048x64, .f32⟩ : BufTy).Contents (Elt F)),
    unary main_arg6 main_v81 (broadcastInDim S1x1x64 ![2] bcast_S64_S1x1x64_2 : (⟨S64, .f32⟩ : BufTy).Contents (Elt F) → (⟨S1x1x64, .f32⟩ : BufTy).Contents (Elt F)),
    unary main_v81 main_v82 (broadcastInDim S8x2048x64 ![0, 1, 2] bcast_S1x1x64_S8x2048x64_0_1_2 : (⟨S1x1x64, .f32⟩ : BufTy).Contents (Elt F) → (⟨S8x2048x64, .f32⟩ : BufTy).Contents (Elt F)),
    binary main_v80 main_v82 main_v83 (addf : (⟨S8x2048x64, .f32⟩ : BufTy).Contents (Elt F) → (⟨S8x2048x64, .f32⟩ : BufTy).Contents (Elt F) → (⟨S8x2048x64, .f32⟩ : BufTy).Contents (Elt F)),
    binary main_v83 main_v83 main_v84 (mulf : (⟨S8x2048x64, .f32⟩ : BufTy).Contents (Elt F) → (⟨S8x2048x64, .f32⟩ : BufTy).Contents (Elt F) → (⟨S8x2048x64, .f32⟩ : BufTy).Contents (Elt F)),
    nullary main_cst_14 (constant S_ .f32 0x00000000#32),
    binary main_v84 main_cst_14 main_v85 ((fun x v => Host.reduceAdd x v reducesTo_S8x2048x64_S8x2048_d2 h_S_) : (⟨S8x2048x64, .f32⟩ : BufTy).Contents (Elt F) → (⟨S_, .f32⟩ : BufTy).Contents (Elt F) → (⟨S8x2048, .f32⟩ : BufTy).Contents (Elt F)),
    unary main_v85 main_v86 (broadcastInDim S8x2048x1 ![0, 1] bcast_S8x2048_S8x2048x1_0_1 : (⟨S8x2048, .f32⟩ : BufTy).Contents (Elt F) → (⟨S8x2048x1, .f32⟩ : BufTy).Contents (Elt F)),
    unary main_v86 main_v87 (Host.sqrt : (⟨S8x2048x1, .f32⟩ : BufTy).Contents (Elt F) → (⟨S8x2048x1, .f32⟩ : BufTy).Contents (Elt F)),
    nullary main_cst_15 (constant S_ .f32 0x2B8CBCCC#32),
    unary main_cst_15 main_v88 (broadcastInDim S8x2048x1 ![] bcast_S_S8x2048x1 : (⟨S_, .f32⟩ : BufTy).Contents (Elt F) → (⟨S8x2048x1, .f32⟩ : BufTy).Contents (Elt F)),
    binary main_v87 main_v88 main_v89 (maximumf : (⟨S8x2048x1, .f32⟩ : BufTy).Contents (Elt F) → (⟨S8x2048x1, .f32⟩ : BufTy).Contents (Elt F) → (⟨S8x2048x1, .f32⟩ : BufTy).Contents (Elt F)),
    unary main_v89 main_v90 (broadcastInDim S8x2048x64 ![0, 1, 2] bcast_S8x2048x1_S8x2048x64_0_1_2 : (⟨S8x2048x1, .f32⟩ : BufTy).Contents (Elt F) → (⟨S8x2048x64, .f32⟩ : BufTy).Contents (Elt F)),
    binary main_v83 main_v90 main_v91 (Host.divf : (⟨S8x2048x64, .f32⟩ : BufTy).Contents (Elt F) → (⟨S8x2048x64, .f32⟩ : BufTy).Contents (Elt F) → (⟨S8x2048x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8x2048x64, .f32⟩) main_call1_v0) (broadcastInDim S8x2048x64 ![] bcast_S_S8x2048x64),
    TRef.binary (TRef.of (T := ⟨S8x2048x64, .f32⟩) main_v91) (TRef.of (T := ⟨S8x2048x64, .f32⟩) main_call1_v0) (TRef.of (T := ⟨S8x2048x64, .f32⟩) main_v92) maximumf ]

/-- The normalisation of the second layer's activation, and its maximum over the nodes. -/
abbrev s4 : List (HloOp τ sig (Elt F)) :=
  [ nullary main_cst_16 (constant S_ .f32 0x00000000#32),
    binary main_v92 main_cst_16 main_v93 ((fun x v => Host.reduceAdd x v reducesTo_S8x2048x64_S2048_d0_2 h_S_) : (⟨S8x2048x64, .f32⟩ : BufTy).Contents (Elt F) → (⟨S_, .f32⟩ : BufTy).Contents (Elt F) → (⟨S2048, .f32⟩ : BufTy).Contents (Elt F)),
    unary main_v93 main_v94 (broadcastInDim S1x2048x1 ![1] bcast_S2048_S1x2048x1_1 : (⟨S2048, .f32⟩ : BufTy).Contents (Elt F) → (⟨S1x2048x1, .f32⟩ : BufTy).Contents (Elt F)),
    nullary main_cst_17 (constant S_ .f32 0x44000000#32),
    unary main_cst_17 main_v95 (broadcastInDim S1x2048x1 ![] bcast_S_S1x2048x1 : (⟨S_, .f32⟩ : BufTy).Contents (Elt F) → (⟨S1x2048x1, .f32⟩ : BufTy).Contents (Elt F)),
    binary main_v94 main_v95 main_v96 (Host.divf : (⟨S1x2048x1, .f32⟩ : BufTy).Contents (Elt F) → (⟨S1x2048x1, .f32⟩ : BufTy).Contents (Elt F) → (⟨S1x2048x1, .f32⟩ : BufTy).Contents (Elt F)),
    unary main_v96 main_v97 (broadcastInDim S8x2048x64 ![0, 1, 2] bcast_S1x2048x1_S8x2048x64_0_1_2 : (⟨S1x2048x1, .f32⟩ : BufTy).Contents (Elt F) → (⟨S8x2048x64, .f32⟩ : BufTy).Contents (Elt F)),
    binary main_v92 main_v97 main_v98 (subf : (⟨S8x2048x64, .f32⟩ : BufTy).Contents (Elt F) → (⟨S8x2048x64, .f32⟩ : BufTy).Contents (Elt F) → (⟨S8x2048x64, .f32⟩ : BufTy).Contents (Elt F)),
    binary main_v98 main_v98 main_v99 (mulf : (⟨S8x2048x64, .f32⟩ : BufTy).Contents (Elt F) → (⟨S8x2048x64, .f32⟩ : BufTy).Contents (Elt F) → (⟨S8x2048x64, .f32⟩ : BufTy).Contents (Elt F)),
    nullary main_cst_18 (constant S_ .f32 0x00000000#32),
    binary main_v99 main_cst_18 main_v100 ((fun x v => Host.reduceAdd x v reducesTo_S8x2048x64_S2048_d0_2 h_S_) : (⟨S8x2048x64, .f32⟩ : BufTy).Contents (Elt F) → (⟨S_, .f32⟩ : BufTy).Contents (Elt F) → (⟨S2048, .f32⟩ : BufTy).Contents (Elt F)),
    unary main_v100 main_v101 (broadcastInDim S1x2048x1 ![1] bcast_S2048_S1x2048x1_1 : (⟨S2048, .f32⟩ : BufTy).Contents (Elt F) → (⟨S1x2048x1, .f32⟩ : BufTy).Contents (Elt F)),
    nullary main_cst_19 (constant S_ .f32 0x44000000#32),
    unary main_cst_19 main_v102 (broadcastInDim S1x2048x1 ![] bcast_S_S1x2048x1 : (⟨S_, .f32⟩ : BufTy).Contents (Elt F) → (⟨S1x2048x1, .f32⟩ : BufTy).Contents (Elt F)),
    binary main_v101 main_v102 main_v103 (Host.divf : (⟨S1x2048x1, .f32⟩ : BufTy).Contents (Elt F) → (⟨S1x2048x1, .f32⟩ : BufTy).Contents (Elt F) → (⟨S1x2048x1, .f32⟩ : BufTy).Contents (Elt F)),
    unary main_v96 main_v104 (broadcastInDim S8x2048x64 ![0, 1, 2] bcast_S1x2048x1_S8x2048x64_0_1_2 : (⟨S1x2048x1, .f32⟩ : BufTy).Contents (Elt F) → (⟨S8x2048x64, .f32⟩ : BufTy).Contents (Elt F)),
    binary main_v92 main_v104 main_v105 (subf : (⟨S8x2048x64, .f32⟩ : BufTy).Contents (Elt F) → (⟨S8x2048x64, .f32⟩ : BufTy).Contents (Elt F) → (⟨S8x2048x64, .f32⟩ : BufTy).Contents (Elt F)),
    nullary main_cst_20 (constant S_ .f32 0x3727C5AC#32),
    unary main_cst_20 main_v106 (broadcastInDim S1x2048x1 ![] bcast_S_S1x2048x1 : (⟨S_, .f32⟩ : BufTy).Contents (Elt F) → (⟨S1x2048x1, .f32⟩ : BufTy).Contents (Elt F)),
    binary main_v103 main_v106 main_v107 (addf : (⟨S1x2048x1, .f32⟩ : BufTy).Contents (Elt F) → (⟨S1x2048x1, .f32⟩ : BufTy).Contents (Elt F) → (⟨S1x2048x1, .f32⟩ : BufTy).Contents (Elt F)),
    unary main_v107 main_v108 (Host.rsqrt : (⟨S1x2048x1, .f32⟩ : BufTy).Contents (Elt F) → (⟨S1x2048x1, .f32⟩ : BufTy).Contents (Elt F)),
    unary main_v108 main_v109 (broadcastInDim S8x2048x64 ![0, 1, 2] bcast_S1x2048x1_S8x2048x64_0_1_2 : (⟨S1x2048x1, .f32⟩ : BufTy).Contents (Elt F) → (⟨S8x2048x64, .f32⟩ : BufTy).Contents (Elt F)),
    binary main_v105 main_v109 main_v110 (mulf : (⟨S8x2048x64, .f32⟩ : BufTy).Contents (Elt F) → (⟨S8x2048x64, .f32⟩ : BufTy).Contents (Elt F) → (⟨S8x2048x64, .f32⟩ : BufTy).Contents (Elt F)),
    nullary main_cst_21 (constant S_ .f32 0xFF800000#32),
    binary main_v110 main_cst_21 main_v111 ((fun x v => Host.reduce FloatOps.maximumf x v reducesTo_S8x2048x64_S8x64_d1 h_S_) : (⟨S8x2048x64, .f32⟩ : BufTy).Contents (Elt F) → (⟨S_, .f32⟩ : BufTy).Contents (Elt F) → (⟨S8x64, .f32⟩ : BufTy).Contents (Elt F)) ]

/-- The third layer's operations, on the normalised second activation; no positive part. -/
abbrev s5 : List (HloOp τ sig (Elt F)) :=
  [ nullary main_cst_22 (constant S_ .f32 0x00000000#32),
    unary main_cst_22 main_v112 (broadcastInDim S8x2048x64 ![] bcast_S_S8x2048x64 : (⟨S_, .f32⟩ : BufTy).Contents (Elt F) → (⟨S8x2048x64, .f32⟩ : BufTy).Contents (Elt F)),
    nullary main_cst_23 (constant S_ .f32 0x3F800000#32),
    unary main_cst_23 main_v113 (broadcastInDim S8x2048x2048 ![] bcast_S_S8x2048x2048 : (⟨S_, .f32⟩ : BufTy).Contents (Elt F) → (⟨S8x2048x2048, .f32⟩ : BufTy).Contents (Elt F)),
    binary main_arg2 main_v113 main_v114 (cmpf .oeq : (⟨S8x2048x2048, .f32⟩ : BufTy).Contents (Elt F) → (⟨S8x2048x2048, .f32⟩ : BufTy).Contents (Elt F) → (⟨S8x2048x2048, .i1⟩ : BufTy).Contents (Elt F)),
    unary main_v114 main_v115 (uitofp .f32 : (⟨S8x2048x2048, .i1⟩ : BufTy).Contents (Elt F) → (⟨S8x2048x2048, .f32⟩ : BufTy).Contents (Elt F)),
    binary main_v115 main_v110 main_v116 ((fun l r => Host.dotGeneral dot_S8x2048x2048_S8x2048x64_S8x2048x64_2_1_1_2_0_0 none l r) : (⟨S8x2048x2048, .f32⟩ : BufTy).Contents (Elt F) → (⟨S8x2048x64, .f32⟩ : BufTy).Contents (Elt F) → (⟨S8x2048x64, .f32⟩ : BufTy).Contents (Elt F)),
    unary main_arg7 main_v117 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v117 main_v118 rfl shapeCasts_S1x64x64_S64x64,
    binary main_v116 main_v118 main_v119 ((fun l r => Host.dotGeneral dot_S8x2048x64_S64x64_S8x2048x64_2_0_01_1_n_n none l r) : (⟨S8x2048x64, .f32⟩ : BufTy).Contents (Elt F) → (⟨S64x64, .f32⟩ : BufTy).Contents (Elt F) → (⟨S8x2048x64, .f32⟩ : BufTy).Contents (Elt F)),
    binary main_v112 main_v119 main_v120 (addf : (⟨S8x2048x64, .f32⟩ : BufTy).Contents (Elt F) → (⟨S8x2048x64, .f32⟩ : BufTy).Contents (Elt F) → (⟨S8x2048x64, .f32⟩ : BufTy).Contents (Elt F)),
    nullary main_cst_24 (constant S_ .f32 0x40000000#32),
    unary main_cst_24 main_v121 (broadcastInDim S8x2048x2048 ![] bcast_S_S8x2048x2048 : (⟨S_, .f32⟩ : BufTy).Contents (Elt F) → (⟨S8x2048x2048, .f32⟩ : BufTy).Contents (Elt F)),
    binary main_arg2 main_v121 main_v122 (cmpf .oeq : (⟨S8x2048x2048, .f32⟩ : BufTy).Contents (Elt F) → (⟨S8x2048x2048, .f32⟩ : BufTy).Contents (Elt F) → (⟨S8x2048x2048, .i1⟩ : BufTy).Contents (Elt F)),
    unary main_v122 main_v123 (uitofp .f32 : (⟨S8x2048x2048, .i1⟩ : BufTy).Contents (Elt F) → (⟨S8x2048x2048, .f32⟩ : BufTy).Contents (Elt F)),
    binary main_v123 main_v110 main_v124 ((fun l r => Host.dotGeneral dot_S8x2048x2048_S8x2048x64_S8x2048x64_2_1_1_2_0_0 none l r) : (⟨S8x2048x2048, .f32⟩ : BufTy).Contents (Elt F) → (⟨S8x2048x64, .f32⟩ : BufTy).Contents (Elt F) → (⟨S8x2048x64, .f32⟩ : BufTy).Contents (Elt F)),
    unary main_arg7 main_v125 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v125 main_v126 rfl shapeCasts_S1x64x64_S64x64,
    binary main_v124 main_v126 main_v127 ((fun l r => Host.dotGeneral dot_S8x2048x64_S64x64_S8x2048x64_2_0_01_1_n_n none l r) : (⟨S8x2048x64, .f32⟩ : BufTy).Contents (Elt F) → (⟨S64x64, .f32⟩ : BufTy).Contents (Elt F) → (⟨S8x2048x64, .f32⟩ : BufTy).Contents (Elt F)),
    binary main_v120 main_v127 main_v128 (addf : (⟨S8x2048x64, .f32⟩ : BufTy).Contents (Elt F) → (⟨S8x2048x64, .f32⟩ : BufTy).Contents (Elt F) → (⟨S8x2048x64, .f32⟩ : BufTy).Contents (Elt F)),
    nullary main_cst_25 (constant S_ .f32 0x40400000#32),
    unary main_cst_25 main_v129 (broadcastInDim S8x2048x2048 ![] bcast_S_S8x2048x2048 : (⟨S_, .f32⟩ : BufTy).Contents (Elt F) → (⟨S8x2048x2048, .f32⟩ : BufTy).Contents (Elt F)),
    binary main_arg2 main_v129 main_v130 (cmpf .oeq : (⟨S8x2048x2048, .f32⟩ : BufTy).Contents (Elt F) → (⟨S8x2048x2048, .f32⟩ : BufTy).Contents (Elt F) → (⟨S8x2048x2048, .i1⟩ : BufTy).Contents (Elt F)),
    unary main_v130 main_v131 (uitofp .f32 : (⟨S8x2048x2048, .i1⟩ : BufTy).Contents (Elt F) → (⟨S8x2048x2048, .f32⟩ : BufTy).Contents (Elt F)),
    binary main_v131 main_v110 main_v132 ((fun l r => Host.dotGeneral dot_S8x2048x2048_S8x2048x64_S8x2048x64_2_1_1_2_0_0 none l r) : (⟨S8x2048x2048, .f32⟩ : BufTy).Contents (Elt F) → (⟨S8x2048x64, .f32⟩ : BufTy).Contents (Elt F) → (⟨S8x2048x64, .f32⟩ : BufTy).Contents (Elt F)),
    unary main_arg7 main_v133 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v133 main_v134 rfl shapeCasts_S1x64x64_S64x64,
    binary main_v132 main_v134 main_v135 ((fun l r => Host.dotGeneral dot_S8x2048x64_S64x64_S8x2048x64_2_0_01_1_n_n none l r) : (⟨S8x2048x64, .f32⟩ : BufTy).Contents (Elt F) → (⟨S64x64, .f32⟩ : BufTy).Contents (Elt F) → (⟨S8x2048x64, .f32⟩ : BufTy).Contents (Elt F)),
    binary main_v128 main_v135 main_v136 (addf : (⟨S8x2048x64, .f32⟩ : BufTy).Contents (Elt F) → (⟨S8x2048x64, .f32⟩ : BufTy).Contents (Elt F) → (⟨S8x2048x64, .f32⟩ : BufTy).Contents (Elt F)),
    unary main_arg8 main_v137 (broadcastInDim S1x1x64 ![2] bcast_S64_S1x1x64_2 : (⟨S64, .f32⟩ : BufTy).Contents (Elt F) → (⟨S1x1x64, .f32⟩ : BufTy).Contents (Elt F)),
    unary main_v137 main_v138 (broadcastInDim S8x2048x64 ![0, 1, 2] bcast_S1x1x64_S8x2048x64_0_1_2 : (⟨S1x1x64, .f32⟩ : BufTy).Contents (Elt F) → (⟨S8x2048x64, .f32⟩ : BufTy).Contents (Elt F)),
    binary main_v136 main_v138 main_v139 (addf : (⟨S8x2048x64, .f32⟩ : BufTy).Contents (Elt F) → (⟨S8x2048x64, .f32⟩ : BufTy).Contents (Elt F) → (⟨S8x2048x64, .f32⟩ : BufTy).Contents (Elt F)),
    binary main_v139 main_v139 main_v140 (mulf : (⟨S8x2048x64, .f32⟩ : BufTy).Contents (Elt F) → (⟨S8x2048x64, .f32⟩ : BufTy).Contents (Elt F) → (⟨S8x2048x64, .f32⟩ : BufTy).Contents (Elt F)),
    nullary main_cst_26 (constant S_ .f32 0x00000000#32),
    binary main_v140 main_cst_26 main_v141 ((fun x v => Host.reduceAdd x v reducesTo_S8x2048x64_S8x2048_d2 h_S_) : (⟨S8x2048x64, .f32⟩ : BufTy).Contents (Elt F) → (⟨S_, .f32⟩ : BufTy).Contents (Elt F) → (⟨S8x2048, .f32⟩ : BufTy).Contents (Elt F)),
    unary main_v141 main_v142 (broadcastInDim S8x2048x1 ![0, 1] bcast_S8x2048_S8x2048x1_0_1 : (⟨S8x2048, .f32⟩ : BufTy).Contents (Elt F) → (⟨S8x2048x1, .f32⟩ : BufTy).Contents (Elt F)),
    unary main_v142 main_v143 (Host.sqrt : (⟨S8x2048x1, .f32⟩ : BufTy).Contents (Elt F) → (⟨S8x2048x1, .f32⟩ : BufTy).Contents (Elt F)),
    nullary main_cst_27 (constant S_ .f32 0x2B8CBCCC#32),
    unary main_cst_27 main_v144 (broadcastInDim S8x2048x1 ![] bcast_S_S8x2048x1 : (⟨S_, .f32⟩ : BufTy).Contents (Elt F) → (⟨S8x2048x1, .f32⟩ : BufTy).Contents (Elt F)),
    binary main_v143 main_v144 main_v145 (maximumf : (⟨S8x2048x1, .f32⟩ : BufTy).Contents (Elt F) → (⟨S8x2048x1, .f32⟩ : BufTy).Contents (Elt F) → (⟨S8x2048x1, .f32⟩ : BufTy).Contents (Elt F)),
    unary main_v145 main_v146 (broadcastInDim S8x2048x64 ![0, 1, 2] bcast_S8x2048x1_S8x2048x64_0_1_2 : (⟨S8x2048x1, .f32⟩ : BufTy).Contents (Elt F) → (⟨S8x2048x64, .f32⟩ : BufTy).Contents (Elt F)),
    binary main_v139 main_v146 main_v147 (Host.divf : (⟨S8x2048x64, .f32⟩ : BufTy).Contents (Elt F) → (⟨S8x2048x64, .f32⟩ : BufTy).Contents (Elt F) → (⟨S8x2048x64, .f32⟩ : BufTy).Contents (Elt F)) ]

/-- The maximum over the nodes of the third layer's result. -/
abbrev s6 : List (HloOp τ sig (Elt F)) :=
  [ nullary main_cst_28 (constant S_ .f32 0xFF800000#32),
    binary main_v147 main_cst_28 main_v148 ((fun x v => Host.reduce FloatOps.maximumf x v reducesTo_S8x2048x64_S8x64_d1 h_S_) : (⟨S8x2048x64, .f32⟩ : BufTy).Contents (Elt F) → (⟨S_, .f32⟩ : BufTy).Contents (Elt F) → (⟨S8x64, .f32⟩ : BufTy).Contents (Elt F)) ]

/-- The concatenation of the three maxima, the matrix product and the bias. -/
abbrev s7 : List (HloOp τ sig (Elt F)) :=
  [ nary ![main_v55, main_v111, main_v148] main_v149 (fun u => concatenate S8x192 1 [⟨S8x64, u 0⟩, ⟨S8x64, u 1⟩, ⟨S8x64, u 2⟩] concatenates_S8x64_S8x64_S8x64_S8x192_d1),
    binary main_v149 main_arg9 main_v150 ((fun l r => Host.dotGeneral dot_S8x192_S192x64_S8x64_1_0_0_1_n_n none l r) : (⟨S8x192, .f32⟩ : BufTy).Contents (Elt F) → (⟨S192x64, .f32⟩ : BufTy).Contents (Elt F) → (⟨S8x64, .f32⟩ : BufTy).Contents (Elt F)),
    unary main_arg10 main_v151 (broadcastInDim S1x64 ![1] bcast_S64_S1x64_1 : (⟨S64, .f32⟩ : BufTy).Contents (Elt F) → (⟨S1x64, .f32⟩ : BufTy).Contents (Elt F)),
    unary main_v151 main_v152 (broadcastInDim S8x64 ![0, 1] bcast_S1x64_S8x64_0_1 : (⟨S1x64, .f32⟩ : BufTy).Contents (Elt F) → (⟨S8x64, .f32⟩ : BufTy).Contents (Elt F)),
    binary main_v150 main_v152 main_v153 (addf : (⟨S8x64, .f32⟩ : BufTy).Contents (Elt F) → (⟨S8x64, .f32⟩ : BufTy).Contents (Elt F) → (⟨S8x64, .f32⟩ : BufTy).Contents (Elt F)) ]

set_option maxHeartbeats 4000000 in
/-- The line of operations is the seven stretches in order. -/
theorem ops_eq : (ops : List (HloOp τ sig (Elt F))) = s1 ++ (s2 ++ (s3 ++ (s4 ++ (s5 ++ (s6 ++ s7))))) := rfl

/-- The contents after the whole line are the contents after the seven stretches, each started where the one
    before it ended. -/
theorem after_ops (V : Valuation τ sig (Elt F)) :
    after ops V = after s7 (after s6 (after s5 (after s4 (after s3 (after s2 (after s1 V)))))) := by
  rw [ops_eq, after_append, after_append, after_append, after_append, after_append, after_append]

/-! ## What each stretch leaves at its results -/

set_option maxHeartbeats 4000000 in
/-- The first stretch leaves the first layer's activation of the arguments. -/
theorem s1_v36 (V : Valuation τ sig (Elt F)) :
    after s1 V (Proc.devRef .tc main_v36) = val_main_v36 (F := F) (V (Proc.devRef .tc main_arg0)) (V (Proc.devRef .tc main_arg1))
      (V (Proc.devRef .tc main_arg3)) (V (Proc.devRef .tc main_arg4)) := by
  after_results_simp <;> rfl

set_option maxHeartbeats 4000000 in
theorem s2_v54 (V : Valuation τ sig (Elt F)) :
    after s2 V (Proc.devRef .tc main_v54) = bn (V (Proc.devRef .tc main_v36)) := by
  after_results_simp <;> rfl

set_option maxHeartbeats 4000000 in
theorem s2_v55 (V : Valuation τ sig (Elt F)) :
    after s2 V (Proc.devRef .tc main_v55) = mx (bn (V (Proc.devRef .tc main_v36))) := by
  after_results_simp <;> rfl

set_option maxHeartbeats 4000000 in
/-- The third stretch, started where the normalised first activation is held, leaves the second layer's activation. -/
theorem s3_v92 (V : Valuation τ sig (Elt F)) (x0 : (⟨S8x2048x32, .f32⟩ : BufTy).Contents (Elt F)) (x1 : (⟨S8x2048x2048, .i32⟩ : BufTy).Contents (Elt F)) (x3 : (⟨S3x32x64, .f32⟩ : BufTy).Contents (Elt F)) (x4 : (⟨S64, .f32⟩ : BufTy).Contents (Elt F))
    (h54 : V (Proc.devRef .tc main_v54) = val_main_v54 (F := F) x0 x1 x3 x4) :
    after s3 V (Proc.devRef .tc main_v92) = val_main_v92 (F := F) x0 x1 (V (Proc.devRef .tc main_arg2)) x3 x4
      (V (Proc.devRef .tc main_arg5)) (V (Proc.devRef .tc main_arg6)) := by
  after_results_simp
  rw [h54]
  rfl

set_option maxHeartbeats 4000000 in
theorem s4_v110 (V : Valuation τ sig (Elt F)) :
    after s4 V (Proc.devRef .tc main_v110) = bn (V (Proc.devRef .tc main_v92)) := by
  after_results_simp <;> rfl

set_option maxHeartbeats 4000000 in
theorem s4_v111 (V : Valuation τ sig (Elt F)) :
    after s4 V (Proc.devRef .tc main_v111) = mx (bn (V (Proc.devRef .tc main_v92))) := by
  after_results_simp <;> rfl

set_option maxHeartbeats 4000000 in
/-- The fifth stretch, started where the normalised second activation is held, leaves the third layer's result. -/
theorem s5_v147 (V : Valuation τ sig (Elt F)) (x0 : (⟨S8x2048x32, .f32⟩ : BufTy).Contents (Elt F)) (x1 : (⟨S8x2048x2048, .i32⟩ : BufTy).Contents (Elt F)) (x2 : (⟨S8x2048x2048, .f32⟩ : BufTy).Contents (Elt F)) (x3 : (⟨S3x32x64, .f32⟩ : BufTy).Contents (Elt F)) (x4 : (⟨S64, .f32⟩ : BufTy).Contents (Elt F)) (x5 : (⟨S3x64x64, .f32⟩ : BufTy).Contents (Elt F)) (x6 : (⟨S64, .f32⟩ : BufTy).Contents (Elt F))
    (h110 : V (Proc.devRef .tc main_v110) = val_main_v110 (F := F) x0 x1 x2 x3 x4 x5 x6)
    (h2 : V (Proc.devRef .tc main_arg2) = x2) :
    after s5 V (Proc.devRef .tc main_v147) = val_main_v147 (F := F) x0 x1 x2 x3 x4 x5 x6
      (V (Proc.devRef .tc main_arg7)) (V (Proc.devRef .tc main_arg8)) := by
  after_results_simp
  rw [h110, h2]
  rfl

theorem s6_v148 (V : Valuation τ sig (Elt F)) :
    after s6 V (Proc.devRef .tc main_v148) = mx (V (Proc.devRef .tc main_v147)) := by
  after_results_simp <;> rfl

theorem s7_v149 (V : Valuation τ sig (Elt F)) :
    after s7 V (Proc.devRef .tc main_v149) = out0 (V (Proc.devRef .tc main_v55)) (V (Proc.devRef .tc main_v111)) (V (Proc.devRef .tc main_v148)) := by
  after_results_simp <;> rfl

theorem s7_v153 (V : Valuation τ sig (Elt F)) :
    after s7 V (Proc.devRef .tc main_v153) = out1 (V (Proc.devRef .tc main_v55)) (V (Proc.devRef .tc main_v111)) (V (Proc.devRef .tc main_v148))
      (V (Proc.devRef .tc main_arg9)) (V (Proc.devRef .tc main_arg10)) := by
  after_results_simp <;> rfl

/-! ## What each stretch leaves alone -/

set_option maxHeartbeats 4000000

theorem s3_v55 (V : Valuation τ sig (Elt F)) :
    after s3 V (Proc.devRef .tc main_v55) = V (Proc.devRef .tc main_v55) := by
  after_results_simp <;> rfl

theorem s4_v55 (V : Valuation τ sig (Elt F)) :
    after s4 V (Proc.devRef .tc main_v55) = V (Proc.devRef .tc main_v55) := by
  after_results_simp <;> rfl

theorem s5_v55 (V : Valuation τ sig (Elt F)) :
    after s5 V (Proc.devRef .tc main_v55) = V (Proc.devRef .tc main_v55) := by
  after_results_simp <;> rfl

theorem s6_v55 (V : Valuation τ sig (Elt F)) :
    after s6 V (Proc.devRef .tc main_v55) = V (Proc.devRef .tc main_v55) := by
  after_results_simp <;> rfl

theorem s5_v111 (V : Valuation τ sig (Elt F)) :
    after s5 V (Proc.devRef .tc main_v111) = V (Proc.devRef .tc main_v111) := by
  after_results_simp <;> rfl

theorem s6_v111 (V : Valuation τ sig (Elt F)) :
    after s6 V (Proc.devRef .tc main_v111) = V (Proc.devRef .tc main_v111) := by
  after_results_simp <;> rfl

theorem s1_arg2 (V : Valuation τ sig (Elt F)) :
    after s1 V (Proc.devRef .tc main_arg2) = V (Proc.devRef .tc main_arg2) := by
  after_results_simp <;> rfl

theorem s2_arg2 (V : Valuation τ sig (Elt F)) :
    after s2 V (Proc.devRef .tc main_arg2) = V (Proc.devRef .tc main_arg2) := by
  after_results_simp <;> rfl

theorem s3_arg2 (V : Valuation τ sig (Elt F)) :
    after s3 V (Proc.devRef .tc main_arg2) = V (Proc.devRef .tc main_arg2) := by
  after_results_simp <;> rfl

theorem s4_arg2 (V : Valuation τ sig (Elt F)) :
    after s4 V (Proc.devRef .tc main_arg2) = V (Proc.devRef .tc main_arg2) := by
  after_results_simp <;> rfl

theorem s1_arg5 (V : Valuation τ sig (Elt F)) :
    after s1 V (Proc.devRef .tc main_arg5) = V (Proc.devRef .tc main_arg5) := by
  after_results_simp <;> rfl

theorem s1_arg6 (V : Valuation τ sig (Elt F)) :
    after s1 V (Proc.devRef .tc main_arg6) = V (Proc.devRef .tc main_arg6) := by
  after_results_simp <;> rfl

theorem s2_arg5 (V : Valuation τ sig (Elt F)) :
    after s2 V (Proc.devRef .tc main_arg5) = V (Proc.devRef .tc main_arg5) := by
  after_results_simp <;> rfl

theorem s2_arg6 (V : Valuation τ sig (Elt F)) :
    after s2 V (Proc.devRef .tc main_arg6) = V (Proc.devRef .tc main_arg6) := by
  after_results_simp <;> rfl

theorem s1_arg7 (V : Valuation τ sig (Elt F)) :
    after s1 V (Proc.devRef .tc main_arg7) = V (Proc.devRef .tc main_arg7) := by
  after_results_simp <;> rfl

theorem s1_arg8 (V : Valuation τ sig (Elt F)) :
    after s1 V (Proc.devRef .tc main_arg8) = V (Proc.devRef .tc main_arg8) := by
  after_results_simp <;> rfl

theorem s2_arg7 (V : Valuation τ sig (Elt F)) :
    after s2 V (Proc.devRef .tc main_arg7) = V (Proc.devRef .tc main_arg7) := by
  after_results_simp <;> rfl

theorem s2_arg8 (V : Valuation τ sig (Elt F)) :
    after s2 V (Proc.devRef .tc main_arg8) = V (Proc.devRef .tc main_arg8) := by
  after_results_simp <;> rfl

theorem s3_arg7 (V : Valuation τ sig (Elt F)) :
    after s3 V (Proc.devRef .tc main_arg7) = V (Proc.devRef .tc main_arg7) := by
  after_results_simp <;> rfl

theorem s3_arg8 (V : Valuation τ sig (Elt F)) :
    after s3 V (Proc.devRef .tc main_arg8) = V (Proc.devRef .tc main_arg8) := by
  after_results_simp <;> rfl

theorem s4_arg7 (V : Valuation τ sig (Elt F)) :
    after s4 V (Proc.devRef .tc main_arg7) = V (Proc.devRef .tc main_arg7) := by
  after_results_simp <;> rfl

theorem s4_arg8 (V : Valuation τ sig (Elt F)) :
    after s4 V (Proc.devRef .tc main_arg8) = V (Proc.devRef .tc main_arg8) := by
  after_results_simp <;> rfl

theorem s1_arg9 (V : Valuation τ sig (Elt F)) :
    after s1 V (Proc.devRef .tc main_arg9) = V (Proc.devRef .tc main_arg9) := by
  after_results_simp <;> rfl

theorem s1_arg10 (V : Valuation τ sig (Elt F)) :
    after s1 V (Proc.devRef .tc main_arg10) = V (Proc.devRef .tc main_arg10) := by
  after_results_simp <;> rfl

theorem s2_arg9 (V : Valuation τ sig (Elt F)) :
    after s2 V (Proc.devRef .tc main_arg9) = V (Proc.devRef .tc main_arg9) := by
  after_results_simp <;> rfl

theorem s2_arg10 (V : Valuation τ sig (Elt F)) :
    after s2 V (Proc.devRef .tc main_arg10) = V (Proc.devRef .tc main_arg10) := by
  after_results_simp <;> rfl

theorem s3_arg9 (V : Valuation τ sig (Elt F)) :
    after s3 V (Proc.devRef .tc main_arg9) = V (Proc.devRef .tc main_arg9) := by
  after_results_simp <;> rfl

theorem s3_arg10 (V : Valuation τ sig (Elt F)) :
    after s3 V (Proc.devRef .tc main_arg10) = V (Proc.devRef .tc main_arg10) := by
  after_results_simp <;> rfl

theorem s4_arg9 (V : Valuation τ sig (Elt F)) :
    after s4 V (Proc.devRef .tc main_arg9) = V (Proc.devRef .tc main_arg9) := by
  after_results_simp <;> rfl

theorem s4_arg10 (V : Valuation τ sig (Elt F)) :
    after s4 V (Proc.devRef .tc main_arg10) = V (Proc.devRef .tc main_arg10) := by
  after_results_simp <;> rfl

theorem s5_arg9 (V : Valuation τ sig (Elt F)) :
    after s5 V (Proc.devRef .tc main_arg9) = V (Proc.devRef .tc main_arg9) := by
  after_results_simp <;> rfl

theorem s5_arg10 (V : Valuation τ sig (Elt F)) :
    after s5 V (Proc.devRef .tc main_arg10) = V (Proc.devRef .tc main_arg10) := by
  after_results_simp <;> rfl

theorem s6_arg9 (V : Valuation τ sig (Elt F)) :
    after s6 V (Proc.devRef .tc main_arg9) = V (Proc.devRef .tc main_arg9) := by
  after_results_simp <;> rfl

theorem s6_arg10 (V : Valuation τ sig (Elt F)) :
    after s6 V (Proc.devRef .tc main_arg10) = V (Proc.devRef .tc main_arg10) := by
  after_results_simp <;> rfl

/-! ## The two results -/

section Results
variable (m : (ℓ : Loc nD τ sig) → Buf (Elt F) ℓ) (c : Dev nD)

/-- After the first stretch the first layer's activation of the arguments is held. -/
theorem w1_v36 : (after s1 (launchContents m c)) (Proc.devRef .tc main_v36) = (val_main_v36 (F := F) (m ((c.tc : Thread nD τ).loc main_arg0)) (m ((c.tc : Thread nD τ).loc main_arg1)) (m ((c.tc : Thread nD τ).loc main_arg3)) (m ((c.tc : Thread nD τ).loc main_arg4))) :=
  s1_v36 _

/-- After the second stretch its normalisation is held, which is the reference's stage of that name. -/
theorem w2_v54 : (after s2 (after s1 (launchContents m c))) (Proc.devRef .tc main_v54) = (val_main_v54 (F := F) (m ((c.tc : Thread nD τ).loc main_arg0)) (m ((c.tc : Thread nD τ).loc main_arg1)) (m ((c.tc : Thread nD τ).loc main_arg3)) (m ((c.tc : Thread nD τ).loc main_arg4))) := by
  rw [s2_v54, w1_v36]
  exact (v54_eq _ _ _ _).symm

theorem w2_v55 : (after s2 (after s1 (launchContents m c))) (Proc.devRef .tc main_v55) = mx (bn (val_main_v36 (F := F) (m ((c.tc : Thread nD τ).loc main_arg0)) (m ((c.tc : Thread nD τ).loc main_arg1)) (m ((c.tc : Thread nD τ).loc main_arg3)) (m ((c.tc : Thread nD τ).loc main_arg4)))) := by
  rw [s2_v55, w1_v36]

/-- After the third stretch the second layer's activation of the arguments is held. -/
theorem w3_v92 : (after s3 (after s2 (after s1 (launchContents m c)))) (Proc.devRef .tc main_v92) = (val_main_v92 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  rw [s3_v92 _ _ _ _ _ (w2_v54 m c), s2_arg2, s1_arg2, s2_arg5, s1_arg5, s2_arg6, s1_arg6]

theorem w4_v110 : (after s4 (after s3 (after s2 (after s1 (launchContents m c))))) (Proc.devRef .tc main_v110) = (val_main_v110 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  rw [s4_v110, w3_v92]
  exact (v110_eq _ _ _ _ _ _ _).symm

theorem w4_v111 : (after s4 (after s3 (after s2 (after s1 (launchContents m c))))) (Proc.devRef .tc main_v111) = mx (bn (val_main_v92 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))) := by
  rw [s4_v111, w3_v92]

theorem w4_arg2 : (after s4 (after s3 (after s2 (after s1 (launchContents m c))))) (Proc.devRef .tc main_arg2) = (m ((c.tc : Thread nD τ).loc main_arg2)) := by
  rw [s4_arg2, s3_arg2, s2_arg2, s1_arg2]

/-- After the fifth stretch the third layer's result of the arguments is held. -/
theorem w5_v147 : (after s5 (after s4 (after s3 (after s2 (after s1 (launchContents m c)))))) (Proc.devRef .tc main_v147) = (val_main_v147 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  rw [s5_v147 _ _ _ _ _ _ _ _ (w4_v110 m c) (w4_arg2 m c), s4_arg7, s3_arg7, s2_arg7, s1_arg7, s4_arg8, s3_arg8,
    s2_arg8, s1_arg8]

/-- After the sixth stretch the three maxima are held. -/
theorem w6_v148 : (after s6 (after s5 (after s4 (after s3 (after s2 (after s1 (launchContents m c))))))) (Proc.devRef .tc main_v148) = mx (val_main_v147 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  rw [s6_v148, w5_v147]

theorem w6_v111 : (after s6 (after s5 (after s4 (after s3 (after s2 (after s1 (launchContents m c))))))) (Proc.devRef .tc main_v111) = mx (bn (val_main_v92 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))) := by
  rw [s6_v111, s5_v111, w4_v111]

theorem w6_v55 : (after s6 (after s5 (after s4 (after s3 (after s2 (after s1 (launchContents m c))))))) (Proc.devRef .tc main_v55) = mx (bn (val_main_v36 (F := F) (m ((c.tc : Thread nD τ).loc main_arg0)) (m ((c.tc : Thread nD τ).loc main_arg1)) (m ((c.tc : Thread nD τ).loc main_arg3)) (m ((c.tc : Thread nD τ).loc main_arg4)))) := by
  rw [s6_v55, s5_v55, s4_v55, s3_v55, w2_v55]

theorem w6_arg9 : (after s6 (after s5 (after s4 (after s3 (after s2 (after s1 (launchContents m c))))))) (Proc.devRef .tc main_arg9) = (m ((c.tc : Thread nD τ).loc main_arg9)) := by
  rw [s6_arg9, s5_arg9, s4_arg9, s3_arg9, s2_arg9, s1_arg9]

theorem w6_arg10 : (after s6 (after s5 (after s4 (after s3 (after s2 (after s1 (launchContents m c))))))) (Proc.devRef .tc main_arg10) = (m ((c.tc : Thread nD τ).loc main_arg10)) := by
  rw [s6_arg10, s5_arg10, s4_arg10, s3_arg10, s2_arg10, s1_arg10]

/-- The reference's first result: the three layers' maxima over the nodes, side by side. -/
theorem fold_v149 :
    after ops (launchContents m c) (Proc.devRef .tc main_v149)
      = out0 (mx (bn (val_main_v36 (F := F) (m ((c.tc : Thread nD τ).loc main_arg0)) (m ((c.tc : Thread nD τ).loc main_arg1)) (m ((c.tc : Thread nD τ).loc main_arg3)) (m ((c.tc : Thread nD τ).loc main_arg4)))))
          (mx (bn (val_main_v92 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))))
          (mx (val_main_v147 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))) := by
  rw [after_ops, s7_v149, w6_v55, w6_v111, w6_v148]

/-- The reference's second result: the concatenation times the last weight matrix, plus the last bias. -/
theorem fold_v153 :
    after ops (launchContents m c) (Proc.devRef .tc main_v153)
      = out1 (mx (bn (val_main_v36 (F := F) (m ((c.tc : Thread nD τ).loc main_arg0)) (m ((c.tc : Thread nD τ).loc main_arg1)) (m ((c.tc : Thread nD τ).loc main_arg3)) (m ((c.tc : Thread nD τ).loc main_arg4)))))
          (mx (bn (val_main_v92 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))))
          (mx (val_main_v147 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))))
          (m ((c.tc : Thread nD τ).loc main_arg9)) (m ((c.tc : Thread nD τ).loc main_arg10)) := by
  rw [after_ops, s7_v153, w6_v55, w6_v111, w6_v148, w6_arg9, w6_arg10]

end Results

end Cert.ReferenceIdeal.Hand
-- ==== Proof.lean ====
/-
  The certificate of a three-layer relational graph-convolution encoder: a kernel of three calls — per call, for each
  batch entry, the features projected once into a scratch (features times weights) and, per tile of 512 nodes, the masked
  sum of the projected rows over the neighbours, plus bias, the row divided by its floored Euclidean norm — with batch
  normalisation, a maximum over the nodes and a closing linear map on the host, against a reference that aggregates the
  features first and projects afterwards, summing over three relation labels in every layer.

  Claimed under the precondition "every float input is finite and every adjacency entry is 0 or 1": both programs run to
  the end with their arguments unchanged (the frames: the kernel's through the library's theorem for a program of several
  calls, one segment record per call; the reference's off the fold of its host operations), the idealization rewrote
  nothing, and at the extended reals the two programs return the same two arrays.  On reals the two orders of the double
  sum agree; every intermediate is a real (a row divided by a positive real; batch normalisation divides by the square
  root of a variance plus a positive constant); in layers 2 and 3 the kernel keeps only the term of label 1, and the
  reference's terms of labels 2 and 3 vanish because the adjacency entries are 0 or 1.
-/
import proofs.«165070_j9002251452429_2_alg».proof.Defs
import proofs.«165070_j9002251452429_2_alg».proof.Proof.Gen.Kernel
import proofs.«165070_j9002251452429_2_alg».proof.Proof.Gen.KernelIdeal
import proofs.«165070_j9002251452429_2_alg».proof.Proof.Gen.ReferenceIdeal
import proofs.«165070_j9002251452429_2_alg».proof.Proof.Gen.Pre_finite_inputs
import proofs.«165070_j9002251452429_2_alg».proof.Proof.KbEnds
import proofs.«165070_j9002251452429_2_alg».proof.Proof.KiAlg
import proofs.«165070_j9002251452429_2_alg».proof.Proof.RefArgs
import proofs.«165070_j9002251452429_2_alg».proof.Proof.RefFold

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Hand.frame m ρ
/-- So does its idealization. -/
theorem frame_ki : Cert.frame_KernelIdeal := fun m ρ _ => Cert.KernelIdeal.Hand.frame m ρ
/-- So does the reference. -/
theorem frame_ri : Cert.frame_ReferenceIdeal := fun m ρ _ => Cert.ReferenceIdeal.Hand.run_args m ρ
/-- The ideal pass rewrote no operation. -/
theorem preserves : Cert.preserves_Kernel_KernelIdeal := trivial

/-- The precondition, decoded on core `c`. -/
theorem inputs_of_pre (m : (ℓ : Loc Cert.KernelIdeal.nD Cert.KernelIdeal.τ Cert.KernelIdeal.sig) → Buf (Elt Ideal) ℓ) (hpre : Cert.Pre_KernelIdeal m) (c : Dev Cert.KernelIdeal.nD) :
    Cert.KernelIdeal.Hand.Inputs m c := by
  obtain ⟨h0, -, h3, h4, h5, h6, h7, h8, -, -, ha⟩ := Cert.PreFacts.decode _ _ _ _ _ _ _ _ _ _ _ (hpre c)
  exact ⟨h0, h3, h4, h5, h6, h7, h8, ha⟩

/-- At the extended reals the two programs, run from memories that agree on the arguments, end with equal results. -/
theorem algebraic : Cert.algebraic_KernelIdeal_ReferenceIdeal := by
  intro m ρ m' ρ' hpre hagree
  refine ⟨fun c => Cert.KernelIdeal.Hand.W6 m ρ c (Proc.devRef .tc Cert.KernelIdeal.main_v44), fun c => Cert.KernelIdeal.Hand.W6 m ρ c (Proc.devRef .tc Cert.KernelIdeal.main_v48), ?_, ?_⟩
  · exact (θ_run _ _ _).mono (fun r h c =>
      ⟨h c _ (Cert.KernelIdeal.Hand.mem_uc Cert.KernelIdeal.main_v44 (by decide)), h c _ (Cert.KernelIdeal.Hand.mem_uc Cert.KernelIdeal.main_v48 (by decide)),
       (h c _ (Cert.KernelIdeal.Hand.mem_uc Cert.KernelIdeal.main_arg0 (by decide))).trans (Cert.KernelIdeal.Hand.W6_main_arg0 m ρ c),
       (h c _ (Cert.KernelIdeal.Hand.mem_uc Cert.KernelIdeal.main_arg1 (by decide))).trans (Cert.KernelIdeal.Hand.W6_main_arg1 m ρ c),
       (h c _ (Cert.KernelIdeal.Hand.mem_uc Cert.KernelIdeal.main_arg2 (by decide))).trans (Cert.KernelIdeal.Hand.W6_main_arg2 m ρ c),
       (h c _ (Cert.KernelIdeal.Hand.mem_uc Cert.KernelIdeal.main_arg3 (by decide))).trans (Cert.KernelIdeal.Hand.W6_main_arg3 m ρ c),
       (h c _ (Cert.KernelIdeal.Hand.mem_uc Cert.KernelIdeal.main_arg4 (by decide))).trans (Cert.KernelIdeal.Hand.W6_main_arg4 m ρ c),
       (h c _ (Cert.KernelIdeal.Hand.mem_uc Cert.KernelIdeal.main_arg5 (by decide))).trans (Cert.KernelIdeal.Hand.W6_main_arg5 m ρ c),
       (h c _ (Cert.KernelIdeal.Hand.mem_uc Cert.KernelIdeal.main_arg6 (by decide))).trans (Cert.KernelIdeal.Hand.W6_main_arg6 m ρ c),
       (h c _ (Cert.KernelIdeal.Hand.mem_uc Cert.KernelIdeal.main_arg7 (by decide))).trans (Cert.KernelIdeal.Hand.W6_main_arg7 m ρ c),
       (h c _ (Cert.KernelIdeal.Hand.mem_uc Cert.KernelIdeal.main_arg8 (by decide))).trans (Cert.KernelIdeal.Hand.W6_main_arg8 m ρ c),
       (h c _ (Cert.KernelIdeal.Hand.mem_uc Cert.KernelIdeal.main_arg9 (by decide))).trans (Cert.KernelIdeal.Hand.W6_main_arg9 m ρ c),
       (h c _ (Cert.KernelIdeal.Hand.mem_uc Cert.KernelIdeal.main_arg10 (by decide))).trans (Cert.KernelIdeal.Hand.W6_main_arg10 m ρ c)⟩)
      (Cert.KernelIdeal.Hand.run_all m ρ)
  · refine (θ_run _ _ _).mono (fun r h c => ?_) (Cert.ReferenceIdeal.ValueP.run_fold m' ρ')
    have hin := inputs_of_pre m hpre c
    obtain ⟨e0, e1, e2, e3, e4, e5, e6, e7, e8, e9, e10⟩ := hagree c
    refine ⟨(h c _).trans ?_, (h c _).trans ?_,
      (h c _).trans (Cert.ReferenceIdeal.Hand.fold_arg0 m' c),
      (h c _).trans (Cert.ReferenceIdeal.Hand.fold_arg1 m' c),
      (h c _).trans (Cert.ReferenceIdeal.Hand.fold_arg2 m' c),
      (h c _).trans (Cert.ReferenceIdeal.Hand.fold_arg3 m' c),
      (h c _).trans (Cert.ReferenceIdeal.Hand.fold_arg4 m' c),
      (h c _).trans (Cert.ReferenceIdeal.Hand.fold_arg5 m' c),
      (h c _).trans (Cert.ReferenceIdeal.Hand.fold_arg6 m' c),
      (h c _).trans (Cert.ReferenceIdeal.Hand.fold_arg7 m' c),
      (h c _).trans (Cert.ReferenceIdeal.Hand.fold_arg8 m' c),
      (h c _).trans (Cert.ReferenceIdeal.Hand.fold_arg9 m' c),
      (h c _).trans (Cert.ReferenceIdeal.Hand.fold_arg10 m' c)⟩
    · rw [Cert.ReferenceIdeal.Hand.fold_v149, e0, e1, e2, e3, e4, e5, e6, e7, e8]
      exact (Cert.KernelIdeal.Hand.kernel_v44 m ρ c hin).symm
    · rw [Cert.ReferenceIdeal.Hand.fold_v153, e0, e1, e2, e3, e4, e5, e6, e7, e8, e9, e10]
      exact (Cert.KernelIdeal.Hand.kernel_v48 m ρ c hin).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
